-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x512 : Shape := ⟨2, ![4096, 512]⟩
abbrev S4096x2048 : Shape := ⟨2, ![4096, 2048]⟩
abbrev S1536x2048 : Shape := ⟨2, ![1536, 2048]⟩
abbrev S2048 : Shape := ⟨1, ![2048]⟩
abbrev S2048x2048 : Shape := ⟨2, ![2048, 2048]⟩
abbrev S2048x6144 : Shape := ⟨2, ![2048, 6144]⟩
abbrev S6144 : Shape := ⟨1, ![6144]⟩
abbrev S2048x1024 : Shape := ⟨2, ![2048, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S1536x2048 : S_.BroadcastsInDim S1536x2048 (![] : Fin 0 → Fin S1536x2048.rank)
  reducesTo_S1536x2048_S_d0_1 : S1536x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048x6144 : S_.BroadcastsInDim S2048x6144 (![] : Fin 0 → Fin S2048x6144.rank)
  reducesTo_S2048x6144_S_d0_1 : S2048x6144.ReducesTo [0, 1] S_
  bcast_S_S6144 : S_.BroadcastsInDim S6144 (![] : Fin 0 → Fin S6144.rank)
  reducesTo_S6144_S_d0 : S6144.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part8 {F : FTy → Type} [FloatOps F] (main_v133 : IVec S_ 1) (main_v136 : IVec S1024 1) : IVec S_ 1 :=
  let main_c_53 : IVec S_ 1 := constantI S_ 1 1#1
  let main_v137 : IVec S_ 1 := (fun x v => Host.reduce IntOp.andi x v reducesTo_S1024_S_d0 h_S_) main_v136 main_c_53
  let main_v138 : IVec S_ 1 := andi main_v133 main_v137
  main_v138

def fn_part7 {F : FTy → Type} [FloatOps F] (main_arg25 : FVec F S1024 .f32) (main_arg26 : FVec F S2048x1024 .f32) (main_arg27 : FVec F S1024 .f32) (main_v118 : IVec S_ 1) (main_v119 : FVec F S2048x1024 .f32) : IVec S_ 1 :=
  let main_cst_46 : FVec F S_ .f32 := constant S_ .f32 0x7F800000#32
  let main_v120 : FVec F S2048x1024 .f32 := broadcastInDim S2048x1024 ![] bcast_S_S2048x1024 main_cst_46
  let main_v121 : IVec S2048x1024 1 := cmpf .olt main_v119 main_v120
  let main_c_47 : IVec S_ 1 := constantI S_ 1 1#1
  let main_v122 : IVec S_ 1 := (fun x v => Host.reduce IntOp.andi x v reducesTo_S2048x1024_S_d0_1 h_S_) main_v121 main_c_47
  let main_v123 : IVec S_ 1 := andi main_v118 main_v122
  let main_v124 : FVec F S1024 .f32 := Host.absf main_arg25
  let main_cst_48 : FVec F S_ .f32 := constant S_ .f32 0x7F800000#32
  let main_v125 : FVec F S1024 .f32 := broadcastInDim S1024 ![] bcast_S_S1024 main_cst_48
  let main_v126 : IVec S1024 1 := cmpf .olt main_v124 main_v125
  let main_c_49 : IVec S_ 1 := constantI S_ 1 1#1
  let main_v127 : IVec S_ 1 := (fun x v => Host.reduce IntOp.andi x v reducesTo_S1024_S_d0 h_S_) main_v126 main_c_49
  let main_v128 : IVec S_ 1 := andi main_v123 main_v127
  let main_v129 : FVec F S2048x1024 .f32 := Host.absf main_arg26
  let main_cst_50 : FVec F S_ .f32 := constant S_ .f32 0x7F800000#32
  let main_v130 : FVec F S2048x1024 .f32 := broadcastInDim S2048x1024 ![] bcast_S_S2048x1024 main_cst_50
  let main_v131 : IVec S2048x1024 1 := cmpf .olt main_v129 main_v130
  let main_c_51 : IVec S_ 1 := constantI S_ 1 1#1
  let main_v132 : IVec S_ 1 := (fun x v => Host.reduce IntOp.andi x v reducesTo_S2048x1024_S_d0_1 h_S_) main_v131 main_c_51
  let main_v133 : IVec S_ 1 := andi main_v128 main_v132
  let main_v134 : FVec F S1024 .f32 := Host.absf main_arg27
  let main_cst_52 : FVec F S_ .f32 := constant S_ .f32 0x7F800000#32
  let main_v135 : FVec F S1024 .f32 := broadcastInDim S1024 ![] bcast_S_S1024 main_cst_52
  let main_v136 : IVec S1024 1 := cmpf .olt main_v134 main_v135
  fn_part8 (F := F) main_v133 main_v136

def fn_part6 {F : FTy → Type} [FloatOps F] (main_arg21 : FVec F S2048 .f32) (main_arg22 : FVec F S2048x2048 .f32) (main_arg23 : FVec F S2048 .f32) (main_arg24 : FVec F S2048x1024 .f32) (main_arg25 : FVec F S1024 .f32) (main_arg26 : FVec F S2048x1024 .f32) (main_arg27 : FVec F S1024 .f32) (main_v98 : IVec S_ 1) (main_v101 : IVec S4096x2048 1) (main_c_39 : IVec S_ 1) : IVec S_ 1 :=
  let main_v102 : IVec S_ 1 := (fun x v => Host.reduce IntOp.andi x v reducesTo_S4096x2048_S_d0_1 h_S_) main_v101 main_c_39
  let main_v103 : IVec S_ 1 := andi main_v98 main_v102
  let main_v104 : FVec F S2048 .f32 := Host.absf main_arg21
  let main_cst_40 : FVec F S_ .f32 := constant S_ .f32 0x7F800000#32
  let main_v105 : FVec F S2048 .f32 := broadcastInDim S2048 ![] bcast_S_S2048 main_cst_40
  let main_v106 : IVec S2048 1 := cmpf .olt main_v104 main_v105
  let main_c_41 : IVec S_ 1 := constantI S_ 1 1#1
  let main_v107 : IVec S_ 1 := (fun x v => Host.reduce IntOp.andi x v reducesTo_S2048_S_d0 h_S_) main_v106 main_c_41
  let main_v108 : IVec S_ 1 := andi main_v103 main_v107
  let main_v109 : FVec F S2048x2048 .f32 := Host.absf main_arg22
  let main_cst_42 : FVec F S_ .f32 := constant S_ .f32 0x7F800000#32
  let main_v110 : FVec F S2048x2048 .f32 := broadcastInDim S2048x2048 ![] bcast_S_S2048x2048 main_cst_42
  let main_v111 : IVec S2048x2048 1 := cmpf .olt main_v109 main_v110
  let main_c_43 : IVec S_ 1 := constantI S_ 1 1#1
  let main_v112 : IVec S_ 1 := (fun x v => Host.reduce IntOp.andi x v reducesTo_S2048x2048_S_d0_1 h_S_) main_v111 main_c_43
  let main_v113 : IVec S_ 1 := andi main_v108 main_v112
  let main_v114 : FVec F S2048 .f32 := Host.absf main_arg23
  let main_cst_44 : FVec F S_ .f32 := constant S_ .f32 0x7F800000#32
  let main_v115 : FVec F S2048 .f32 := broadcastInDim S2048 ![] bcast_S_S2048 main_cst_44
  let main_v116 : IVec S2048 1 := cmpf .olt main_v114 main_v115
  let main_c_45 : IVec S_ 1 := constantI S_ 1 1#1
  let main_v117 : IVec S_ 1 := (fun x v => Host.reduce IntOp.andi x v reducesTo_S2048_S_d0 h_S_) main_v116 main_c_45
  let main_v118 : IVec S_ 1 := andi main_v113 main_v117
  let main_v119 : FVec F S2048x1024 .f32 := Host.absf main_arg24
  fn_part7 (F := F) main_arg25 main_arg26 main_arg27 main_v118 main_v119

def fn_part5 {F : FTy → Type} [FloatOps F] (main_arg18 : FVec F S2048x1024 .f32) (main_arg19 : FVec F S1024 .f32) (main_arg20 : FVec F S4096x2048 .f32) (main_arg21 : FVec F S2048 .f32) (main_arg22 : FVec F S2048x2048 .f32) (main_arg23 : FVec F S2048 .f32) (main_arg24 : FVec F S2048x1024 .f32) (main_arg25 : FVec F S1024 .f32) (main_arg26 : FVec F S2048x1024 .f32) (main_arg27 : FVec F S1024 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S2048x1024 .f32 := Host.absf main_arg18
  let main_cst_34 : FVec F S_ .f32 := constant S_ .f32 0x7F800000#32
  let main_v90 : FVec F S2048x1024 .f32 := broadcastInDim S2048x1024 ![] bcast_S_S2048x1024 main_cst_34
  let main_v91 : IVec S2048x1024 1 := cmpf .olt main_v89 main_v90
  let main_c_35 : IVec S_ 1 := constantI S_ 1 1#1
  let main_v92 : IVec S_ 1 := (fun x v => Host.reduce IntOp.andi x v reducesTo_S2048x1024_S_d0_1 h_S_) main_v91 main_c_35
  let main_v93 : IVec S_ 1 := andi main_v88 main_v92
  let main_v94 : FVec F S1024 .f32 := Host.absf main_arg19
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  let main_v99 : FVec F S4096x2048 .f32 := Host.absf main_arg20
  let main_cst_38 : FVec F S_ .f32 := constant S_ .f32 0x7F800000#32
  let main_v100 : FVec F S4096x2048 .f32 := broadcastInDim S4096x2048 ![] bcast_S_S4096x2048 main_cst_38
  let main_v101 : IVec S4096x2048 1 := cmpf .olt main_v99 main_v100
  let main_c_39 : IVec S_ 1 := constantI S_ 1 1#1
  fn_part6 (F := F) main_arg21 main_arg22 main_arg23 main_arg24 main_arg25 main_arg26 main_arg27 main_v98 main_v101 main_c_39

def fn_part4 {F : FTy → Type} [FloatOps F] (main_arg14 : FVec F S2048x2048 .f32) (main_arg15 : FVec F S2048 .f32) (main_arg16 : FVec F S2048x1024 .f32) (main_arg17 : FVec F S1024 .f32) (main_arg18 : FVec F S2048x1024 .f32) (main_arg19 : FVec F S1024 .f32) (main_arg20 : FVec F S4096x2048 .f32) (main_arg21 : FVec F S2048 .f32) (main_arg22 : FVec F S2048x2048 .f32) (main_arg23 : FVec F S2048 .f32) (main_arg24 : FVec F S2048x1024 .f32) (main_arg25 : FVec F S1024 .f32) (main_arg26 : FVec F S2048x1024 .f32) (main_arg27 : FVec F S1024 .f32) (main_v63 : IVec S_ 1) (main_v67 : IVec S_ 1) : IVec S_ 1 :=
  let main_v68 : IVec S_ 1 := andi main_v63 main_v67
  let main_v69 : FVec F S2048x2048 .f32 := Host.absf main_arg14
  let main_cst_26 : FVec F S_ .f32 := constant S_ .f32 0x7F800000#32
  let main_v70 : FVec F S2048x2048 .f32 := broadcastInDim S2048x2048 ![] bcast_S_S2048x2048 main_cst_26
  let main_v71 : IVec S2048x2048 1 := cmpf .olt main_v69 main_v70
  let main_c_27 : IVec S_ 1 := constantI S_ 1 1#1
  let main_v72 : IVec S_ 1 := (fun x v => Host.reduce IntOp.andi x v reducesTo_S2048x2048_S_d0_1 h_S_) main_v71 main_c_27
  let main_v73 : IVec S_ 1 := andi main_v68 main_v72
  let main_v74 : FVec F S2048 .f32 := Host.absf main_arg15
  let main_cst_28 : FVec F S_ .f32 := constant S_ .f32 0x7F800000#32
  let main_v75 : FVec F S2048 .f32 := broadcastInDim S2048 ![] bcast_S_S2048 main_cst_28
  let main_v76 : IVec S2048 1 := cmpf .olt main_v74 main_v75
  let main_c_29 : IVec S_ 1 := constantI S_ 1 1#1
  let main_v77 : IVec S_ 1 := (fun x v => Host.reduce IntOp.andi x v reducesTo_S2048_S_d0 h_S_) main_v76 main_c_29
  let main_v78 : IVec S_ 1 := andi main_v73 main_v77
  let main_v79 : FVec F S2048x1024 .f32 := Host.absf main_arg16
  let main_cst_30 : FVec F S_ .f32 := constant S_ .f32 0x7F800000#32
  let main_v80 : FVec F S2048x1024 .f32 := broadcastInDim S2048x1024 ![] bcast_S_S2048x1024 main_cst_30
  let main_v81 : IVec S2048x1024 1 := cmpf .olt main_v79 main_v80
  let main_c_31 : IVec S_ 1 := constantI S_ 1 1#1
  let main_v82 : IVec S_ 1 := (fun x v => Host.reduce IntOp.andi x v reducesTo_S2048x1024_S_d0_1 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_v83 main_v84 main_cst_32

def fn_part3 {F : FTy → Type} [FloatOps F] (main_arg11 : FVec F S6144 .f32) (main_arg12 : FVec F S2048x2048 .f32) (main_arg13 : FVec F S2048 .f32) (main_arg14 : FVec F S2048x2048 .f32) (main_arg15 : FVec F S2048 .f32) (main_arg16 : FVec F S2048x1024 .f32) (main_arg17 : FVec F S1024 .f32) (main_arg18 : FVec F S2048x1024 .f32) (main_arg19 : FVec F S1024 .f32) (main_arg20 : FVec F S4096x2048 .f32) (main_arg21 : FVec F S2048 .f32) (main_arg22 : FVec F S2048x2048 .f32) (main_arg23 : FVec F S2048 .f32) (main_arg24 : FVec F S2048x1024 .f32) (main_arg25 : FVec F S1024 .f32) (main_arg26 : FVec F S2048x1024 .f32) (main_arg27 : FVec F S1024 .f32) (main_v48 : IVec S_ 1) (main_v49 : FVec F S6144 .f32) (main_v50 : FVec F S6144 .f32) : IVec S_ 1 :=
  let main_v51 : IVec S6144 1 := cmpf .olt main_v49 main_v50
  let main_c_19 : IVec S_ 1 := constantI S_ 1 1#1
  let main_v52 : IVec S_ 1 := (fun x v => Host.reduce IntOp.andi x v reducesTo_S6144_S_d0 h_S_) main_v51 main_c_19
  let main_v53 : IVec S_ 1 := andi main_v48 main_v52
  let main_v54 : FVec F S6144 .f32 := Host.absf main_arg11
  let main_cst_20 : FVec F S_ .f32 := constant S_ .f32 0x7F800000#32
  let main_v55 : FVec F S6144 .f32 := broadcastInDim S6144 ![] bcast_S_S6144 main_cst_20
  let main_v56 : IVec S6144 1 := cmpf .olt main_v54 main_v55
  let main_c_21 : IVec S_ 1 := constantI S_ 1 1#1
  let main_v57 : IVec S_ 1 := (fun x v => Host.reduce IntOp.andi x v reducesTo_S6144_S_d0 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_arg15 main_arg16 main_arg17 main_arg18 main_arg19 main_arg20 main_arg21 main_arg22 main_arg23 main_arg24 main_arg25 main_arg26 main_arg27 main_v63 main_v67

def fn_part2 {F : FTy → Type} [FloatOps F] (main_arg7 : FVec F S2048 .f32) (main_arg8 : FVec F S2048x6144 .f32) (main_arg9 : FVec F S2048x6144 .f32) (main_arg10 : FVec F S6144 .f32) (main_arg11 : FVec F S6144 .f32) (main_arg12 : FVec F S2048x2048 .f32) (main_arg13 : FVec F S2048 .f32) (main_arg14 : FVec F S2048x2048 .f32) (main_arg15 : FVec F S2048 .f32) (main_arg16 : FVec F S2048x1024 .f32) (main_arg17 : FVec F S1024 .f32) (main_arg18 : FVec F S2048x1024 .f32) (main_arg19 : FVec F S1024 .f32) (main_arg20 : FVec F S4096x2048 .f32) (main_arg21 : FVec F S2048 .f32) (main_arg22 : FVec F S2048x2048 .f32) (main_arg23 : FVec F S2048 .f32) (main_arg24 : FVec F S2048x1024 .f32) (main_arg25 : FVec F S1024 .f32) (main_arg26 : FVec F S2048x1024 .f32) (main_arg27 : FVec F S1024 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x6144 .f32 := Host.absf main_arg8
  let main_cst_14 : FVec F S_ .f32 := constant S_ .f32 0x7F800000#32
  let main_v40 : FVec F S2048x6144 .f32 := broadcastInDim S2048x6144 ![] bcast_S_S2048x6144 main_cst_14
  let main_v41 : IVec S2048x6144 1 := cmpf .olt main_v39 main_v40
  let main_c_15 : IVec S_ 1 := constantI S_ 1 1#1
  let main_v42 : IVec S_ 1 := (fun x v => Host.reduce IntOp.andi x v reducesTo_S2048x6144_S_d0_1 h_S_) main_v41 main_c_15
  let main_v43 : IVec S_ 1 := andi main_v38 main_v42
  let main_v44 : FVec F S2048x6144 .f32 := Host.absf main_arg9
  let main_cst_16 : FVec F S_ .f32 := constant S_ .f32 0x7F800000#32
  let main_v45 : FVec F S2048x6144 .f32 := broadcastInDim S2048x6144 ![] bcast_S_S2048x6144 main_cst_16
  let main_v46 : IVec S2048x6144 1 := cmpf .olt main_v44 main_v45
  let main_c_17 : IVec S_ 1 := constantI S_ 1 1#1
  let main_v47 : IVec S_ 1 := (fun x v => Host.reduce IntOp.andi x v reducesTo_S2048x6144_S_d0_1 h_S_) main_v46 main_c_17
  let main_v48 : IVec S_ 1 := andi main_v43 main_v47
  let main_v49 : FVec F S6144 .f32 := Host.absf main_arg10
  let main_cst_18 : FVec F S_ .f32 := constant S_ .f32 0x7F800000#32
  let main_v50 : FVec F S6144 .f32 := broadcastInDim S6144 ![] bcast_S_S6144 main_cst_18
  fn_part3 (F := F) main_arg11 main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg4 : FVec F S1536x2048 .f32) (main_arg5 : FVec F S2048 .f32) (main_arg6 : FVec F S2048x2048 .f32) (main_arg7 : FVec F S2048 .f32) (main_arg8 : FVec F S2048x6144 .f32) (main_arg9 : FVec F S2048x6144 .f32) (main_arg10 : FVec F S6144 .f32) (main_arg11 : FVec F S6144 .f32) (main_arg12 : FVec F S2048x2048 .f32) (main_arg13 : FVec F S2048 .f32) (main_arg14 : FVec F S2048x2048 .f32) (main_arg15 : FVec F S2048 .f32) (main_arg16 : FVec F S2048x1024 .f32) (main_arg17 : FVec F S1024 .f32) (main_arg18 : FVec F S2048x1024 .f32) (main_arg19 : FVec F S1024 .f32) (main_arg20 : FVec F S4096x2048 .f32) (main_arg21 : FVec F S2048 .f32) (main_arg22 : FVec F S2048x2048 .f32) (main_arg23 : FVec F S2048 .f32) (main_arg24 : FVec F S2048x1024 .f32) (main_arg25 : FVec F S1024 .f32) (main_arg26 : FVec F S2048x1024 .f32) (main_arg27 : FVec F S1024 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S1536x2048 .f32 := Host.absf main_arg4
  let main_cst_6 : FVec F S_ .f32 := constant S_ .f32 0x7F800000#32
  let main_v20 : FVec F S1536x2048 .f32 := broadcastInDim S1536x2048 ![] bcast_S_S1536x2048 main_cst_6
  let main_v21 : IVec S1536x2048 1 := cmpf .olt main_v19 main_v20
  let main_c_7 : IVec S_ 1 := constantI S_ 1 1#1
  let main_v22 : IVec S_ 1 := (fun x v => Host.reduce IntOp.andi x v reducesTo_S1536x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S4096x1024 .f32) (main_arg1 : FVec F S4096x512 .f32) (main_arg2 : FVec F S4096x2048 .f32) (main_arg3 : FVec F S4096x2048 .f32) (main_arg4 : FVec F S1536x2048 .f32) (main_arg5 : FVec F S2048 .f32) (main_arg6 : FVec F S2048x2048 .f32) (main_arg7 : FVec F S2048 .f32) (main_arg8 : FVec F S2048x6144 .f32) (main_arg9 : FVec F S2048x6144 .f32) (main_arg10 : FVec F S6144 .f32) (main_arg11 : FVec F S6144 .f32) (main_arg12 : FVec F S2048x2048 .f32) (main_arg13 : FVec F S2048 .f32) (main_arg14 : FVec F S2048x2048 .f32) (main_arg15 : FVec F S2048 .f32) (main_arg16 : FVec F S2048x1024 .f32) (main_arg17 : FVec F S1024 .f32) (main_arg18 : FVec F S2048x1024 .f32) (main_arg19 : FVec F S1024 .f32) (main_arg20 : FVec F S4096x2048 .f32) (main_arg21 : FVec F S2048 .f32) (main_arg22 : FVec F S2048x2048 .f32) (main_arg23 : FVec F S2048 .f32) (main_arg24 : FVec F S2048x1024 .f32) (main_arg25 : FVec F S1024 .f32) (main_arg26 : FVec F S2048x1024 .f32) (main_arg27 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S4096x1024 : Shape := ⟨2, ![4096, 1024]⟩
abbrev S4096x512 : Shape := ⟨2, ![4096, 512]⟩
abbrev S4096x2048 : Shape := ⟨2, ![4096, 2048]⟩
abbrev S1536x2048 : Shape := ⟨2, ![1536, 2048]⟩
abbrev S2048 : Shape := ⟨1, ![2048]⟩
abbrev S2048x2048 : Shape := ⟨2, ![2048, 2048]⟩
abbrev S2048x6144 : Shape := ⟨2, ![2048, 6144]⟩
abbrev S6144 : Shape := ⟨1, ![6144]⟩
abbrev S2048x1024 : Shape := ⟨2, ![2048, 1024]⟩
abbrev S1024 : Shape := ⟨1, ![1024]⟩
abbrev S1x2048 : Shape := ⟨2, ![1, 2048]⟩
abbrev S256x1024 : Shape := ⟨2, ![256, 1024]⟩
abbrev S256x512 : Shape := ⟨2, ![256, 512]⟩
abbrev S256x2048 : Shape := ⟨2, ![256, 2048]⟩
abbrev S1024x2048 : Shape := ⟨2, ![1024, 2048]⟩
abbrev S512x2048 : Shape := ⟨2, ![512, 2048]⟩
abbrev S1x6144 : Shape := ⟨2, ![1, 6144]⟩
abbrev S1x1024 : Shape := ⟨2, ![1, 1024]⟩
abbrev S128x2048 : Shape := ⟨2, ![128, 2048]⟩
abbrev S128x1024 : Shape := ⟨2, ![128, 1024]⟩
abbrev S4096x6144 : Shape := ⟨2, ![4096, 6144]⟩

abbrev nBuf : Space → Nat
  | .hbm => 66
  | .vmem => 78
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x2048, .f32⟩
  | .hbm, ⟨3, _⟩ => ⟨S4096x2048, .f32⟩
  | .hbm, ⟨4, _⟩ => ⟨S1536x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x6144, .f32⟩
  | .hbm, ⟨9, _⟩ => ⟨S2048x6144, .f32⟩
  | .hbm, ⟨10, _⟩ => ⟨S6144, .f32⟩
  | .hbm, ⟨11, _⟩ => ⟨S6144, .f32⟩
  | .hbm, ⟨12, _⟩ => ⟨S2048x2048, .f32⟩
  | .hbm, ⟨13, _⟩ => ⟨S2048, .f32⟩
  | .hbm, ⟨14, _⟩ => ⟨S2048x2048, .f32⟩
  | .hbm, ⟨15, _⟩ => ⟨S2048, .f32⟩
  | .hbm, ⟨16, _⟩ => ⟨S2048x1024, .f32⟩
  | .hbm, ⟨17, _⟩ => ⟨S1024, .f32⟩
  | .hbm, ⟨18, _⟩ => ⟨S2048x1024, .f32⟩
  | .hbm, ⟨19, _⟩ => ⟨S1024, .f32⟩
  | .hbm, ⟨20, _⟩ => ⟨S4096x2048, .f32⟩
  | .hbm, ⟨21, _⟩ => ⟨S2048, .f32⟩
  | .hbm, ⟨22, _⟩ => ⟨S2048x2048, .f32⟩
  | .hbm, ⟨23, _⟩ => ⟨S2048, .f32⟩
  | .hbm, ⟨24, _⟩ => ⟨S2048x1024, .f32⟩
  | .hbm, ⟨25, _⟩ => ⟨S1024, .f32⟩
  | .hbm, ⟨26, _⟩ => ⟨S2048x1024, .f32⟩
  | .hbm, ⟨27, _⟩ => ⟨S1024, .f32⟩
  | .hbm, ⟨28, _⟩ => ⟨S1536x2048, .bf16⟩
  | .hbm, ⟨29, _⟩ => ⟨S2048x2048, .bf16⟩
  | .hbm, ⟨30, _⟩ => ⟨S2048x6144, .bf16⟩
  | .hbm, ⟨31, _⟩ => ⟨S2048x6144, .bf16⟩
  | .hbm, ⟨32, _⟩ => ⟨S2048x2048, .bf16⟩
  | .hbm, ⟨33, _⟩ => ⟨S2048x2048, .bf16⟩
  | .hbm, ⟨34, _⟩ => ⟨S2048x1024, .bf16⟩
  | .hbm, ⟨35, _⟩ => ⟨S2048x1024, .bf16⟩
  | .hbm, ⟨36, _⟩ => ⟨S4096x2048, .bf16⟩
  | .hbm, ⟨37, _⟩ => ⟨S2048x2048, .bf16⟩
  | .hbm, ⟨38, _⟩ => ⟨S2048x1024, .bf16⟩
  | .hbm, ⟨39, _⟩ => ⟨S2048x1024, .bf16⟩
  | .hbm, ⟨40, _⟩ => ⟨S1x2048, .f32⟩
  | .hbm, ⟨41, _⟩ => ⟨S1x2048, .f32⟩
  | .hbm, ⟨42, _⟩ => ⟨S4096x2048, .bf16⟩
  | .hbm, ⟨43, _⟩ => ⟨S1x6144, .f32⟩
  | .hbm, ⟨44, _⟩ => ⟨S1x6144, .f32⟩
  | .hbm, ⟨45, _⟩ => ⟨S4096x2048, .bf16⟩
  | .hbm, ⟨46, _⟩ => ⟨S1x6144, .f32⟩
  | .hbm, ⟨47, _⟩ => ⟨S1x6144, .f32⟩
  | .hbm, ⟨48, _⟩ => ⟨S4096x2048, .bf16⟩
  | .hbm, ⟨49, _⟩ => ⟨S1x6144, .f32⟩
  | .hbm, ⟨50, _⟩ => ⟨S1x6144, .f32⟩
  | .hbm, ⟨51, _⟩ => ⟨S4096x2048, .f32⟩
  | .hbm, ⟨52, _⟩ => ⟨S1x2048, .f32⟩
  | .hbm, ⟨53, _⟩ => ⟨S1x2048, .f32⟩
  | .hbm, ⟨54, _⟩ => ⟨S1x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S1x2048, .f32⟩
  | .hbm, ⟨59, _⟩ => ⟨S4096x2048, .bf16⟩
  | .hbm, ⟨60, _⟩ => ⟨S1x2048, .f32⟩
  | .hbm, ⟨61, _⟩ => ⟨S1x1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S4096x6144, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S1536x2048, .bf16⟩
  | .local _ .vmem, ⟨5, _⟩ => ⟨S1x2048, .f32⟩
  | .local _ .vmem, ⟨6, _⟩ => ⟨S2048x2048, .bf16⟩
  | .local _ .vmem, ⟨7, _⟩ => ⟨S1x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .f32⟩
  | .local _ .vmem, ⟨13, _⟩ => ⟨S256x2048, .f32⟩
  | .local _ .vmem, ⟨14, _⟩ => ⟨S2048x2048, .bf16⟩
  | .local _ .vmem, ⟨15, _⟩ => ⟨S2048x2048, .bf16⟩
  | .local _ .vmem, ⟨16, _⟩ => ⟨S1x2048, .f32⟩
  | .local _ .vmem, ⟨17, _⟩ => ⟨S1x2048, .f32⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .f32⟩
  | .local _ .vmem, ⟨23, _⟩ => ⟨S256x2048, .f32⟩
  | .local _ .vmem, ⟨24, _⟩ => ⟨S2048x2048, .bf16⟩
  | .local _ .vmem, ⟨25, _⟩ => ⟨S2048x2048, .bf16⟩
  | .local _ .vmem, ⟨26, _⟩ => ⟨S1x2048, .f32⟩
  | .local _ .vmem, ⟨27, _⟩ => ⟨S1x2048, .f32⟩
  | .local _ .vmem, ⟨28, _⟩ => ⟨S256x2048, .bf16⟩
  | .local _ .vmem, ⟨29, _⟩ => ⟨S256x2048, .bf16⟩
  | .local _ .vmem, ⟨30, _⟩ => ⟨S256x2048, .bf16⟩
  | .local _ .vmem, ⟨31, _⟩ => ⟨S256x2048, .bf16⟩
  | .local _ .vmem, ⟨32, _⟩ => ⟨S256x2048, .f32⟩
  | .local _ .vmem, ⟨33, _⟩ => ⟨S256x2048, .f32⟩
  | .local _ .vmem, ⟨34, _⟩ => ⟨S256x2048, .bf16⟩
  | .local _ .vmem, ⟨35, _⟩ => ⟨S256x2048, .bf16⟩
  | .local _ .vmem, ⟨36, _⟩ => ⟨S256x2048, .bf16⟩
  | .local _ .vmem, ⟨37, _⟩ => ⟨S256x2048, .bf16⟩
  | .local _ .vmem, ⟨38, _⟩ => ⟨S2048x2048, .bf16⟩
  | .local _ .vmem, ⟨39, _⟩ => ⟨S2048x2048, .bf16⟩
  | .local _ .vmem, ⟨40, _⟩ => ⟨S1x2048, .f32⟩
  | .local _ .vmem, ⟨41, _⟩ => ⟨S1x2048, .f32⟩
  | .local _ .vmem, ⟨42, _⟩ => ⟨S256x2048, .f32⟩
  | .local _ .vmem, ⟨43, _⟩ => ⟨S256x2048, .f32⟩
  | .local _ .vmem, ⟨44, _⟩ => ⟨S128x2048, .f32⟩
  | .local _ .vmem, ⟨45, _⟩ => ⟨S128x2048, .f32⟩
  | .local _ .vmem, ⟨46, _⟩ => ⟨S2048x2048, .bf16⟩
  | .local _ .vmem, ⟨47, _⟩ => ⟨S1x2048, .f32⟩
  | .local _ .vmem, ⟨48, _⟩ => ⟨S2048x2048, .bf16⟩
  | .local _ .vmem, ⟨49, _⟩ => ⟨S1x2048, .f32⟩
  | .local _ .vmem, ⟨50, _⟩ => ⟨S2048x1024, .bf16⟩
  | .local _ .vmem, ⟨51, _⟩ => ⟨S1x1024, .f32⟩
  | .local _ .vmem, ⟨52, _⟩ => ⟨S2048x1024, .bf16⟩
  | .local _ .vmem, ⟨53, _⟩ => ⟨S1x1024, .f32⟩
  | .local _ .vmem, ⟨54, _⟩ => ⟨S128x1024, .f32⟩
  | .local _ .vmem, ⟨55, _⟩ => ⟨S128x1024, .f32⟩
  | .local _ .vmem, ⟨56, _⟩ => ⟨S128x1024, .f32⟩
  | .local _ .vmem, ⟨57, _⟩ => ⟨S128x1024, .f32⟩
  | .local _ .vmem, ⟨58, _⟩ => ⟨S256x2048, .f32⟩
  | .local _ .vmem, ⟨59, _⟩ => ⟨S256x2048, .f32⟩
  | .local _ .vmem, ⟨60, _⟩ => ⟨S256x2048, .f32⟩
  | .local _ .vmem, ⟨61, _⟩ => ⟨S256x2048, .f32⟩
  | .local _ .vmem, ⟨62, _⟩ => ⟨S4096x2048, .bf16⟩
  | .local _ .vmem, ⟨63, _⟩ => ⟨S1x2048, .f32⟩
  | .local _ .vmem, ⟨64, _⟩ => ⟨S256x2048, .bf16⟩
  | .local _ .vmem, ⟨65, _⟩ => ⟨S256x2048, .bf16⟩
  | .local _ .vmem, ⟨66, _⟩ => ⟨S256x2048, .bf16⟩
  | .local _ .vmem, ⟨67, _⟩ => ⟨S256x2048, .bf16⟩
  | .local _ .vmem, ⟨68, _⟩ => ⟨S2048x2048, .bf16⟩
  | .local _ .vmem, ⟨69, _⟩ => ⟨S1x2048, .f32⟩
  | .local _ .vmem, ⟨70, _⟩ => ⟨S2048x1024, .bf16⟩
  | .local _ .vmem, ⟨71, _⟩ => ⟨S1x1024, .f32⟩
  | .local _ .vmem, ⟨72, _⟩ => ⟨S2048x1024, .bf16⟩
  | .local _ .vmem, ⟨73, _⟩ => ⟨S1x1024, .f32⟩
  | .local _ .vmem, ⟨74, _⟩ => ⟨S256x1024, .f32⟩
  | .local _ .vmem, ⟨75, _⟩ => ⟨S256x1024, .f32⟩
  | .local _ .vmem, ⟨76, _⟩ => ⟨S256x1024, .f32⟩
  | .local _ .vmem, ⟨77, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28_0 : Ref sig .tc := ⟨.hbm, 56, rfl⟩
abbrev main_v28_1 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34_0 : Ref sig .tc := ⟨.hbm, 63, rfl⟩
abbrev main_v34_1 : Ref sig .tc := ⟨.hbm, 64, rfl⟩
abbrev main_v35 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg8_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg7_0 : Ref sig .tc := ⟨.vmem, 52, rfl⟩
abbrev cc4_stg8_0 : Ref sig .tc := ⟨.vmem, 53, rfl⟩
abbrev cc4_stg9_0 : Ref sig .tc := ⟨.vmem, 54, rfl⟩
abbrev cc4_stg9_1 : Ref sig .tc := ⟨.vmem, 55, rfl⟩
abbrev cc4_stg10_0 : Ref sig .tc := ⟨.vmem, 56, rfl⟩
abbrev cc4_stg10_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg1_1 : Ref sig .tc := ⟨.vmem, 61, rfl⟩
abbrev cc5_stg2_0 : Ref sig .tc := ⟨.vmem, 62, rfl⟩
abbrev cc5_stg3_0 : Ref sig .tc := ⟨.vmem, 63, rfl⟩
abbrev cc5_stg4_0 : Ref sig .tc := ⟨.vmem, 64, rfl⟩
abbrev cc5_stg4_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg4_0 : Ref sig .tc := ⟨.vmem, 71, rfl⟩
abbrev cc6_stg5_0 : Ref sig .tc := ⟨.vmem, 72, rfl⟩
abbrev cc6_stg6_0 : Ref sig .tc := ⟨.vmem, 73, rfl⟩
abbrev cc6_stg7_0 : Ref sig .tc := ⟨.vmem, 74, rfl⟩
abbrev cc6_stg7_1 : Ref sig .tc := ⟨.vmem, 75, rfl⟩
abbrev cc6_stg8_0 : Ref sig .tc := ⟨.vmem, 76, rfl⟩
abbrev cc6_stg8_1 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem8_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem7_0 : DmaSem sig := 52
abbrev cc4_sem8_0 : DmaSem sig := 53
abbrev cc4_sem9_0 : DmaSem sig := 54
abbrev cc4_sem9_1 : DmaSem sig := 55
abbrev cc4_sem10_0 : DmaSem sig := 56
abbrev cc4_sem10_1 : DmaSem sig := 57
abbrev cc5_sem0_0 : DmaSem sig := 58
abbrev cc5_sem0_1 : DmaSem sig := 59
abbrev cc5_sem1_0 : DmaSem sig := 60
abbrev cc5_sem1_1 : DmaSem sig := 61
abbrev cc5_sem2_0 : DmaSem sig := 62
abbrev cc5_sem3_0 : DmaSem sig := 63
abbrev cc5_sem4_0 : DmaSem sig := 64
abbrev cc5_sem4_1 : DmaSem sig := 65
abbrev cc6_sem0_0 : DmaSem sig := 66
abbrev cc6_sem0_1 : DmaSem sig := 67
abbrev cc6_sem1_0 : DmaSem sig := 68
abbrev cc6_sem2_0 : DmaSem sig := 69
abbrev cc6_sem3_0 : DmaSem sig := 70
abbrev cc6_sem4_0 : DmaSem sig := 71
abbrev cc6_sem5_0 : DmaSem sig := 72
abbrev cc6_sem6_0 : DmaSem sig := 73
abbrev cc6_sem7_0 : DmaSem sig := 74
abbrev cc6_sem7_1 : DmaSem sig := 75
abbrev cc6_sem8_0 : DmaSem sig := 76
abbrev cc6_sem8_1 : DmaSem sig := 77

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc2_transform_3 (i : grid2.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc2_transform_4 (i : grid2.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc2_transform_5 (i : grid2.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x2048 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x2048 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc3_transform_5 (i : grid3.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc3_transform_6 (i : grid3.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc3_transform_7 (i : grid3.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x2048 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S2048x2048 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S2048x2048 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x2048 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x2048 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S256x2048 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S128x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2048x2048 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2048 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S2048x1024 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S2048x1024 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x1024 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S128x1024 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S128x1024 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x2048 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S4096x2048 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x2048 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S256x2048 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2048x2048 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2048 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S2048x1024 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1024 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S2048x1024 .bf16 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1024 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S256x1024 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S256x1024 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

class Facts₀ : Prop where
  bitsLt_bf16_f32 : FTy.bits .bf16 < FTy.bits .f32
  shapeCasts_S2048_S1x2048 : S2048.ShapeCasts S1x2048
  inb_S256x1024_S256x1024_0_0 : ∀ a, (![0, 0] : Fin 2 → Nat) a + S256x1024.size a ≤ S256x1024.size a
  h_S256x1024 : 0 < S256x1024.numel
  inb_S256x512_S256x512_0_0 : ∀ a, (![0, 0] : Fin 2 → Nat) a + S256x512.size a ≤ S256x512.size a
  h_S256x512 : 0 < S256x512.numel
  inb_S1536x2048_S1024x2048_0_0 : ∀ a, (![0, 0] : Fin 2 → Nat) a + S1024x2048.size a ≤ S1536x2048.size a
  h_S1024x2048 : 0 < S1024x2048.numel
  shapeCasts_S1024x2048_S1024x2048 : S1024x2048.ShapeCasts S1024x2048
  inb_S1536x2048_S512x2048_1024_0 : ∀ a, (![1024, 0] : Fin 2 → Nat) a + S512x2048.size a ≤ S1536x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S256x2048_S256x2048_0_0 : ∀ a, (![0, 0] : Fin 2 → Nat) a + S256x2048.size a ≤ S256x2048.size a
  h_S256x2048 : 0 < S256x2048.numel
  packedbf16_S256x2048_S256x2048_0_0 : (Rect.unit (s := S256x2048) ![0, 0] S256x2048.size inb_S256x2048_S256x2048_0_0).PackedRows (EltTy.packing .bf16)
  shapeCasts_S6144_S1x6144 : S6144.ShapeCasts S1x6144
  shapeCasts_S256x2048_S256x2048 : S256x2048.ShapeCasts S256x2048
  shapeCasts_S1024_S1x1024 : S1024.ShapeCasts S1x1024
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  broadcasts_S1x2048_S128x2048 : S1x2048.Broadcasts S128x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S128x1024_S128x1024_0_0 : ∀ a, (![0, 0] : Fin 2 → Nat) a + S128x1024.size a ≤ S128x1024.size a
  h_S128x1024 : 0 < S128x1024.numel
  inb_S4096x2048_S2048x2048_0_0 : ∀ a, (![0, 0] : Fin 2 → Nat) a + S2048x2048.size a ≤ S4096x2048.size a
  inb_S4096x2048_S2048x2048_2048_0 : ∀ a, (![2048, 0] : Fin 2 → Nat) a + S2048x2048.size a ≤ S4096x2048.size a
  broadcasts_S1x1024_S256x1024 : S1x1024.Broadcasts S256x1024
  concatenates_S4096x1024_S4096x1024_S4096x1024_S4096x1024_S4096x2048_S4096x6144_d1 : Shape.Concatenates [S4096x1024, S4096x1024, S4096x1024, S4096x1024, S4096x2048] S4096x6144 1
  dot_S256x1024_S1024x2048_S256x2048_1_0_0_1_n_n_wf : DotDims.WF S256x1024 S1024x2048 S256x2048 [1] [0] [0] [1] [] []
  dot_S256x512_S512x2048_S256x2048_1_0_0_1_n_n_wf : DotDims.WF S256x512 S512x2048 S256x2048 [1] [0] [0] [1] [] []
  dot_S256x2048_S2048x2048_S256x2048_1_0_0_1_n_n_wf : DotDims.WF S256x2048 S2048x2048 S256x2048 [1] [0] [0] [1] [] []
  dot_S128x2048_S2048x2048_S128x2048_1_0_0_1_n_n_wf : DotDims.WF S128x2048 S2048x2048 S128x2048 [1] [0] [0] [1] [] []
  dot_S128x2048_S2048x1024_S128x1024_1_0_0_1_n_n_wf : DotDims.WF S128x2048 S2048x1024 S128x1024 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S4096x512.size a
  hwx0_1 : ∀ i : grid0.Coords, EltTy.bits .f32 = 32 ∨ (Rect.block (s := S4096x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536x2048.size a ≤ S1536x2048.size a
  hwx0_2 : ∀ i : grid0.Coords, EltTy.bits .bf16 = 32 ∨ (Rect.block (s := S1536x2048) S1536x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S4096x2048.size a
  hwx0_6 : ∀ i : grid0.Coords, EltTy.bits .bf16 = 32 ∨ (Rect.block (s := S4096x2048) S256x2048.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S4096x2048.size a
  hwx1_0 : ∀ i : grid1.Coords, EltTy.bits .bf16 = 32 ∨ (Rect.block (s := S4096x2048) S256x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S4096x2048.size a
  hwx1_1 : ∀ i : grid1.Coords, EltTy.bits .f32 = 32 ∨ (Rect.block (s := S4096x2048) S256x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x6144.size a
  hwx1_2 : ∀ i : grid1.Coords, EltTy.bits .bf16 = 32 ∨ (Rect.block (s := S2048x6144) S2048x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S2048x6144.size a
  hwx1_3 : ∀ i : grid1.Coords, EltTy.bits .bf16 = 32 ∨ (Rect.block (s := S2048x6144) S2048x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x6144.size a
  hwx1_4 : ∀ i : grid1.Coords, EltTy.bits .f32 = 32 ∨ (Rect.block (s := S1x6144) S1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2048.size a ≤ S1x6144.size a
  hwx1_5 : ∀ i : grid1.Coords, EltTy.bits .f32 = 32 ∨ (Rect.block (s := S1x6144) S1x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x2048.size a ≤ S4096x2048.size a
  hwx1_6 : ∀ i : grid1.Coords, EltTy.bits .bf16 = 32 ∨ (Rect.block (s := S4096x2048) S256x2048.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S4096x2048.size a
  hwx2_0 : ∀ i : grid2.Coords, EltTy.bits .bf16 = 32 ∨ (Rect.block (s := S4096x2048) S256x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x2048.size a ≤ S4096x2048.size a
  hwx2_1 : ∀ i : grid2.Coords, EltTy.bits .f32 = 32 ∨ (Rect.block (s := S4096x2048) S256x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048x2048.size a ≤ S2048x6144.size a
  hwx2_2 : ∀ i : grid2.Coords, EltTy.bits .bf16 = 32 ∨ (Rect.block (s := S2048x6144) S2048x2048.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x2048.size a ≤ S2048x6144.size a
  hwx2_3 : ∀ i : grid2.Coords, EltTy.bits .bf16 = 32 ∨ (Rect.block (s := S2048x6144) S2048x2048.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x6144.size a
  hwx2_4 : ∀ i : grid2.Coords, EltTy.bits .f32 = 32 ∨ (Rect.block (s := S1x6144) S1x2048.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2048.size a ≤ S1x6144.size a
  hwx2_5 : ∀ i : grid2.Coords, EltTy.bits .f32 = 32 ∨ (Rect.block (s := S1x6144) S1x2048.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x2048.size a ≤ S4096x2048.size a
  hwx2_6 : ∀ i : grid2.Coords, EltTy.bits .bf16 = 32 ∨ (Rect.block (s := S4096x2048) S256x2048.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x2048.size a ≤ S4096x2048.size a
  hwx3_0 : ∀ i : grid3.Coords, EltTy.bits .bf16 = 32 ∨ (Rect.block (s := S4096x2048) S256x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x2048.size a ≤ S4096x2048.size a
  hwx3_1 : ∀ i : grid3.Coords, EltTy.bits .f32 = 32 ∨ (Rect.block (s := S4096x2048) S256x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x2048.size a ≤ S4096x2048.size a
  hwx3_2 : ∀ i : grid3.Coords, EltTy.bits .bf16 = 32 ∨ (Rect.block (s := S4096x2048) S256x2048.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x2048.size a ≤ S4096x2048.size a
  hwx3_3 : ∀ i : grid3.Coords, EltTy.bits .bf16 = 32 ∨ (Rect.block (s := S4096x2048) S256x2048.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2048x2048.size a ≤ S2048x6144.size a
  hwx3_4 : ∀ i : grid3.Coords, EltTy.bits .bf16 = 32 ∨ (Rect.block (s := S2048x6144) S2048x2048.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S2048x2048.size a ≤ S2048x6144.size a
  hwx3_5 : ∀ i : grid3.Coords, EltTy.bits .bf16 = 32 ∨ (Rect.block (s := S2048x6144) S2048x2048.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x2048.size a ≤ S1x6144.size a
  hwx3_6 : ∀ i : grid3.Coords, EltTy.bits .f32 = 32 ∨ (Rect.block (s := S1x6144) S1x2048.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x2048.size a ≤ S1x6144.size a
  hwx3_7 : ∀ i : grid3.Coords, EltTy.bits .f32 = 32 ∨ (Rect.block (s := S1x6144) S1x2048.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S256x2048.size a ≤ S4096x2048.size a
  hwx3_8 : ∀ i : grid3.Coords, EltTy.bits .f32 = 32 ∨ (Rect.block (s := S4096x2048) S256x2048.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S128x2048.size a ≤ S4096x2048.size a
  hwx4_0 : ∀ i : grid4.Coords, EltTy.bits .f32 = 32 ∨ (Rect.block (s := S4096x2048) S128x2048.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x2048.size a ≤ S2048x2048.size a
  hwx4_1 : ∀ i : grid4.Coords, EltTy.bits .bf16 = 32 ∨ (Rect.block (s := S2048x2048) S2048x2048.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2048.size a ≤ S1x2048.size a
  hwx4_2 : ∀ i : grid4.Coords, EltTy.bits .f32 = 32 ∨ (Rect.block (s := S1x2048) S1x2048.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S2048x2048.size a ≤ S2048x2048.size a
  hwx4_3 : ∀ i : grid4.Coords, EltTy.bits .bf16 = 32 ∨ (Rect.block (s := S2048x2048) S2048x2048.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2048.size a ≤ S1x2048.size a
  hwx4_4 : ∀ i : grid4.Coords, EltTy.bits .f32 = 32 ∨ (Rect.block (s := S1x2048) S1x2048.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S2048x1024.size a ≤ S2048x1024.size a
  hwx4_5 : ∀ i : grid4.Coords, EltTy.bits .bf16 = 32 ∨ (Rect.block (s := S2048x1024) S2048x1024.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1024.size a ≤ S1x1024.size a
  hwx4_6 : ∀ i : grid4.Coords, EltTy.bits .f32 = 32 ∨ (Rect.block (s := S1x1024) S1x1024.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S2048x1024.size a ≤ S2048x1024.size a
  hwx4_7 : ∀ i : grid4.Coords, EltTy.bits .bf16 = 32 ∨ (Rect.block (s := S2048x1024) S2048x1024.size (cc4_transform_7 i) (hinb4_7 i)).WholeWords (EltTy.packing .bf16)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x1024.size a ≤ S1x1024.size a
  hwx4_8 : ∀ i : grid4.Coords, EltTy.bits .f32 = 32 ∨ (Rect.block (s := S1x1024) S1x1024.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S128x1024.size a ≤ S4096x1024.size a
  hwx4_9 : ∀ i : grid4.Coords, EltTy.bits .f32 = 32 ∨ (Rect.block (s := S4096x1024) S128x1024.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S128x1024.size a ≤ S4096x1024.size a
  hwx4_10 : ∀ i : grid4.Coords, EltTy.bits .f32 = 32 ∨ (Rect.block (s := S4096x1024) S128x1024.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x2048.size a ≤ S4096x2048.size a
  hwx5_0 : ∀ i : grid5.Coords, EltTy.bits .f32 = 32 ∨ (Rect.block (s := S4096x2048) S256x2048.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S256x2048.size a ≤ S4096x2048.size a
  hwx5_1 : ∀ i : grid5.Coords, EltTy.bits .f32 = 32 ∨ (Rect.block (s := S4096x2048) S256x2048.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S4096x2048.size a ≤ S4096x2048.size a
  hwx5_2 : ∀ i : grid5.Coords, EltTy.bits .bf16 = 32 ∨ (Rect.block (s := S4096x2048) S4096x2048.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x2048.size a ≤ S1x2048.size a
  hwx5_3 : ∀ i : grid5.Coords, EltTy.bits .f32 = 32 ∨ (Rect.block (s := S1x2048) S1x2048.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S256x2048.size a ≤ S4096x2048.size a
  hwx5_4 : ∀ i : grid5.Coords, EltTy.bits .bf16 = 32 ∨ (Rect.block (s := S4096x2048) S256x2048.size (cc5_transform_4 i) (hinb5_4 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x2048.size a ≤ S4096x2048.size a
  hwx6_0 : ∀ i : grid6.Coords, EltTy.bits .bf16 = 32 ∨ (Rect.block (s := S4096x2048) S256x2048.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2048x2048.size a ≤ S2048x2048.size a
  hwx6_1 : ∀ i : grid6.Coords, EltTy.bits .bf16 = 32 ∨ (Rect.block (s := S2048x2048) S2048x2048.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2048.size a ≤ S1x2048.size a
  hwx6_2 : ∀ i : grid6.Coords, EltTy.bits .f32 = 32 ∨ (Rect.block (s := S1x2048) S1x2048.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S2048x1024.size a ≤ S2048x1024.size a
  hwx6_3 : ∀ i : grid6.Coords, EltTy.bits .bf16 = 32 ∨ (Rect.block (s := S2048x1024) S2048x1024.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1024.size a ≤ S1x1024.size a
  hwx6_4 : ∀ i : grid6.Coords, EltTy.bits .f32 = 32 ∨ (Rect.block (s := S1x1024) S1x1024.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S2048x1024.size a ≤ S2048x1024.size a
  hwx6_5 : ∀ i : grid6.Coords, EltTy.bits .bf16 = 32 ∨ (Rect.block (s := S2048x1024) S2048x1024.size (cc6_transform_5 i) (hinb6_5 i)).WholeWords (EltTy.packing .bf16)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1024.size a ≤ S1x1024.size a
  hwx6_6 : ∀ i : grid6.Coords, EltTy.bits .f32 = 32 ∨ (Rect.block (s := S1x1024) S1x1024.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S256x1024.size a ≤ S4096x1024.size a
  hwx6_7 : ∀ i : grid6.Coords, EltTy.bits .f32 = 32 ∨ (Rect.block (s := S4096x1024) S256x1024.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S256x1024.size a ≤ S4096x1024.size a
  hwx6_8 : ∀ i : grid6.Coords, EltTy.bits .f32 = 32 ∨ (Rect.block (s := S4096x1024) S256x1024.size (cc6_transform_8 i) (hinb6_8 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1536x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S256x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v14) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S256x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S2048x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S2048x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S1x2048.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v20) S256x2048.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v14) S256x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S256x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S256x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v20) S256x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v2) S2048x2048.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v3) S2048x2048.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v21) S1x2048.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v22) S1x2048.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v23) S256x2048.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v23) S128x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S2048x2048.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v24) S1x2048.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v5) S2048x2048.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v25) S1x2048.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v6) S2048x1024.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v26) S1x1024.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v7) S2048x1024.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v27) S1x1024.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v28_0) S128x1024.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v28_1) S128x1024.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v23) S256x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg3) S256x2048.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v8) S4096x2048.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v29) S1x2048.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v30) S256x2048.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v30) S256x2048.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v9) S2048x2048.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v31) S1x2048.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v10) S2048x1024.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v32) S1x1024.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v11) S2048x1024.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v33) S1x1024.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v34_0) S256x1024.size cc6_transform_7 reads6_7 true false 2 stage6_7 sem6_7
    hrank6 hreads6_7 hinb6_7 nbuf6_7 (Memref.isWhole_whole _) hwx6_7 hstage6_7

abbrev win6_8 : Pipeline.Window sig grid6 :=
  Pipeline.Window.ofSpec (Memref.whole main_v34_1) S256x1024.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

class Facts : Prop extends Facts₀ where

variable [Facts]
-- ==== ReferenceIdeal.lean ====
abbrev S4096x1024 : Shape := ⟨2, ![4096, 1024]⟩
abbrev S4096x512 : Shape := ⟨2, ![4096, 512]⟩
abbrev S4096x2048 : Shape := ⟨2, ![4096, 2048]⟩
abbrev S1536x2048 : Shape := ⟨2, ![1536, 2048]⟩
abbrev S2048 : Shape := ⟨1, ![2048]⟩
abbrev S2048x2048 : Shape := ⟨2, ![2048, 2048]⟩
abbrev S2048x6144 : Shape := ⟨2, ![2048, 6144]⟩
abbrev S6144 : Shape := ⟨1, ![6144]⟩
abbrev S2048x1024 : Shape := ⟨2, ![2048, 1024]⟩
abbrev S1024 : Shape := ⟨1, ![1024]⟩
abbrev S4096x1536 : Shape := ⟨2, ![4096, 1536]⟩
abbrev S1x2048 : Shape := ⟨2, ![1, 2048]⟩
abbrev S_ : Shape := ⟨0, ![]⟩
abbrev S4096x6144 : Shape := ⟨2, ![4096, 6144]⟩
abbrev S1x6144 : Shape := ⟨2, ![1, 6144]⟩
abbrev S1x1024 : Shape := ⟨2, ![1, 1024]⟩
abbrev S4096x4096 : Shape := ⟨2, ![4096, 4096]⟩

abbrev nBuf : Space → Nat
  | .hbm => 236
  | .vmem => 0
  | .smem => 0
  | _ => 0

abbrev hbmTy0_0 (i : Nat) : BufTy := match i % 128 with
  | 0 => ⟨S4096x1024, .f32⟩
  | 1 => ⟨S4096x512, .f32⟩
  | 2 => ⟨S4096x2048, .f32⟩
  | 3 => ⟨S4096x2048, .f32⟩
  | 4 => ⟨S1536x2048, .f32⟩
  | 5 => ⟨S2048, .f32⟩
  | 6 => ⟨S2048x2048, .f32⟩
  | 7 => ⟨S2048, .f32⟩
  | 8 => ⟨S2048x6144, .f32⟩
  | 9 => ⟨S2048x6144, .f32⟩
  | 10 => ⟨S6144, .f32⟩
  | 11 => ⟨S6144, .f32⟩
  | 12 => ⟨S2048x2048, .f32⟩
  | 13 => ⟨S2048, .f32⟩
  | 14 => ⟨S2048x2048, .f32⟩
  | 15 => ⟨S2048, .f32⟩
  | 16 => ⟨S2048x1024, .f32⟩
  | 17 => ⟨S1024, .f32⟩
  | 18 => ⟨S2048x1024, .f32⟩
  | 19 => ⟨S1024, .f32⟩
  | 20 => ⟨S4096x2048, .f32⟩
  | 21 => ⟨S2048, .f32⟩
  | 22 => ⟨S2048x2048, .f32⟩
  | 23 => ⟨S2048, .f32⟩
  | 24 => ⟨S2048x1024, .f32⟩
  | 25 => ⟨S1024, .f32⟩
  | 26 => ⟨S2048x1024, .f32⟩
  | 27 => ⟨S1024, .f32⟩
  | 28 => ⟨S4096x1536, .f32⟩
  | 29 => ⟨S4096x2048, .f32⟩
  | 30 => ⟨S1x2048, .f32⟩
  | 31 => ⟨S4096x2048, .f32⟩
  | 32 => ⟨S4096x2048, .f32⟩
  | 33 => ⟨S_, .f32⟩
  | 34 => ⟨S4096x2048, .f32⟩
  | 35 => ⟨S4096x2048, .i1⟩
  | 36 => ⟨S_, .f32⟩
  | 37 => ⟨S4096x2048, .f32⟩
  | 38 => ⟨S4096x2048, .i1⟩
  | 39 => ⟨S_, .f32⟩
  | 40 => ⟨S_, .f32⟩
  | 41 => ⟨S4096x2048, .f32⟩
  | 42 => ⟨S4096x2048, .f32⟩
  | 43 => ⟨S4096x2048, .f32⟩
  | 44 => ⟨S_, .f32⟩
  | 45 => ⟨S4096x2048, .f32⟩
  | 46 => ⟨S4096x2048, .f32⟩
  | 47 => ⟨S4096x2048, .f32⟩
  | 48 => ⟨S4096x2048, .f32⟩
  | 49 => ⟨S1x2048, .f32⟩
  | 50 => ⟨S4096x2048, .f32⟩
  | 51 => ⟨S4096x2048, .f32⟩
  | 52 => ⟨S_, .f32⟩
  | 53 => ⟨S4096x2048, .f32⟩
  | 54 => ⟨S4096x2048, .i1⟩
  | 55 => ⟨S_, .f32⟩
  | 56 => ⟨S4096x2048, .f32⟩
  | 57 => ⟨S4096x2048, .i1⟩
  | 58 => ⟨S_, .f32⟩
  | 59 => ⟨S_, .f32⟩
  | 60 => ⟨S4096x2048, .f32⟩
  | 61 => ⟨S4096x2048, .f32⟩
  | 62 => ⟨S4096x2048, .f32⟩
  | 63 => ⟨S_, .f32⟩
  | 64 => ⟨S4096x2048, .f32⟩
  | 65 => ⟨S4096x2048, .f32⟩
  | 66 => ⟨S4096x2048, .f32⟩
  | 67 => ⟨S4096x6144, .f32⟩
  | 68 => ⟨S1x6144, .f32⟩
  | 69 => ⟨S4096x6144, .f32⟩
  | 70 => ⟨S4096x6144, .f32⟩
  | 71 => ⟨S4096x6144, .f32⟩
  | 72 => ⟨S1x6144, .f32⟩
  | 73 => ⟨S4096x6144, .f32⟩
  | 74 => ⟨S4096x6144, .f32⟩
  | 75 => ⟨S4096x2048, .f32⟩
  | 76 => ⟨S4096x2048, .f32⟩
  | 77 => ⟨S4096x2048, .f32⟩
  | 78 => ⟨S4096x2048, .f32⟩
  | 79 => ⟨S4096x2048, .f32⟩
  | 80 => ⟨S4096x2048, .f32⟩
  | 81 => ⟨S4096x2048, .f32⟩
  | 82 => ⟨S4096x2048, .f32⟩
  | 83 => ⟨S4096x2048, .f32⟩
  | 84 => ⟨S_, .f32⟩
  | 85 => ⟨S4096x2048, .f32⟩
  | 86 => ⟨S4096x2048, .f32⟩
  | 87 => ⟨S_, .f32⟩
  | 88 => ⟨S4096x2048, .f32⟩
  | 89 => ⟨S4096x2048, .f32⟩
  | 90 => ⟨S4096x2048, .f32⟩
  | 91 => ⟨S4096x2048, .f32⟩
  | 92 => ⟨S4096x2048, .f32⟩
  | 93 => ⟨S_, .f32⟩
  | 94 => ⟨S4096x2048, .f32⟩
  | 95 => ⟨S4096x2048, .f32⟩
  | 96 => ⟨S_, .f32⟩
  | 97 => ⟨S4096x2048, .f32⟩
  | 98 => ⟨S4096x2048, .f32⟩
  | 99 => ⟨S4096x2048, .f32⟩
  | 100 => ⟨S4096x2048, .f32⟩
  | 101 => ⟨S4096x2048, .f32⟩
  | 102 => ⟨S_, .f32⟩
  | 103 => ⟨S4096x2048, .f32⟩
  | 104 => ⟨S4096x2048, .f32⟩
  | 105 => ⟨S4096x2048, .f32⟩
  | 106 => ⟨S4096x2048, .f32⟩
  | 107 => ⟨S4096x2048, .f32⟩
  | 108 => ⟨S4096x2048, .f32⟩
  | 109 => ⟨S1x2048, .f32⟩
  | 110 => ⟨S4096x2048, .f32⟩
  | 111 => ⟨S4096x2048, .f32⟩
  | 112 => ⟨S_, .f32⟩
  | 113 => ⟨S4096x2048, .f32⟩
  | 114 => ⟨S4096x2048, .i1⟩
  | 115 => ⟨S_, .f32⟩
  | 116 => ⟨S4096x2048, .f32⟩
  | 117 => ⟨S4096x2048, .i1⟩
  | 118 => ⟨S_, .f32⟩
  | 119 => ⟨S_, .f32⟩
  | 120 => ⟨S4096x2048, .f32⟩
  | 121 => ⟨S4096x2048, .f32⟩
  | 122 => ⟨S4096x2048, .f32⟩
  | 123 => ⟨S_, .f32⟩
  | 124 => ⟨S4096x2048, .f32⟩
  | 125 => ⟨S4096x2048, .f32⟩
  | 126 => ⟨S4096x2048, .f32⟩
  | 127 => ⟨S4096x2048, .f32⟩
  | _ => ⟨S4096x1024, .f32⟩

abbrev hbmTy0_1 (i : Nat) : BufTy := match i % 128 with
  | 0 => ⟨S1x2048, .f32⟩
  | 1 => ⟨S4096x2048, .f32⟩
  | 2 => ⟨S4096x2048, .f32⟩
  | 3 => ⟨S_, .f32⟩
  | 4 => ⟨S4096x2048, .f32⟩
  | 5 => ⟨S4096x2048, .i1⟩
  | 6 => ⟨S_, .f32⟩
  | 7 => ⟨S4096x2048, .f32⟩
  | 8 => ⟨S4096x2048, .i1⟩
  | 9 => ⟨S_, .f32⟩
  | 10 => ⟨S_, .f32⟩
  | 11 => ⟨S4096x2048, .f32⟩
  | 12 => ⟨S4096x2048, .f32⟩
  | 13 => ⟨S4096x2048, .f32⟩
  | 14 => ⟨S_, .f32⟩
  | 15 => ⟨S4096x2048, .f32⟩
  | 16 => ⟨S4096x2048, .f32⟩
  | 17 => ⟨S4096x2048, .f32⟩
  | 18 => ⟨S4096x1024, .f32⟩
  | 19 => ⟨S1x1024, .f32⟩
  | 20 => ⟨S4096x1024, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S_, .f32⟩
  | 27 => ⟨S4096x1024, .f32⟩
  | 28 => ⟨S4096x1024, .f32⟩
  | 29 => ⟨S4096x1024, .f32⟩
  | 30 => ⟨S4096x1024, .f32⟩
  | 31 => ⟨S4096x1024, .i1⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S4096x4096, .f32⟩
  | 44 => ⟨S4096x2048, .f32⟩
  | 45 => ⟨S1x2048, .f32⟩
  | 46 => ⟨S4096x2048, .f32⟩
  | 47 => ⟨S4096x2048, .f32⟩
  | 48 => ⟨S_, .f32⟩
  | 49 => ⟨S4096x2048, .f32⟩
  | 50 => ⟨S4096x2048, .i1⟩
  | 51 => ⟨S_, .f32⟩
  | 52 => ⟨S4096x2048, .f32⟩
  | 53 => ⟨S4096x2048, .i1⟩
  | 54 => ⟨S_, .f32⟩
  | 55 => ⟨S_, .f32⟩
  | 56 => ⟨S4096x2048, .f32⟩
  | 57 => ⟨S4096x2048, .f32⟩
  | 58 => ⟨S4096x2048, .f32⟩
  | 59 => ⟨S_, .f32⟩
  | 60 => ⟨S4096x2048, .f32⟩
  | 61 => ⟨S4096x2048, .f32⟩
  | 62 => ⟨S4096x2048, .f32⟩
  | 63 => ⟨S4096x2048, .f32⟩
  | 64 => ⟨S1x2048, .f32⟩
  | 65 => ⟨S4096x2048, .f32⟩
  | 66 => ⟨S4096x2048, .f32⟩
  | 67 => ⟨S_, .f32⟩
  | 68 => ⟨S4096x2048, .f32⟩
  | 69 => ⟨S4096x2048, .i1⟩
  | 70 => ⟨S_, .f32⟩
  | 71 => ⟨S4096x2048, .f32⟩
  | 72 => ⟨S4096x2048, .i1⟩
  | 73 => ⟨S_, .f32⟩
  | 74 => ⟨S_, .f32⟩
  | 75 => ⟨S4096x2048, .f32⟩
  | 76 => ⟨S4096x2048, .f32⟩
  | 77 => ⟨S4096x2048, .f32⟩
  | 78 => ⟨S_, .f32⟩
  | 79 => ⟨S4096x2048, .f32⟩
  | 80 => ⟨S4096x2048, .f32⟩
  | 81 => ⟨S4096x2048, .f32⟩
  | 82 => ⟨S4096x1024, .f32⟩
  | 83 => ⟨S1x1024, .f32⟩
  | 84 => ⟨S4096x1024, .f32⟩
  | 85 => ⟨S4096x1024, .f32⟩
  | 86 => ⟨S4096x1024, .f32⟩
  | 87 => ⟨S1x1024, .f32⟩
  | 88 => ⟨S4096x1024, .f32⟩
  | 89 => ⟨S4096x1024, .f32⟩
  | 90 => ⟨S_, .f32⟩
  | 91 => ⟨S4096x1024, .f32⟩
  | 92 => ⟨S4096x1024, .f32⟩
  | 93 => ⟨S4096x1024, .f32⟩
  | 94 => ⟨S4096x1024, .f32⟩
  | 95 => ⟨S4096x1024, .i1⟩
  | 96 => ⟨S4096x1024, .f32⟩
  | 97 => ⟨S4096x1024, .f32⟩
  | 98 => ⟨S4096x1024, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S_, .f32⟩
  | 105 => ⟨S4096x1024, .f32⟩
  | 106 => ⟨S4096x1024, .f32⟩
  | 107 => ⟨S4096x6144, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_call0_cst_1 : Ref sig .tc := ⟨.hbm, 39, rfl⟩
abbrev main_call0_call0_v0 : Ref sig .tc := ⟨.hbm, 40, rfl⟩
abbrev main_call0_call0_v1 : Ref sig .tc := ⟨.hbm, 41, rfl⟩
abbrev main_call0_v4 : Ref sig .tc := ⟨.hbm, 42, rfl⟩
abbrev main_call0_v5 : Ref sig .tc := ⟨.hbm, 43, rfl⟩
abbrev main_call0_cst_2 : Ref sig .tc := ⟨.hbm, 44, rfl⟩
abbrev main_call0_v6 : Ref sig .tc := ⟨.hbm, 45, rfl⟩
abbrev main_call0_v7 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_call1_cst : Ref sig .tc := ⟨.hbm, 52, rfl⟩
abbrev main_call1_v0 : Ref sig .tc := ⟨.hbm, 53, rfl⟩
abbrev main_call1_v1 : Ref sig .tc := ⟨.hbm, 54, rfl⟩
abbrev main_call1_cst_0 : Ref sig .tc := ⟨.hbm, 55, rfl⟩
abbrev main_call1_v2 : Ref sig .tc := ⟨.hbm, 56, rfl⟩
abbrev main_call1_v3 : Ref sig .tc := ⟨.hbm, 57, rfl⟩
abbrev main_call1_cst_1 : Ref sig .tc := ⟨.hbm, 58, rfl⟩
abbrev main_call1_call0_v0 : Ref sig .tc := ⟨.hbm, 59, rfl⟩
abbrev main_call1_call0_v1 : Ref sig .tc := ⟨.hbm, 60, rfl⟩
abbrev main_call1_v4 : Ref sig .tc := ⟨.hbm, 61, rfl⟩
abbrev main_call1_v5 : Ref sig .tc := ⟨.hbm, 62, rfl⟩
abbrev main_call1_cst_2 : Ref sig .tc := ⟨.hbm, 63, rfl⟩
abbrev main_call1_v6 : Ref sig .tc := ⟨.hbm, 64, rfl⟩
abbrev main_call1_v7 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_cst : Ref sig .tc := ⟨.hbm, 84, rfl⟩
abbrev main_v28 : Ref sig .tc := ⟨.hbm, 85, rfl⟩
abbrev main_v29 : Ref sig .tc := ⟨.hbm, 86, rfl⟩
abbrev main_cst_0 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_cst_1 : Ref sig .tc := ⟨.hbm, 93, rfl⟩
abbrev main_v35 : Ref sig .tc := ⟨.hbm, 94, rfl⟩
abbrev main_v36 : Ref sig .tc := ⟨.hbm, 95, rfl⟩
abbrev main_cst_2 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_cst_3 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_call2_cst : Ref sig .tc := ⟨.hbm, 112, rfl⟩
abbrev main_call2_v0 : Ref sig .tc := ⟨.hbm, 113, rfl⟩
abbrev main_call2_v1 : Ref sig .tc := ⟨.hbm, 114, rfl⟩
abbrev main_call2_cst_0 : Ref sig .tc := ⟨.hbm, 115, rfl⟩
abbrev main_call2_v2 : Ref sig .tc := ⟨.hbm, 116, rfl⟩
abbrev main_call2_v3 : Ref sig .tc := ⟨.hbm, 117, rfl⟩
abbrev main_call2_cst_1 : Ref sig .tc := ⟨.hbm, 118, rfl⟩
abbrev main_call2_call0_v0 : Ref sig .tc := ⟨.hbm, 119, rfl⟩
abbrev main_call2_call0_v1 : Ref sig .tc := ⟨.hbm, 120, rfl⟩
abbrev main_call2_v4 : Ref sig .tc := ⟨.hbm, 121, rfl⟩
abbrev main_call2_v5 : Ref sig .tc := ⟨.hbm, 122, rfl⟩
abbrev main_call2_cst_2 : Ref sig .tc := ⟨.hbm, 123, rfl⟩
abbrev main_call2_v6 : Ref sig .tc := ⟨.hbm, 124, rfl⟩
abbrev main_call2_v7 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_call3_cst : Ref sig .tc := ⟨.hbm, 131, rfl⟩
abbrev main_call3_v0 : Ref sig .tc := ⟨.hbm, 132, rfl⟩
abbrev main_call3_v1 : Ref sig .tc := ⟨.hbm, 133, rfl⟩
abbrev main_call3_cst_0 : Ref sig .tc := ⟨.hbm, 134, rfl⟩
abbrev main_call3_v2 : Ref sig .tc := ⟨.hbm, 135, rfl⟩
abbrev main_call3_v3 : Ref sig .tc := ⟨.hbm, 136, rfl⟩
abbrev main_call3_cst_1 : Ref sig .tc := ⟨.hbm, 137, rfl⟩
abbrev main_call3_call0_v0 : Ref sig .tc := ⟨.hbm, 138, rfl⟩
abbrev main_call3_call0_v1 : Ref sig .tc := ⟨.hbm, 139, rfl⟩
abbrev main_call3_v4 : Ref sig .tc := ⟨.hbm, 140, rfl⟩
abbrev main_call3_v5 : Ref sig .tc := ⟨.hbm, 141, rfl⟩
abbrev main_call3_cst_2 : Ref sig .tc := ⟨.hbm, 142, rfl⟩
abbrev main_call3_v6 : Ref sig .tc := ⟨.hbm, 143, rfl⟩
abbrev main_call3_v7 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_v63 : Ref sig .tc := ⟨.hbm, 152, rfl⟩
abbrev main_v64 : Ref sig .tc := ⟨.hbm, 153, rfl⟩
abbrev main_call4_cst : Ref sig .tc := ⟨.hbm, 154, rfl⟩
abbrev main_call4_v0 : Ref sig .tc := ⟨.hbm, 155, rfl⟩
abbrev main_call4_v1 : Ref sig .tc := ⟨.hbm, 156, rfl⟩
abbrev main_call4_v2 : Ref sig .tc := ⟨.hbm, 157, rfl⟩
abbrev main_call4_v3 : Ref sig .tc := ⟨.hbm, 158, rfl⟩
abbrev main_call4_v4 : Ref sig .tc := ⟨.hbm, 159, rfl⟩
abbrev main_call4_v5 : Ref sig .tc := ⟨.hbm, 160, rfl⟩
abbrev main_call4_v6 : Ref sig .tc := ⟨.hbm, 161, rfl⟩
abbrev main_call4_v7 : Ref sig .tc := ⟨.hbm, 162, rfl⟩
abbrev main_call4_v8 : Ref sig .tc := ⟨.hbm, 163, rfl⟩
abbrev main_call4_v9 : Ref sig .tc := ⟨.hbm, 164, rfl⟩
abbrev main_call4_v10 : Ref sig .tc := ⟨.hbm, 165, rfl⟩
abbrev main_call4_v11 : Ref sig .tc := ⟨.hbm, 166, rfl⟩
abbrev main_v65 : Ref sig .tc := ⟨.hbm, 167, rfl⟩
abbrev main_cst_4 : Ref sig .tc := ⟨.hbm, 168, rfl⟩
abbrev main_v66 : Ref sig .tc := ⟨.hbm, 169, rfl⟩
abbrev main_v67 : Ref sig .tc := ⟨.hbm, 170, rfl⟩
abbrev main_v68 : Ref sig .tc := ⟨.hbm, 171, rfl⟩
abbrev main_v69 : Ref sig .tc := ⟨.hbm, 172, rfl⟩
abbrev main_v70 : Ref sig .tc := ⟨.hbm, 173, rfl⟩
abbrev main_v71 : Ref sig .tc := ⟨.hbm, 174, rfl⟩
abbrev main_v72 : Ref sig .tc := ⟨.hbm, 175, rfl⟩
abbrev main_call5_cst : Ref sig .tc := ⟨.hbm, 176, rfl⟩
abbrev main_call5_v0 : Ref sig .tc := ⟨.hbm, 177, rfl⟩
abbrev main_call5_v1 : Ref sig .tc := ⟨.hbm, 178, rfl⟩
abbrev main_call5_cst_0 : Ref sig .tc := ⟨.hbm, 179, rfl⟩
abbrev main_call5_v2 : Ref sig .tc := ⟨.hbm, 180, rfl⟩
abbrev main_call5_v3 : Ref sig .tc := ⟨.hbm, 181, rfl⟩
abbrev main_call5_cst_1 : Ref sig .tc := ⟨.hbm, 182, rfl⟩
abbrev main_call5_call0_v0 : Ref sig .tc := ⟨.hbm, 183, rfl⟩
abbrev main_call5_call0_v1 : Ref sig .tc := ⟨.hbm, 184, rfl⟩
abbrev main_call5_v4 : Ref sig .tc := ⟨.hbm, 185, rfl⟩
abbrev main_call5_v5 : Ref sig .tc := ⟨.hbm, 186, rfl⟩
abbrev main_call5_cst_2 : Ref sig .tc := ⟨.hbm, 187, rfl⟩
abbrev main_call5_v6 : Ref sig .tc := ⟨.hbm, 188, rfl⟩
abbrev main_call5_v7 : Ref sig .tc := ⟨.hbm, 189, rfl⟩
abbrev main_v73 : Ref sig .tc := ⟨.hbm, 190, rfl⟩
abbrev main_v74 : Ref sig .tc := ⟨.hbm, 191, rfl⟩
abbrev main_v75 : Ref sig .tc := ⟨.hbm, 192, rfl⟩
abbrev main_v76 : Ref sig .tc := ⟨.hbm, 193, rfl⟩
abbrev main_v77 : Ref sig .tc := ⟨.hbm, 194, rfl⟩
abbrev main_call6_cst : Ref sig .tc := ⟨.hbm, 195, rfl⟩
abbrev main_call6_v0 : Ref sig .tc := ⟨.hbm, 196, rfl⟩
abbrev main_call6_v1 : Ref sig .tc := ⟨.hbm, 197, rfl⟩
abbrev main_call6_cst_0 : Ref sig .tc := ⟨.hbm, 198, rfl⟩
abbrev main_call6_v2 : Ref sig .tc := ⟨.hbm, 199, rfl⟩
abbrev main_call6_v3 : Ref sig .tc := ⟨.hbm, 200, rfl⟩
abbrev main_call6_cst_1 : Ref sig .tc := ⟨.hbm, 201, rfl⟩
abbrev main_call6_call0_v0 : Ref sig .tc := ⟨.hbm, 202, rfl⟩
abbrev main_call6_call0_v1 : Ref sig .tc := ⟨.hbm, 203, rfl⟩
abbrev main_call6_v4 : Ref sig .tc := ⟨.hbm, 204, rfl⟩
abbrev main_call6_v5 : Ref sig .tc := ⟨.hbm, 205, rfl⟩
abbrev main_call6_cst_2 : Ref sig .tc := ⟨.hbm, 206, rfl⟩
abbrev main_call6_v6 : Ref sig .tc := ⟨.hbm, 207, rfl⟩
abbrev main_call6_v7 : Ref sig .tc := ⟨.hbm, 208, rfl⟩
abbrev main_v78 : Ref sig .tc := ⟨.hbm, 209, rfl⟩
abbrev main_v79 : Ref sig .tc := ⟨.hbm, 210, rfl⟩
abbrev main_v80 : Ref sig .tc := ⟨.hbm, 211, rfl⟩
abbrev main_v81 : Ref sig .tc := ⟨.hbm, 212, rfl⟩
abbrev main_v82 : Ref sig .tc := ⟨.hbm, 213, rfl⟩
abbrev main_v83 : Ref sig .tc := ⟨.hbm, 214, rfl⟩
abbrev main_v84 : Ref sig .tc := ⟨.hbm, 215, rfl⟩
abbrev main_v85 : Ref sig .tc := ⟨.hbm, 216, rfl⟩
abbrev main_v86 : Ref sig .tc := ⟨.hbm, 217, rfl⟩
abbrev main_call7_cst : Ref sig .tc := ⟨.hbm, 218, rfl⟩
abbrev main_call7_v0 : Ref sig .tc := ⟨.hbm, 219, rfl⟩
abbrev main_call7_v1 : Ref sig .tc := ⟨.hbm, 220, rfl⟩
abbrev main_call7_v2 : Ref sig .tc := ⟨.hbm, 221, rfl⟩
abbrev main_call7_v3 : Ref sig .tc := ⟨.hbm, 222, rfl⟩
abbrev main_call7_v4 : Ref sig .tc := ⟨.hbm, 223, rfl⟩
abbrev main_call7_v5 : Ref sig .tc := ⟨.hbm, 224, rfl⟩
abbrev main_call7_v6 : Ref sig .tc := ⟨.hbm, 225, rfl⟩
abbrev main_call7_v7 : Ref sig .tc := ⟨.hbm, 226, rfl⟩
abbrev main_call7_v8 : Ref sig .tc := ⟨.hbm, 227, rfl⟩
abbrev main_call7_v9 : Ref sig .tc := ⟨.hbm, 228, rfl⟩
abbrev main_call7_v10 : Ref sig .tc := ⟨.hbm, 229, rfl⟩
abbrev main_call7_v11 : Ref sig .tc := ⟨.hbm, 230, rfl⟩
abbrev main_v87 : Ref sig .tc := ⟨.hbm, 231, rfl⟩
abbrev main_cst_5 : Ref sig .tc := ⟨.hbm, 232, rfl⟩
abbrev main_v88 : Ref sig .tc := ⟨.hbm, 233, rfl⟩
abbrev main_v89 : Ref sig .tc := ⟨.hbm, 234, rfl⟩
abbrev main_v90 : Ref sig .tc := ⟨.hbm, 235, rfl⟩

abbrev nD : Nat := 1
abbrev τ : Topo := Topo.v7x

variable {F : FTy → Type} [FloatOps F]

class Facts₀ : Prop where
  concatenates_S4096x1024_S4096x512_S4096x1536_d1 : Shape.Concatenates [S4096x1024, S4096x512] S4096x1536 1
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  bcast_S6144_S1x6144_1 : S6144.BroadcastsInDim S1x6144 (![1] : Fin 1 → Fin S1x6144.rank)
  bcast_S1x6144_S4096x6144_0_1 : S1x6144.BroadcastsInDim S4096x6144 (![0, 1] : Fin 2 → Fin S4096x6144.rank)
  slices_S4096x6144_S4096x2048_0_0 : S4096x6144.Slices ![0, 0] S4096x2048
  slices_S4096x6144_S4096x2048_0_2048 : S4096x6144.Slices ![0, 2048] S4096x2048
  slices_S4096x6144_S4096x2048_0_4096 : S4096x6144.Slices ![0, 4096] S4096x2048
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  concatenates_S4096x2048_S4096x2048_S4096x4096_d1 : Shape.Concatenates [S4096x2048, S4096x2048] S4096x4096 1
  concatenates_S4096x1024_S4096x1024_S4096x1024_S4096x1024_S4096x2048_S4096x6144_d1 : Shape.Concatenates [S4096x1024, S4096x1024, S4096x1024, S4096x1024, S4096x2048] S4096x6144 1
  dot_S4096x1536_S1536x2048_S4096x2048_1_0_0_1_n_n_wf : DotDims.WF S4096x1536 S1536x2048 S4096x2048 [1] [0] [0] [1] [] []
  dot_S4096x2048_S2048x2048_S4096x2048_1_0_0_1_n_n_wf : DotDims.WF S4096x2048 S2048x2048 S4096x2048 [1] [0] [0] [1] [] []
  dot_S4096x2048_S2048x6144_S4096x6144_1_0_0_1_n_n_wf : DotDims.WF S4096x2048 S2048x6144 S4096x6144 [1] [0] [0] [1] [] []
  dot_S4096x2048_S2048x1024_S4096x1024_1_0_0_1_n_n_wf : DotDims.WF S4096x2048 S2048x1024 S4096x1024 [1] [0] [0] [1] [] []
  dot_S4096x4096_S4096x2048_S4096x2048_1_0_0_1_n_n_wf : DotDims.WF S4096x4096 S4096x2048 S4096x2048 [1] [0] [0] [1] [] []

variable [Facts₀]

def dot_S4096x1536_S1536x2048_S4096x2048_1_0_0_1_n_n : DotDims S4096x1536 S1536x2048 S4096x2048 where
  lhsContracting := [1]
  rhsContracting := [0]
  lhsNonContracting := [0]
  rhsNonContracting := [1]
  lhsBatch := []
  rhsBatch := []
  wf := dot_S4096x1536_S1536x2048_S4096x2048_1_0_0_1_n_n_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x6144_S4096x6144_1_0_0_1_n_n : DotDims S4096x2048 S2048x6144 S4096x6144 where
  lhsContracting := [1]
  rhsContracting := [0]
  lhsNonContracting := [0]
  rhsNonContracting := [1]
  lhsBatch := []
  rhsBatch := []
  wf := dot_S4096x2048_S2048x6144_S4096x6144_1_0_0_1_n_n_wf
def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf
def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.RegionB0.lean ====
import proofs.«109395_j20375324852595_2_alg».proof.Proof.Gen.Kernel.Launch
import proofs.«109395_j20375324852595_2_alg».proof.Proof.Gen.Kernel.Skeleton
import proofs.«109395_j20375324852595_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the pipelined call of `cc0__pre_mlp_kernel`, at the buffer contents `V` it is entered with

Every statement here is at a parameter `V`: what each TensorCore buffer holds when the region starts. From `V` we
read each window's block at a grid point, say what the kernel body leaves in each output window's staging buffer as a
function of the input blocks, prove the body's triple on whole staging buffers, and package the three as the
pipeline's proof data together with the obligation "the body, called at point `t`, takes the blocks before to the
blocks after". -/

-- membership of an index in a rectangle of these extents recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each TensorCore buffer holds when the region is entered
variable (V : (c : Dev nD) → (b : Ref sig .tc) → Buf (Elt F) ((c : Thread nD τ).loc b))

/-! ## The windows' blocks -/

/-- Window `w`'s block at grid point `t`: the rectangle of the window's array that the window's index map selects at
    `t`, read off the array's contents at region entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds the window's block at EVERY point, whether the pipeline fetched it
there or not (where it did not, the window's block index has not moved since the last fetch, so the block is the same
one): for any proof data whose array is `V`'s (`hA`) and whose body leaves the input block in place (`hafter`). The
windows are uncut and have no idle point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores -/

/-- the whole 256×1024 block of window 0 -/
abbrev r0_0 : Rect S256x1024 := Rect.unit (s := S256x1024) ![0, 0] S256x1024.size inb_S256x1024_S256x1024_0_0
/-- the whole 256×512 block of window 1 -/
abbrev r0_1 : Rect S256x512 := Rect.unit (s := S256x512) ![0, 0] S256x512.size inb_S256x512_S256x512_0_0
/-- rows 0–1023 of window 2's 1536×2048 block -/
abbrev r0_2 : Rect S1536x2048 := Rect.unit (s := S1536x2048) ![0, 0] S1024x2048.size inb_S1536x2048_S1024x2048_0_0
/-- rows 1024–1535 of window 2's 1536×2048 block -/
abbrev r0_3 : Rect S1536x2048 := Rect.unit (s := S1536x2048) ![1024, 0] S512x2048.size inb_S1536x2048_S512x2048_1024_0
/-- the whole 1×2048 row (windows 3 and 5) -/
abbrev r0_4 : Rect S1x2048 := Rect.unit (s := S1x2048) ![0, 0] S1x2048.size inb_S1x2048_S1x2048_0_0
/-- the whole 2048×2048 block of window 4 -/
abbrev r0_5 : Rect S2048x2048 := Rect.unit (s := S2048x2048) ![0, 0] S2048x2048.size inb_S2048x2048_S2048x2048_0_0
/-- the whole 256×2048 block of the output window 6 -/
abbrev r0_6 : Rect S256x2048 := Rect.unit (s := S256x2048) ![0, 0] S256x2048.size inb_S256x2048_S256x2048_0_0

/-! ## What the body leaves in each output window's staging buffer -/

/-- Window 6's staging buffer after the body: one store of the whole block, of `k0_pay1` of the blocks of windows 0 and 1,
    the two row bands of window 2's block (rows 0–1023 multiply window 0's columns, rows 1024–1535 window 1's), and
    the blocks of windows 3, 4 and 5 (two affine layers, each followed by the exponential-linear unit, rounded to bf16). -/
def out0_6 (x0 : Vec F S256x1024 .f32) (x1 : Vec F S256x512 .f32) (x2 : Vec F S1536x2048 .bf16) (x3 : Vec F S1x2048 .f32) (x4 : Vec F S2048x2048 .bf16) (x5 : Vec F S1x2048 .f32) : Vec F S256x2048 .bf16 :=
  View.canon [⟨r0_6, k0_pay1 (View.ld x0 r0_0) (View.ld x1 r0_1) (View.ld x2 r0_2) (View.ld x2 r0_3) (View.ld x3 r0_4) (View.ld x4 r0_5) (View.ld x5 r0_4)⟩]

/-- The store rectangle is the whole buffer, so every index of the buffer is under a piece. -/
theorem cover0_6 (p0 : Vec F S256x2048 .bf16) (y : S256x2048.Idx) :
    ∃ pc ∈ ([⟨r0_6, p0⟩] : List (View.Piece (Elt F) S256x2048 .bf16)), y ∈ pc.1.set :=
  View.cover_of_tiled [⟨r0_6, p0⟩] S256x2048.size (by rfl) y

/-! ## The body's triple -/

set_option maxHeartbeats 1000000 in
/-- The kernel function on whole staging buffers — the input windows' at contents `x0`, …, the output windows' at
    anything — runs to a state where the inputs' buffers are unchanged and each output's buffer holds `out0_w` of the
    inputs: the function is a sequence of whole-rectangle loads, pure values of what was loaded, and whole-rectangle
    stores; the grid coordinate `i` is not read. -/
theorem sound_kernel0 (c : Dev nD) (E : Set ℕ) (i : grid0.Coords) (arg1 : Memref sig .tc .vmem S256x1024 .f32) (harg1 : arg1.IsWhole) (arg2 : Memref sig .tc .vmem S256x512 .f32) (harg2 : arg2.IsWhole) (arg3 : Memref sig .tc .vmem S1536x2048 .bf16) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S256x2048 .bf16) (harg7 : arg7.IsWhole)
    (x0 : Vec F S256x1024 .f32) (x1 : Vec F S256x512 .f32) (x2 : Vec F S1536x2048 .bf16) (x3 : Vec F S1x2048 .f32) (x4 : Vec F S2048x2048 .bf16) (x5 : Vec F S1x2048 .f32) (K' : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K' ⟨⟩))
      ⊢ wp frame (wpE (defs₀ (F := F)) Variants.none c none) E (cc0__pre_mlp_kernel i arg1 harg1 arg2 harg2 arg3 harg3 arg4 harg4 arg5 harg5 arg6 harg6 arg7 harg7) K' := by
  simp only [cc0__pre_mlp_kernel_eq_skeleton]; unfold cc0__pre_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

/-! ## The pipeline's proof data -/

/-- The proof data of this pipeline on core `c`: its arrays hold what the region finds in them (`V`); after the body
    at point `t` each input window's buffer still holds its block and each output window's holds `out0_w` of the
    input blocks; the invariant is "the rest of the core's state is untouched"; nothing is owed; shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-! Each input window's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`: the invariant, the core's debts, and every window's current staging
    buffer at what the pipeline put there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: the same buffers at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies at those blocks; the
    invariant and the debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr
-- ==== Proof.RegionB1.lean ====
/- The region half of the frame proof for region 1 of the program's entry function: the call of `cc1__gru_gate_kernel`
   over a grid of 16 points, with 7 windows (windows 0–5 are read, window 6 is written).

   Everything is stated at a parameter `V`: the TensorCore's buffer contents when the region is entered.
   * `iblk1 V c w t` is window `w`'s block at grid point `t`: the rectangle of the window's array that the window's
     index map selects at `t`, read off `V`.
   * `out1_6 x0 x1 x2 x3 x4 x5` is what the body leaves in the output window's buffer when the input windows' buffers hold
     `x0 … x5`: the gate: with the bf16 block `x0`, the f32 block `x1` rounded to bf16, the two weight blocks `x2`, `x3` and the two
    bias rows `x4`, `x5`, the logistic function of `(x0 · x2 + x4) + (bf16 x1 · x3 + x5)` (bias rows broadcast down the 256 rows),
    rounded to bf16.
   * `sound_kernel1` is the body's triple on whole buffers, `dat1` the pipeline's proof data (arrays as found, each input
     buffer at its block, the output buffer at `out1_6` of the input blocks), `body_obligation1` the body obligation at
     every grid point. -/
import proofs.«109395_j20375324852595_2_alg».proof.Proof.Gen.Kernel.Launch
import proofs.«109395_j20375324852595_2_alg».proof.Proof.Gen.Kernel.Skeleton
import proofs.«109395_j20375324852595_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents 256 × 2048 recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the window's rectangle of its array at `t`, read off the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds the window's block at every point, whether or not the block was copied in
    at that point (a point at which it was not copied has the same block index as the point before it), for any proof
    data whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds the window's block at every point, whether or not the block was copied in
    at that point (a point at which it was not copied has the same block index as the point before it), for any proof
    data whose array is `V`'s (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds the window's block at every point, whether or not the block was copied in
    at that point (a point at which it was not copied has the same block index as the point before it), for any proof
    data whose array is `V`'s (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds the window's block at every point, whether or not the block was copied in
    at that point (a point at which it was not copied has the same block index as the point before it), for any proof
    data whose array is `V`'s (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds the window's block at every point, whether or not the block was copied in
    at that point (a point at which it was not copied has the same block index as the point before it), for any proof
    data whose array is `V`'s (`hA`) and whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds the window's block at every point, whether or not the block was copied in
    at that point (a point at which it was not copied has the same block index as the point before it), for any proof
    data whose array is `V`'s (`hA`) and whose body leaves the block in place (`hafter`). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole buffer -/

abbrev r1_0 : Rect S256x2048 := Rect.unit (s := S256x2048) ![0, 0] S256x2048.size inb_S256x2048_S256x2048_0_0
abbrev r1_1 : Rect S2048x2048 := Rect.unit (s := S2048x2048) ![0, 0] S2048x2048.size inb_S2048x2048_S2048x2048_0_0
abbrev r1_2 : Rect S1x2048 := Rect.unit (s := S1x2048) ![0, 0] S1x2048.size inb_S1x2048_S1x2048_0_0

/-! ## What the body leaves in the output window's buffer -/

/-- Window 6's buffer after the body, from the input windows' blocks: the body's one store, whose payload is
    `k1_pay1` of the loaded blocks — the gate: with the bf16 block `x0`, the f32 block `x1` rounded to bf16, the two weight blocks `x2`, `x3` and the two
    bias rows `x4`, `x5`, the logistic function of `(x0 · x2 + x4) + (bf16 x1 · x3 + x5)` (bias rows broadcast down the 256 rows),
    rounded to bf16. -/
def out1_6 (x0 : Vec F S256x2048 .bf16) (x1 : Vec F S256x2048 .f32) (x2 : Vec F S2048x2048 .bf16) (x3 : Vec F S2048x2048 .bf16) (x4 : Vec F S1x2048 .f32) (x5 : Vec F S1x2048 .f32) : Vec F S256x2048 .bf16 :=
  View.canon [⟨r1_0, k1_pay1 (View.ld x0 r1_0) (View.ld x1 r1_0) (View.ld x2 r1_1) (View.ld x4 r1_2) (View.ld x3 r1_1) (View.ld x5 r1_2)⟩]

/-- The one store's rectangle is the whole buffer, so it covers it. -/
theorem cover1_6 (p0 : Vec F S256x2048 .bf16) (y : S256x2048.Idx) :
    ∃ pc ∈ ([⟨r1_0, p0⟩] : List (View.Piece (Elt F) S256x2048 .bf16)), y ∈ pc.1.set :=
  View.cover_of_tiled [⟨r1_0, p0⟩] S256x2048.size (by rfl) y

/-! ## The body's triple -/

set_option maxHeartbeats 1000000 in
/-- The kernel body on whole buffers — the inputs' holding `x0 … x5`, the output's holding anything — runs to a state in
    which the inputs' hold what they held and the output's holds `out1_6` of the inputs. -/
theorem sound_kernel1 (c : Dev nD) (E : Set ℕ) (i : grid1.Coords) (arg1 : Memref sig .tc .vmem S256x2048 .bf16) (harg1 : arg1.IsWhole) (arg2 : Memref sig .tc .vmem S256x2048 .f32) (harg2 : arg2.IsWhole) (arg3 : Memref sig .tc .vmem S2048x2048 .bf16) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .bf16) (harg7 : arg7.IsWhole)
    (x0 : Vec F S256x2048 .bf16) (x1 : Vec F S256x2048 .f32) (x2 : Vec F S2048x2048 .bf16) (x3 : Vec F S2048x2048 .bf16) (x4 : Vec F S1x2048 .f32) (x5 : Vec F S1x2048 .f32) (K' : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K' ⟨⟩))
      ⊢ wp frame (wpE (defs₀ (F := F)) Variants.none c none) E (cc1__gru_gate_kernel i arg1 harg1 arg2 harg2 arg3 harg3 arg4 harg4 arg5 harg5 arg6 harg6 arg7 harg7) K' := by
  simp only [cc1__gru_gate_kernel_eq_skeleton]; unfold cc1__gru_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover1_6 _)

/-! ## The pipeline's proof data -/

/-- The proof data of the region's pipeline on core `c`: the arrays as the region finds them (`V`); after the body at point `t`
    each input window's buffer holds its block and the output window's holds `out1_6` of the input blocks; the invariant is
    the one that leaves the rest of the memory and the generator register untouched; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input window's current buffer holds the window's block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`: the invariant, what is owed, and each window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the input buffers hold their blocks (`before1_w`), so `sound_kernel1` applies; the invariant and
    what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.RegionB2.lean ====
/- The region half of the frame proof for region 2 of the program's entry function: the call of `cc2__gru_gate_kernel`
   over a grid of 16 points, with 7 windows (windows 0–5 are read, window 6 is written).

   Everything is stated at a parameter `V`: the TensorCore's buffer contents when the region is entered.
   * `iblk2 V c w t` is window `w`'s block at grid point `t`: the rectangle of the window's array that the window's
     index map selects at `t`, read off `V`.
   * `out2_6 x0 x1 x2 x3 x4 x5` is what the body leaves in the output window's buffer when the input windows' buffers hold
     `x0 … x5`: the gate: with the bf16 block `x0`, the f32 block `x1` rounded to bf16, the two weight blocks `x2`, `x3` and the two
    bias rows `x4`, `x5`, the logistic function of `(x0 · x2 + x4) + (bf16 x1 · x3 + x5)` (bias rows broadcast down the 256 rows),
    rounded to bf16.
   * `sound_kernel2` is the body's triple on whole buffers, `dat2` the pipeline's proof data (arrays as found, each input
     buffer at its block, the output buffer at `out2_6` of the input blocks), `body_obligation2` the body obligation at
     every grid point. -/
import proofs.«109395_j20375324852595_2_alg».proof.Proof.Gen.Kernel.Launch
import proofs.«109395_j20375324852595_2_alg».proof.Proof.Gen.Kernel.Skeleton
import proofs.«109395_j20375324852595_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents 256 × 2048 recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the window's rectangle of its array at `t`, read off the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds the window's block at every point, whether or not the block was copied in
    at that point (a point at which it was not copied has the same block index as the point before it), for any proof
    data whose array is `V`'s (`hA`) and whose body leaves the block in place (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds the window's block at every point, whether or not the block was copied in
    at that point (a point at which it was not copied has the same block index as the point before it), for any proof
    data whose array is `V`'s (`hA`) and whose body leaves the block in place (`hafter`). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds the window's block at every point, whether or not the block was copied in
    at that point (a point at which it was not copied has the same block index as the point before it), for any proof
    data whose array is `V`'s (`hA`) and whose body leaves the block in place (`hafter`). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds the window's block at every point, whether or not the block was copied in
    at that point (a point at which it was not copied has the same block index as the point before it), for any proof
    data whose array is `V`'s (`hA`) and whose body leaves the block in place (`hafter`). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds the window's block at every point, whether or not the block was copied in
    at that point (a point at which it was not copied has the same block index as the point before it), for any proof
    data whose array is `V`'s (`hA`) and whose body leaves the block in place (`hafter`). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current buffer holds the window's block at every point, whether or not the block was copied in
    at that point (a point at which it was not copied has the same block index as the point before it), for any proof
    data whose array is `V`'s (`hA`) and whose body leaves the block in place (`hafter`). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take a whole buffer -/

abbrev r2_0 : Rect S256x2048 := Rect.unit (s := S256x2048) ![0, 0] S256x2048.size inb_S256x2048_S256x2048_0_0
abbrev r2_1 : Rect S2048x2048 := Rect.unit (s := S2048x2048) ![0, 0] S2048x2048.size inb_S2048x2048_S2048x2048_0_0
abbrev r2_2 : Rect S1x2048 := Rect.unit (s := S1x2048) ![0, 0] S1x2048.size inb_S1x2048_S1x2048_0_0

/-! ## What the body leaves in the output window's buffer -/

/-- Window 6's buffer after the body, from the input windows' blocks: the body's one store, whose payload is
    `k2_pay1` of the loaded blocks — the gate: with the bf16 block `x0`, the f32 block `x1` rounded to bf16, the two weight blocks `x2`, `x3` and the two
    bias rows `x4`, `x5`, the logistic function of `(x0 · x2 + x4) + (bf16 x1 · x3 + x5)` (bias rows broadcast down the 256 rows),
    rounded to bf16. -/
def out2_6 (x0 : Vec F S256x2048 .bf16) (x1 : Vec F S256x2048 .f32) (x2 : Vec F S2048x2048 .bf16) (x3 : Vec F S2048x2048 .bf16) (x4 : Vec F S1x2048 .f32) (x5 : Vec F S1x2048 .f32) : Vec F S256x2048 .bf16 :=
  View.canon [⟨r2_0, k2_pay1 (View.ld x0 r2_0) (View.ld x1 r2_0) (View.ld x2 r2_1) (View.ld x4 r2_2) (View.ld x3 r2_1) (View.ld x5 r2_2)⟩]

/-- The one store's rectangle is the whole buffer, so it covers it. -/
theorem cover2_6 (p0 : Vec F S256x2048 .bf16) (y : S256x2048.Idx) :
    ∃ pc ∈ ([⟨r2_0, p0⟩] : List (View.Piece (Elt F) S256x2048 .bf16)), y ∈ pc.1.set :=
  View.cover_of_tiled [⟨r2_0, p0⟩] S256x2048.size (by rfl) y

/-! ## The body's triple -/

set_option maxHeartbeats 1000000 in
/-- The kernel body on whole buffers — the inputs' holding `x0 … x5`, the output's holding anything — runs to a state in
    which the inputs' hold what they held and the output's holds `out2_6` of the inputs. -/
theorem sound_kernel2 (c : Dev nD) (E : Set ℕ) (i : grid2.Coords) (arg1 : Memref sig .tc .vmem S256x2048 .bf16) (harg1 : arg1.IsWhole) (arg2 : Memref sig .tc .vmem S256x2048 .f32) (harg2 : arg2.IsWhole) (arg3 : Memref sig .tc .vmem S2048x2048 .bf16) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .bf16) (harg7 : arg7.IsWhole)
    (x0 : Vec F S256x2048 .bf16) (x1 : Vec F S256x2048 .f32) (x2 : Vec F S2048x2048 .bf16) (x3 : Vec F S2048x2048 .bf16) (x4 : Vec F S1x2048 .f32) (x5 : Vec F S1x2048 .f32) (K' : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K' ⟨⟩))
      ⊢ wp frame (wpE (defs₀ (F := F)) Variants.none c none) E (cc2__gru_gate_kernel i arg1 harg1 arg2 harg2 arg3 harg3 arg4 harg4 arg5 harg5 arg6 harg6 arg7 harg7) K' := by
  simp only [cc2__gru_gate_kernel_eq_skeleton]; unfold cc2__gru_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover2_6 _)

/-! ## The pipeline's proof data -/

/-- The proof data of the region's pipeline on core `c`: the arrays as the region finds them (`V`); after the body at point `t`
    each input window's buffer holds its block and the output window's holds `out2_6` of the input blocks; the invariant is
    the one that leaves the rest of the memory and the generator register untouched; nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input window's current buffer holds the window's block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`: the invariant, what is owed, and each window's current buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the input buffers hold their blocks (`before2_w`), so `sound_kernel2` applies; the invariant and
    what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.RegionB3.lean ====
/- The region half of the frame proof for region 3 of the program's entry function: the call of `cc3__gru_n_kernel`
   over a grid of 16 points, with 9 windows (windows 0–7 are read, window 8 is written).

   Everything is stated at a parameter `V`: the TensorCore's buffer contents when the region is entered.
   * `iblk3 V c w t` is window `w`'s block at grid point `t`: the rectangle of the window's array that the window's
     index map selects at `t`, read off `V`.
   * `out3_8 x0 x1 x2 x3 x4 x5 x6 x7` is what the body leaves in the output window's buffer when the input windows' buffers hold
     `x0 … x7`: with `r` = `x2` and `z` = `x3` widened to f32, and `n` the hyperbolic tangent of
    `(x0 · x4 + x6) + r * (bf16 x1 · x5 + x7)` (the f32 block `x1` rounded to bf16 in the product, the bias rows `x6`, `x7` broadcast
    down the 256 rows), the f32 block `(1 - z) * n + z * x1`.
   * `sound_kernel3` is the body's triple on whole buffers, `dat3` the pipeline's proof data (arrays as found, each input
     buffer at its block, the output buffer at `out3_8` of the input blocks), `body_obligation3` the body obligation at
     every grid point. -/
import proofs.«109395_j20375324852595_2_alg».proof.Proof.Gen.Kernel.Launch
import proofs.«109395_j20375324852595_2_alg».proof.Proof.Gen.Kernel.Skeleton
import proofs.«109395_j20375324852595_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents 256 × 2048 recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the window's rectangle of its array at `t`, read off the entry contents `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds the window's block at every point, whether or not the block was copied in
    at that point (a point at which it was not copied has the same block index as the point before it), for any proof
    data whose array is `V`'s (`hA`) and whose body leaves the block in place (`hafter`). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds the window's block at every point, whether or not the block was copied in
    at that point (a point at which it was not copied has the same block index as the point before it), for any proof
    data whose array is `V`'s (`hA`) and whose body leaves the block in place (`hafter`). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current buffer holds the window's block at every point, whether or not the block was copied in
    at that point (a point at which it was not copied has the same block index as the point before it), for any proof
    data whose array is `V`'s (`hA`) and whose body leaves the block in place (`hafter`). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current buffer holds the window's block at every point, whether or not the block was copied in
    at that point (a point at which it was not copied has the same block index as the point before it), for any proof
    data whose array is `V`'s (`hA`) and whose body leaves the block in place (`hafter`). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current buffer holds the window's block at every point, whether or not the block was copied in
    at that point (a point at which it was not copied has the same block index as the point before it), for any proof
    data whose array is `V`'s (`hA`) and whose body leaves the block in place (`hafter`). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current buffer holds the window's block at every point, whether or not the block was copied in
    at that point (a point at which it was not copied has the same block index as the point before it), for any proof
    data whose array is `V`'s (`hA`) and whose body leaves the block in place (`hafter`). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current buffer holds the window's block at every point, whether or not the block was copied in
    at that point (a point at which it was not copied has the same block index as the point before it), for any proof
    data whose array is `V`'s (`hA`) and whose body leaves the block in place (`hafter`). -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current buffer holds the window's block at every point, whether or not the block was copied in
    at that point (a point at which it was not copied has the same block index as the point before it), for any proof
    data whose array is `V`'s (`hA`) and whose body leaves the block in place (`hafter`). -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store take a whole buffer -/

abbrev r3_0 : Rect S256x2048 := Rect.unit (s := S256x2048) ![0, 0] S256x2048.size inb_S256x2048_S256x2048_0_0
abbrev r3_1 : Rect S2048x2048 := Rect.unit (s := S2048x2048) ![0, 0] S2048x2048.size inb_S2048x2048_S2048x2048_0_0
abbrev r3_2 : Rect S1x2048 := Rect.unit (s := S1x2048) ![0, 0] S1x2048.size inb_S1x2048_S1x2048_0_0

/-! ## What the body leaves in the output window's buffer -/

/-- Window 8's buffer after the body, from the input windows' blocks: the body's one store, whose payload is
    `k3_pay1` of the loaded blocks — with `r` = `x2` and `z` = `x3` widened to f32, and `n` the hyperbolic tangent of
    `(x0 · x4 + x6) + r * (bf16 x1 · x5 + x7)` (the f32 block `x1` rounded to bf16 in the product, the bias rows `x6`, `x7` broadcast
    down the 256 rows), the f32 block `(1 - z) * n + z * x1`. -/
def out3_8 (x0 : Vec F S256x2048 .bf16) (x1 : Vec F S256x2048 .f32) (x2 : Vec F S256x2048 .bf16) (x3 : Vec F S256x2048 .bf16) (x4 : Vec F S2048x2048 .bf16) (x5 : Vec F S2048x2048 .bf16) (x6 : Vec F S1x2048 .f32) (x7 : Vec F S1x2048 .f32) : Vec F S256x2048 .f32 :=
  View.canon [⟨r3_0, k3_pay1 (View.ld x0 r3_0) (View.ld x1 r3_0) (View.ld x2 r3_0) (View.ld x3 r3_0) (View.ld x4 r3_1) (View.ld x6 r3_2) (View.ld x5 r3_1) (View.ld x7 r3_2)⟩]

/-- The one store's rectangle is the whole buffer, so it covers it. -/
theorem cover3_8 (p0 : Vec F S256x2048 .f32) (y : S256x2048.Idx) :
    ∃ pc ∈ ([⟨r3_0, p0⟩] : List (View.Piece (Elt F) S256x2048 .f32)), y ∈ pc.1.set :=
  View.cover_of_tiled [⟨r3_0, p0⟩] S256x2048.size (by rfl) y

/-! ## The body's triple -/

set_option maxHeartbeats 1000000 in
/-- The kernel body on whole buffers — the inputs' holding `x0 … x7`, the output's holding anything — runs to a state in
    which the inputs' hold what they held and the output's holds `out3_8` of the inputs. -/
theorem sound_kernel3 (c : Dev nD) (E : Set ℕ) (i : grid3.Coords) (arg1 : Memref sig .tc .vmem S256x2048 .bf16) (harg1 : arg1.IsWhole) (arg2 : Memref sig .tc .vmem S256x2048 .f32) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S256x2048 .f32) (harg9 : arg9.IsWhole)
    (x0 : Vec F S256x2048 .bf16) (x1 : Vec F S256x2048 .f32) (x2 : Vec F S256x2048 .bf16) (x3 : Vec F S256x2048 .bf16) (x4 : Vec F S2048x2048 .bf16) (x5 : Vec F S2048x2048 .bf16) (x6 : Vec F S1x2048 .f32) (x7 : Vec F S1x2048 .f32) (K' : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5 x6 x7)) -∗ K' ⟨⟩))
      ⊢ wp frame (wpE (defs₀ (F := F)) Variants.none c none) E (cc3__gru_n_kernel i arg1 harg1 arg2 harg2 arg3 harg3 arg4 harg4 arg5 harg5 arg6 harg6 arg7 harg7 arg8 harg8 arg9 harg9) K' := by
  simp only [cc3__gru_n_kernel_eq_skeleton]; unfold cc3__gru_n_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover3_8 _)

/-! ## The pipeline's proof data -/

/-- The proof data of the region's pipeline on core `c`: the arrays as the region finds them (`V`); after the body at point `t`
    each input window's buffer holds its block and the output window's holds `out3_8` of the input blocks; the invariant is
    the one that leaves the rest of the memory and the generator register untouched; nothing is owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]

/-- Each input window's current buffer holds the window's block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation, at a generic point -/

/-- What the body is called with at point `t`: the invariant, what is owed, and each window's current buffer, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

/-- The body at any point: the input buffers hold their blocks (`before3_w`), so `sound_kernel3` applies; the invariant and
    what is owed pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.RegionB4.lean ====
import proofs.«109395_j20375324852595_2_alg».proof.Proof.Gen.Kernel.Launch
import proofs.«109395_j20375324852595_2_alg».proof.Proof.Gen.Kernel.Skeleton
import proofs.«109395_j20375324852595_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4: the pipelined call of `cc4__prior_mlp_kernel`, at the buffer contents `V` it is entered with

Every statement here is at a parameter `V`: what each TensorCore buffer holds when the region starts. From `V` we
read each window's block at a grid point, say what the kernel body leaves in each output window's staging buffer as a
function of the input blocks, prove the body's triple on whole staging buffers, and package the three as the
pipeline's proof data together with the obligation "the body, called at point `t`, takes the blocks before to the
blocks after". -/

-- membership of an index in a rectangle of these extents recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each TensorCore buffer holds when the region is entered
variable (V : (c : Dev nD) → (b : Ref sig .tc) → Buf (Elt F) ((c : Thread nD τ).loc b))

/-! ## The windows' blocks -/

/-- Window `w`'s block at grid point `t`: the rectangle of the window's array that the window's index map selects at
    `t`, read off the array's contents at region entry. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's current staging buffer holds the window's block at EVERY point, whether the pipeline fetched it
there or not (where it did not, the window's block index has not moved since the last fetch, so the block is the same
one): for any proof data whose array is `V`'s (`hA`) and whose body leaves the input block in place (`hafter`). The
windows are uncut and have no idle point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body loads and stores -/

/-- the whole 128×2048 block of window 0 -/
abbrev r4_0 : Rect S128x2048 := Rect.unit (s := S128x2048) ![0, 0] S128x2048.size inb_S128x2048_S128x2048_0_0
/-- the whole 2048×2048 block (windows 1 and 3) -/
abbrev r4_1 : Rect S2048x2048 := Rect.unit (s := S2048x2048) ![0, 0] S2048x2048.size inb_S2048x2048_S2048x2048_0_0
/-- the whole 1×2048 row (windows 2 and 4) -/
abbrev r4_2 : Rect S1x2048 := Rect.unit (s := S1x2048) ![0, 0] S1x2048.size inb_S1x2048_S1x2048_0_0
/-- the whole 2048×1024 block (windows 5 and 7) -/
abbrev r4_3 : Rect S2048x1024 := Rect.unit (s := S2048x1024) ![0, 0] S2048x1024.size inb_S2048x1024_S2048x1024_0_0
/-- the whole 1×1024 row (windows 6 and 8) -/
abbrev r4_4 : Rect S1x1024 := Rect.unit (s := S1x1024) ![0, 0] S1x1024.size inb_S1x1024_S1x1024_0_0
/-- the whole 128×1024 block of an output window (windows 9 and 10) -/
abbrev r4_5 : Rect S128x1024 := Rect.unit (s := S128x1024) ![0, 0] S128x1024.size inb_S128x1024_S128x1024_0_0

/-! ## What the body leaves in each output window's staging buffer -/

/-- Window 9's staging buffer after the body: one store of the whole block, of `k4_pay3` of the blocks of windows 0–6
    (the two hidden layers applied to the rows of window 0, then the first head's affine map). Windows 7 and 8 are not read. -/
def out4_9 (x0 : Vec F S128x2048 .f32) (x1 : Vec F S2048x2048 .bf16) (x2 : Vec F S1x2048 .f32) (x3 : Vec F S2048x2048 .bf16) (x4 : Vec F S1x2048 .f32) (x5 : Vec F S2048x1024 .bf16) (x6 : Vec F S1x1024 .f32) (x7 : Vec F S2048x1024 .bf16) (x8 : Vec F S1x1024 .f32) : Vec F S128x1024 .f32 :=
  View.canon [⟨r4_5, k4_pay3 (View.ld x0 r4_0) (View.ld x1 r4_1) (View.ld x2 r4_2) (View.ld x3 r4_1) (View.ld x4 r4_2) (View.ld x5 r4_3) (View.ld x6 r4_4)⟩]

/-- The store rectangle is the whole buffer, so every index of the buffer is under a piece. -/
theorem cover4_9 (p0 : Vec F S128x1024 .f32) (y : S128x1024.Idx) :
    ∃ pc ∈ ([⟨r4_5, p0⟩] : List (View.Piece (Elt F) S128x1024 .f32)), y ∈ pc.1.set :=
  View.cover_of_tiled [⟨r4_5, p0⟩] S128x1024.size (by rfl) y

/-- Window 10's staging buffer after the body: one store of the whole block, of `k4_pay1` of the hidden activations
    `k4_pay2` (of the blocks of windows 0–4) and the blocks of windows 7 and 8 (the second head: affine map, softplus,
    plus a constant). Windows 5 and 6 are not read. -/
def out4_10 (x0 : Vec F S128x2048 .f32) (x1 : Vec F S2048x2048 .bf16) (x2 : Vec F S1x2048 .f32) (x3 : Vec F S2048x2048 .bf16) (x4 : Vec F S1x2048 .f32) (x5 : Vec F S2048x1024 .bf16) (x6 : Vec F S1x1024 .f32) (x7 : Vec F S2048x1024 .bf16) (x8 : Vec F S1x1024 .f32) : Vec F S128x1024 .f32 :=
  View.canon [⟨r4_5, k4_pay1 (k4_pay2 (View.ld x0 r4_0) (View.ld x1 r4_1) (View.ld x2 r4_2) (View.ld x3 r4_1) (View.ld x4 r4_2)) (View.ld x7 r4_3) (View.ld x8 r4_4)⟩]

/-- The store rectangle is the whole buffer, so every index of the buffer is under a piece. -/
theorem cover4_10 (p0 : Vec F S128x1024 .f32) (y : S128x1024.Idx) :
    ∃ pc ∈ ([⟨r4_5, p0⟩] : List (View.Piece (Elt F) S128x1024 .f32)), y ∈ pc.1.set :=
  View.cover_of_tiled [⟨r4_5, p0⟩] S128x1024.size (by rfl) y

/-! ## The body's triple -/

set_option maxHeartbeats 1000000 in
/-- The kernel function on whole staging buffers — the input windows' at contents `x0`, …, the output windows' at
    anything — runs to a state where the inputs' buffers are unchanged and each output's buffer holds `out4_w` of the
    inputs: the function is a sequence of whole-rectangle loads, pure values of what was loaded, and whole-rectangle
    stores; the grid coordinate `i` is not read. -/
theorem sound_kernel4 (c : Dev nD) (E : Set ℕ) (i : grid4.Coords) (arg1 : Memref sig .tc .vmem S128x2048 .f32) (harg1 : arg1.IsWhole) (arg2 : Memref sig .tc .vmem S2048x2048 .bf16) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S128x1024 .f32) (harg10 : arg10.IsWhole) (arg11 : Memref sig .tc .vmem S128x1024 .f32) (harg11 : arg11.IsWhole)
    (x0 : Vec F S128x2048 .f32) (x1 : Vec F S2048x2048 .bf16) (x2 : Vec F S1x2048 .f32) (x3 : Vec F S2048x2048 .bf16) (x4 : Vec F S1x2048 .f32) (x5 : Vec F S2048x1024 .bf16) (x6 : Vec F S1x1024 .f32) (x7 : Vec F S2048x1024 .bf16) (x8 : Vec F S1x1024 .f32) (K' : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out4_9 x0 x1 x2 x3 x4 x5 x6 x7 x8) ∗ owns (c : Thread nD τ) arg11 fullShare (out4_10 x0 x1 x2 x3 x4 x5 x6 x7 x8)) -∗ K' ⟨⟩))
      ⊢ wp frame (wpE (defs₀ (F := F)) Variants.none c none) E (cc4__prior_mlp_kernel i arg1 harg1 arg2 harg2 arg3 harg3 arg4 harg4 arg5 harg5 arg6 harg6 arg7 harg7 arg8 harg8 arg9 harg9 arg10 harg10 arg11 harg11) K' := by
  simp only [cc4__prior_mlp_kernel_eq_skeleton]; unfold cc4__prior_mlp_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover4_9 _)
  iexists _; isplitr
  swap; · iexact H10
  ipureintro
  try dsimp only
  exact View.read_writes_eq_canon _ _ _ (cover4_10 _)

/-! ## The pipeline's proof data -/

/-- The proof data of this pipeline on core `c`: its arrays hold what the region finds in them (`V`); after the body
    at point `t` each input window's buffer still holds its block and each output window's holds `out4_w` of the
    input blocks; the invariant is "the rest of the core's state is untouched"; nothing is owed; shares are full. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
    | ⟨10, _⟩ => out4_10 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-! What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]
theorem after4_10 (c : Dev nD) (t : Fin cfg4.N) : (dat4 V c).after 10 t = out4_10 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

/-! Each input window's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-! ## The body obligation, at a generic point -/

/-- What the body is called with at point `t`: the invariant, the core's debts, and every window's current staging
    buffer at what the pipeline put there, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d)))

/-- and what it returns: the same buffers at what the proof data says the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t))

/-- The body at any point: the inputs' buffers hold their blocks, so the body's triple applies at those blocks; the
    invariant and the debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel4 c Set.univ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr
-- ==== Proof.RegionB5.lean ====
/- Region 5 of the idealized kernel program (the kernel function `cc5__q0_kernel`), the part of its frame proof that
   is about one grid point, at arbitrary region-entry contents `V` and an arbitrary float instance.
   The body reads two 256×2048 f32 blocks, the two 2048×2048 halves of a 4096×2048 bf16 block and a 1×2048 f32
   row, and overwrites a 256×2048 bf16 block with one pure function of them. This module names each window's block at a
   point, says what the body leaves in the output buffer as a function of the input blocks, proves the body's
   triple on whole buffers, and packages the result as the pipeline's proof data and its body obligation. -/
import proofs.«109395_j20375324852595_2_alg».proof.Proof.Gen.Kernel.Launch
import proofs.«109395_j20375324852595_2_alg».proof.Proof.Gen.Kernel.Skeleton
import proofs.«109395_j20375324852595_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents in the thousands is decided coordinate by coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents at the moment the region is entered; everything below is stated at an
-- arbitrary such `V`
variable (V : (c : Dev nD) → (b : Ref sig .tc) → Buf (Elt F) ((c : Thread nD τ).loc b))

/-! # Region 5: the kernel function `cc5__q0_kernel` on its grid of 16 points -/

/-! ## The windows' blocks -/

/-- The block of window `w` at grid point `t`: the entries of the window's array, as the region finds it, that lie in
    the rectangle the window's index map selects at `t`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0: at every point the body finds the window's block in the window's buffer, whether the block was
    copied in at this point or at an earlier one — between two copies the index map has not moved, and the body never
    writes the buffer. Stated for any proof data with array `V`'s (`hA`) whose body leaves the block in place (`hafter`). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1: at every point the body finds the window's block in the window's buffer, whether the block was
    copied in at this point or at an earlier one — between two copies the index map has not moved, and the body never
    writes the buffer. Stated for any proof data with array `V`'s (`hA`) whose body leaves the block in place (`hafter`). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2: at every point the body finds the window's block in the window's buffer, whether the block was
    copied in at this point or at an earlier one — between two copies the index map has not moved, and the body never
    writes the buffer. Stated for any proof data with array `V`'s (`hA`) whose body leaves the block in place (`hafter`). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3: at every point the body finds the window's block in the window's buffer, whether the block was
    copied in at this point or at an earlier one — between two copies the index map has not moved, and the body never
    writes the buffer. Stated for any proof data with array `V`'s (`hA`) whose body leaves the block in place (`hafter`). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The rectangles the body reads and writes -/

/-- The whole of a 256×2048 buffer: what the body loads of windows 0 and 1, and where it stores in window 4. -/
abbrev r5_0 : Rect S256x2048 := Rect.unit (s := S256x2048) ![0, 0] S256x2048.size inb_S256x2048_S256x2048_0_0
/-- Rows 0–2047 of window 2's 4096×2048 buffer. -/
abbrev r5_1 : Rect S4096x2048 := Rect.unit (s := S4096x2048) ![0, 0] S2048x2048.size inb_S4096x2048_S2048x2048_0_0
/-- Rows 2048–4095 of window 2's 4096×2048 buffer. -/
abbrev r5_2 : Rect S4096x2048 := Rect.unit (s := S4096x2048) ![2048, 0] S2048x2048.size inb_S4096x2048_S2048x2048_2048_0
/-- The whole of window 3's 1×2048 buffer. -/
abbrev r5_3 : Rect S1x2048 := Rect.unit (s := S1x2048) ![0, 0] S1x2048.size inb_S1x2048_S1x2048_0_0

/-! ## What the body leaves in each output window's buffer -/

/-- Window 4's buffer after the body, as a function of the input windows' blocks: the body's one store covers the
    whole 256×2048 buffer with `k5_pay1` of the two f32 blocks, the upper and the lower half of window 2's block, and
    window 3's row. -/
def out5_4 (x0 : Vec F S256x2048 .f32) (x1 : Vec F S256x2048 .f32) (x2 : Vec F S4096x2048 .bf16) (x3 : Vec F S1x2048 .f32) : Vec F S256x2048 .bf16 :=
  View.canon [⟨r5_0, k5_pay1 (View.ld x0 r5_0) (View.ld x1 r5_0) (View.ld x2 r5_1) (View.ld x2 r5_2) (View.ld x3 r5_3)⟩]

/-- The stored rectangles tile the 256x2048 buffer, so every index lies in one of them. -/
theorem cover5_4 (p0 : Vec F S256x2048 .bf16) (y : S256x2048.Idx) :
    ∃ pc ∈ ([⟨r5_0, p0⟩] : List (View.Piece (Elt F) S256x2048 .bf16)), y ∈ pc.1.set :=
  View.cover_of_tiled [⟨r5_0, p0⟩] S256x2048.size (by rfl) y

/-! ## The body on whole buffers -/

set_option maxHeartbeats 1000000 in
/-- The body on whole buffers: from the input buffers at contents `x0 … x3` and the output buffer at any contents, it
    runs to the continuation with the inputs as they were and the output buffer at `out5_4 x0 x1 x2 x3`. The body's
    five loads read the rectangles above, its load of the output buffer is not used, and its one store writes the
    payload over the whole buffer. -/
theorem sound_kernel5 (c : Dev nD) (E : Set ℕ) (i : grid5.Coords) (arg1 : Memref sig .tc .vmem S256x2048 .f32) (harg1 : arg1.IsWhole) (arg2 : Memref sig .tc .vmem S256x2048 .f32) (harg2 : arg2.IsWhole) (arg3 : Memref sig .tc .vmem S4096x2048 .bf16) (harg3 : arg3.IsWhole) (arg4 : Memref sig .tc .vmem S1x2048 .f32) (harg4 : arg4.IsWhole) (arg5 : Memref sig .tc .vmem S256x2048 .bf16) (harg5 : arg5.IsWhole)
    (x0 : Vec F S256x2048 .f32) (x1 : Vec F S256x2048 .f32) (x2 : Vec F S4096x2048 .bf16) (x3 : Vec F S1x2048 .f32) (K' : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 x0 x1 x2 x3)) -∗ K' ⟨⟩))
      ⊢ wp frame (wpE (defs₀ (F := F)) Variants.none c none) E (cc5__q0_kernel i arg1 harg1 arg2 harg2 arg3 harg3 arg4 harg4 arg5 harg5) K' := by
  simp only [cc5__q0_kernel_eq_skeleton]; unfold cc5__q0_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover5_4 _)

/-! ## The pipeline's proof data -/

/-- The proof data of region 5's pipeline on core `c`: each window's array as the region finds it; after the body at
    point `t`, every input window's buffer still at its block and every output window's buffer at `out5_w` of the
    input blocks; the invariant is the one that leaves the scoped buffers and the generator register untouched; full
    shares; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

/-- What the body finds in each input window's buffer: the window's block, at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`: the invariant, the core's debts, and each window's current buffer at
    what the pipeline has put there; -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns: the same, each buffer at what the body leaves in it. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the input buffers hold their blocks (`before5_w`), so the body's triple on whole buffers
    applies; the invariant and the core's debts are not touched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation: the triple above at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.RegionB6.lean ====
/- Region 6 of the idealized kernel program (the kernel function `cc6__post_mlp_kernel`), the part of its frame proof
   that is about one grid point, at arbitrary region-entry contents `V` and an arbitrary float instance.
   The body reads a 256×2048 bf16 block, a 2048×2048 bf16 matrix with its 1×2048 f32 row, and two 2048×1024 bf16 matrices
   each with its 1×1024 f32 row, and overwrites two 256×1024 f32 blocks, each with one pure function of what it read.
   This module names each window's block at a point, says what the body leaves in each output buffer as a function of
   the input blocks, proves the body's triple on whole buffers, and packages the result as the pipeline's proof data
   and its body obligation. -/
import proofs.«109395_j20375324852595_2_alg».proof.Proof.Gen.Kernel.Launch
import proofs.«109395_j20375324852595_2_alg».proof.Proof.Gen.Kernel.Skeleton
import proofs.«109395_j20375324852595_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents in the thousands is decided coordinate by coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents at the moment the region is entered; everything below is stated at an
-- arbitrary such `V`
variable (V : (c : Dev nD) → (b : Ref sig .tc) → Buf (Elt F) ((c : Thread nD τ).loc b))

/-! # Region 6: the kernel function `cc6__post_mlp_kernel` on its grid of 16 points -/

/-! ## The windows' blocks -/

/-- The block of window `w` at grid point `t`: the entries of the window's array, as the region finds it, that lie in
    the rectangle the window's index map selects at `t`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0: at every point the body finds the window's block in the window's buffer, whether the block was
    copied in at this point or at an earlier one — between two copies the index map has not moved, and the body never
    writes the buffer. Stated for any proof data with array `V`'s (`hA`) whose body leaves the block in place (`hafter`). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1: at every point the body finds the window's block in the window's buffer, whether the block was
    copied in at this point or at an earlier one — between two copies the index map has not moved, and the body never
    writes the buffer. Stated for any proof data with array `V`'s (`hA`) whose body leaves the block in place (`hafter`). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2: at every point the body finds the window's block in the window's buffer, whether the block was
    copied in at this point or at an earlier one — between two copies the index map has not moved, and the body never
    writes the buffer. Stated for any proof data with array `V`'s (`hA`) whose body leaves the block in place (`hafter`). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3: at every point the body finds the window's block in the window's buffer, whether the block was
    copied in at this point or at an earlier one — between two copies the index map has not moved, and the body never
    writes the buffer. Stated for any proof data with array `V`'s (`hA`) whose body leaves the block in place (`hafter`). -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4: at every point the body finds the window's block in the window's buffer, whether the block was
    copied in at this point or at an earlier one — between two copies the index map has not moved, and the body never
    writes the buffer. Stated for any proof data with array `V`'s (`hA`) whose body leaves the block in place (`hafter`). -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5: at every point the body finds the window's block in the window's buffer, whether the block was
    copied in at this point or at an earlier one — between two copies the index map has not moved, and the body never
    writes the buffer. Stated for any proof data with array `V`'s (`hA`) whose body leaves the block in place (`hafter`). -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6: at every point the body finds the window's block in the window's buffer, whether the block was
    copied in at this point or at an earlier one — between two copies the index map has not moved, and the body never
    writes the buffer. Stated for any proof data with array `V`'s (`hA`) whose body leaves the block in place (`hafter`). -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The rectangles the body reads and writes -/

/-- The whole of window 0's 256×2048 buffer. -/
abbrev r6_0 : Rect S256x2048 := Rect.unit (s := S256x2048) ![0, 0] S256x2048.size inb_S256x2048_S256x2048_0_0
/-- The whole of window 1's 2048×2048 buffer. -/
abbrev r6_1 : Rect S2048x2048 := Rect.unit (s := S2048x2048) ![0, 0] S2048x2048.size inb_S2048x2048_S2048x2048_0_0
/-- The whole of window 2's 1×2048 buffer. -/
abbrev r6_2 : Rect S1x2048 := Rect.unit (s := S1x2048) ![0, 0] S1x2048.size inb_S1x2048_S1x2048_0_0
/-- The whole of a 2048×1024 buffer (windows 3 and 5). -/
abbrev r6_3 : Rect S2048x1024 := Rect.unit (s := S2048x1024) ![0, 0] S2048x1024.size inb_S2048x1024_S2048x1024_0_0
/-- The whole of a 1×1024 buffer (windows 4 and 6). -/
abbrev r6_4 : Rect S1x1024 := Rect.unit (s := S1x1024) ![0, 0] S1x1024.size inb_S1x1024_S1x1024_0_0
/-- The whole of a 256×1024 buffer: where the body stores in windows 7 and 8. -/
abbrev r6_5 : Rect S256x1024 := Rect.unit (s := S256x1024) ![0, 0] S256x1024.size inb_S256x1024_S256x1024_0_0

/-! ## What the body leaves in each output window's buffer -/

/-- Window 7's buffer after the body, as a function of the input windows' blocks: one store over the whole 256×1024
    buffer, of `k6_pay3` of windows 0, 1, 2 (the shared first layer) and windows 3, 4 (this output's matrix and row).
    Windows 5 and 6 are arguments only so that both outputs take the same list. -/
def out6_7 (x0 : Vec F S256x2048 .bf16) (x1 : Vec F S2048x2048 .bf16) (x2 : Vec F S1x2048 .f32) (x3 : Vec F S2048x1024 .bf16) (x4 : Vec F S1x1024 .f32) (x5 : Vec F S2048x1024 .bf16) (x6 : Vec F S1x1024 .f32) : Vec F S256x1024 .f32 :=
  View.canon [⟨r6_5, k6_pay3 (View.ld x0 r6_0) (View.ld x1 r6_1) (View.ld x2 r6_2) (View.ld x3 r6_3) (View.ld x4 r6_4)⟩]

/-- The stored rectangles tile the 256x1024 buffer, so every index lies in one of them. -/
theorem cover6_7 (p0 : Vec F S256x1024 .f32) (y : S256x1024.Idx) :
    ∃ pc ∈ ([⟨r6_5, p0⟩] : List (View.Piece (Elt F) S256x1024 .f32)), y ∈ pc.1.set :=
  View.cover_of_tiled [⟨r6_5, p0⟩] S256x1024.size (by rfl) y

/-- Window 8's buffer after the body, as a function of the input windows' blocks: one store over the whole 256×1024
    buffer, of `k6_pay1` of four intermediate values — each a function of windows 0, 1, 2 (the shared first layer) and
    windows 5, 6 (this output's matrix and row) — and the f32 constant zero. Windows 3 and 4 are arguments only so that
    both outputs take the same list. -/
def out6_8 (x0 : Vec F S256x2048 .bf16) (x1 : Vec F S2048x2048 .bf16) (x2 : Vec F S1x2048 .f32) (x3 : Vec F S2048x1024 .bf16) (x4 : Vec F S1x1024 .f32) (x5 : Vec F S2048x1024 .bf16) (x6 : Vec F S1x1024 .f32) : Vec F S256x1024 .f32 :=
  View.canon [⟨r6_5, k6_pay1 (k6_pay5 (View.ld x0 r6_0) (View.ld x1 r6_1) (View.ld x2 r6_2) (View.ld x5 r6_3) (View.ld x6 r6_4)) (k6_pay7 (View.ld x0 r6_0) (View.ld x1 r6_1) (View.ld x2 r6_2) (View.ld x5 r6_3) (View.ld x6 r6_4))
      (k6_pay8 (View.ld x0 r6_0) (View.ld x1 r6_1) (View.ld x2 r6_2) (View.ld x5 r6_3) (View.ld x6 r6_4)) (k6_pay9 (View.ld x0 r6_0) (View.ld x1 r6_1) (View.ld x2 r6_2) (View.ld x5 r6_3) (View.ld x6 r6_4)) (Scalar.ofBits .f32 0x00000000#32)⟩]

/-- The stored rectangles tile the 256x1024 buffer, so every index lies in one of them. -/
theorem cover6_8 (p0 : Vec F S256x1024 .f32) (y : S256x1024.Idx) :
    ∃ pc ∈ ([⟨r6_5, p0⟩] : List (View.Piece (Elt F) S256x1024 .f32)), y ∈ pc.1.set :=
  View.cover_of_tiled [⟨r6_5, p0⟩] S256x1024.size (by rfl) y

/-! ## The body on whole buffers -/

set_option maxHeartbeats 1000000 in
/-- The body on whole buffers: from the input buffers at contents `x0 … x6` and the two output buffers at any
    contents, it runs to the continuation with the inputs as they were and the output buffers at `out6_7 x0 … x6` and
    `out6_8 x0 … x6`. The first part of the body loads the seven rectangles above and returns the intermediate
    values; the rest loads each output buffer (unused) and overwrites it. -/
theorem sound_kernel6 (c : Dev nD) (E : Set ℕ) (i : grid6.Coords) (arg1 : Memref sig .tc .vmem S256x2048 .bf16) (harg1 : arg1.IsWhole) (arg2 : Memref sig .tc .vmem S2048x2048 .bf16) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .f32) (harg9 : arg9.IsWhole)
    (x0 : Vec F S256x2048 .bf16) (x1 : Vec F S2048x2048 .bf16) (x2 : Vec F S1x2048 .f32) (x3 : Vec F S2048x1024 .bf16) (x4 : Vec F S1x1024 .f32) (x5 : Vec F S2048x1024 .bf16) (x6 : Vec F S1x1024 .f32) (K' : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out6_7 x0 x1 x2 x3 x4 x5 x6) ∗ owns (c : Thread nD τ) arg9 fullShare (out6_8 x0 x1 x2 x3 x4 x5 x6)) -∗ K' ⟨⟩))
      ⊢ wp frame (wpE (defs₀ (F := F)) Variants.none c none) E (cc6__post_mlp_kernel i arg1 harg1 arg2 harg2 arg3 harg3 arg4 harg4 arg5 harg5 arg6 harg6 arg7 harg7 arg8 harg8 arg9 harg9) K' := by
  simp only [cc6__post_mlp_kernel_eq_skeleton]; unfold cc6__post_mlp_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover6_7 _)
  iexists _; isplitr
  swap; · iexact H8
  ipureintro
  try dsimp only
  exact View.read_writes_eq_canon _ _ _ (cover6_8 _)

/-! ## The pipeline's proof data -/

/-- The proof data of region 6's pipeline on core `c`: each window's array as the region finds it; after the body at
    point `t`, every input window's buffer still at its block and every output window's buffer at `out6_w` of the
    input blocks; the invariant is the one that leaves the scoped buffers and the generator register untouched; full
    shares; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
    | ⟨8, _⟩ => out6_8 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]
theorem after6_8 (c : Dev nD) (t : Fin cfg6.N) : (dat6 V c).after 8 t = out6_8 (iblk6 V c 0 t) (iblk6 V c 1 t) (iblk6 V c 2 t) (iblk6 V c 3 t) (iblk6 V c 4 t) (iblk6 V c 5 t) (iblk6 V c 6 t) := by dsimp only [dat6]

/-- What the body finds in each input window's buffer: the window's block, at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The body obligation, at a generic point -/

/-- What the body is called with at point `t`: the invariant, the core's debts, and each window's current buffer at
    what the pipeline has put there; -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d)))

/-- and what it returns: the same, each buffer at what the body leaves in it. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t))

/-- The body at any point: the input buffers hold their blocks (`before6_w`), so the body's triple on whole buffers
    applies; the invariant and the core's debts are not touched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel6 c Set.univ _ _ _ _ _ _ _ _ _ _ _ _ _ _ _ _ _ _ _
    (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation: the triple above at every point. -/
theorem body_obligation6 (c : Dev nD) : BodyObligation (dat6 (F := F) V c) (defs₀ (F := F)) Variants.none () Set.univ := fun t => by
  rw [bigSep_W6, bigSep_W6]
  exact sound_body6 V c t

end Cert.Kernel.Fr

end
-- ==== Proof.RunB.lean ====
/- The run of the kernel program as a whole, at any float instance: @main is eight stretches of host operations
  alternating with seven kernel regions. Between two items every unscoped buffer of a core holds a known array:
  at launch the memory; after a host stretch the stretch's operations applied to what was there; after a region
  what was there, except that each output array of the region holds what the region's grid points wrote back, block
  by block. Each region runs from "every buffer at the contents before it" to "every buffer at the contents after
  it" because its arrays can be taken out of the core's buffers, handed to the pipeline, and put back; the host
  stretches run by the operations' own rules. Chaining the fifteen items gives: every weakly fair execution ends,
  nothing faults, and at the end every unscoped buffer holds the last contents of this fold — in particular each
  argument array what it held at launch (no item writes one), and the result array the final concatenation. -/
import proofs.«109395_j20375324852595_2_alg».proof.Proof.RegionB0
import proofs.«109395_j20375324852595_2_alg».proof.Proof.RegionB1
import proofs.«109395_j20375324852595_2_alg».proof.Proof.RegionB2
import proofs.«109395_j20375324852595_2_alg».proof.Proof.RegionB3
import proofs.«109395_j20375324852595_2_alg».proof.Proof.RegionB4
import proofs.«109395_j20375324852595_2_alg».proof.Proof.RegionB5
import proofs.«109395_j20375324852595_2_alg».proof.Proof.RegionB6
import proofs.«109395_j20375324852595_2_alg».proof.Proof.Gen.Kernel.Regions
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s unscoped buffers at launch. -/
abbrev B0 (c : Dev nD) : Valuation τ sig (Elt F) := fun b => m (c, b)
/-- After the host stretch before region 0. -/
abbrev B1 (c : Dev nD) : Valuation τ sig (Elt F) := StableHlo.after hostOps0 (B0 m c)
/-- The same, read at the TensorCore's references: what region 0 is entered from. -/
abbrev E1 : (c : Dev nD) → (b : Ref sig .tc) → Buf (Elt F) ((c : Thread nD τ).loc b) := fun c b => B1 m c b
/-- After region 0: as before it, except that `main_v14` hold what the region's points wrote back. -/
def B2 (c : Dev nD) : Valuation τ sig (Elt F) :=
  Function.update (B1 m c) main_v14 ((dat0 (E1 m) c).arrAt 6 cfg0.N)
abbrev E2 : (c : Dev nD) → (b : Ref sig .tc) → Buf (Elt F) ((c : Thread nD τ).loc b) := fun c b => B2 m c b
/-- After the host stretch before region 1. -/
abbrev B3 (c : Dev nD) : Valuation τ sig (Elt F) := StableHlo.after hostOps1 (B2 m c)
/-- The same, read at the TensorCore's references: what region 1 is entered from. -/
abbrev E3 : (c : Dev nD) → (b : Ref sig .tc) → Buf (Elt F) ((c : Thread nD τ).loc b) := fun c b => B3 m c b
/-- After region 1: as before it, except that `main_v17` hold what the region's points wrote back. -/
def B4 (c : Dev nD) : Valuation τ sig (Elt F) :=
  Function.update (B3 m c) main_v17 ((dat1 (E3 m) c).arrAt 6 cfg1.N)
abbrev E4 : (c : Dev nD) → (b : Ref sig .tc) → Buf (Elt F) ((c : Thread nD τ).loc b) := fun c b => B4 m c b
/-- After the host stretch before region 2. -/
abbrev B5 (c : Dev nD) : Valuation τ sig (Elt F) := StableHlo.after hostOps2 (B4 m c)
/-- The same, read at the TensorCore's references: what region 2 is entered from. -/
abbrev E5 : (c : Dev nD) → (b : Ref sig .tc) → Buf (Elt F) ((c : Thread nD τ).loc b) := fun c b => B5 m c b
/-- After region 2: as before it, except that `main_v20` hold what the region's points wrote back. -/
def B6 (c : Dev nD) : Valuation τ sig (Elt F) :=
  Function.update (B5 m c) main_v20 ((dat2 (E5 m) c).arrAt 6 cfg2.N)
abbrev E6 : (c : Dev nD) → (b : Ref sig .tc) → Buf (Elt F) ((c : Thread nD τ).loc b) := fun c b => B6 m c b
/-- After the host stretch before region 3. -/
abbrev B7 (c : Dev nD) : Valuation τ sig (Elt F) := StableHlo.after hostOps3 (B6 m c)
/-- The same, read at the TensorCore's references: what region 3 is entered from. -/
abbrev E7 : (c : Dev nD) → (b : Ref sig .tc) → Buf (Elt F) ((c : Thread nD τ).loc b) := fun c b => B7 m c b
/-- After region 3: as before it, except that `main_v23` hold what the region's points wrote back. -/
def B8 (c : Dev nD) : Valuation τ sig (Elt F) :=
  Function.update (B7 m c) main_v23 ((dat3 (E7 m) c).arrAt 8 cfg3.N)
abbrev E8 : (c : Dev nD) → (b : Ref sig .tc) → Buf (Elt F) ((c : Thread nD τ).loc b) := fun c b => B8 m c b
/-- After the host stretch before region 4. -/
abbrev B9 (c : Dev nD) : Valuation τ sig (Elt F) := StableHlo.after hostOps4 (B8 m c)
/-- The same, read at the TensorCore's references: what region 4 is entered from. -/
abbrev E9 : (c : Dev nD) → (b : Ref sig .tc) → Buf (Elt F) ((c : Thread nD τ).loc b) := fun c b => B9 m c b
/-- After region 4: as before it, except that `main_v28_0` and `main_v28_1` hold what the region's points wrote back. -/
def B10 (c : Dev nD) : Valuation τ sig (Elt F) :=
  Function.update (Function.update (B9 m c) main_v28_0 ((dat4 (E9 m) c).arrAt 9 cfg4.N)) main_v28_1 ((dat4 (E9 m) c).arrAt 10 cfg4.N)
abbrev E10 : (c : Dev nD) → (b : Ref sig .tc) → Buf (Elt F) ((c : Thread nD τ).loc b) := fun c b => B10 m c b
/-- After the host stretch before region 5. -/
abbrev B11 (c : Dev nD) : Valuation τ sig (Elt F) := StableHlo.after hostOps5 (B10 m c)
/-- The same, read at the TensorCore's references: what region 5 is entered from. -/
abbrev E11 : (c : Dev nD) → (b : Ref sig .tc) → Buf (Elt F) ((c : Thread nD τ).loc b) := fun c b => B11 m c b
/-- After region 5: as before it, except that `main_v30` hold what the region's points wrote back. -/
def B12 (c : Dev nD) : Valuation τ sig (Elt F) :=
  Function.update (B11 m c) main_v30 ((dat5 (E11 m) c).arrAt 4 cfg5.N)
abbrev E12 : (c : Dev nD) → (b : Ref sig .tc) → Buf (Elt F) ((c : Thread nD τ).loc b) := fun c b => B12 m c b
/-- After the host stretch before region 6. -/
abbrev B13 (c : Dev nD) : Valuation τ sig (Elt F) := StableHlo.after hostOps6 (B12 m c)
/-- The same, read at the TensorCore's references: what region 6 is entered from. -/
abbrev E13 : (c : Dev nD) → (b : Ref sig .tc) → Buf (Elt F) ((c : Thread nD τ).loc b) := fun c b => B13 m c b
/-- After region 6: as before it, except that `main_v34_0` and `main_v34_1` hold what the region's points wrote back. -/
def B14 (c : Dev nD) : Valuation τ sig (Elt F) :=
  Function.update (Function.update (B13 m c) main_v34_0 ((dat6 (E13 m) c).arrAt 7 cfg6.N)) main_v34_1 ((dat6 (E13 m) c).arrAt 8 cfg6.N)
abbrev E14 : (c : Dev nD) → (b : Ref sig .tc) → Buf (Elt F) ((c : Thread nD τ).loc b) := fun c b => B14 m c b
/-- After the last host stretch (the concatenation of the five result pieces). -/
abbrev B15 (c : Dev nD) : Valuation τ sig (Elt F) := StableHlo.after hostOps7 (B14 m c)

/-- What the regions leave, as the family the host side of the run is stated over: after item `J − 1` the buffer `r`
    holds its contents in the fold above. -/
def outs : Outs (F := F) := fun J r c => match J with
  | 2 => B2 m c r | 4 => B4 m c r | 6 => B6 m c r | 8 => B8 m c r | 10 => B10 m c r | 12 => B12 m c r | 14 => B14 m c r
  | _ => B0 m c r

/-! ## The fold above is the host side's chain of contents at these `outs` -/

theorem V1_eq (c : Dev nD) : V1 m c = B1 m c := rfl
theorem V2_eq (c : Dev nD) : V2 m (outs m) c = B2 m c := by
  show Function.update (V1 m c) _ (B2 m c _) = B2 m c
  rw [V1_eq]; unfold B2; rw [Function.update_self]
theorem V3_eq (c : Dev nD) : V3 m (outs m) c = B3 m c := by
  show StableHlo.after hostOps1 (V2 m (outs m) c) = _; rw [V2_eq]
theorem V4_eq (c : Dev nD) : V4 m (outs m) c = B4 m c := by
  show Function.update (V3 m (outs m) c) _ (B4 m c _) = B4 m c
  rw [V3_eq]; unfold B4; rw [Function.update_self]
theorem V5_eq (c : Dev nD) : V5 m (outs m) c = B5 m c := by
  show StableHlo.after hostOps2 (V4 m (outs m) c) = _; rw [V4_eq]
theorem V6_eq (c : Dev nD) : V6 m (outs m) c = B6 m c := by
  show Function.update (V5 m (outs m) c) _ (B6 m c _) = B6 m c
  rw [V5_eq]; unfold B6; rw [Function.update_self]
theorem V7_eq (c : Dev nD) : V7 m (outs m) c = B7 m c := by
  show StableHlo.after hostOps3 (V6 m (outs m) c) = _; rw [V6_eq]
theorem V8_eq (c : Dev nD) : V8 m (outs m) c = B8 m c := by
  show Function.update (V7 m (outs m) c) _ (B8 m c _) = B8 m c
  rw [V7_eq]; unfold B8; rw [Function.update_self]
theorem V9_eq (c : Dev nD) : V9 m (outs m) c = B9 m c := by
  show StableHlo.after hostOps4 (V8 m (outs m) c) = _; rw [V8_eq]
theorem V10_eq (c : Dev nD) : V10 m (outs m) c = B10 m c := by
  show Function.update (Function.update (V9 m (outs m) c) _ (B10 m c _)) _ (B10 m c _) = B10 m c
  rw [V9_eq]; unfold B10
  rw [Function.update_self, Function.update_of_ne (StableHlo.devRef_ne_of_ne (by decide) : (Proc.devRef .tc main_v28_0 : DevRef τ sig) ≠ Proc.devRef .tc main_v28_1), Function.update_self]
theorem V11_eq (c : Dev nD) : V11 m (outs m) c = B11 m c := by
  show StableHlo.after hostOps5 (V10 m (outs m) c) = _; rw [V10_eq]
theorem V12_eq (c : Dev nD) : V12 m (outs m) c = B12 m c := by
  show Function.update (V11 m (outs m) c) _ (B12 m c _) = B12 m c
  rw [V11_eq]; unfold B12; rw [Function.update_self]
theorem V13_eq (c : Dev nD) : V13 m (outs m) c = B13 m c := by
  show StableHlo.after hostOps6 (V12 m (outs m) c) = _; rw [V12_eq]
theorem V14_eq (c : Dev nD) : V14 m (outs m) c = B14 m c := by
  show Function.update (Function.update (V13 m (outs m) c) _ (B14 m c _)) _ (B14 m c _) = B14 m c
  rw [V13_eq]; unfold B14
  rw [Function.update_self, Function.update_of_ne (StableHlo.devRef_ne_of_ne (by decide) : (Proc.devRef .tc main_v34_0 : DevRef τ sig) ≠ Proc.devRef .tc main_v34_1), Function.update_self]
theorem V15_eq (c : Dev nD) : V15 m (outs m) c = B15 m c := by
  show StableHlo.after hostOps7 (V14 m (outs m) c) = _; rw [V14_eq]

/-- A buffer a region does not write holds after the region what it held before. -/
theorem B2_of (c : Dev nD) (r : Ref sig .tc) (h : r ∉ ([main_v14] : List (Ref sig .tc))) : B2 m c r = B1 m c r :=
  (congrFun (V2_eq m c) (Proc.devRef .tc r)).symm.trans ((V2_of m (outs m) c r h).trans (congrFun (V1_eq m c) (Proc.devRef .tc r)))
theorem B4_of (c : Dev nD) (r : Ref sig .tc) (h : r ∉ ([main_v17] : List (Ref sig .tc))) : B4 m c r = B3 m c r :=
  (congrFun (V4_eq m c) (Proc.devRef .tc r)).symm.trans ((V4_of m (outs m) c r h).trans (congrFun (V3_eq m c) (Proc.devRef .tc r)))
theorem B6_of (c : Dev nD) (r : Ref sig .tc) (h : r ∉ ([main_v20] : List (Ref sig .tc))) : B6 m c r = B5 m c r :=
  (congrFun (V6_eq m c) (Proc.devRef .tc r)).symm.trans ((V6_of m (outs m) c r h).trans (congrFun (V5_eq m c) (Proc.devRef .tc r)))
theorem B8_of (c : Dev nD) (r : Ref sig .tc) (h : r ∉ ([main_v23] : List (Ref sig .tc))) : B8 m c r = B7 m c r :=
  (congrFun (V8_eq m c) (Proc.devRef .tc r)).symm.trans ((V8_of m (outs m) c r h).trans (congrFun (V7_eq m c) (Proc.devRef .tc r)))
theorem B10_of (c : Dev nD) (r : Ref sig .tc) (h : r ∉ ([main_v28_0, main_v28_1] : List (Ref sig .tc))) : B10 m c r = B9 m c r :=
  (congrFun (V10_eq m c) (Proc.devRef .tc r)).symm.trans ((V10_of m (outs m) c r h).trans (congrFun (V9_eq m c) (Proc.devRef .tc r)))
theorem B12_of (c : Dev nD) (r : Ref sig .tc) (h : r ∉ ([main_v30] : List (Ref sig .tc))) : B12 m c r = B11 m c r :=
  (congrFun (V12_eq m c) (Proc.devRef .tc r)).symm.trans ((V12_of m (outs m) c r h).trans (congrFun (V11_eq m c) (Proc.devRef .tc r)))
theorem B14_of (c : Dev nD) (r : Ref sig .tc) (h : r ∉ ([main_v34_0, main_v34_1] : List (Ref sig .tc))) : B14 m c r = B13 m c r :=
  (congrFun (V14_eq m c) (Proc.devRef .tc r)).symm.trans ((V14_of m (outs m) c r h).trans (congrFun (V13_eq m c) (Proc.devRef .tc r)))

/-! ## Every pipeline's proof data, each at the contents its region is entered from -/

def pdats : (p : Fin 7) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
  | ⟨6, _⟩ => fun c => dat6 (E13 m) c

/-- No level is assigned and nothing is owed across cores. -/
abbrev Lv : GSem nD τ sig → Finset Unit := fun _ => ∅
abbrev lvl : GSem nD τ sig → Unit → ℕ := fun _ _ => 0
/-- What rides beside the buffers through every item: the core's generator register at some state, and the core owing nothing. -/
abbrev Rst (c : Dev nD) : sProp 𝕄 := iprop((∃ r, prngReg c r) ∗ ∃ W, owes (c : Thread nD τ) (0 : CellTallies nD τ sig Unit) W)

/-! ## What a region leaves: its output arrays at the write-backs' fold, everything else as entered -/

theorem isIn0 : ∀ w : Fin 7, (cfg0.win w).isOut = false ∨ w = 6 := by decide
theorem inNe0 : ∀ w : Fin 7, (cfg0.win w).isOut = false → Pipeline.arrRef spec0 w ∉ ([main_v14] : List (Ref sig .tc)) := by decide
theorem hF0 (c : Dev nD) (w : Fin cfg0.W) : (dat0 (E1 m) c).arrAt w cfg0.N = E2 m c (Pipeline.arrRef spec0 w) := by
  rcases isIn0 w with hw | rfl
  · exact ((dat0 (E1 m) c).arrAt_in w hw _).trans ((A_eq0 (E1 m) c w).trans (B2_of m c _ (inNe0 w hw)).symm)
  · show _ = Function.update (B1 m c) main_v14 _ main_v14; rw [Function.update_self]
theorem hrest0 (c : Dev nD) : ∀ b, b ∉ Finset.univ.image (Pipeline.arrRef spec0) → E2 m c b = E1 m c b := fun b hb =>
  B2_of m c b (fun h => by
    rw [List.mem_singleton] at h; subst h
    exact hb (Finset.mem_image.mpr ⟨6, Finset.mem_univ _, rfl⟩))

theorem isIn1 : ∀ w : Fin 7, (cfg1.win w).isOut = false ∨ w = 6 := by decide
theorem inNe1 : ∀ w : Fin 7, (cfg1.win w).isOut = false → Pipeline.arrRef spec1 w ∉ ([main_v17] : List (Ref sig .tc)) := by decide
theorem hF1 (c : Dev nD) (w : Fin cfg1.W) : (dat1 (E3 m) c).arrAt w cfg1.N = E4 m c (Pipeline.arrRef spec1 w) := by
  rcases isIn1 w with hw | rfl
  · exact ((dat1 (E3 m) c).arrAt_in w hw _).trans ((A_eq1 (E3 m) c w).trans (B4_of m c _ (inNe1 w hw)).symm)
  · show _ = Function.update (B3 m c) main_v17 _ main_v17; rw [Function.update_self]
theorem hrest1 (c : Dev nD) : ∀ b, b ∉ Finset.univ.image (Pipeline.arrRef spec1) → E4 m c b = E3 m c b := fun b hb =>
  B4_of m c b (fun h => by
    rw [List.mem_singleton] at h; subst h
    exact hb (Finset.mem_image.mpr ⟨6, Finset.mem_univ _, rfl⟩))

theorem isIn2 : ∀ w : Fin 7, (cfg2.win w).isOut = false ∨ w = 6 := by decide
theorem inNe2 : ∀ w : Fin 7, (cfg2.win w).isOut = false → Pipeline.arrRef spec2 w ∉ ([main_v20] : List (Ref sig .tc)) := by decide
theorem hF2 (c : Dev nD) (w : Fin cfg2.W) : (dat2 (E5 m) c).arrAt w cfg2.N = E6 m c (Pipeline.arrRef spec2 w) := by
  rcases isIn2 w with hw | rfl
  · exact ((dat2 (E5 m) c).arrAt_in w hw _).trans ((A_eq2 (E5 m) c w).trans (B6_of m c _ (inNe2 w hw)).symm)
  · show _ = Function.update (B5 m c) main_v20 _ main_v20; rw [Function.update_self]
theorem hrest2 (c : Dev nD) : ∀ b, b ∉ Finset.univ.image (Pipeline.arrRef spec2) → E6 m c b = E5 m c b := fun b hb =>
  B6_of m c b (fun h => by
    rw [List.mem_singleton] at h; subst h
    exact hb (Finset.mem_image.mpr ⟨6, Finset.mem_univ _, rfl⟩))

theorem isIn3 : ∀ w : Fin 9, (cfg3.win w).isOut = false ∨ w = 8 := by decide
theorem inNe3 : ∀ w : Fin 9, (cfg3.win w).isOut = false → Pipeline.arrRef spec3 w ∉ ([main_v23] : List (Ref sig .tc)) := by decide
theorem hF3 (c : Dev nD) (w : Fin cfg3.W) : (dat3 (E7 m) c).arrAt w cfg3.N = E8 m c (Pipeline.arrRef spec3 w) := by
  rcases isIn3 w with hw | rfl
  · exact ((dat3 (E7 m) c).arrAt_in w hw _).trans ((A_eq3 (E7 m) c w).trans (B8_of m c _ (inNe3 w hw)).symm)
  · show _ = Function.update (B7 m c) main_v23 _ main_v23; rw [Function.update_self]
theorem hrest3 (c : Dev nD) : ∀ b, b ∉ Finset.univ.image (Pipeline.arrRef spec3) → E8 m c b = E7 m c b := fun b hb =>
  B8_of m c b (fun h => by
    rw [List.mem_singleton] at h; subst h
    exact hb (Finset.mem_image.mpr ⟨8, Finset.mem_univ _, rfl⟩))

theorem isIn4 : ∀ w : Fin 11, (cfg4.win w).isOut = false ∨ w = 9 ∨ w = 10 := by decide
theorem inNe4 : ∀ w : Fin 11, (cfg4.win w).isOut = false → Pipeline.arrRef spec4 w ∉ ([main_v28_0, main_v28_1] : List (Ref sig .tc)) := by decide
theorem hF4 (c : Dev nD) (w : Fin cfg4.W) : (dat4 (E9 m) c).arrAt w cfg4.N = E10 m c (Pipeline.arrRef spec4 w) := by
  rcases isIn4 w with hw | rfl | rfl
  · exact ((dat4 (E9 m) c).arrAt_in w hw _).trans ((A_eq4 (E9 m) c w).trans (B10_of m c _ (inNe4 w hw)).symm)
  · show _ = Function.update (Function.update (B9 m c) main_v28_0 _) main_v28_1 _ main_v28_0
    rw [Function.update_of_ne (StableHlo.devRef_ne_of_ne (by decide) : (Proc.devRef .tc main_v28_0 : DevRef τ sig) ≠ Proc.devRef .tc main_v28_1), Function.update_self]
  · show _ = Function.update (Function.update (B9 m c) main_v28_0 _) main_v28_1 _ main_v28_1; rw [Function.update_self]
theorem hrest4 (c : Dev nD) : ∀ b, b ∉ Finset.univ.image (Pipeline.arrRef spec4) → E10 m c b = E9 m c b := fun b hb =>
  B10_of m c b (fun h => by
    rcases List.mem_cons.mp h with h | h
    · subst h; exact hb (Finset.mem_image.mpr ⟨9, Finset.mem_univ _, rfl⟩)
    · rw [List.mem_singleton] at h; subst h; exact hb (Finset.mem_image.mpr ⟨10, Finset.mem_univ _, rfl⟩))

theorem isIn5 : ∀ w : Fin 5, (cfg5.win w).isOut = false ∨ w = 4 := by decide
theorem inNe5 : ∀ w : Fin 5, (cfg5.win w).isOut = false → Pipeline.arrRef spec5 w ∉ ([main_v30] : List (Ref sig .tc)) := by decide
theorem hF5 (c : Dev nD) (w : Fin cfg5.W) : (dat5 (E11 m) c).arrAt w cfg5.N = E12 m c (Pipeline.arrRef spec5 w) := by
  rcases isIn5 w with hw | rfl
  · exact ((dat5 (E11 m) c).arrAt_in w hw _).trans ((A_eq5 (E11 m) c w).trans (B12_of m c _ (inNe5 w hw)).symm)
  · show _ = Function.update (B11 m c) main_v30 _ main_v30; rw [Function.update_self]
theorem hrest5 (c : Dev nD) : ∀ b, b ∉ Finset.univ.image (Pipeline.arrRef spec5) → E12 m c b = E11 m c b := fun b hb =>
  B12_of m c b (fun h => by
    rw [List.mem_singleton] at h; subst h
    exact hb (Finset.mem_image.mpr ⟨4, Finset.mem_univ _, rfl⟩))

theorem isIn6 : ∀ w : Fin 9, (cfg6.win w).isOut = false ∨ w = 7 ∨ w = 8 := by decide
theorem inNe6 : ∀ w : Fin 9, (cfg6.win w).isOut = false → Pipeline.arrRef spec6 w ∉ ([main_v34_0, main_v34_1] : List (Ref sig .tc)) := by decide
theorem hF6 (c : Dev nD) (w : Fin cfg6.W) : (dat6 (E13 m) c).arrAt w cfg6.N = E14 m c (Pipeline.arrRef spec6 w) := by
  rcases isIn6 w with hw | rfl | rfl
  · exact ((dat6 (E13 m) c).arrAt_in w hw _).trans ((A_eq6 (E13 m) c w).trans (B14_of m c _ (inNe6 w hw)).symm)
  · show _ = Function.update (Function.update (B13 m c) main_v34_0 _) main_v34_1 _ main_v34_0
    rw [Function.update_of_ne (StableHlo.devRef_ne_of_ne (by decide) : (Proc.devRef .tc main_v34_0 : DevRef τ sig) ≠ Proc.devRef .tc main_v34_1), Function.update_self]
  · show _ = Function.update (Function.update (B13 m c) main_v34_0 _) main_v34_1 _ main_v34_1; rw [Function.update_self]
theorem hrest6 (c : Dev nD) : ∀ b, b ∉ Finset.univ.image (Pipeline.arrRef spec6) → E14 m c b = E13 m c b := fun b hb =>
  B14_of m c b (fun h => by
    rcases List.mem_cons.mp h with h | h
    · subst h; exact hb (Finset.mem_image.mpr ⟨7, Finset.mem_univ _, rfl⟩)
    · rw [List.mem_singleton] at h; subst h; exact hb (Finset.mem_image.mpr ⟨8, Finset.mem_univ _, rfl⟩))

/-! ## The regions as items of the run -/

set_option backward.isDefEq.respectTransparency.types false in
/-- Region 0: entered with every unscoped buffer at the contents before it, left with every one at the contents
    after it. Its arrays are split out of the core's buffers and put back at what the pipeline leaves; the generator
    register goes into the pipeline's invariant and comes back; nothing is owed; the kernel has no semaphore of its own. -/
def reg0 : RegionSeg (pcfgs (F := F)) adm (pdats m) () defs₀ Variants.none Lv lvl 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lv lvl 0 fun _ _ => rfl
  pre c := iprop(StableHlo.held (c : Thread nD τ) (Pipeline.ucRefs τ sig) (B1 m c) ∗ Rst c)
  post c := iprop(StableHlo.held (c : Thread nD τ) (Pipeline.ucRefs τ sig) (B2 m c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at the contents before it, left with every one at the contents
    after it. Its arrays are split out of the core's buffers and put back at what the pipeline leaves; the generator
    register goes into the pipeline's invariant and comes back; nothing is owed; the kernel has no semaphore of its own. -/
def reg1 : RegionSeg (pcfgs (F := F)) adm (pdats m) () defs₀ Variants.none Lv lvl 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ Lv lvl 1 fun _ _ => rfl
  pre c := iprop(StableHlo.held (c : Thread nD τ) (Pipeline.ucRefs τ sig) (B3 m c) ∗ Rst c)
  post c := iprop(StableHlo.held (c : Thread nD τ) (Pipeline.ucRefs τ sig) (B4 m c) ∗ Rst c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at the contents before it, left with every one at the contents
    after it. Its arrays are split out of the core's buffers and put back at what the pipeline leaves; the generator
    register goes into the pipeline's invariant and comes back; nothing is owed; the kernel has no semaphore of its own. -/
def reg2 : RegionSeg (pcfgs (F := F)) adm (pdats m) () defs₀ Variants.none Lv lvl 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ Lv lvl 2 fun _ _ => rfl
  pre c := iprop(StableHlo.held (c : Thread nD τ) (Pipeline.ucRefs τ sig) (B5 m c) ∗ Rst c)
  post c := iprop(StableHlo.held (c : Thread nD τ) (Pipeline.ucRefs τ sig) (B6 m c) ∗ Rst c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at the contents before it, left with every one at the contents
    after it. Its arrays are split out of the core's buffers and put back at what the pipeline leaves; the generator
    register goes into the pipeline's invariant and comes back; nothing is owed; the kernel has no semaphore of its own. -/
def reg3 : RegionSeg (pcfgs (F := F)) adm (pdats m) () defs₀ Variants.none Lv lvl 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ Lv lvl 3 fun _ _ => rfl
  pre c := iprop(StableHlo.held (c : Thread nD τ) (Pipeline.ucRefs τ sig) (B7 m c) ∗ Rst c)
  post c := iprop(StableHlo.held (c : Thread nD τ) (Pipeline.ucRefs τ sig) (B8 m c) ∗ Rst c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at the contents before it, left with every one at the contents
    after it. Its arrays are split out of the core's buffers and put back at what the pipeline leaves; the generator
    register goes into the pipeline's invariant and comes back; nothing is owed; the kernel has no semaphore of its own. -/
def reg4 : RegionSeg (pcfgs (F := F)) adm (pdats m) () defs₀ Variants.none Lv lvl 4 where
  win := launch4.win.to₀
  block_pos := launch4.block_pos
  stage_whole := launch4.stage_whole
  K := PEmpty
  osem k := k.elim
  ho := Pipeline.OwnSemFacts.none _
  hbody c := (body_obligation4 (E9 m) c).loose
  hwaits := Pipeline.hwaits_of_owed_zero _ _ _ _ Lv lvl 4 fun _ _ => rfl
  pre c := iprop(StableHlo.held (c : Thread nD τ) (Pipeline.ucRefs τ sig) (B9 m c) ∗ Rst c)
  post c := iprop(StableHlo.held (c : Thread nD τ) (Pipeline.ucRefs τ sig) (B10 m c) ∗ Rst c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E9 m c) (E10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered with every unscoped buffer at the contents before it, left with every one at the contents
    after it. Its arrays are split out of the core's buffers and put back at what the pipeline leaves; the generator
    register goes into the pipeline's invariant and comes back; nothing is owed; the kernel has no semaphore of its own. -/
def reg5 : RegionSeg (pcfgs (F := F)) adm (pdats m) () defs₀ Variants.none Lv lvl 5 where
  win := launch5.win.to₀
  block_pos := launch5.block_pos
  stage_whole := launch5.stage_whole
  K := PEmpty
  osem k := k.elim
  ho := Pipeline.OwnSemFacts.none _
  hbody c := (body_obligation5 (E11 m) c).loose
  hwaits := Pipeline.hwaits_of_owed_zero _ _ _ _ Lv lvl 5 fun _ _ => rfl
  pre c := iprop(StableHlo.held (c : Thread nD τ) (Pipeline.ucRefs τ sig) (B11 m c) ∗ Rst c)
  post c := iprop(StableHlo.held (c : Thread nD τ) (Pipeline.ucRefs τ sig) (B12 m c) ∗ Rst c)
  X c := iprop(∃ r, prngReg c r)
  Y c := iprop(∃ r, prngReg c r)
  Z c := Pipeline.unscopedRest (Ix := Unit) (Name := ℕ) (U := UR sig nD τ) (Lvl := ℕ) spec5 c (E11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E11 m c) (E12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered with every unscoped buffer at the contents before it, left with every one at the contents
    after it. Its arrays are split out of the core's buffers and put back at what the pipeline leaves; the generator
    register goes into the pipeline's invariant and comes back; nothing is owed; the kernel has no semaphore of its own. -/
def reg6 : RegionSeg (pcfgs (F := F)) adm (pdats m) () defs₀ Variants.none Lv lvl 6 where
  win := launch6.win.to₀
  block_pos := launch6.block_pos
  stage_whole := launch6.stage_whole
  K := PEmpty
  osem k := k.elim
  ho := Pipeline.OwnSemFacts.none _
  hbody c := (body_obligation6 (E13 m) c).loose
  hwaits := Pipeline.hwaits_of_owed_zero _ _ _ _ Lv lvl 6 fun _ _ => rfl
  pre c := iprop(StableHlo.held (c : Thread nD τ) (Pipeline.ucRefs τ sig) (B13 m c) ∗ Rst c)
  post c := iprop(StableHlo.held (c : Thread nD τ) (Pipeline.ucRefs τ sig) (B14 m c) ∗ Rst c)
  X c := iprop(∃ r, prngReg c r)
  Y c := iprop(∃ r, prngReg c r)
  Z c := Pipeline.unscopedRest (Ix := Unit) (Name := ℕ) (U := UR sig nD τ) (Lvl := ℕ) spec6 c (E13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (E13 m c) (E14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's dealings, and the chain's ends -/

abbrev u₀ : UR sig nD τ := initOf (Pipeline.cells cfgs cellOf_inj) (Pipeline.launchToks cfgs cellOf_inj)
theorem hu₀ : (ownU (u₀ : UR sig nD τ) : sProp 𝕄) ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Two families, each held on every core, are their pairs held on every core. -/
theorem bigSep_join (A E : Dev nD → sProp 𝕄) : iprop(bigSep Finset.univ A ∗ bigSep Finset.univ E) ⊢ (bigSep Finset.univ (fun c => iprop(A c ∗ E c)) : sProp 𝕄) := by
  rw [bigSep_sep']
/-- At launch each core's generator register and its empty dues make the rest state. -/
theorem hE0 (ρ : Dev nD → PrngReg) : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lv lvl)
    ⊢ (|={Set.univ}=> bigSep Finset.univ (fun c : Dev nD => Rst c) : sProp 𝕄) := by
  refine Pipeline.initEach Lv lvl fun c => ?_
  iintro ⟨⟨-, HO, -, Hp, -⟩, -⟩
  imodintro
  isplitl [Hp]; · iexists _; iexact Hp
  iexists ∅; iexact HO
theorem hE7 (c : Dev nD) : Rst c ⊢ (iprop(∃ W, owes (c : Thread nD τ) (0 : CellTallies nD τ sig Unit) W) : sProp 𝕄) := by
  iintro ⟨-, HO⟩; iexact HO

theorem hpre0 (c : Dev nD) : iprop(StableHlo.held (c : Thread nD τ) (Pipeline.ucRefs τ sig) (V1 m c) ∗ Rst c) ⊢ (reg0 m).pre c := by rw [V1_eq]; exact .rfl
theorem hpost0 (c : Dev nD) : (reg0 m).post c ⊢ iprop(StableHlo.held (c : Thread nD τ) (Pipeline.ucRefs τ sig) (V2 m (outs m) c) ∗ Rst c) := by rw [V2_eq]; exact .rfl
theorem hpre1 (c : Dev nD) : iprop(StableHlo.held (c : Thread nD τ) (Pipeline.ucRefs τ sig) (V3 m (outs m) c) ∗ Rst c) ⊢ (reg1 m).pre c := by rw [V3_eq]; exact .rfl
theorem hpost1 (c : Dev nD) : (reg1 m).post c ⊢ iprop(StableHlo.held (c : Thread nD τ) (Pipeline.ucRefs τ sig) (V4 m (outs m) c) ∗ Rst c) := by rw [V4_eq]; exact .rfl
theorem hpre2 (c : Dev nD) : iprop(StableHlo.held (c : Thread nD τ) (Pipeline.ucRefs τ sig) (V5 m (outs m) c) ∗ Rst c) ⊢ (reg2 m).pre c := by rw [V5_eq]; exact .rfl
theorem hpost2 (c : Dev nD) : (reg2 m).post c ⊢ iprop(StableHlo.held (c : Thread nD τ) (Pipeline.ucRefs τ sig) (V6 m (outs m) c) ∗ Rst c) := by rw [V6_eq]; exact .rfl
theorem hpre3 (c : Dev nD) : iprop(StableHlo.held (c : Thread nD τ) (Pipeline.ucRefs τ sig) (V7 m (outs m) c) ∗ Rst c) ⊢ (reg3 m).pre c := by rw [V7_eq]; exact .rfl
theorem hpost3 (c : Dev nD) : (reg3 m).post c ⊢ iprop(StableHlo.held (c : Thread nD τ) (Pipeline.ucRefs τ sig) (V8 m (outs m) c) ∗ Rst c) := by rw [V8_eq]; exact .rfl
theorem hpre4 (c : Dev nD) : iprop(StableHlo.held (c : Thread nD τ) (Pipeline.ucRefs τ sig) (V9 m (outs m) c) ∗ Rst c) ⊢ (reg4 m).pre c := by rw [V9_eq]; exact .rfl
theorem hpost4 (c : Dev nD) : (reg4 m).post c ⊢ iprop(StableHlo.held (c : Thread nD τ) (Pipeline.ucRefs τ sig) (V10 m (outs m) c) ∗ Rst c) := by rw [V10_eq]; exact .rfl
theorem hpre5 (c : Dev nD) : iprop(StableHlo.held (c : Thread nD τ) (Pipeline.ucRefs τ sig) (V11 m (outs m) c) ∗ Rst c) ⊢ (reg5 m).pre c := by rw [V11_eq]; exact .rfl
theorem hpost5 (c : Dev nD) : (reg5 m).post c ⊢ iprop(StableHlo.held (c : Thread nD τ) (Pipeline.ucRefs τ sig) (V12 m (outs m) c) ∗ Rst c) := by rw [V12_eq]; exact .rfl
theorem hpre6 (c : Dev nD) : iprop(StableHlo.held (c : Thread nD τ) (Pipeline.ucRefs τ sig) (V13 m (outs m) c) ∗ Rst c) ⊢ (reg6 m).pre c := by rw [V13_eq]; exact .rfl
theorem hpost6 (c : Dev nD) : (reg6 m).post c ⊢ iprop(StableHlo.held (c : Thread nD τ) (Pipeline.ucRefs τ sig) (V14 m (outs m) c) ∗ Rst c) := by rw [V14_eq]; exact .rfl

/-! ## The frame: every argument array ends as launched -/

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  frame_cond m (EP := emb₁) () Variants.none Lv lvl (fun _ _ => rfl) ρ (outs m) (pdats m) 0 (fun _ => iprop(emp)) u₀ hu₀ (fun _ => Rst) (hE0 ρ) hE7 (reg0 m) (hpre0 m) (hpost0 m) (reg1 m) (hpre1 m) (hpost1 m) (reg2 m) (hpre2 m) (hpost2 m) (reg3 m) (hpre3 m) (hpost3 m) (reg4 m) (hpre4 m) (hpost4 m) (reg5 m) (hpre5 m) (hpost5 m) (reg6 m) (hpre6 m) (hpost6 m)

/-! ## The run with its result: the result array ends at the fold's last contents, the arguments as launched -/

set_option backward.isDefEq.respectTransparency.types false in
theorem run_result (ρ : Dev nD → PrngReg) : θ_run defs (onTc (τ := τ) (main (F := F))) ⟨m, fun _ => 0, ρ⟩ (fun r => ∀ c : Dev nD,
      r.2.mem ((c.tc : Thread nD τ).loc main_v35) = B15 m c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) := by
  refine Pipeline.θ_run_regions_kit_dev (pcfgs (F := F)) adm (pdats m) () cellOf_inj emb₁ defs₀ Variants.none Lv lvl m ρ main
    (segs m (outs m) Variants.none Lv lvl (fun _ => Rst) () (pdats m) (reg0 m) (reg1 m) (reg2 m) (reg3 m) (reg4 m) (reg5 m) (reg6 m))
    (fun c Q => by
      rewrite [main_chain c, Seg.run_eq_chain,
        show (segs m (outs m) Variants.none Lv lvl (fun _ => Rst) () (pdats m) (reg0 m) (reg1 m) (reg2 m) (reg3 m) (reg4 m) (reg5 m) (reg6 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (fun c => by simp only [segs, Seg.pipes_host, Seg.pipes_region, Seg.pipes_nil]; decide) 0 (fun _ _ => rfl) (fun _ => iprop(emp)) u₀ hu₀
    (T₀ := fun c => iprop(StableHlo.held (c : Thread nD τ) (Pipeline.ucRefs τ sig) (V0 m c) ∗ Rst c))
    (Tₙ := fun c => StableHlo.held (c : Thread nD τ) (Pipeline.ucRefs τ sig) (V15 m (outs m) c))
    (hch := fun c => ⟨.rfl, hpre0 m c, hpost0 m c, hpre1 m c, hpost1 m c, hpre2 m c, hpost2 m c, hpre3 m c, hpost3 m c, hpre4 m c, hpost4 m c, hpre5 m c, hpost5 m c, hpre6 m c, hpost6 m c, sep_mono .rfl (hE7 c)⟩)
    (hinit := ?_) (QY := fun c s => s.mem ((c.tc : Thread nD τ).loc main_v35) = B15 m c main_v35
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23) ∧ s.mem ((c.tc : Thread nD τ).loc main_arg24) = m ((c.tc : Thread nD τ).loc main_arg24) ∧ s.mem ((c.tc : Thread nD τ).loc main_arg25) = m ((c.tc : Thread nD τ).loc main_arg25) ∧ s.mem ((c.tc : Thread nD τ).loc main_arg26) = m ((c.tc : Thread nD τ).loc main_arg26) ∧ s.mem ((c.tc : Thread nD τ).loc main_arg27) = m ((c.tc : Thread nD τ).loc main_arg27))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    iapply (bigSep_join (fun c : Dev nD => StableHlo.held (c : Thread nD τ) (Pipeline.ucRefs τ sig) (V0 m c)) (fun c : Dev nD => Rst c))
    isplitl [Hh]; · iexact Hh
    iexact HE
  · unfold StableHlo.held
    iintro ⟨Hh, HSI⟩
    ihave Hr := (pointsTo_read_all (Pipeline.ucRefs τ sig) (fun b => ((c : Thread nD τ).1, b)) (V15 m (outs m) c) s') $$ [Hh HSI]
    · isplitl [Hh] <;> iassumption
    icases Hr with ⟨%h, HSI⟩
    imodintro
    isplitr
    · ipureintro
      exact ⟨(h (Proc.devRef .tc main_v35) (Finset.mem_filter.mpr ⟨StableHlo.devRef_mem_tcRefs main_v35, by decide⟩)).trans (congrFun (V15_eq m c) (Proc.devRef .tc main_v35)),
        (h (Proc.devRef .tc main_arg0) (Finset.mem_filter.mpr ⟨StableHlo.devRef_mem_tcRefs main_arg0, by decide⟩)).trans (V15_main_arg0 m (outs m) c),
        (h (Proc.devRef .tc main_arg1) (Finset.mem_filter.mpr ⟨StableHlo.devRef_mem_tcRefs main_arg1, by decide⟩)).trans (V15_main_arg1 m (outs m) c),
        (h (Proc.devRef .tc main_arg2) (Finset.mem_filter.mpr ⟨StableHlo.devRef_mem_tcRefs main_arg2, by decide⟩)).trans (V15_main_arg2 m (outs m) c),
        (h (Proc.devRef .tc main_arg3) (Finset.mem_filter.mpr ⟨StableHlo.devRef_mem_tcRefs main_arg3, by decide⟩)).trans (V15_main_arg3 m (outs m) c),
        (h (Proc.devRef .tc main_arg4) (Finset.mem_filter.mpr ⟨StableHlo.devRef_mem_tcRefs main_arg4, by decide⟩)).trans (V15_main_arg4 m (outs m) c),
        (h (Proc.devRef .tc main_arg5) (Finset.mem_filter.mpr ⟨StableHlo.devRef_mem_tcRefs main_arg5, by decide⟩)).trans (V15_main_arg5 m (outs m) c),
        (h (Proc.devRef .tc main_arg6) (Finset.mem_filter.mpr ⟨StableHlo.devRef_mem_tcRefs main_arg6, by decide⟩)).trans (V15_main_arg6 m (outs m) c),
        (h (Proc.devRef .tc main_arg7) (Finset.mem_filter.mpr ⟨StableHlo.devRef_mem_tcRefs main_arg7, by decide⟩)).trans (V15_main_arg7 m (outs m) c),
        (h (Proc.devRef .tc main_arg8) (Finset.mem_filter.mpr ⟨StableHlo.devRef_mem_tcRefs main_arg8, by decide⟩)).trans (V15_main_arg8 m (outs m) c),
        (h (Proc.devRef .tc main_arg9) (Finset.mem_filter.mpr ⟨StableHlo.devRef_mem_tcRefs main_arg9, by decide⟩)).trans (V15_main_arg9 m (outs m) c),
        (h (Proc.devRef .tc main_arg10) (Finset.mem_filter.mpr ⟨StableHlo.devRef_mem_tcRefs main_arg10, by decide⟩)).trans (V15_main_arg10 m (outs m) c),
        (h (Proc.devRef .tc main_arg11) (Finset.mem_filter.mpr ⟨StableHlo.devRef_mem_tcRefs main_arg11, by decide⟩)).trans (V15_main_arg11 m (outs m) c),
        (h (Proc.devRef .tc main_arg12) (Finset.mem_filter.mpr ⟨StableHlo.devRef_mem_tcRefs main_arg12, by decide⟩)).trans (V15_main_arg12 m (outs m) c),
        (h (Proc.devRef .tc main_arg13) (Finset.mem_filter.mpr ⟨StableHlo.devRef_mem_tcRefs main_arg13, by decide⟩)).trans (V15_main_arg13 m (outs m) c),
        (h (Proc.devRef .tc main_arg14) (Finset.mem_filter.mpr ⟨StableHlo.devRef_mem_tcRefs main_arg14, by decide⟩)).trans (V15_main_arg14 m (outs m) c),
        (h (Proc.devRef .tc main_arg15) (Finset.mem_filter.mpr ⟨StableHlo.devRef_mem_tcRefs main_arg15, by decide⟩)).trans (V15_main_arg15 m (outs m) c),
        (h (Proc.devRef .tc main_arg16) (Finset.mem_filter.mpr ⟨StableHlo.devRef_mem_tcRefs main_arg16, by decide⟩)).trans (V15_main_arg16 m (outs m) c),
        (h (Proc.devRef .tc main_arg17) (Finset.mem_filter.mpr ⟨StableHlo.devRef_mem_tcRefs main_arg17, by decide⟩)).trans (V15_main_arg17 m (outs m) c),
        (h (Proc.devRef .tc main_arg18) (Finset.mem_filter.mpr ⟨StableHlo.devRef_mem_tcRefs main_arg18, by decide⟩)).trans (V15_main_arg18 m (outs m) c),
        (h (Proc.devRef .tc main_arg19) (Finset.mem_filter.mpr ⟨StableHlo.devRef_mem_tcRefs main_arg19, by decide⟩)).trans (V15_main_arg19 m (outs m) c),
        (h (Proc.devRef .tc main_arg20) (Finset.mem_filter.mpr ⟨StableHlo.devRef_mem_tcRefs main_arg20, by decide⟩)).trans (V15_main_arg20 m (outs m) c),
        (h (Proc.devRef .tc main_arg21) (Finset.mem_filter.mpr ⟨StableHlo.devRef_mem_tcRefs main_arg21, by decide⟩)).trans (V15_main_arg21 m (outs m) c),
        (h (Proc.devRef .tc main_arg22) (Finset.mem_filter.mpr ⟨StableHlo.devRef_mem_tcRefs main_arg22, by decide⟩)).trans (V15_main_arg22 m (outs m) c),
        (h (Proc.devRef .tc main_arg23) (Finset.mem_filter.mpr ⟨StableHlo.devRef_mem_tcRefs main_arg23, by decide⟩)).trans (V15_main_arg23 m (outs m) c),
        (h (Proc.devRef .tc main_arg24) (Finset.mem_filter.mpr ⟨StableHlo.devRef_mem_tcRefs main_arg24, by decide⟩)).trans (V15_main_arg24 m (outs m) c),
        (h (Proc.devRef .tc main_arg25) (Finset.mem_filter.mpr ⟨StableHlo.devRef_mem_tcRefs main_arg25, by decide⟩)).trans (V15_main_arg25 m (outs m) c),
        (h (Proc.devRef .tc main_arg26) (Finset.mem_filter.mpr ⟨StableHlo.devRef_mem_tcRefs main_arg26, by decide⟩)).trans (V15_main_arg26 m (outs m) c),
        (h (Proc.devRef .tc main_arg27) (Finset.mem_filter.mpr ⟨StableHlo.devRef_mem_tcRefs main_arg27, by decide⟩)).trans (V15_main_arg27 m (outs m) c)⟩
    · iexact HSI

end Cert.Kernel.Fr

end
-- ==== Proof.RegionI0.lean ====
import proofs.«109395_j20375324852595_2_alg».proof.Proof.Gen.KernelIdeal.Launch
import proofs.«109395_j20375324852595_2_alg».proof.Proof.Gen.KernelIdeal.Skeleton
import proofs.«109395_j20375324852595_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the pipelined call of `cc0__pre_mlp_kernel`, at the buffer contents `V` it is entered with

Every statement here is at a parameter `V`: what each TensorCore buffer holds when the region starts. From `V` we
read each window's block at a grid point, say what the kernel body leaves in each output window's staging buffer as a
function of the input blocks, prove the body's triple on whole staging buffers, and package the three as the
pipeline's proof data together with the obligation "the body, called at point `t`, takes the blocks before to the
blocks after". -/

-- membership of an index in a rectangle of these extents recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each TensorCore buffer holds when the region is entered
variable (V : (c : Dev nD) → (b : Ref sig .tc) → Buf (Elt F) ((c : Thread nD τ).loc b))

/-! ## The windows' blocks -/

/-- Window `w`'s block at grid point `t`: the rectangle of the window's array that the window's index map selects at
    `t`, read off the array's contents at region entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds the window's block at EVERY point, whether the pipeline fetched it
there or not (where it did not, the window's block index has not moved since the last fetch, so the block is the same
one): for any proof data whose array is `V`'s (`hA`) and whose body leaves the input block in place (`hafter`). The
windows are uncut and have no idle point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores -/

/-- the whole 256×1024 block of window 0 -/
abbrev r0_0 : Rect S256x1024 := Rect.unit (s := S256x1024) ![0, 0] S256x1024.size inb_S256x1024_S256x1024_0_0
/-- the whole 256×512 block of window 1 -/
abbrev r0_1 : Rect S256x512 := Rect.unit (s := S256x512) ![0, 0] S256x512.size inb_S256x512_S256x512_0_0
/-- rows 0–1023 of window 2's 1536×2048 block -/
abbrev r0_2 : Rect S1536x2048 := Rect.unit (s := S1536x2048) ![0, 0] S1024x2048.size inb_S1536x2048_S1024x2048_0_0
/-- rows 1024–1535 of window 2's 1536×2048 block -/
abbrev r0_3 : Rect S1536x2048 := Rect.unit (s := S1536x2048) ![1024, 0] S512x2048.size inb_S1536x2048_S512x2048_1024_0
/-- the whole 1×2048 row (windows 3 and 5) -/
abbrev r0_4 : Rect S1x2048 := Rect.unit (s := S1x2048) ![0, 0] S1x2048.size inb_S1x2048_S1x2048_0_0
/-- the whole 2048×2048 block of window 4 -/
abbrev r0_5 : Rect S2048x2048 := Rect.unit (s := S2048x2048) ![0, 0] S2048x2048.size inb_S2048x2048_S2048x2048_0_0
/-- the whole 256×2048 block of the output window 6 -/
abbrev r0_6 : Rect S256x2048 := Rect.unit (s := S256x2048) ![0, 0] S256x2048.size inb_S256x2048_S256x2048_0_0

/-! ## What the body leaves in each output window's staging buffer -/

/-- Window 6's staging buffer after the body: one store of the whole block, of `k0_pay1` of the blocks of windows 0 and 1,
    the two row bands of window 2's block (rows 0–1023 multiply window 0's columns, rows 1024–1535 window 1's), and
    the blocks of windows 3, 4 and 5 (two affine layers, each followed by the exponential-linear unit, rounded to bf16). -/
def out0_6 (x0 : Vec F S256x1024 .f32) (x1 : Vec F S256x512 .f32) (x2 : Vec F S1536x2048 .bf16) (x3 : Vec F S1x2048 .f32) (x4 : Vec F S2048x2048 .bf16) (x5 : Vec F S1x2048 .f32) : Vec F S256x2048 .bf16 :=
  View.canon [⟨r0_6, k0_pay1 (View.ld x0 r0_0) (View.ld x1 r0_1) (View.ld x2 r0_2) (View.ld x2 r0_3) (View.ld x3 r0_4) (View.ld x4 r0_5) (View.ld x5 r0_4)⟩]

/-- The store rectangle is the whole buffer, so every index of the buffer is under a piece. -/
theorem cover0_6 (p0 : Vec F S256x2048 .bf16) (y : S256x2048.Idx) :
    ∃ pc ∈ ([⟨r0_6, p0⟩] : List (View.Piece (Elt F) S256x2048 .bf16)), y ∈ pc.1.set :=
  View.cover_of_tiled [⟨r0_6, p0⟩] S256x2048.size (by rfl) y

/-! ## The body's triple -/

set_option maxHeartbeats 1000000 in
/-- The kernel function on whole staging buffers — the input windows' at contents `x0`, …, the output windows' at
    anything — runs to a state where the inputs' buffers are unchanged and each output's buffer holds `out0_w` of the
    inputs: the function is a sequence of whole-rectangle loads, pure values of what was loaded, and whole-rectangle
    stores; the grid coordinate `i` is not read. -/
theorem sound_kernel0 (c : Dev nD) (E : Set ℕ) (i : grid0.Coords) (arg1 : Memref sig .tc .vmem S256x1024 .f32) (harg1 : arg1.IsWhole) (arg2 : Memref sig .tc .vmem S256x512 .f32) (harg2 : arg2.IsWhole) (arg3 : Memref sig .tc .vmem S1536x2048 .bf16) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S256x2048 .bf16) (harg7 : arg7.IsWhole)
    (x0 : Vec F S256x1024 .f32) (x1 : Vec F S256x512 .f32) (x2 : Vec F S1536x2048 .bf16) (x3 : Vec F S1x2048 .f32) (x4 : Vec F S2048x2048 .bf16) (x5 : Vec F S1x2048 .f32) (K' : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K' ⟨⟩))
      ⊢ wp frame (wpE (defs₀ (F := F)) Variants.none c none) E (cc0__pre_mlp_kernel i arg1 harg1 arg2 harg2 arg3 harg3 arg4 harg4 arg5 harg5 arg6 harg6 arg7 harg7) K' := by
  simp only [cc0__pre_mlp_kernel_eq_skeleton]; unfold cc0__pre_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

/-! ## The pipeline's proof data -/

/-- The proof data of this pipeline on core `c`: its arrays hold what the region finds in them (`V`); after the body
    at point `t` each input window's buffer still holds its block and each output window's holds `out0_w` of the
    input blocks; the invariant is "the rest of the core's state is untouched"; nothing is owed; shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-! Each input window's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`: the invariant, the core's debts, and every window's current staging
    buffer at what the pipeline put there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: the same buffers at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies at those blocks; the
    invariant and the debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr
-- ==== Proof.RegionI1.lean ====
/- The region half of the frame proof for region 1 of the program's entry function: the call of `cc1__gru_gate_kernel`
   over a grid of 16 points, with 7 windows (windows 0–5 are read, window 6 is written).

   Everything is stated at a parameter `V`: the TensorCore's buffer contents when the region is entered.
   * `iblk1 V c w t` is window `w`'s block at grid point `t`: the rectangle of the window's array that the window's
     index map selects at `t`, read off `V`.
   * `out1_6 x0 x1 x2 x3 x4 x5` is what the body leaves in the output window's buffer when the input windows' buffers hold
     `x0 … x5`: the gate: with the bf16 block `x0`, the f32 block `x1` rounded to bf16, the two weight blocks `x2`, `x3` and the two
    bias rows `x4`, `x5`, the logistic function of `(x0 · x2 + x4) + (bf16 x1 · x3 + x5)` (bias rows broadcast down the 256 rows),
    rounded to bf16.
   * `sound_kernel1` is the body's triple on whole buffers, `dat1` the pipeline's proof data (arrays as found, each input
     buffer at its block, the output buffer at `out1_6` of the input blocks), `body_obligation1` the body obligation at
     every grid point. -/
import proofs.«109395_j20375324852595_2_alg».proof.Proof.Gen.KernelIdeal.Launch
import proofs.«109395_j20375324852595_2_alg».proof.Proof.Gen.KernelIdeal.Skeleton
import proofs.«109395_j20375324852595_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents 256 × 2048 recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the window's rectangle of its array at `t`, read off the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds the window's block at every point, whether or not the block was copied in
    at that point (a point at which it was not copied has the same block index as the point before it), for any proof
    data whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds the window's block at every point, whether or not the block was copied in
    at that point (a point at which it was not copied has the same block index as the point before it), for any proof
    data whose array is `V`'s (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds the window's block at every point, whether or not the block was copied in
    at that point (a point at which it was not copied has the same block index as the point before it), for any proof
    data whose array is `V`'s (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds the window's block at every point, whether or not the block was copied in
    at that point (a point at which it was not copied has the same block index as the point before it), for any proof
    data whose array is `V`'s (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds the window's block at every point, whether or not the block was copied in
    at that point (a point at which it was not copied has the same block index as the point before it), for any proof
    data whose array is `V`'s (`hA`) and whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds the window's block at every point, whether or not the block was copied in
    at that point (a point at which it was not copied has the same block index as the point before it), for any proof
    data whose array is `V`'s (`hA`) and whose body leaves the block in place (`hafter`). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole buffer -/

abbrev r1_0 : Rect S256x2048 := Rect.unit (s := S256x2048) ![0, 0] S256x2048.size inb_S256x2048_S256x2048_0_0
abbrev r1_1 : Rect S2048x2048 := Rect.unit (s := S2048x2048) ![0, 0] S2048x2048.size inb_S2048x2048_S2048x2048_0_0
abbrev r1_2 : Rect S1x2048 := Rect.unit (s := S1x2048) ![0, 0] S1x2048.size inb_S1x2048_S1x2048_0_0

/-! ## What the body leaves in the output window's buffer -/

/-- Window 6's buffer after the body, from the input windows' blocks: the body's one store, whose payload is
    `k1_pay1` of the loaded blocks — the gate: with the bf16 block `x0`, the f32 block `x1` rounded to bf16, the two weight blocks `x2`, `x3` and the two
    bias rows `x4`, `x5`, the logistic function of `(x0 · x2 + x4) + (bf16 x1 · x3 + x5)` (bias rows broadcast down the 256 rows),
    rounded to bf16. -/
def out1_6 (x0 : Vec F S256x2048 .bf16) (x1 : Vec F S256x2048 .f32) (x2 : Vec F S2048x2048 .bf16) (x3 : Vec F S2048x2048 .bf16) (x4 : Vec F S1x2048 .f32) (x5 : Vec F S1x2048 .f32) : Vec F S256x2048 .bf16 :=
  View.canon [⟨r1_0, k1_pay1 (View.ld x0 r1_0) (View.ld x1 r1_0) (View.ld x2 r1_1) (View.ld x4 r1_2) (View.ld x3 r1_1) (View.ld x5 r1_2)⟩]

/-- The one store's rectangle is the whole buffer, so it covers it. -/
theorem cover1_6 (p0 : Vec F S256x2048 .bf16) (y : S256x2048.Idx) :
    ∃ pc ∈ ([⟨r1_0, p0⟩] : List (View.Piece (Elt F) S256x2048 .bf16)), y ∈ pc.1.set :=
  View.cover_of_tiled [⟨r1_0, p0⟩] S256x2048.size (by rfl) y

/-! ## The body's triple -/

set_option maxHeartbeats 1000000 in
/-- The kernel body on whole buffers — the inputs' holding `x0 … x5`, the output's holding anything — runs to a state in
    which the inputs' hold what they held and the output's holds `out1_6` of the inputs. -/
theorem sound_kernel1 (c : Dev nD) (E : Set ℕ) (i : grid1.Coords) (arg1 : Memref sig .tc .vmem S256x2048 .bf16) (harg1 : arg1.IsWhole) (arg2 : Memref sig .tc .vmem S256x2048 .f32) (harg2 : arg2.IsWhole) (arg3 : Memref sig .tc .vmem S2048x2048 .bf16) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .bf16) (harg7 : arg7.IsWhole)
    (x0 : Vec F S256x2048 .bf16) (x1 : Vec F S256x2048 .f32) (x2 : Vec F S2048x2048 .bf16) (x3 : Vec F S2048x2048 .bf16) (x4 : Vec F S1x2048 .f32) (x5 : Vec F S1x2048 .f32) (K' : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K' ⟨⟩))
      ⊢ wp frame (wpE (defs₀ (F := F)) Variants.none c none) E (cc1__gru_gate_kernel i arg1 harg1 arg2 harg2 arg3 harg3 arg4 harg4 arg5 harg5 arg6 harg6 arg7 harg7) K' := by
  simp only [cc1__gru_gate_kernel_eq_skeleton]; unfold cc1__gru_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover1_6 _)

/-! ## The pipeline's proof data -/

/-- The proof data of the region's pipeline on core `c`: the arrays as the region finds them (`V`); after the body at point `t`
    each input window's buffer holds its block and the output window's holds `out1_6` of the input blocks; the invariant is
    the one that leaves the rest of the memory and the generator register untouched; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input window's current buffer holds the window's block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`: the invariant, what is owed, and each window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the input buffers hold their blocks (`before1_w`), so `sound_kernel1` applies; the invariant and
    what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.RegionI2.lean ====
/- The region half of the frame proof for region 2 of the program's entry function: the call of `cc2__gru_gate_kernel`
   over a grid of 16 points, with 7 windows (windows 0–5 are read, window 6 is written).

   Everything is stated at a parameter `V`: the TensorCore's buffer contents when the region is entered.
   * `iblk2 V c w t` is window `w`'s block at grid point `t`: the rectangle of the window's array that the window's
     index map selects at `t`, read off `V`.
   * `out2_6 x0 x1 x2 x3 x4 x5` is what the body leaves in the output window's buffer when the input windows' buffers hold
     `x0 … x5`: the gate: with the bf16 block `x0`, the f32 block `x1` rounded to bf16, the two weight blocks `x2`, `x3` and the two
    bias rows `x4`, `x5`, the logistic function of `(x0 · x2 + x4) + (bf16 x1 · x3 + x5)` (bias rows broadcast down the 256 rows),
    rounded to bf16.
   * `sound_kernel2` is the body's triple on whole buffers, `dat2` the pipeline's proof data (arrays as found, each input
     buffer at its block, the output buffer at `out2_6` of the input blocks), `body_obligation2` the body obligation at
     every grid point. -/
import proofs.«109395_j20375324852595_2_alg».proof.Proof.Gen.KernelIdeal.Launch
import proofs.«109395_j20375324852595_2_alg».proof.Proof.Gen.KernelIdeal.Skeleton
import proofs.«109395_j20375324852595_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents 256 × 2048 recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the window's rectangle of its array at `t`, read off the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds the window's block at every point, whether or not the block was copied in
    at that point (a point at which it was not copied has the same block index as the point before it), for any proof
    data whose array is `V`'s (`hA`) and whose body leaves the block in place (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds the window's block at every point, whether or not the block was copied in
    at that point (a point at which it was not copied has the same block index as the point before it), for any proof
    data whose array is `V`'s (`hA`) and whose body leaves the block in place (`hafter`). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds the window's block at every point, whether or not the block was copied in
    at that point (a point at which it was not copied has the same block index as the point before it), for any proof
    data whose array is `V`'s (`hA`) and whose body leaves the block in place (`hafter`). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds the window's block at every point, whether or not the block was copied in
    at that point (a point at which it was not copied has the same block index as the point before it), for any proof
    data whose array is `V`'s (`hA`) and whose body leaves the block in place (`hafter`). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds the window's block at every point, whether or not the block was copied in
    at that point (a point at which it was not copied has the same block index as the point before it), for any proof
    data whose array is `V`'s (`hA`) and whose body leaves the block in place (`hafter`). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current buffer holds the window's block at every point, whether or not the block was copied in
    at that point (a point at which it was not copied has the same block index as the point before it), for any proof
    data whose array is `V`'s (`hA`) and whose body leaves the block in place (`hafter`). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take a whole buffer -/

abbrev r2_0 : Rect S256x2048 := Rect.unit (s := S256x2048) ![0, 0] S256x2048.size inb_S256x2048_S256x2048_0_0
abbrev r2_1 : Rect S2048x2048 := Rect.unit (s := S2048x2048) ![0, 0] S2048x2048.size inb_S2048x2048_S2048x2048_0_0
abbrev r2_2 : Rect S1x2048 := Rect.unit (s := S1x2048) ![0, 0] S1x2048.size inb_S1x2048_S1x2048_0_0

/-! ## What the body leaves in the output window's buffer -/

/-- Window 6's buffer after the body, from the input windows' blocks: the body's one store, whose payload is
    `k2_pay1` of the loaded blocks — the gate: with the bf16 block `x0`, the f32 block `x1` rounded to bf16, the two weight blocks `x2`, `x3` and the two
    bias rows `x4`, `x5`, the logistic function of `(x0 · x2 + x4) + (bf16 x1 · x3 + x5)` (bias rows broadcast down the 256 rows),
    rounded to bf16. -/
def out2_6 (x0 : Vec F S256x2048 .bf16) (x1 : Vec F S256x2048 .f32) (x2 : Vec F S2048x2048 .bf16) (x3 : Vec F S2048x2048 .bf16) (x4 : Vec F S1x2048 .f32) (x5 : Vec F S1x2048 .f32) : Vec F S256x2048 .bf16 :=
  View.canon [⟨r2_0, k2_pay1 (View.ld x0 r2_0) (View.ld x1 r2_0) (View.ld x2 r2_1) (View.ld x4 r2_2) (View.ld x3 r2_1) (View.ld x5 r2_2)⟩]

/-- The one store's rectangle is the whole buffer, so it covers it. -/
theorem cover2_6 (p0 : Vec F S256x2048 .bf16) (y : S256x2048.Idx) :
    ∃ pc ∈ ([⟨r2_0, p0⟩] : List (View.Piece (Elt F) S256x2048 .bf16)), y ∈ pc.1.set :=
  View.cover_of_tiled [⟨r2_0, p0⟩] S256x2048.size (by rfl) y

/-! ## The body's triple -/

set_option maxHeartbeats 1000000 in
/-- The kernel body on whole buffers — the inputs' holding `x0 … x5`, the output's holding anything — runs to a state in
    which the inputs' hold what they held and the output's holds `out2_6` of the inputs. -/
theorem sound_kernel2 (c : Dev nD) (E : Set ℕ) (i : grid2.Coords) (arg1 : Memref sig .tc .vmem S256x2048 .bf16) (harg1 : arg1.IsWhole) (arg2 : Memref sig .tc .vmem S256x2048 .f32) (harg2 : arg2.IsWhole) (arg3 : Memref sig .tc .vmem S2048x2048 .bf16) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .bf16) (harg7 : arg7.IsWhole)
    (x0 : Vec F S256x2048 .bf16) (x1 : Vec F S256x2048 .f32) (x2 : Vec F S2048x2048 .bf16) (x3 : Vec F S2048x2048 .bf16) (x4 : Vec F S1x2048 .f32) (x5 : Vec F S1x2048 .f32) (K' : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K' ⟨⟩))
      ⊢ wp frame (wpE (defs₀ (F := F)) Variants.none c none) E (cc2__gru_gate_kernel i arg1 harg1 arg2 harg2 arg3 harg3 arg4 harg4 arg5 harg5 arg6 harg6 arg7 harg7) K' := by
  simp only [cc2__gru_gate_kernel_eq_skeleton]; unfold cc2__gru_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover2_6 _)

/-! ## The pipeline's proof data -/

/-- The proof data of the region's pipeline on core `c`: the arrays as the region finds them (`V`); after the body at point `t`
    each input window's buffer holds its block and the output window's holds `out2_6` of the input blocks; the invariant is
    the one that leaves the rest of the memory and the generator register untouched; nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input window's current buffer holds the window's block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`: the invariant, what is owed, and each window's current buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the input buffers hold their blocks (`before2_w`), so `sound_kernel2` applies; the invariant and
    what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.RegionI3.lean ====
/- The region half of the frame proof for region 3 of the program's entry function: the call of `cc3__gru_n_kernel`
   over a grid of 16 points, with 9 windows (windows 0–7 are read, window 8 is written).

   Everything is stated at a parameter `V`: the TensorCore's buffer contents when the region is entered.
   * `iblk3 V c w t` is window `w`'s block at grid point `t`: the rectangle of the window's array that the window's
     index map selects at `t`, read off `V`.
   * `out3_8 x0 x1 x2 x3 x4 x5 x6 x7` is what the body leaves in the output window's buffer when the input windows' buffers hold
     `x0 … x7`: with `r` = `x2` and `z` = `x3` widened to f32, and `n` the hyperbolic tangent of
    `(x0 · x4 + x6) + r * (bf16 x1 · x5 + x7)` (the f32 block `x1` rounded to bf16 in the product, the bias rows `x6`, `x7` broadcast
    down the 256 rows), the f32 block `(1 - z) * n + z * x1`.
   * `sound_kernel3` is the body's triple on whole buffers, `dat3` the pipeline's proof data (arrays as found, each input
     buffer at its block, the output buffer at `out3_8` of the input blocks), `body_obligation3` the body obligation at
     every grid point. -/
import proofs.«109395_j20375324852595_2_alg».proof.Proof.Gen.KernelIdeal.Launch
import proofs.«109395_j20375324852595_2_alg».proof.Proof.Gen.KernelIdeal.Skeleton
import proofs.«109395_j20375324852595_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents 256 × 2048 recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the window's rectangle of its array at `t`, read off the entry contents `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds the window's block at every point, whether or not the block was copied in
    at that point (a point at which it was not copied has the same block index as the point before it), for any proof
    data whose array is `V`'s (`hA`) and whose body leaves the block in place (`hafter`). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds the window's block at every point, whether or not the block was copied in
    at that point (a point at which it was not copied has the same block index as the point before it), for any proof
    data whose array is `V`'s (`hA`) and whose body leaves the block in place (`hafter`). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current buffer holds the window's block at every point, whether or not the block was copied in
    at that point (a point at which it was not copied has the same block index as the point before it), for any proof
    data whose array is `V`'s (`hA`) and whose body leaves the block in place (`hafter`). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current buffer holds the window's block at every point, whether or not the block was copied in
    at that point (a point at which it was not copied has the same block index as the point before it), for any proof
    data whose array is `V`'s (`hA`) and whose body leaves the block in place (`hafter`). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current buffer holds the window's block at every point, whether or not the block was copied in
    at that point (a point at which it was not copied has the same block index as the point before it), for any proof
    data whose array is `V`'s (`hA`) and whose body leaves the block in place (`hafter`). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current buffer holds the window's block at every point, whether or not the block was copied in
    at that point (a point at which it was not copied has the same block index as the point before it), for any proof
    data whose array is `V`'s (`hA`) and whose body leaves the block in place (`hafter`). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current buffer holds the window's block at every point, whether or not the block was copied in
    at that point (a point at which it was not copied has the same block index as the point before it), for any proof
    data whose array is `V`'s (`hA`) and whose body leaves the block in place (`hafter`). -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current buffer holds the window's block at every point, whether or not the block was copied in
    at that point (a point at which it was not copied has the same block index as the point before it), for any proof
    data whose array is `V`'s (`hA`) and whose body leaves the block in place (`hafter`). -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store take a whole buffer -/

abbrev r3_0 : Rect S256x2048 := Rect.unit (s := S256x2048) ![0, 0] S256x2048.size inb_S256x2048_S256x2048_0_0
abbrev r3_1 : Rect S2048x2048 := Rect.unit (s := S2048x2048) ![0, 0] S2048x2048.size inb_S2048x2048_S2048x2048_0_0
abbrev r3_2 : Rect S1x2048 := Rect.unit (s := S1x2048) ![0, 0] S1x2048.size inb_S1x2048_S1x2048_0_0

/-! ## What the body leaves in the output window's buffer -/

/-- Window 8's buffer after the body, from the input windows' blocks: the body's one store, whose payload is
    `k3_pay1` of the loaded blocks — with `r` = `x2` and `z` = `x3` widened to f32, and `n` the hyperbolic tangent of
    `(x0 · x4 + x6) + r * (bf16 x1 · x5 + x7)` (the f32 block `x1` rounded to bf16 in the product, the bias rows `x6`, `x7` broadcast
    down the 256 rows), the f32 block `(1 - z) * n + z * x1`. -/
def out3_8 (x0 : Vec F S256x2048 .bf16) (x1 : Vec F S256x2048 .f32) (x2 : Vec F S256x2048 .bf16) (x3 : Vec F S256x2048 .bf16) (x4 : Vec F S2048x2048 .bf16) (x5 : Vec F S2048x2048 .bf16) (x6 : Vec F S1x2048 .f32) (x7 : Vec F S1x2048 .f32) : Vec F S256x2048 .f32 :=
  View.canon [⟨r3_0, k3_pay1 (View.ld x0 r3_0) (View.ld x1 r3_0) (View.ld x2 r3_0) (View.ld x3 r3_0) (View.ld x4 r3_1) (View.ld x6 r3_2) (View.ld x5 r3_1) (View.ld x7 r3_2)⟩]

/-- The one store's rectangle is the whole buffer, so it covers it. -/
theorem cover3_8 (p0 : Vec F S256x2048 .f32) (y : S256x2048.Idx) :
    ∃ pc ∈ ([⟨r3_0, p0⟩] : List (View.Piece (Elt F) S256x2048 .f32)), y ∈ pc.1.set :=
  View.cover_of_tiled [⟨r3_0, p0⟩] S256x2048.size (by rfl) y

/-! ## The body's triple -/

set_option maxHeartbeats 1000000 in
/-- The kernel body on whole buffers — the inputs' holding `x0 … x7`, the output's holding anything — runs to a state in
    which the inputs' hold what they held and the output's holds `out3_8` of the inputs. -/
theorem sound_kernel3 (c : Dev nD) (E : Set ℕ) (i : grid3.Coords) (arg1 : Memref sig .tc .vmem S256x2048 .bf16) (harg1 : arg1.IsWhole) (arg2 : Memref sig .tc .vmem S256x2048 .f32) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S256x2048 .f32) (harg9 : arg9.IsWhole)
    (x0 : Vec F S256x2048 .bf16) (x1 : Vec F S256x2048 .f32) (x2 : Vec F S256x2048 .bf16) (x3 : Vec F S256x2048 .bf16) (x4 : Vec F S2048x2048 .bf16) (x5 : Vec F S2048x2048 .bf16) (x6 : Vec F S1x2048 .f32) (x7 : Vec F S1x2048 .f32) (K' : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5 x6 x7)) -∗ K' ⟨⟩))
      ⊢ wp frame (wpE (defs₀ (F := F)) Variants.none c none) E (cc3__gru_n_kernel i arg1 harg1 arg2 harg2 arg3 harg3 arg4 harg4 arg5 harg5 arg6 harg6 arg7 harg7 arg8 harg8 arg9 harg9) K' := by
  simp only [cc3__gru_n_kernel_eq_skeleton]; unfold cc3__gru_n_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover3_8 _)

/-! ## The pipeline's proof data -/

/-- The proof data of the region's pipeline on core `c`: the arrays as the region finds them (`V`); after the body at point `t`
    each input window's buffer holds its block and the output window's holds `out3_8` of the input blocks; the invariant is
    the one that leaves the rest of the memory and the generator register untouched; nothing is owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]

/-- Each input window's current buffer holds the window's block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation, at a generic point -/

/-- What the body is called with at point `t`: the invariant, what is owed, and each window's current buffer, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

/-- The body at any point: the input buffers hold their blocks (`before3_w`), so `sound_kernel3` applies; the invariant and
    what is owed pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.RegionI4.lean ====
import proofs.«109395_j20375324852595_2_alg».proof.Proof.Gen.KernelIdeal.Launch
import proofs.«109395_j20375324852595_2_alg».proof.Proof.Gen.KernelIdeal.Skeleton
import proofs.«109395_j20375324852595_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4: the pipelined call of `cc4__prior_mlp_kernel`, at the buffer contents `V` it is entered with

Every statement here is at a parameter `V`: what each TensorCore buffer holds when the region starts. From `V` we
read each window's block at a grid point, say what the kernel body leaves in each output window's staging buffer as a
function of the input blocks, prove the body's triple on whole staging buffers, and package the three as the
pipeline's proof data together with the obligation "the body, called at point `t`, takes the blocks before to the
blocks after". -/

-- membership of an index in a rectangle of these extents recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each TensorCore buffer holds when the region is entered
variable (V : (c : Dev nD) → (b : Ref sig .tc) → Buf (Elt F) ((c : Thread nD τ).loc b))

/-! ## The windows' blocks -/

/-- Window `w`'s block at grid point `t`: the rectangle of the window's array that the window's index map selects at
    `t`, read off the array's contents at region entry. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's current staging buffer holds the window's block at EVERY point, whether the pipeline fetched it
there or not (where it did not, the window's block index has not moved since the last fetch, so the block is the same
one): for any proof data whose array is `V`'s (`hA`) and whose body leaves the input block in place (`hafter`). The
windows are uncut and have no idle point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body loads and stores -/

/-- the whole 128×2048 block of window 0 -/
abbrev r4_0 : Rect S128x2048 := Rect.unit (s := S128x2048) ![0, 0] S128x2048.size inb_S128x2048_S128x2048_0_0
/-- the whole 2048×2048 block (windows 1 and 3) -/
abbrev r4_1 : Rect S2048x2048 := Rect.unit (s := S2048x2048) ![0, 0] S2048x2048.size inb_S2048x2048_S2048x2048_0_0
/-- the whole 1×2048 row (windows 2 and 4) -/
abbrev r4_2 : Rect S1x2048 := Rect.unit (s := S1x2048) ![0, 0] S1x2048.size inb_S1x2048_S1x2048_0_0
/-- the whole 2048×1024 block (windows 5 and 7) -/
abbrev r4_3 : Rect S2048x1024 := Rect.unit (s := S2048x1024) ![0, 0] S2048x1024.size inb_S2048x1024_S2048x1024_0_0
/-- the whole 1×1024 row (windows 6 and 8) -/
abbrev r4_4 : Rect S1x1024 := Rect.unit (s := S1x1024) ![0, 0] S1x1024.size inb_S1x1024_S1x1024_0_0
/-- the whole 128×1024 block of an output window (windows 9 and 10) -/
abbrev r4_5 : Rect S128x1024 := Rect.unit (s := S128x1024) ![0, 0] S128x1024.size inb_S128x1024_S128x1024_0_0

/-! ## What the body leaves in each output window's staging buffer -/

/-- Window 9's staging buffer after the body: one store of the whole block, of `k4_pay3` of the blocks of windows 0–6
    (the two hidden layers applied to the rows of window 0, then the first head's affine map). Windows 7 and 8 are not read. -/
def out4_9 (x0 : Vec F S128x2048 .f32) (x1 : Vec F S2048x2048 .bf16) (x2 : Vec F S1x2048 .f32) (x3 : Vec F S2048x2048 .bf16) (x4 : Vec F S1x2048 .f32) (x5 : Vec F S2048x1024 .bf16) (x6 : Vec F S1x1024 .f32) (x7 : Vec F S2048x1024 .bf16) (x8 : Vec F S1x1024 .f32) : Vec F S128x1024 .f32 :=
  View.canon [⟨r4_5, k4_pay3 (View.ld x0 r4_0) (View.ld x1 r4_1) (View.ld x2 r4_2) (View.ld x3 r4_1) (View.ld x4 r4_2) (View.ld x5 r4_3) (View.ld x6 r4_4)⟩]

/-- The store rectangle is the whole buffer, so every index of the buffer is under a piece. -/
theorem cover4_9 (p0 : Vec F S128x1024 .f32) (y : S128x1024.Idx) :
    ∃ pc ∈ ([⟨r4_5, p0⟩] : List (View.Piece (Elt F) S128x1024 .f32)), y ∈ pc.1.set :=
  View.cover_of_tiled [⟨r4_5, p0⟩] S128x1024.size (by rfl) y

/-- Window 10's staging buffer after the body: one store of the whole block, of `k4_pay1` of the hidden activations
    `k4_pay2` (of the blocks of windows 0–4) and the blocks of windows 7 and 8 (the second head: affine map, softplus,
    plus a constant). Windows 5 and 6 are not read. -/
def out4_10 (x0 : Vec F S128x2048 .f32) (x1 : Vec F S2048x2048 .bf16) (x2 : Vec F S1x2048 .f32) (x3 : Vec F S2048x2048 .bf16) (x4 : Vec F S1x2048 .f32) (x5 : Vec F S2048x1024 .bf16) (x6 : Vec F S1x1024 .f32) (x7 : Vec F S2048x1024 .bf16) (x8 : Vec F S1x1024 .f32) : Vec F S128x1024 .f32 :=
  View.canon [⟨r4_5, k4_pay1 (k4_pay2 (View.ld x0 r4_0) (View.ld x1 r4_1) (View.ld x2 r4_2) (View.ld x3 r4_1) (View.ld x4 r4_2)) (View.ld x7 r4_3) (View.ld x8 r4_4)⟩]

/-- The store rectangle is the whole buffer, so every index of the buffer is under a piece. -/
theorem cover4_10 (p0 : Vec F S128x1024 .f32) (y : S128x1024.Idx) :
    ∃ pc ∈ ([⟨r4_5, p0⟩] : List (View.Piece (Elt F) S128x1024 .f32)), y ∈ pc.1.set :=
  View.cover_of_tiled [⟨r4_5, p0⟩] S128x1024.size (by rfl) y

/-! ## The body's triple -/

set_option maxHeartbeats 1000000 in
/-- The kernel function on whole staging buffers — the input windows' at contents `x0`, …, the output windows' at
    anything — runs to a state where the inputs' buffers are unchanged and each output's buffer holds `out4_w` of the
    inputs: the function is a sequence of whole-rectangle loads, pure values of what was loaded, and whole-rectangle
    stores; the grid coordinate `i` is not read. -/
theorem sound_kernel4 (c : Dev nD) (E : Set ℕ) (i : grid4.Coords) (arg1 : Memref sig .tc .vmem S128x2048 .f32) (harg1 : arg1.IsWhole) (arg2 : Memref sig .tc .vmem S2048x2048 .bf16) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S128x1024 .f32) (harg10 : arg10.IsWhole) (arg11 : Memref sig .tc .vmem S128x1024 .f32) (harg11 : arg11.IsWhole)
    (x0 : Vec F S128x2048 .f32) (x1 : Vec F S2048x2048 .bf16) (x2 : Vec F S1x2048 .f32) (x3 : Vec F S2048x2048 .bf16) (x4 : Vec F S1x2048 .f32) (x5 : Vec F S2048x1024 .bf16) (x6 : Vec F S1x1024 .f32) (x7 : Vec F S2048x1024 .bf16) (x8 : Vec F S1x1024 .f32) (K' : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out4_9 x0 x1 x2 x3 x4 x5 x6 x7 x8) ∗ owns (c : Thread nD τ) arg11 fullShare (out4_10 x0 x1 x2 x3 x4 x5 x6 x7 x8)) -∗ K' ⟨⟩))
      ⊢ wp frame (wpE (defs₀ (F := F)) Variants.none c none) E (cc4__prior_mlp_kernel i arg1 harg1 arg2 harg2 arg3 harg3 arg4 harg4 arg5 harg5 arg6 harg6 arg7 harg7 arg8 harg8 arg9 harg9 arg10 harg10 arg11 harg11) K' := by
  simp only [cc4__prior_mlp_kernel_eq_skeleton]; unfold cc4__prior_mlp_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover4_9 _)
  iexists _; isplitr
  swap; · iexact H10
  ipureintro
  try dsimp only
  exact View.read_writes_eq_canon _ _ _ (cover4_10 _)

/-! ## The pipeline's proof data -/

/-- The proof data of this pipeline on core `c`: its arrays hold what the region finds in them (`V`); after the body
    at point `t` each input window's buffer still holds its block and each output window's holds `out4_w` of the
    input blocks; the invariant is "the rest of the core's state is untouched"; nothing is owed; shares are full. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
    | ⟨10, _⟩ => out4_10 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-! What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]
theorem after4_10 (c : Dev nD) (t : Fin cfg4.N) : (dat4 V c).after 10 t = out4_10 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

/-! Each input window's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-! ## The body obligation, at a generic point -/

/-- What the body is called with at point `t`: the invariant, the core's debts, and every window's current staging
    buffer at what the pipeline put there, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d)))

/-- and what it returns: the same buffers at what the proof data says the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t))

/-- The body at any point: the inputs' buffers hold their blocks, so the body's triple applies at those blocks; the
    invariant and the debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel4 c Set.univ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr
-- ==== Proof.RegionI5.lean ====
/- Region 5 of the idealized kernel program (the kernel function `cc5__q0_kernel`), the part of its frame proof that
   is about one grid point, at arbitrary region-entry contents `V` and an arbitrary float instance.
   The body reads two 256×2048 f32 blocks, the two 2048×2048 halves of a 4096×2048 bf16 block and a 1×2048 f32
   row, and overwrites a 256×2048 bf16 block with one pure function of them. This module names each window's block at a
   point, says what the body leaves in the output buffer as a function of the input blocks, proves the body's
   triple on whole buffers, and packages the result as the pipeline's proof data and its body obligation. -/
import proofs.«109395_j20375324852595_2_alg».proof.Proof.Gen.KernelIdeal.Launch
import proofs.«109395_j20375324852595_2_alg».proof.Proof.Gen.KernelIdeal.Skeleton
import proofs.«109395_j20375324852595_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents in the thousands is decided coordinate by coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents at the moment the region is entered; everything below is stated at an
-- arbitrary such `V`
variable (V : (c : Dev nD) → (b : Ref sig .tc) → Buf (Elt F) ((c : Thread nD τ).loc b))

/-! # Region 5: the kernel function `cc5__q0_kernel` on its grid of 16 points -/

/-! ## The windows' blocks -/

/-- The block of window `w` at grid point `t`: the entries of the window's array, as the region finds it, that lie in
    the rectangle the window's index map selects at `t`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0: at every point the body finds the window's block in the window's buffer, whether the block was
    copied in at this point or at an earlier one — between two copies the index map has not moved, and the body never
    writes the buffer. Stated for any proof data with array `V`'s (`hA`) whose body leaves the block in place (`hafter`). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1: at every point the body finds the window's block in the window's buffer, whether the block was
    copied in at this point or at an earlier one — between two copies the index map has not moved, and the body never
    writes the buffer. Stated for any proof data with array `V`'s (`hA`) whose body leaves the block in place (`hafter`). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2: at every point the body finds the window's block in the window's buffer, whether the block was
    copied in at this point or at an earlier one — between two copies the index map has not moved, and the body never
    writes the buffer. Stated for any proof data with array `V`'s (`hA`) whose body leaves the block in place (`hafter`). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3: at every point the body finds the window's block in the window's buffer, whether the block was
    copied in at this point or at an earlier one — between two copies the index map has not moved, and the body never
    writes the buffer. Stated for any proof data with array `V`'s (`hA`) whose body leaves the block in place (`hafter`). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The rectangles the body reads and writes -/

/-- The whole of a 256×2048 buffer: what the body loads of windows 0 and 1, and where it stores in window 4. -/
abbrev r5_0 : Rect S256x2048 := Rect.unit (s := S256x2048) ![0, 0] S256x2048.size inb_S256x2048_S256x2048_0_0
/-- Rows 0–2047 of window 2's 4096×2048 buffer. -/
abbrev r5_1 : Rect S4096x2048 := Rect.unit (s := S4096x2048) ![0, 0] S2048x2048.size inb_S4096x2048_S2048x2048_0_0
/-- Rows 2048–4095 of window 2's 4096×2048 buffer. -/
abbrev r5_2 : Rect S4096x2048 := Rect.unit (s := S4096x2048) ![2048, 0] S2048x2048.size inb_S4096x2048_S2048x2048_2048_0
/-- The whole of window 3's 1×2048 buffer. -/
abbrev r5_3 : Rect S1x2048 := Rect.unit (s := S1x2048) ![0, 0] S1x2048.size inb_S1x2048_S1x2048_0_0

/-! ## What the body leaves in each output window's buffer -/

/-- Window 4's buffer after the body, as a function of the input windows' blocks: the body's one store covers the
    whole 256×2048 buffer with `k5_pay1` of the two f32 blocks, the upper and the lower half of window 2's block, and
    window 3's row. -/
def out5_4 (x0 : Vec F S256x2048 .f32) (x1 : Vec F S256x2048 .f32) (x2 : Vec F S4096x2048 .bf16) (x3 : Vec F S1x2048 .f32) : Vec F S256x2048 .bf16 :=
  View.canon [⟨r5_0, k5_pay1 (View.ld x0 r5_0) (View.ld x1 r5_0) (View.ld x2 r5_1) (View.ld x2 r5_2) (View.ld x3 r5_3)⟩]

/-- The stored rectangles tile the 256x2048 buffer, so every index lies in one of them. -/
theorem cover5_4 (p0 : Vec F S256x2048 .bf16) (y : S256x2048.Idx) :
    ∃ pc ∈ ([⟨r5_0, p0⟩] : List (View.Piece (Elt F) S256x2048 .bf16)), y ∈ pc.1.set :=
  View.cover_of_tiled [⟨r5_0, p0⟩] S256x2048.size (by rfl) y

/-! ## The body on whole buffers -/

set_option maxHeartbeats 1000000 in
/-- The body on whole buffers: from the input buffers at contents `x0 … x3` and the output buffer at any contents, it
    runs to the continuation with the inputs as they were and the output buffer at `out5_4 x0 x1 x2 x3`. The body's
    five loads read the rectangles above, its load of the output buffer is not used, and its one store writes the
    payload over the whole buffer. -/
theorem sound_kernel5 (c : Dev nD) (E : Set ℕ) (i : grid5.Coords) (arg1 : Memref sig .tc .vmem S256x2048 .f32) (harg1 : arg1.IsWhole) (arg2 : Memref sig .tc .vmem S256x2048 .f32) (harg2 : arg2.IsWhole) (arg3 : Memref sig .tc .vmem S4096x2048 .bf16) (harg3 : arg3.IsWhole) (arg4 : Memref sig .tc .vmem S1x2048 .f32) (harg4 : arg4.IsWhole) (arg5 : Memref sig .tc .vmem S256x2048 .bf16) (harg5 : arg5.IsWhole)
    (x0 : Vec F S256x2048 .f32) (x1 : Vec F S256x2048 .f32) (x2 : Vec F S4096x2048 .bf16) (x3 : Vec F S1x2048 .f32) (K' : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 x0 x1 x2 x3)) -∗ K' ⟨⟩))
      ⊢ wp frame (wpE (defs₀ (F := F)) Variants.none c none) E (cc5__q0_kernel i arg1 harg1 arg2 harg2 arg3 harg3 arg4 harg4 arg5 harg5) K' := by
  simp only [cc5__q0_kernel_eq_skeleton]; unfold cc5__q0_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover5_4 _)

/-! ## The pipeline's proof data -/

/-- The proof data of region 5's pipeline on core `c`: each window's array as the region finds it; after the body at
    point `t`, every input window's buffer still at its block and every output window's buffer at `out5_w` of the
    input blocks; the invariant is the one that leaves the scoped buffers and the generator register untouched; full
    shares; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

/-- What the body finds in each input window's buffer: the window's block, at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`: the invariant, the core's debts, and each window's current buffer at
    what the pipeline has put there; -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns: the same, each buffer at what the body leaves in it. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the input buffers hold their blocks (`before5_w`), so the body's triple on whole buffers
    applies; the invariant and the core's debts are not touched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation: the triple above at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.RegionI6.lean ====
/- Region 6 of the idealized kernel program (the kernel function `cc6__post_mlp_kernel`), the part of its frame proof
   that is about one grid point, at arbitrary region-entry contents `V` and an arbitrary float instance.
   The body reads a 256×2048 bf16 block, a 2048×2048 bf16 matrix with its 1×2048 f32 row, and two 2048×1024 bf16 matrices
   each with its 1×1024 f32 row, and overwrites two 256×1024 f32 blocks, each with one pure function of what it read.
   This module names each window's block at a point, says what the body leaves in each output buffer as a function of
   the input blocks, proves the body's triple on whole buffers, and packages the result as the pipeline's proof data
   and its body obligation. -/
import proofs.«109395_j20375324852595_2_alg».proof.Proof.Gen.KernelIdeal.Launch
import proofs.«109395_j20375324852595_2_alg».proof.Proof.Gen.KernelIdeal.Skeleton
import proofs.«109395_j20375324852595_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents in the thousands is decided coordinate by coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents at the moment the region is entered; everything below is stated at an
-- arbitrary such `V`
variable (V : (c : Dev nD) → (b : Ref sig .tc) → Buf (Elt F) ((c : Thread nD τ).loc b))

/-! # Region 6: the kernel function `cc6__post_mlp_kernel` on its grid of 16 points -/

/-! ## The windows' blocks -/

/-- The block of window `w` at grid point `t`: the entries of the window's array, as the region finds it, that lie in
    the rectangle the window's index map selects at `t`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0: at every point the body finds the window's block in the window's buffer, whether the block was
    copied in at this point or at an earlier one — between two copies the index map has not moved, and the body never
    writes the buffer. Stated for any proof data with array `V`'s (`hA`) whose body leaves the block in place (`hafter`). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1: at every point the body finds the window's block in the window's buffer, whether the block was
    copied in at this point or at an earlier one — between two copies the index map has not moved, and the body never
    writes the buffer. Stated for any proof data with array `V`'s (`hA`) whose body leaves the block in place (`hafter`). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2: at every point the body finds the window's block in the window's buffer, whether the block was
    copied in at this point or at an earlier one — between two copies the index map has not moved, and the body never
    writes the buffer. Stated for any proof data with array `V`'s (`hA`) whose body leaves the block in place (`hafter`). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3: at every point the body finds the window's block in the window's buffer, whether the block was
    copied in at this point or at an earlier one — between two copies the index map has not moved, and the body never
    writes the buffer. Stated for any proof data with array `V`'s (`hA`) whose body leaves the block in place (`hafter`). -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4: at every point the body finds the window's block in the window's buffer, whether the block was
    copied in at this point or at an earlier one — between two copies the index map has not moved, and the body never
    writes the buffer. Stated for any proof data with array `V`'s (`hA`) whose body leaves the block in place (`hafter`). -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5: at every point the body finds the window's block in the window's buffer, whether the block was
    copied in at this point or at an earlier one — between two copies the index map has not moved, and the body never
    writes the buffer. Stated for any proof data with array `V`'s (`hA`) whose body leaves the block in place (`hafter`). -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6: at every point the body finds the window's block in the window's buffer, whether the block was
    copied in at this point or at an earlier one — between two copies the index map has not moved, and the body never
    writes the buffer. Stated for any proof data with array `V`'s (`hA`) whose body leaves the block in place (`hafter`). -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The rectangles the body reads and writes -/

/-- The whole of window 0's 256×2048 buffer. -/
abbrev r6_0 : Rect S256x2048 := Rect.unit (s := S256x2048) ![0, 0] S256x2048.size inb_S256x2048_S256x2048_0_0
/-- The whole of window 1's 2048×2048 buffer. -/
abbrev r6_1 : Rect S2048x2048 := Rect.unit (s := S2048x2048) ![0, 0] S2048x2048.size inb_S2048x2048_S2048x2048_0_0
/-- The whole of window 2's 1×2048 buffer. -/
abbrev r6_2 : Rect S1x2048 := Rect.unit (s := S1x2048) ![0, 0] S1x2048.size inb_S1x2048_S1x2048_0_0
/-- The whole of a 2048×1024 buffer (windows 3 and 5). -/
abbrev r6_3 : Rect S2048x1024 := Rect.unit (s := S2048x1024) ![0, 0] S2048x1024.size inb_S2048x1024_S2048x1024_0_0
/-- The whole of a 1×1024 buffer (windows 4 and 6). -/
abbrev r6_4 : Rect S1x1024 := Rect.unit (s := S1x1024) ![0, 0] S1x1024.size inb_S1x1024_S1x1024_0_0
/-- The whole of a 256×1024 buffer: where the body stores in windows 7 and 8. -/
abbrev r6_5 : Rect S256x1024 := Rect.unit (s := S256x1024) ![0, 0] S256x1024.size inb_S256x1024_S256x1024_0_0

/-! ## What the body leaves in each output window's buffer -/

/-- Window 7's buffer after the body, as a function of the input windows' blocks: one store over the whole 256×1024
    buffer, of `k6_pay3` of windows 0, 1, 2 (the shared first layer) and windows 3, 4 (this output's matrix and row).
    Windows 5 and 6 are arguments only so that both outputs take the same list. -/
def out6_7 (x0 : Vec F S256x2048 .bf16) (x1 : Vec F S2048x2048 .bf16) (x2 : Vec F S1x2048 .f32) (x3 : Vec F S2048x1024 .bf16) (x4 : Vec F S1x1024 .f32) (x5 : Vec F S2048x1024 .bf16) (x6 : Vec F S1x1024 .f32) : Vec F S256x1024 .f32 :=
  View.canon [⟨r6_5, k6_pay3 (View.ld x0 r6_0) (View.ld x1 r6_1) (View.ld x2 r6_2) (View.ld x3 r6_3) (View.ld x4 r6_4)⟩]

/-- The stored rectangles tile the 256x1024 buffer, so every index lies in one of them. -/
theorem cover6_7 (p0 : Vec F S256x1024 .f32) (y : S256x1024.Idx) :
    ∃ pc ∈ ([⟨r6_5, p0⟩] : List (View.Piece (Elt F) S256x1024 .f32)), y ∈ pc.1.set :=
  View.cover_of_tiled [⟨r6_5, p0⟩] S256x1024.size (by rfl) y

/-- Window 8's buffer after the body, as a function of the input windows' blocks: one store over the whole 256×1024
    buffer, of `k6_pay1` of four intermediate values — each a function of windows 0, 1, 2 (the shared first layer) and
    windows 5, 6 (this output's matrix and row) — and the f32 constant zero. Windows 3 and 4 are arguments only so that
    both outputs take the same list. -/
def out6_8 (x0 : Vec F S256x2048 .bf16) (x1 : Vec F S2048x2048 .bf16) (x2 : Vec F S1x2048 .f32) (x3 : Vec F S2048x1024 .bf16) (x4 : Vec F S1x1024 .f32) (x5 : Vec F S2048x1024 .bf16) (x6 : Vec F S1x1024 .f32) : Vec F S256x1024 .f32 :=
  View.canon [⟨r6_5, k6_pay1 (k6_pay5 (View.ld x0 r6_0) (View.ld x1 r6_1) (View.ld x2 r6_2) (View.ld x5 r6_3) (View.ld x6 r6_4)) (k6_pay7 (View.ld x0 r6_0) (View.ld x1 r6_1) (View.ld x2 r6_2) (View.ld x5 r6_3) (View.ld x6 r6_4))
      (k6_pay8 (View.ld x0 r6_0) (View.ld x1 r6_1) (View.ld x2 r6_2) (View.ld x5 r6_3) (View.ld x6 r6_4)) (k6_pay9 (View.ld x0 r6_0) (View.ld x1 r6_1) (View.ld x2 r6_2) (View.ld x5 r6_3) (View.ld x6 r6_4)) (Scalar.ofBits .f32 0x00000000#32)⟩]

/-- The stored rectangles tile the 256x1024 buffer, so every index lies in one of them. -/
theorem cover6_8 (p0 : Vec F S256x1024 .f32) (y : S256x1024.Idx) :
    ∃ pc ∈ ([⟨r6_5, p0⟩] : List (View.Piece (Elt F) S256x1024 .f32)), y ∈ pc.1.set :=
  View.cover_of_tiled [⟨r6_5, p0⟩] S256x1024.size (by rfl) y

/-! ## The body on whole buffers -/

set_option maxHeartbeats 1000000 in
/-- The body on whole buffers: from the input buffers at contents `x0 … x6` and the two output buffers at any
    contents, it runs to the continuation with the inputs as they were and the output buffers at `out6_7 x0 … x6` and
    `out6_8 x0 … x6`. The first part of the body loads the seven rectangles above and returns the intermediate
    values; the rest loads each output buffer (unused) and overwrites it. -/
theorem sound_kernel6 (c : Dev nD) (E : Set ℕ) (i : grid6.Coords) (arg1 : Memref sig .tc .vmem S256x2048 .bf16) (harg1 : arg1.IsWhole) (arg2 : Memref sig .tc .vmem S2048x2048 .bf16) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .f32) (harg9 : arg9.IsWhole)
    (x0 : Vec F S256x2048 .bf16) (x1 : Vec F S2048x2048 .bf16) (x2 : Vec F S1x2048 .f32) (x3 : Vec F S2048x1024 .bf16) (x4 : Vec F S1x1024 .f32) (x5 : Vec F S2048x1024 .bf16) (x6 : Vec F S1x1024 .f32) (K' : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out6_7 x0 x1 x2 x3 x4 x5 x6) ∗ owns (c : Thread nD τ) arg9 fullShare (out6_8 x0 x1 x2 x3 x4 x5 x6)) -∗ K' ⟨⟩))
      ⊢ wp frame (wpE (defs₀ (F := F)) Variants.none c none) E (cc6__post_mlp_kernel i arg1 harg1 arg2 harg2 arg3 harg3 arg4 harg4 arg5 harg5 arg6 harg6 arg7 harg7 arg8 harg8 arg9 harg9) K' := by
  simp only [cc6__post_mlp_kernel_eq_skeleton]; unfold cc6__post_mlp_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover6_7 _)
  iexists _; isplitr
  swap; · iexact H8
  ipureintro
  try dsimp only
  exact View.read_writes_eq_canon _ _ _ (cover6_8 _)

/-! ## The pipeline's proof data -/

/-- The proof data of region 6's pipeline on core `c`: each window's array as the region finds it; after the body at
    point `t`, every input window's buffer still at its block and every output window's buffer at `out6_w` of the
    input blocks; the invariant is the one that leaves the scoped buffers and the generator register untouched; full
    shares; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
    | ⟨8, _⟩ => out6_8 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]
theorem after6_8 (c : Dev nD) (t : Fin cfg6.N) : (dat6 V c).after 8 t = out6_8 (iblk6 V c 0 t) (iblk6 V c 1 t) (iblk6 V c 2 t) (iblk6 V c 3 t) (iblk6 V c 4 t) (iblk6 V c 5 t) (iblk6 V c 6 t) := by dsimp only [dat6]

/-- What the body finds in each input window's buffer: the window's block, at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The body obligation, at a generic point -/

/-- What the body is called with at point `t`: the invariant, the core's debts, and each window's current buffer at
    what the pipeline has put there; -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d)))

/-- and what it returns: the same, each buffer at what the body leaves in it. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t))

/-- The body at any point: the input buffers hold their blocks (`before6_w`), so the body's triple on whole buffers
    applies; the invariant and the core's debts are not touched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel6 c Set.univ _ _ _ _ _ _ _ _ _ _ _ _ _ _ _ _ _ _ _
    (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation: the triple above at every point. -/
theorem body_obligation6 (c : Dev nD) : BodyObligation (dat6 (F := F) V c) (defs₀ (F := F)) Variants.none () Set.univ := fun t => by
  rw [bigSep_W6, bigSep_W6]
  exact sound_body6 V c t

end Cert.KernelIdeal.Fr

end
-- ==== Proof.RunI.lean ====
/- The run of the kernel program as a whole, at any float instance: @main is eight stretches of host operations
  alternating with seven kernel regions. Between two items every unscoped buffer of a core holds a known array:
  at launch the memory; after a host stretch the stretch's operations applied to what was there; after a region
  what was there, except that each output array of the region holds what the region's grid points wrote back, block
  by block. Each region runs from "every buffer at the contents before it" to "every buffer at the contents after
  it" because its arrays can be taken out of the core's buffers, handed to the pipeline, and put back; the host
  stretches run by the operations' own rules. Chaining the fifteen items gives: every weakly fair execution ends,
  nothing faults, and at the end every unscoped buffer holds the last contents of this fold — in particular each
  argument array what it held at launch (no item writes one), and the result array the final concatenation. -/
import proofs.«109395_j20375324852595_2_alg».proof.Proof.RegionI0
import proofs.«109395_j20375324852595_2_alg».proof.Proof.RegionI1
import proofs.«109395_j20375324852595_2_alg».proof.Proof.RegionI2
import proofs.«109395_j20375324852595_2_alg».proof.Proof.RegionI3
import proofs.«109395_j20375324852595_2_alg».proof.Proof.RegionI4
import proofs.«109395_j20375324852595_2_alg».proof.Proof.RegionI5
import proofs.«109395_j20375324852595_2_alg».proof.Proof.RegionI6
import proofs.«109395_j20375324852595_2_alg».proof.Proof.Gen.KernelIdeal.Regions
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s unscoped buffers at launch. -/
abbrev B0 (c : Dev nD) : Valuation τ sig (Elt F) := fun b => m (c, b)
/-- After the host stretch before region 0. -/
abbrev B1 (c : Dev nD) : Valuation τ sig (Elt F) := StableHlo.after hostOps0 (B0 m c)
/-- The same, read at the TensorCore's references: what region 0 is entered from. -/
abbrev E1 : (c : Dev nD) → (b : Ref sig .tc) → Buf (Elt F) ((c : Thread nD τ).loc b) := fun c b => B1 m c b
/-- After region 0: as before it, except that `main_v14` hold what the region's points wrote back. -/
def B2 (c : Dev nD) : Valuation τ sig (Elt F) :=
  Function.update (B1 m c) main_v14 ((dat0 (E1 m) c).arrAt 6 cfg0.N)
abbrev E2 : (c : Dev nD) → (b : Ref sig .tc) → Buf (Elt F) ((c : Thread nD τ).loc b) := fun c b => B2 m c b
/-- After the host stretch before region 1. -/
abbrev B3 (c : Dev nD) : Valuation τ sig (Elt F) := StableHlo.after hostOps1 (B2 m c)
/-- The same, read at the TensorCore's references: what region 1 is entered from. -/
abbrev E3 : (c : Dev nD) → (b : Ref sig .tc) → Buf (Elt F) ((c : Thread nD τ).loc b) := fun c b => B3 m c b
/-- After region 1: as before it, except that `main_v17` hold what the region's points wrote back. -/
def B4 (c : Dev nD) : Valuation τ sig (Elt F) :=
  Function.update (B3 m c) main_v17 ((dat1 (E3 m) c).arrAt 6 cfg1.N)
abbrev E4 : (c : Dev nD) → (b : Ref sig .tc) → Buf (Elt F) ((c : Thread nD τ).loc b) := fun c b => B4 m c b
/-- After the host stretch before region 2. -/
abbrev B5 (c : Dev nD) : Valuation τ sig (Elt F) := StableHlo.after hostOps2 (B4 m c)
/-- The same, read at the TensorCore's references: what region 2 is entered from. -/
abbrev E5 : (c : Dev nD) → (b : Ref sig .tc) → Buf (Elt F) ((c : Thread nD τ).loc b) := fun c b => B5 m c b
/-- After region 2: as before it, except that `main_v20` hold what the region's points wrote back. -/
def B6 (c : Dev nD) : Valuation τ sig (Elt F) :=
  Function.update (B5 m c) main_v20 ((dat2 (E5 m) c).arrAt 6 cfg2.N)
abbrev E6 : (c : Dev nD) → (b : Ref sig .tc) → Buf (Elt F) ((c : Thread nD τ).loc b) := fun c b => B6 m c b
/-- After the host stretch before region 3. -/
abbrev B7 (c : Dev nD) : Valuation τ sig (Elt F) := StableHlo.after hostOps3 (B6 m c)
/-- The same, read at the TensorCore's references: what region 3 is entered from. -/
abbrev E7 : (c : Dev nD) → (b : Ref sig .tc) → Buf (Elt F) ((c : Thread nD τ).loc b) := fun c b => B7 m c b
/-- After region 3: as before it, except that `main_v23` hold what the region's points wrote back. -/
def B8 (c : Dev nD) : Valuation τ sig (Elt F) :=
  Function.update (B7 m c) main_v23 ((dat3 (E7 m) c).arrAt 8 cfg3.N)
abbrev E8 : (c : Dev nD) → (b : Ref sig .tc) → Buf (Elt F) ((c : Thread nD τ).loc b) := fun c b => B8 m c b
/-- After the host stretch before region 4. -/
abbrev B9 (c : Dev nD) : Valuation τ sig (Elt F) := StableHlo.after hostOps4 (B8 m c)
/-- The same, read at the TensorCore's references: what region 4 is entered from. -/
abbrev E9 : (c : Dev nD) → (b : Ref sig .tc) → Buf (Elt F) ((c : Thread nD τ).loc b) := fun c b => B9 m c b
/-- After region 4: as before it, except that `main_v28_0` and `main_v28_1` hold what the region's points wrote back. -/
def B10 (c : Dev nD) : Valuation τ sig (Elt F) :=
  Function.update (Function.update (B9 m c) main_v28_0 ((dat4 (E9 m) c).arrAt 9 cfg4.N)) main_v28_1 ((dat4 (E9 m) c).arrAt 10 cfg4.N)
abbrev E10 : (c : Dev nD) → (b : Ref sig .tc) → Buf (Elt F) ((c : Thread nD τ).loc b) := fun c b => B10 m c b
/-- After the host stretch before region 5. -/
abbrev B11 (c : Dev nD) : Valuation τ sig (Elt F) := StableHlo.after hostOps5 (B10 m c)
/-- The same, read at the TensorCore's references: what region 5 is entered from. -/
abbrev E11 : (c : Dev nD) → (b : Ref sig .tc) → Buf (Elt F) ((c : Thread nD τ).loc b) := fun c b => B11 m c b
/-- After region 5: as before it, except that `main_v30` hold what the region's points wrote back. -/
def B12 (c : Dev nD) : Valuation τ sig (Elt F) :=
  Function.update (B11 m c) main_v30 ((dat5 (E11 m) c).arrAt 4 cfg5.N)
abbrev E12 : (c : Dev nD) → (b : Ref sig .tc) → Buf (Elt F) ((c : Thread nD τ).loc b) := fun c b => B12 m c b
/-- After the host stretch before region 6. -/
abbrev B13 (c : Dev nD) : Valuation τ sig (Elt F) := StableHlo.after hostOps6 (B12 m c)
/-- The same, read at the TensorCore's references: what region 6 is entered from. -/
abbrev E13 : (c : Dev nD) → (b : Ref sig .tc) → Buf (Elt F) ((c : Thread nD τ).loc b) := fun c b => B13 m c b
/-- After region 6: as before it, except that `main_v34_0` and `main_v34_1` hold what the region's points wrote back. -/
def B14 (c : Dev nD) : Valuation τ sig (Elt F) :=
  Function.update (Function.update (B13 m c) main_v34_0 ((dat6 (E13 m) c).arrAt 7 cfg6.N)) main_v34_1 ((dat6 (E13 m) c).arrAt 8 cfg6.N)
abbrev E14 : (c : Dev nD) → (b : Ref sig .tc) → Buf (Elt F) ((c : Thread nD τ).loc b) := fun c b => B14 m c b
/-- After the last host stretch (the concatenation of the five result pieces). -/
abbrev B15 (c : Dev nD) : Valuation τ sig (Elt F) := StableHlo.after hostOps7 (B14 m c)

/-- What the regions leave, as the family the host side of the run is stated over: after item `J − 1` the buffer `r`
    holds its contents in the fold above. -/
def outs : Outs (F := F) := fun J r c => match J with
  | 2 => B2 m c r | 4 => B4 m c r | 6 => B6 m c r | 8 => B8 m c r | 10 => B10 m c r | 12 => B12 m c r | 14 => B14 m c r
  | _ => B0 m c r

/-! ## The fold above is the host side's chain of contents at these `outs` -/

theorem V1_eq (c : Dev nD) : V1 m c = B1 m c := rfl
theorem V2_eq (c : Dev nD) : V2 m (outs m) c = B2 m c := by
  show Function.update (V1 m c) _ (B2 m c _) = B2 m c
  rw [V1_eq]; unfold B2; rw [Function.update_self]
theorem V3_eq (c : Dev nD) : V3 m (outs m) c = B3 m c := by
  show StableHlo.after hostOps1 (V2 m (outs m) c) = _; rw [V2_eq]
theorem V4_eq (c : Dev nD) : V4 m (outs m) c = B4 m c := by
  show Function.update (V3 m (outs m) c) _ (B4 m c _) = B4 m c
  rw [V3_eq]; unfold B4; rw [Function.update_self]
theorem V5_eq (c : Dev nD) : V5 m (outs m) c = B5 m c := by
  show StableHlo.after hostOps2 (V4 m (outs m) c) = _; rw [V4_eq]
theorem V6_eq (c : Dev nD) : V6 m (outs m) c = B6 m c := by
  show Function.update (V5 m (outs m) c) _ (B6 m c _) = B6 m c
  rw [V5_eq]; unfold B6; rw [Function.update_self]
theorem V7_eq (c : Dev nD) : V7 m (outs m) c = B7 m c := by
  show StableHlo.after hostOps3 (V6 m (outs m) c) = _; rw [V6_eq]
theorem V8_eq (c : Dev nD) : V8 m (outs m) c = B8 m c := by
  show Function.update (V7 m (outs m) c) _ (B8 m c _) = B8 m c
  rw [V7_eq]; unfold B8; rw [Function.update_self]
theorem V9_eq (c : Dev nD) : V9 m (outs m) c = B9 m c := by
  show StableHlo.after hostOps4 (V8 m (outs m) c) = _; rw [V8_eq]
theorem V10_eq (c : Dev nD) : V10 m (outs m) c = B10 m c := by
  show Function.update (Function.update (V9 m (outs m) c) _ (B10 m c _)) _ (B10 m c _) = B10 m c
  rw [V9_eq]; unfold B10
  rw [Function.update_self, Function.update_of_ne (StableHlo.devRef_ne_of_ne (by decide) : (Proc.devRef .tc main_v28_0 : DevRef τ sig) ≠ Proc.devRef .tc main_v28_1), Function.update_self]
theorem V11_eq (c : Dev nD) : V11 m (outs m) c = B11 m c := by
  show StableHlo.after hostOps5 (V10 m (outs m) c) = _; rw [V10_eq]
theorem V12_eq (c : Dev nD) : V12 m (outs m) c = B12 m c := by
  show Function.update (V11 m (outs m) c) _ (B12 m c _) = B12 m c
  rw [V11_eq]; unfold B12; rw [Function.update_self]
theorem V13_eq (c : Dev nD) : V13 m (outs m) c = B13 m c := by
  show StableHlo.after hostOps6 (V12 m (outs m) c) = _; rw [V12_eq]
theorem V14_eq (c : Dev nD) : V14 m (outs m) c = B14 m c := by
  show Function.update (Function.update (V13 m (outs m) c) _ (B14 m c _)) _ (B14 m c _) = B14 m c
  rw [V13_eq]; unfold B14
  rw [Function.update_self, Function.update_of_ne (StableHlo.devRef_ne_of_ne (by decide) : (Proc.devRef .tc main_v34_0 : DevRef τ sig) ≠ Proc.devRef .tc main_v34_1), Function.update_self]
theorem V15_eq (c : Dev nD) : V15 m (outs m) c = B15 m c := by
  show StableHlo.after hostOps7 (V14 m (outs m) c) = _; rw [V14_eq]

/-- A buffer a region does not write holds after the region what it held before. -/
theorem B2_of (c : Dev nD) (r : Ref sig .tc) (h : r ∉ ([main_v14] : List (Ref sig .tc))) : B2 m c r = B1 m c r :=
  (congrFun (V2_eq m c) (Proc.devRef .tc r)).symm.trans ((V2_of m (outs m) c r h).trans (congrFun (V1_eq m c) (Proc.devRef .tc r)))
theorem B4_of (c : Dev nD) (r : Ref sig .tc) (h : r ∉ ([main_v17] : List (Ref sig .tc))) : B4 m c r = B3 m c r :=
  (congrFun (V4_eq m c) (Proc.devRef .tc r)).symm.trans ((V4_of m (outs m) c r h).trans (congrFun (V3_eq m c) (Proc.devRef .tc r)))
theorem B6_of (c : Dev nD) (r : Ref sig .tc) (h : r ∉ ([main_v20] : List (Ref sig .tc))) : B6 m c r = B5 m c r :=
  (congrFun (V6_eq m c) (Proc.devRef .tc r)).symm.trans ((V6_of m (outs m) c r h).trans (congrFun (V5_eq m c) (Proc.devRef .tc r)))
theorem B8_of (c : Dev nD) (r : Ref sig .tc) (h : r ∉ ([main_v23] : List (Ref sig .tc))) : B8 m c r = B7 m c r :=
  (congrFun (V8_eq m c) (Proc.devRef .tc r)).symm.trans ((V8_of m (outs m) c r h).trans (congrFun (V7_eq m c) (Proc.devRef .tc r)))
theorem B10_of (c : Dev nD) (r : Ref sig .tc) (h : r ∉ ([main_v28_0, main_v28_1] : List (Ref sig .tc))) : B10 m c r = B9 m c r :=
  (congrFun (V10_eq m c) (Proc.devRef .tc r)).symm.trans ((V10_of m (outs m) c r h).trans (congrFun (V9_eq m c) (Proc.devRef .tc r)))
theorem B12_of (c : Dev nD) (r : Ref sig .tc) (h : r ∉ ([main_v30] : List (Ref sig .tc))) : B12 m c r = B11 m c r :=
  (congrFun (V12_eq m c) (Proc.devRef .tc r)).symm.trans ((V12_of m (outs m) c r h).trans (congrFun (V11_eq m c) (Proc.devRef .tc r)))
theorem B14_of (c : Dev nD) (r : Ref sig .tc) (h : r ∉ ([main_v34_0, main_v34_1] : List (Ref sig .tc))) : B14 m c r = B13 m c r :=
  (congrFun (V14_eq m c) (Proc.devRef .tc r)).symm.trans ((V14_of m (outs m) c r h).trans (congrFun (V13_eq m c) (Proc.devRef .tc r)))

/-! ## Every pipeline's proof data, each at the contents its region is entered from -/

def pdats : (p : Fin 7) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
  | ⟨6, _⟩ => fun c => dat6 (E13 m) c

/-- No level is assigned and nothing is owed across cores. -/
abbrev Lv : GSem nD τ sig → Finset Unit := fun _ => ∅
abbrev lvl : GSem nD τ sig → Unit → ℕ := fun _ _ => 0
/-- What rides beside the buffers through every item: the core's generator register at some state, and the core owing nothing. -/
abbrev Rst (c : Dev nD) : sProp 𝕄 := iprop((∃ r, prngReg c r) ∗ ∃ W, owes (c : Thread nD τ) (0 : CellTallies nD τ sig Unit) W)

/-! ## What a region leaves: its output arrays at the write-backs' fold, everything else as entered -/

theorem isIn0 : ∀ w : Fin 7, (cfg0.win w).isOut = false ∨ w = 6 := by decide
theorem inNe0 : ∀ w : Fin 7, (cfg0.win w).isOut = false → Pipeline.arrRef spec0 w ∉ ([main_v14] : List (Ref sig .tc)) := by decide
theorem hF0 (c : Dev nD) (w : Fin cfg0.W) : (dat0 (E1 m) c).arrAt w cfg0.N = E2 m c (Pipeline.arrRef spec0 w) := by
  rcases isIn0 w with hw | rfl
  · exact ((dat0 (E1 m) c).arrAt_in w hw _).trans ((A_eq0 (E1 m) c w).trans (B2_of m c _ (inNe0 w hw)).symm)
  · show _ = Function.update (B1 m c) main_v14 _ main_v14; rw [Function.update_self]
theorem hrest0 (c : Dev nD) : ∀ b, b ∉ Finset.univ.image (Pipeline.arrRef spec0) → E2 m c b = E1 m c b := fun b hb =>
  B2_of m c b (fun h => by
    rw [List.mem_singleton] at h; subst h
    exact hb (Finset.mem_image.mpr ⟨6, Finset.mem_univ _, rfl⟩))

theorem isIn1 : ∀ w : Fin 7, (cfg1.win w).isOut = false ∨ w = 6 := by decide
theorem inNe1 : ∀ w : Fin 7, (cfg1.win w).isOut = false → Pipeline.arrRef spec1 w ∉ ([main_v17] : List (Ref sig .tc)) := by decide
theorem hF1 (c : Dev nD) (w : Fin cfg1.W) : (dat1 (E3 m) c).arrAt w cfg1.N = E4 m c (Pipeline.arrRef spec1 w) := by
  rcases isIn1 w with hw | rfl
  · exact ((dat1 (E3 m) c).arrAt_in w hw _).trans ((A_eq1 (E3 m) c w).trans (B4_of m c _ (inNe1 w hw)).symm)
  · show _ = Function.update (B3 m c) main_v17 _ main_v17; rw [Function.update_self]
theorem hrest1 (c : Dev nD) : ∀ b, b ∉ Finset.univ.image (Pipeline.arrRef spec1) → E4 m c b = E3 m c b := fun b hb =>
  B4_of m c b (fun h => by
    rw [List.mem_singleton] at h; subst h
    exact hb (Finset.mem_image.mpr ⟨6, Finset.mem_univ _, rfl⟩))

theorem isIn2 : ∀ w : Fin 7, (cfg2.win w).isOut = false ∨ w = 6 := by decide
theorem inNe2 : ∀ w : Fin 7, (cfg2.win w).isOut = false → Pipeline.arrRef spec2 w ∉ ([main_v20] : List (Ref sig .tc)) := by decide
theorem hF2 (c : Dev nD) (w : Fin cfg2.W) : (dat2 (E5 m) c).arrAt w cfg2.N = E6 m c (Pipeline.arrRef spec2 w) := by
  rcases isIn2 w with hw | rfl
  · exact ((dat2 (E5 m) c).arrAt_in w hw _).trans ((A_eq2 (E5 m) c w).trans (B6_of m c _ (inNe2 w hw)).symm)
  · show _ = Function.update (B5 m c) main_v20 _ main_v20; rw [Function.update_self]
theorem hrest2 (c : Dev nD) : ∀ b, b ∉ Finset.univ.image (Pipeline.arrRef spec2) → E6 m c b = E5 m c b := fun b hb =>
  B6_of m c b (fun h => by
    rw [List.mem_singleton] at h; subst h
    exact hb (Finset.mem_image.mpr ⟨6, Finset.mem_univ _, rfl⟩))

theorem isIn3 : ∀ w : Fin 9, (cfg3.win w).isOut = false ∨ w = 8 := by decide
theorem inNe3 : ∀ w : Fin 9, (cfg3.win w).isOut = false → Pipeline.arrRef spec3 w ∉ ([main_v23] : List (Ref sig .tc)) := by decide
theorem hF3 (c : Dev nD) (w : Fin cfg3.W) : (dat3 (E7 m) c).arrAt w cfg3.N = E8 m c (Pipeline.arrRef spec3 w) := by
  rcases isIn3 w with hw | rfl
  · exact ((dat3 (E7 m) c).arrAt_in w hw _).trans ((A_eq3 (E7 m) c w).trans (B8_of m c _ (inNe3 w hw)).symm)
  · show _ = Function.update (B7 m c) main_v23 _ main_v23; rw [Function.update_self]
theorem hrest3 (c : Dev nD) : ∀ b, b ∉ Finset.univ.image (Pipeline.arrRef spec3) → E8 m c b = E7 m c b := fun b hb =>
  B8_of m c b (fun h => by
    rw [List.mem_singleton] at h; subst h
    exact hb (Finset.mem_image.mpr ⟨8, Finset.mem_univ _, rfl⟩))

theorem isIn4 : ∀ w : Fin 11, (cfg4.win w).isOut = false ∨ w = 9 ∨ w = 10 := by decide
theorem inNe4 : ∀ w : Fin 11, (cfg4.win w).isOut = false → Pipeline.arrRef spec4 w ∉ ([main_v28_0, main_v28_1] : List (Ref sig .tc)) := by decide
theorem hF4 (c : Dev nD) (w : Fin cfg4.W) : (dat4 (E9 m) c).arrAt w cfg4.N = E10 m c (Pipeline.arrRef spec4 w) := by
  rcases isIn4 w with hw | rfl | rfl
  · exact ((dat4 (E9 m) c).arrAt_in w hw _).trans ((A_eq4 (E9 m) c w).trans (B10_of m c _ (inNe4 w hw)).symm)
  · show _ = Function.update (Function.update (B9 m c) main_v28_0 _) main_v28_1 _ main_v28_0
    rw [Function.update_of_ne (StableHlo.devRef_ne_of_ne (by decide) : (Proc.devRef .tc main_v28_0 : DevRef τ sig) ≠ Proc.devRef .tc main_v28_1), Function.update_self]
  · show _ = Function.update (Function.update (B9 m c) main_v28_0 _) main_v28_1 _ main_v28_1; rw [Function.update_self]
theorem hrest4 (c : Dev nD) : ∀ b, b ∉ Finset.univ.image (Pipeline.arrRef spec4) → E10 m c b = E9 m c b := fun b hb =>
  B10_of m c b (fun h => by
    rcases List.mem_cons.mp h with h | h
    · subst h; exact hb (Finset.mem_image.mpr ⟨9, Finset.mem_univ _, rfl⟩)
    · rw [List.mem_singleton] at h; subst h; exact hb (Finset.mem_image.mpr ⟨10, Finset.mem_univ _, rfl⟩))

theorem isIn5 : ∀ w : Fin 5, (cfg5.win w).isOut = false ∨ w = 4 := by decide
theorem inNe5 : ∀ w : Fin 5, (cfg5.win w).isOut = false → Pipeline.arrRef spec5 w ∉ ([main_v30] : List (Ref sig .tc)) := by decide
theorem hF5 (c : Dev nD) (w : Fin cfg5.W) : (dat5 (E11 m) c).arrAt w cfg5.N = E12 m c (Pipeline.arrRef spec5 w) := by
  rcases isIn5 w with hw | rfl
  · exact ((dat5 (E11 m) c).arrAt_in w hw _).trans ((A_eq5 (E11 m) c w).trans (B12_of m c _ (inNe5 w hw)).symm)
  · show _ = Function.update (B11 m c) main_v30 _ main_v30; rw [Function.update_self]
theorem hrest5 (c : Dev nD) : ∀ b, b ∉ Finset.univ.image (Pipeline.arrRef spec5) → E12 m c b = E11 m c b := fun b hb =>
  B12_of m c b (fun h => by
    rw [List.mem_singleton] at h; subst h
    exact hb (Finset.mem_image.mpr ⟨4, Finset.mem_univ _, rfl⟩))

theorem isIn6 : ∀ w : Fin 9, (cfg6.win w).isOut = false ∨ w = 7 ∨ w = 8 := by decide
theorem inNe6 : ∀ w : Fin 9, (cfg6.win w).isOut = false → Pipeline.arrRef spec6 w ∉ ([main_v34_0, main_v34_1] : List (Ref sig .tc)) := by decide
theorem hF6 (c : Dev nD) (w : Fin cfg6.W) : (dat6 (E13 m) c).arrAt w cfg6.N = E14 m c (Pipeline.arrRef spec6 w) := by
  rcases isIn6 w with hw | rfl | rfl
  · exact ((dat6 (E13 m) c).arrAt_in w hw _).trans ((A_eq6 (E13 m) c w).trans (B14_of m c _ (inNe6 w hw)).symm)
  · show _ = Function.update (Function.update (B13 m c) main_v34_0 _) main_v34_1 _ main_v34_0
    rw [Function.update_of_ne (StableHlo.devRef_ne_of_ne (by decide) : (Proc.devRef .tc main_v34_0 : DevRef τ sig) ≠ Proc.devRef .tc main_v34_1), Function.update_self]
  · show _ = Function.update (Function.update (B13 m c) main_v34_0 _) main_v34_1 _ main_v34_1; rw [Function.update_self]
theorem hrest6 (c : Dev nD) : ∀ b, b ∉ Finset.univ.image (Pipeline.arrRef spec6) → E14 m c b = E13 m c b := fun b hb =>
  B14_of m c b (fun h => by
    rcases List.mem_cons.mp h with h | h
    · subst h; exact hb (Finset.mem_image.mpr ⟨7, Finset.mem_univ _, rfl⟩)
    · rw [List.mem_singleton] at h; subst h; exact hb (Finset.mem_image.mpr ⟨8, Finset.mem_univ _, rfl⟩))

/-! ## The regions as items of the run -/

set_option backward.isDefEq.respectTransparency.types false in
/-- Region 0: entered with every unscoped buffer at the contents before it, left with every one at the contents
    after it. Its arrays are split out of the core's buffers and put back at what the pipeline leaves; the generator
    register goes into the pipeline's invariant and comes back; nothing is owed; the kernel has no semaphore of its own. -/
def reg0 : RegionSeg (pcfgs (F := F)) adm (pdats m) () defs₀ Variants.none Lv lvl 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lv lvl 0 fun _ _ => rfl
  pre c := iprop(StableHlo.held (c : Thread nD τ) (Pipeline.ucRefs τ sig) (B1 m c) ∗ Rst c)
  post c := iprop(StableHlo.held (c : Thread nD τ) (Pipeline.ucRefs τ sig) (B2 m c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at the contents before it, left with every one at the contents
    after it. Its arrays are split out of the core's buffers and put back at what the pipeline leaves; the generator
    register goes into the pipeline's invariant and comes back; nothing is owed; the kernel has no semaphore of its own. -/
def reg1 : RegionSeg (pcfgs (F := F)) adm (pdats m) () defs₀ Variants.none Lv lvl 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ Lv lvl 1 fun _ _ => rfl
  pre c := iprop(StableHlo.held (c : Thread nD τ) (Pipeline.ucRefs τ sig) (B3 m c) ∗ Rst c)
  post c := iprop(StableHlo.held (c : Thread nD τ) (Pipeline.ucRefs τ sig) (B4 m c) ∗ Rst c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at the contents before it, left with every one at the contents
    after it. Its arrays are split out of the core's buffers and put back at what the pipeline leaves; the generator
    register goes into the pipeline's invariant and comes back; nothing is owed; the kernel has no semaphore of its own. -/
def reg2 : RegionSeg (pcfgs (F := F)) adm (pdats m) () defs₀ Variants.none Lv lvl 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ Lv lvl 2 fun _ _ => rfl
  pre c := iprop(StableHlo.held (c : Thread nD τ) (Pipeline.ucRefs τ sig) (B5 m c) ∗ Rst c)
  post c := iprop(StableHlo.held (c : Thread nD τ) (Pipeline.ucRefs τ sig) (B6 m c) ∗ Rst c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at the contents before it, left with every one at the contents
    after it. Its arrays are split out of the core's buffers and put back at what the pipeline leaves; the generator
    register goes into the pipeline's invariant and comes back; nothing is owed; the kernel has no semaphore of its own. -/
def reg3 : RegionSeg (pcfgs (F := F)) adm (pdats m) () defs₀ Variants.none Lv lvl 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ Lv lvl 3 fun _ _ => rfl
  pre c := iprop(StableHlo.held (c : Thread nD τ) (Pipeline.ucRefs τ sig) (B7 m c) ∗ Rst c)
  post c := iprop(StableHlo.held (c : Thread nD τ) (Pipeline.ucRefs τ sig) (B8 m c) ∗ Rst c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at the contents before it, left with every one at the contents
    after it. Its arrays are split out of the core's buffers and put back at what the pipeline leaves; the generator
    register goes into the pipeline's invariant and comes back; nothing is owed; the kernel has no semaphore of its own. -/
def reg4 : RegionSeg (pcfgs (F := F)) adm (pdats m) () defs₀ Variants.none Lv lvl 4 where
  win := launch4.win.to₀
  block_pos := launch4.block_pos
  stage_whole := launch4.stage_whole
  K := PEmpty
  osem k := k.elim
  ho := Pipeline.OwnSemFacts.none _
  hbody c := (body_obligation4 (E9 m) c).loose
  hwaits := Pipeline.hwaits_of_owed_zero _ _ _ _ Lv lvl 4 fun _ _ => rfl
  pre c := iprop(StableHlo.held (c : Thread nD τ) (Pipeline.ucRefs τ sig) (B9 m c) ∗ Rst c)
  post c := iprop(StableHlo.held (c : Thread nD τ) (Pipeline.ucRefs τ sig) (B10 m c) ∗ Rst c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E9 m c) (E10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered with every unscoped buffer at the contents before it, left with every one at the contents
    after it. Its arrays are split out of the core's buffers and put back at what the pipeline leaves; the generator
    register goes into the pipeline's invariant and comes back; nothing is owed; the kernel has no semaphore of its own. -/
def reg5 : RegionSeg (pcfgs (F := F)) adm (pdats m) () defs₀ Variants.none Lv lvl 5 where
  win := launch5.win.to₀
  block_pos := launch5.block_pos
  stage_whole := launch5.stage_whole
  K := PEmpty
  osem k := k.elim
  ho := Pipeline.OwnSemFacts.none _
  hbody c := (body_obligation5 (E11 m) c).loose
  hwaits := Pipeline.hwaits_of_owed_zero _ _ _ _ Lv lvl 5 fun _ _ => rfl
  pre c := iprop(StableHlo.held (c : Thread nD τ) (Pipeline.ucRefs τ sig) (B11 m c) ∗ Rst c)
  post c := iprop(StableHlo.held (c : Thread nD τ) (Pipeline.ucRefs τ sig) (B12 m c) ∗ Rst c)
  X c := iprop(∃ r, prngReg c r)
  Y c := iprop(∃ r, prngReg c r)
  Z c := Pipeline.unscopedRest (Ix := Unit) (Name := ℕ) (U := UR sig nD τ) (Lvl := ℕ) spec5 c (E11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E11 m c) (E12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered with every unscoped buffer at the contents before it, left with every one at the contents
    after it. Its arrays are split out of the core's buffers and put back at what the pipeline leaves; the generator
    register goes into the pipeline's invariant and comes back; nothing is owed; the kernel has no semaphore of its own. -/
def reg6 : RegionSeg (pcfgs (F := F)) adm (pdats m) () defs₀ Variants.none Lv lvl 6 where
  win := launch6.win.to₀
  block_pos := launch6.block_pos
  stage_whole := launch6.stage_whole
  K := PEmpty
  osem k := k.elim
  ho := Pipeline.OwnSemFacts.none _
  hbody c := (body_obligation6 (E13 m) c).loose
  hwaits := Pipeline.hwaits_of_owed_zero _ _ _ _ Lv lvl 6 fun _ _ => rfl
  pre c := iprop(StableHlo.held (c : Thread nD τ) (Pipeline.ucRefs τ sig) (B13 m c) ∗ Rst c)
  post c := iprop(StableHlo.held (c : Thread nD τ) (Pipeline.ucRefs τ sig) (B14 m c) ∗ Rst c)
  X c := iprop(∃ r, prngReg c r)
  Y c := iprop(∃ r, prngReg c r)
  Z c := Pipeline.unscopedRest (Ix := Unit) (Name := ℕ) (U := UR sig nD τ) (Lvl := ℕ) spec6 c (E13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (E13 m c) (E14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's dealings, and the chain's ends -/

abbrev u₀ : UR sig nD τ := initOf (Pipeline.cells cfgs cellOf_inj) (Pipeline.launchToks cfgs cellOf_inj)
theorem hu₀ : (ownU (u₀ : UR sig nD τ) : sProp 𝕄) ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Two families, each held on every core, are their pairs held on every core. -/
theorem bigSep_join (A E : Dev nD → sProp 𝕄) : iprop(bigSep Finset.univ A ∗ bigSep Finset.univ E) ⊢ (bigSep Finset.univ (fun c => iprop(A c ∗ E c)) : sProp 𝕄) := by
  rw [bigSep_sep']
/-- At launch each core's generator register and its empty dues make the rest state. -/
theorem hE0 (ρ : Dev nD → PrngReg) : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lv lvl)
    ⊢ (|={Set.univ}=> bigSep Finset.univ (fun c : Dev nD => Rst c) : sProp 𝕄) := by
  refine Pipeline.initEach Lv lvl fun c => ?_
  iintro ⟨⟨-, HO, -, Hp, -⟩, -⟩
  imodintro
  isplitl [Hp]; · iexists _; iexact Hp
  iexists ∅; iexact HO
theorem hE7 (c : Dev nD) : Rst c ⊢ (iprop(∃ W, owes (c : Thread nD τ) (0 : CellTallies nD τ sig Unit) W) : sProp 𝕄) := by
  iintro ⟨-, HO⟩; iexact HO

theorem hpre0 (c : Dev nD) : iprop(StableHlo.held (c : Thread nD τ) (Pipeline.ucRefs τ sig) (V1 m c) ∗ Rst c) ⊢ (reg0 m).pre c := by rw [V1_eq]; exact .rfl
theorem hpost0 (c : Dev nD) : (reg0 m).post c ⊢ iprop(StableHlo.held (c : Thread nD τ) (Pipeline.ucRefs τ sig) (V2 m (outs m) c) ∗ Rst c) := by rw [V2_eq]; exact .rfl
theorem hpre1 (c : Dev nD) : iprop(StableHlo.held (c : Thread nD τ) (Pipeline.ucRefs τ sig) (V3 m (outs m) c) ∗ Rst c) ⊢ (reg1 m).pre c := by rw [V3_eq]; exact .rfl
theorem hpost1 (c : Dev nD) : (reg1 m).post c ⊢ iprop(StableHlo.held (c : Thread nD τ) (Pipeline.ucRefs τ sig) (V4 m (outs m) c) ∗ Rst c) := by rw [V4_eq]; exact .rfl
theorem hpre2 (c : Dev nD) : iprop(StableHlo.held (c : Thread nD τ) (Pipeline.ucRefs τ sig) (V5 m (outs m) c) ∗ Rst c) ⊢ (reg2 m).pre c := by rw [V5_eq]; exact .rfl
theorem hpost2 (c : Dev nD) : (reg2 m).post c ⊢ iprop(StableHlo.held (c : Thread nD τ) (Pipeline.ucRefs τ sig) (V6 m (outs m) c) ∗ Rst c) := by rw [V6_eq]; exact .rfl
theorem hpre3 (c : Dev nD) : iprop(StableHlo.held (c : Thread nD τ) (Pipeline.ucRefs τ sig) (V7 m (outs m) c) ∗ Rst c) ⊢ (reg3 m).pre c := by rw [V7_eq]; exact .rfl
theorem hpost3 (c : Dev nD) : (reg3 m).post c ⊢ iprop(StableHlo.held (c : Thread nD τ) (Pipeline.ucRefs τ sig) (V8 m (outs m) c) ∗ Rst c) := by rw [V8_eq]; exact .rfl
theorem hpre4 (c : Dev nD) : iprop(StableHlo.held (c : Thread nD τ) (Pipeline.ucRefs τ sig) (V9 m (outs m) c) ∗ Rst c) ⊢ (reg4 m).pre c := by rw [V9_eq]; exact .rfl
theorem hpost4 (c : Dev nD) : (reg4 m).post c ⊢ iprop(StableHlo.held (c : Thread nD τ) (Pipeline.ucRefs τ sig) (V10 m (outs m) c) ∗ Rst c) := by rw [V10_eq]; exact .rfl
theorem hpre5 (c : Dev nD) : iprop(StableHlo.held (c : Thread nD τ) (Pipeline.ucRefs τ sig) (V11 m (outs m) c) ∗ Rst c) ⊢ (reg5 m).pre c := by rw [V11_eq]; exact .rfl
theorem hpost5 (c : Dev nD) : (reg5 m).post c ⊢ iprop(StableHlo.held (c : Thread nD τ) (Pipeline.ucRefs τ sig) (V12 m (outs m) c) ∗ Rst c) := by rw [V12_eq]; exact .rfl
theorem hpre6 (c : Dev nD) : iprop(StableHlo.held (c : Thread nD τ) (Pipeline.ucRefs τ sig) (V13 m (outs m) c) ∗ Rst c) ⊢ (reg6 m).pre c := by rw [V13_eq]; exact .rfl
theorem hpost6 (c : Dev nD) : (reg6 m).post c ⊢ iprop(StableHlo.held (c : Thread nD τ) (Pipeline.ucRefs τ sig) (V14 m (outs m) c) ∗ Rst c) := by rw [V14_eq]; exact .rfl

/-! ## The frame: every argument array ends as launched -/

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  frame_cond m (EP := emb₁) () Variants.none Lv lvl (fun _ _ => rfl) ρ (outs m) (pdats m) 0 (fun _ => iprop(emp)) u₀ hu₀ (fun _ => Rst) (hE0 ρ) hE7 (reg0 m) (hpre0 m) (hpost0 m) (reg1 m) (hpre1 m) (hpost1 m) (reg2 m) (hpre2 m) (hpost2 m) (reg3 m) (hpre3 m) (hpost3 m) (reg4 m) (hpre4 m) (hpost4 m) (reg5 m) (hpre5 m) (hpost5 m) (reg6 m) (hpre6 m) (hpost6 m)

/-! ## The run with its result: the result array ends at the fold's last contents, the arguments as launched -/

set_option backward.isDefEq.respectTransparency.types false in
theorem run_result (ρ : Dev nD → PrngReg) : θ_run defs (onTc (τ := τ) (main (F := F))) ⟨m, fun _ => 0, ρ⟩ (fun r => ∀ c : Dev nD,
      r.2.mem ((c.tc : Thread nD τ).loc main_v35) = B15 m c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) := by
  refine Pipeline.θ_run_regions_kit_dev (pcfgs (F := F)) adm (pdats m) () cellOf_inj emb₁ defs₀ Variants.none Lv lvl m ρ main
    (segs m (outs m) Variants.none Lv lvl (fun _ => Rst) () (pdats m) (reg0 m) (reg1 m) (reg2 m) (reg3 m) (reg4 m) (reg5 m) (reg6 m))
    (fun c Q => by
      rewrite [main_chain c, Seg.run_eq_chain,
        show (segs m (outs m) Variants.none Lv lvl (fun _ => Rst) () (pdats m) (reg0 m) (reg1 m) (reg2 m) (reg3 m) (reg4 m) (reg5 m) (reg6 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (fun c => by simp only [segs, Seg.pipes_host, Seg.pipes_region, Seg.pipes_nil]; decide) 0 (fun _ _ => rfl) (fun _ => iprop(emp)) u₀ hu₀
    (T₀ := fun c => iprop(StableHlo.held (c : Thread nD τ) (Pipeline.ucRefs τ sig) (V0 m c) ∗ Rst c))
    (Tₙ := fun c => StableHlo.held (c : Thread nD τ) (Pipeline.ucRefs τ sig) (V15 m (outs m) c))
    (hch := fun c => ⟨.rfl, hpre0 m c, hpost0 m c, hpre1 m c, hpost1 m c, hpre2 m c, hpost2 m c, hpre3 m c, hpost3 m c, hpre4 m c, hpost4 m c, hpre5 m c, hpost5 m c, hpre6 m c, hpost6 m c, sep_mono .rfl (hE7 c)⟩)
    (hinit := ?_) (QY := fun c s => s.mem ((c.tc : Thread nD τ).loc main_v35) = B15 m c main_v35
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23) ∧ s.mem ((c.tc : Thread nD τ).loc main_arg24) = m ((c.tc : Thread nD τ).loc main_arg24) ∧ s.mem ((c.tc : Thread nD τ).loc main_arg25) = m ((c.tc : Thread nD τ).loc main_arg25) ∧ s.mem ((c.tc : Thread nD τ).loc main_arg26) = m ((c.tc : Thread nD τ).loc main_arg26) ∧ s.mem ((c.tc : Thread nD τ).loc main_arg27) = m ((c.tc : Thread nD τ).loc main_arg27))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    iapply (bigSep_join (fun c : Dev nD => StableHlo.held (c : Thread nD τ) (Pipeline.ucRefs τ sig) (V0 m c)) (fun c : Dev nD => Rst c))
    isplitl [Hh]; · iexact Hh
    iexact HE
  · unfold StableHlo.held
    iintro ⟨Hh, HSI⟩
    ihave Hr := (pointsTo_read_all (Pipeline.ucRefs τ sig) (fun b => ((c : Thread nD τ).1, b)) (V15 m (outs m) c) s') $$ [Hh HSI]
    · isplitl [Hh] <;> iassumption
    icases Hr with ⟨%h, HSI⟩
    imodintro
    isplitr
    · ipureintro
      exact ⟨(h (Proc.devRef .tc main_v35) (Finset.mem_filter.mpr ⟨StableHlo.devRef_mem_tcRefs main_v35, by decide⟩)).trans (congrFun (V15_eq m c) (Proc.devRef .tc main_v35)),
        (h (Proc.devRef .tc main_arg0) (Finset.mem_filter.mpr ⟨StableHlo.devRef_mem_tcRefs main_arg0, by decide⟩)).trans (V15_main_arg0 m (outs m) c),
        (h (Proc.devRef .tc main_arg1) (Finset.mem_filter.mpr ⟨StableHlo.devRef_mem_tcRefs main_arg1, by decide⟩)).trans (V15_main_arg1 m (outs m) c),
        (h (Proc.devRef .tc main_arg2) (Finset.mem_filter.mpr ⟨StableHlo.devRef_mem_tcRefs main_arg2, by decide⟩)).trans (V15_main_arg2 m (outs m) c),
        (h (Proc.devRef .tc main_arg3) (Finset.mem_filter.mpr ⟨StableHlo.devRef_mem_tcRefs main_arg3, by decide⟩)).trans (V15_main_arg3 m (outs m) c),
        (h (Proc.devRef .tc main_arg4) (Finset.mem_filter.mpr ⟨StableHlo.devRef_mem_tcRefs main_arg4, by decide⟩)).trans (V15_main_arg4 m (outs m) c),
        (h (Proc.devRef .tc main_arg5) (Finset.mem_filter.mpr ⟨StableHlo.devRef_mem_tcRefs main_arg5, by decide⟩)).trans (V15_main_arg5 m (outs m) c),
        (h (Proc.devRef .tc main_arg6) (Finset.mem_filter.mpr ⟨StableHlo.devRef_mem_tcRefs main_arg6, by decide⟩)).trans (V15_main_arg6 m (outs m) c),
        (h (Proc.devRef .tc main_arg7) (Finset.mem_filter.mpr ⟨StableHlo.devRef_mem_tcRefs main_arg7, by decide⟩)).trans (V15_main_arg7 m (outs m) c),
        (h (Proc.devRef .tc main_arg8) (Finset.mem_filter.mpr ⟨StableHlo.devRef_mem_tcRefs main_arg8, by decide⟩)).trans (V15_main_arg8 m (outs m) c),
        (h (Proc.devRef .tc main_arg9) (Finset.mem_filter.mpr ⟨StableHlo.devRef_mem_tcRefs main_arg9, by decide⟩)).trans (V15_main_arg9 m (outs m) c),
        (h (Proc.devRef .tc main_arg10) (Finset.mem_filter.mpr ⟨StableHlo.devRef_mem_tcRefs main_arg10, by decide⟩)).trans (V15_main_arg10 m (outs m) c),
        (h (Proc.devRef .tc main_arg11) (Finset.mem_filter.mpr ⟨StableHlo.devRef_mem_tcRefs main_arg11, by decide⟩)).trans (V15_main_arg11 m (outs m) c),
        (h (Proc.devRef .tc main_arg12) (Finset.mem_filter.mpr ⟨StableHlo.devRef_mem_tcRefs main_arg12, by decide⟩)).trans (V15_main_arg12 m (outs m) c),
        (h (Proc.devRef .tc main_arg13) (Finset.mem_filter.mpr ⟨StableHlo.devRef_mem_tcRefs main_arg13, by decide⟩)).trans (V15_main_arg13 m (outs m) c),
        (h (Proc.devRef .tc main_arg14) (Finset.mem_filter.mpr ⟨StableHlo.devRef_mem_tcRefs main_arg14, by decide⟩)).trans (V15_main_arg14 m (outs m) c),
        (h (Proc.devRef .tc main_arg15) (Finset.mem_filter.mpr ⟨StableHlo.devRef_mem_tcRefs main_arg15, by decide⟩)).trans (V15_main_arg15 m (outs m) c),
        (h (Proc.devRef .tc main_arg16) (Finset.mem_filter.mpr ⟨StableHlo.devRef_mem_tcRefs main_arg16, by decide⟩)).trans (V15_main_arg16 m (outs m) c),
        (h (Proc.devRef .tc main_arg17) (Finset.mem_filter.mpr ⟨StableHlo.devRef_mem_tcRefs main_arg17, by decide⟩)).trans (V15_main_arg17 m (outs m) c),
        (h (Proc.devRef .tc main_arg18) (Finset.mem_filter.mpr ⟨StableHlo.devRef_mem_tcRefs main_arg18, by decide⟩)).trans (V15_main_arg18 m (outs m) c),
        (h (Proc.devRef .tc main_arg19) (Finset.mem_filter.mpr ⟨StableHlo.devRef_mem_tcRefs main_arg19, by decide⟩)).trans (V15_main_arg19 m (outs m) c),
        (h (Proc.devRef .tc main_arg20) (Finset.mem_filter.mpr ⟨StableHlo.devRef_mem_tcRefs main_arg20, by decide⟩)).trans (V15_main_arg20 m (outs m) c),
        (h (Proc.devRef .tc main_arg21) (Finset.mem_filter.mpr ⟨StableHlo.devRef_mem_tcRefs main_arg21, by decide⟩)).trans (V15_main_arg21 m (outs m) c),
        (h (Proc.devRef .tc main_arg22) (Finset.mem_filter.mpr ⟨StableHlo.devRef_mem_tcRefs main_arg22, by decide⟩)).trans (V15_main_arg22 m (outs m) c),
        (h (Proc.devRef .tc main_arg23) (Finset.mem_filter.mpr ⟨StableHlo.devRef_mem_tcRefs main_arg23, by decide⟩)).trans (V15_main_arg23 m (outs m) c),
        (h (Proc.devRef .tc main_arg24) (Finset.mem_filter.mpr ⟨StableHlo.devRef_mem_tcRefs main_arg24, by decide⟩)).trans (V15_main_arg24 m (outs m) c),
        (h (Proc.devRef .tc main_arg25) (Finset.mem_filter.mpr ⟨StableHlo.devRef_mem_tcRefs main_arg25, by decide⟩)).trans (V15_main_arg25 m (outs m) c),
        (h (Proc.devRef .tc main_arg26) (Finset.mem_filter.mpr ⟨StableHlo.devRef_mem_tcRefs main_arg26, by decide⟩)).trans (V15_main_arg26 m (outs m) c),
        (h (Proc.devRef .tc main_arg27) (Finset.mem_filter.mpr ⟨StableHlo.devRef_mem_tcRefs main_arg27, by decide⟩)).trans (V15_main_arg27 m (outs m) c)⟩
    · iexact HSI

end Cert.KernelIdeal.Fr

end
-- ==== Proof.RefRun.lean ====
/- The idealized reference program's @main as the list of its host operations, and its run read back: every weakly
   fair execution terminates with the result array at the fold of the operations over the launch memory and the
   twenty-eight argument arrays unchanged.

   The reference is a straight line: two Linear+ELU layers on concat(prev_sample, prev_action); a GRU cell (gates r, z
   the logistic function of the sums of the two affine maps' thirds, n by tanh, belief = (1 − z)·n + z·state); two
   Linear+ELU layers, a mean head and a softplus-plus-0.1 head on the belief; the same on concat(belief, obs); the five
   arrays concatenated along the last axis. The outlined functions (ELU, its two selects, softplus) are written out at
   their call sites over each call's own buffers. -/
import proofs.«109395_j20375324852595_2_alg».proof.ReferenceIdeal
import proofs.«109395_j20375324852595_2_alg».proof.Defs
import proofs.«109395_j20375324852595_2_alg».proof.Proof.Gen.ReferenceIdeal
import proofs.«109395_j20375324852595_2_alg».proof.Proof.Gen.Pre_finite_inputs
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first two Linear+ELU layers on concat(prev_sample, prev_action): `main_v0` the concatenation, `main_v4 = v0·W + b`, `main_v5 = elu v4` (the ELU's fifteen steps written out: the zero and its comparisons, the inner select feeding `expm1`, the outer select), `main_v9 = v5·W + b`, `main_v10 = elu v9`. -/
abbrev opsA0 : List (HloOp τ sig (Elt F)) :=
  [ StableHlo.binary main_arg0 main_arg1 main_v0 ((fun a b => concatenate S4096x1536 1 [⟨S4096x1024, a⟩, ⟨S4096x512, b⟩] concatenates_S4096x1024_S4096x512_S4096x1536_d1) : (⟨S4096x1024, .f32⟩ : BufTy).Contents (Elt F) → (⟨S4096x512, .f32⟩ : BufTy).Contents (Elt F) → (⟨S4096x1536, .f32⟩ : BufTy).Contents (Elt F)),
    StableHlo.binary main_v0 main_arg4 main_v1 ((fun l r => Host.dotGeneral dot_S4096x1536_S1536x2048_S4096x2048_1_0_0_1_n_n none l r) : (⟨S4096x1536, .f32⟩ : BufTy).Contents (Elt F) → (⟨S1536x2048, .f32⟩ : BufTy).Contents (Elt F) → (⟨S4096x2048, .f32⟩ : BufTy).Contents (Elt F)),
    StableHlo.unary main_arg5 main_v2 (broadcastInDim S1x2048 ![1] bcast_S2048_S1x2048_1 : (⟨S2048, .f32⟩ : BufTy).Contents (Elt F) → (⟨S1x2048, .f32⟩ : BufTy).Contents (Elt F)),
    StableHlo.unary main_v2 main_v3 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v1 main_v3 main_v4 (addf : (⟨S4096x2048, .f32⟩ : BufTy).Contents (Elt F) → (⟨S4096x2048, .f32⟩ : BufTy).Contents (Elt F) → (⟨S4096x2048, .f32⟩ : BufTy).Contents (Elt F)),
    StableHlo.TRef.nullary main_call0.cst (constant S_ .f32 0x00000000#32),
    StableHlo.TRef.unary main_call0.cst main_call0.v0 (broadcastInDim S4096x2048 ![] bcast_S_S4096x2048),
    StableHlo.TRef.binary (.of main_v4 : StableHlo.TRef sig ⟨S4096x2048, .f32⟩) main_call0.v0 main_call0.v1 (cmpf .ogt),
    StableHlo.TRef.nullary main_call0.cst_0 (constant S_ .f32 0x00000000#32),
    StableHlo.TRef.unary main_call0.cst_0 main_call0.v2 (broadcastInDim S4096x2048 ![] bcast_S_S4096x2048),
    StableHlo.TRef.binary (.of main_v4 : StableHlo.TRef sig ⟨S4096x2048, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S4096x2048 ![] bcast_S_S4096x2048),
    StableHlo.TRef.ternary main_call0.v3 main_call0.call0.v1 (.of main_v4 : StableHlo.TRef sig ⟨S4096x2048, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S4096x2048 ![] bcast_S_S4096x2048),
    StableHlo.TRef.binary main_call0.v6 main_call0.v5 main_call0.v7 mulf,
    StableHlo.TRef.ternary main_call0.v1 (.of main_v4 : StableHlo.TRef sig ⟨S4096x2048, .f32⟩) main_call0.v7 main_call0.call1.v0 select,
    StableHlo.binary main_v5 main_arg6 main_v6 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    StableHlo.unary main_arg7 main_v7 (broadcastInDim S1x2048 ![1] bcast_S2048_S1x2048_1 : (⟨S2048, .f32⟩ : BufTy).Contents (Elt F) → (⟨S1x2048, .f32⟩ : BufTy).Contents (Elt F)),
    StableHlo.unary main_v7 main_v8 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v6 main_v8 main_v9 (addf : (⟨S4096x2048, .f32⟩ : BufTy).Contents (Elt F) → (⟨S4096x2048, .f32⟩ : BufTy).Contents (Elt F) → (⟨S4096x2048, .f32⟩ : BufTy).Contents (Elt F)),
    StableHlo.TRef.nullary main_call1.cst (constant S_ .f32 0x00000000#32),
    StableHlo.TRef.unary main_call1.cst main_call1.v0 (broadcastInDim S4096x2048 ![] bcast_S_S4096x2048),
    StableHlo.TRef.binary (.of main_v9 : StableHlo.TRef sig ⟨S4096x2048, .f32⟩) main_call1.v0 main_call1.v1 (cmpf .ogt),
    StableHlo.TRef.nullary main_call1.cst_0 (constant S_ .f32 0x00000000#32),
    StableHlo.TRef.unary main_call1.cst_0 main_call1.v2 (broadcastInDim S4096x2048 ![] bcast_S_S4096x2048),
    StableHlo.TRef.binary (.of main_v9 : StableHlo.TRef sig ⟨S4096x2048, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S4096x2048 ![] bcast_S_S4096x2048),
    StableHlo.TRef.ternary main_call1.v3 main_call1.call0.v1 (.of main_v9 : StableHlo.TRef sig ⟨S4096x2048, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S4096x2048 ![] bcast_S_S4096x2048),
    StableHlo.TRef.binary main_call1.v6 main_call1.v5 main_call1.v7 mulf,
    StableHlo.TRef.ternary main_call1.v1 (.of main_v9 : StableHlo.TRef sig ⟨S4096x2048, .f32⟩) main_call1.v7 main_call1.call1.v0 select ]

/-- The GRU cell: the two affine maps `main_v14 = v10·W + b` and `main_v18 = state·W + b` into 6144 columns, their three thirds (`main_v19 … main_v24`), the gates `r = main_v31` and `z = main_v38` as 1 / (1 + exp (−sum)) of the first and second thirds' sums, `n = main_v41 = tanh (third₁ + r · third₂)`, and the belief `main_v46 = (1 − z) · n + z · state`. -/
abbrev opsA1 : List (HloOp τ sig (Elt F)) :=
  [ StableHlo.binary main_v10 main_arg8 main_v11 ((fun l r => Host.dotGeneral dot_S4096x2048_S2048x6144_S4096x6144_1_0_0_1_n_n none l r) : (⟨S4096x2048, .f32⟩ : BufTy).Contents (Elt F) → (⟨S2048x6144, .f32⟩ : BufTy).Contents (Elt F) → (⟨S4096x6144, .f32⟩ : BufTy).Contents (Elt F)),
    StableHlo.unary main_arg10 main_v12 (broadcastInDim S1x6144 ![1] bcast_S6144_S1x6144_1 : (⟨S6144, .f32⟩ : BufTy).Contents (Elt F) → (⟨S1x6144, .f32⟩ : BufTy).Contents (Elt F)),
    StableHlo.unary main_v12 main_v13 (broadcastInDim S4096x6144 ![0, 1] bcast_S1x6144_S4096x6144_0_1 : (⟨S1x6144, .f32⟩ : BufTy).Contents (Elt F) → (⟨S4096x6144, .f32⟩ : BufTy).Contents (Elt F)),
    StableHlo.binary main_v11 main_v13 main_v14 (addf : (⟨S4096x6144, .f32⟩ : BufTy).Contents (Elt F) → (⟨S4096x6144, .f32⟩ : BufTy).Contents (Elt F) → (⟨S4096x6144, .f32⟩ : BufTy).Contents (Elt F)),
    StableHlo.binary main_arg2 main_arg9 main_v15 ((fun l r => Host.dotGeneral dot_S4096x2048_S2048x6144_S4096x6144_1_0_0_1_n_n none l r) : (⟨S4096x2048, .f32⟩ : BufTy).Contents (Elt F) → (⟨S2048x6144, .f32⟩ : BufTy).Contents (Elt F) → (⟨S4096x6144, .f32⟩ : BufTy).Contents (Elt F)),
    StableHlo.unary main_arg11 main_v16 (broadcastInDim S1x6144 ![1] bcast_S6144_S1x6144_1 : (⟨S6144, .f32⟩ : BufTy).Contents (Elt F) → (⟨S1x6144, .f32⟩ : BufTy).Contents (Elt F)),
    StableHlo.unary main_v16 main_v17 (broadcastInDim S4096x6144 ![0, 1] bcast_S1x6144_S4096x6144_0_1 : (⟨S1x6144, .f32⟩ : BufTy).Contents (Elt F) → (⟨S4096x6144, .f32⟩ : BufTy).Contents (Elt F)),
    StableHlo.binary main_v15 main_v17 main_v18 (addf : (⟨S4096x6144, .f32⟩ : BufTy).Contents (Elt F) → (⟨S4096x6144, .f32⟩ : BufTy).Contents (Elt F) → (⟨S4096x6144, .f32⟩ : BufTy).Contents (Elt F)),
    StableHlo.unary main_v14 main_v19 ((extractStridedSlice S4096x2048 ![0, 0] · slices_S4096x6144_S4096x2048_0_0) : (⟨S4096x6144, .f32⟩ : BufTy).Contents (Elt F) → (⟨S4096x2048, .f32⟩ : BufTy).Contents (Elt F)),
    StableHlo.unary main_v14 main_v20 ((extractStridedSlice S4096x2048 ![0, 2048] · slices_S4096x6144_S4096x2048_0_2048) : (⟨S4096x6144, .f32⟩ : BufTy).Contents (Elt F) → (⟨S4096x2048, .f32⟩ : BufTy).Contents (Elt F)),
    StableHlo.unary main_v14 main_v21 ((extractStridedSlice S4096x2048 ![0, 4096] · slices_S4096x6144_S4096x2048_0_4096) : (⟨S4096x6144, .f32⟩ : BufTy).Contents (Elt F) → (⟨S4096x2048, .f32⟩ : BufTy).Contents (Elt F)),
    StableHlo.unary main_v18 main_v22 ((extractStridedSlice S4096x2048 ![0, 0] · slices_S4096x6144_S4096x2048_0_0) : (⟨S4096x6144, .f32⟩ : BufTy).Contents (Elt F) → (⟨S4096x2048, .f32⟩ : BufTy).Contents (Elt F)),
    StableHlo.unary main_v18 main_v23 ((extractStridedSlice S4096x2048 ![0, 2048] · slices_S4096x6144_S4096x2048_0_2048) : (⟨S4096x6144, .f32⟩ : BufTy).Contents (Elt F) → (⟨S4096x2048, .f32⟩ : BufTy).Contents (Elt F)),
    StableHlo.unary main_v18 main_v24 ((extractStridedSlice S4096x2048 ![0, 4096] · slices_S4096x6144_S4096x2048_0_4096) : (⟨S4096x6144, .f32⟩ : BufTy).Contents (Elt F) → (⟨S4096x2048, .f32⟩ : BufTy).Contents (Elt F)),
    StableHlo.binary main_v19 main_v22 main_v25 (addf : (⟨S4096x2048, .f32⟩ : BufTy).Contents (Elt F) → (⟨S4096x2048, .f32⟩ : BufTy).Contents (Elt F) → (⟨S4096x2048, .f32⟩ : BufTy).Contents (Elt F)),
    StableHlo.unary main_v25 main_v26 (Host.negf : (⟨S4096x2048, .f32⟩ : BufTy).Contents (Elt F) → (⟨S4096x2048, .f32⟩ : BufTy).Contents (Elt F)),
    StableHlo.unary main_v26 main_v27 (Host.exp : (⟨S4096x2048, .f32⟩ : BufTy).Contents (Elt F) → (⟨S4096x2048, .f32⟩ : BufTy).Contents (Elt F)),
    StableHlo.nullary main_cst (constant S_ .f32 0x3F800000#32),
    StableHlo.unary main_cst main_v28 (broadcastInDim S4096x2048 ![] bcast_S_S4096x2048 : (⟨S_, .f32⟩ : BufTy).Contents (Elt F) → (⟨S4096x2048, .f32⟩ : BufTy).Contents (Elt F)),
    StableHlo.binary main_v28 main_v27 main_v29 (addf : (⟨S4096x2048, .f32⟩ : BufTy).Contents (Elt F) → (⟨S4096x2048, .f32⟩ : BufTy).Contents (Elt F) → (⟨S4096x2048, .f32⟩ : BufTy).Contents (Elt F)),
    StableHlo.nullary main_cst_0 (constant S_ .f32 0x3F800000#32),
    StableHlo.unary main_cst_0 main_v30 (broadcastInDim S4096x2048 ![] bcast_S_S4096x2048 : (⟨S_, .f32⟩ : BufTy).Contents (Elt F) → (⟨S4096x2048, .f32⟩ : BufTy).Contents (Elt F)),
    StableHlo.binary main_v30 main_v29 main_v31 (Host.divf : (⟨S4096x2048, .f32⟩ : BufTy).Contents (Elt F) → (⟨S4096x2048, .f32⟩ : BufTy).Contents (Elt F) → (⟨S4096x2048, .f32⟩ : BufTy).Contents (Elt F)),
    StableHlo.binary main_v20 main_v23 main_v32 (addf : (⟨S4096x2048, .f32⟩ : BufTy).Contents (Elt F) → (⟨S4096x2048, .f32⟩ : BufTy).Contents (Elt F) → (⟨S4096x2048, .f32⟩ : BufTy).Contents (Elt F)),
    StableHlo.unary main_v32 main_v33 (Host.negf : (⟨S4096x2048, .f32⟩ : BufTy).Contents (Elt F) → (⟨S4096x2048, .f32⟩ : BufTy).Contents (Elt F)),
    StableHlo.unary main_v33 main_v34 (Host.exp : (⟨S4096x2048, .f32⟩ : BufTy).Contents (Elt F) → (⟨S4096x2048, .f32⟩ : BufTy).Contents (Elt F)),
    StableHlo.nullary main_cst_1 (constant S_ .f32 0x3F800000#32),
    StableHlo.unary main_cst_1 main_v35 (broadcastInDim S4096x2048 ![] bcast_S_S4096x2048 : (⟨S_, .f32⟩ : BufTy).Contents (Elt F) → (⟨S4096x2048, .f32⟩ : BufTy).Contents (Elt F)),
    StableHlo.binary main_v35 main_v34 main_v36 (addf : (⟨S4096x2048, .f32⟩ : BufTy).Contents (Elt F) → (⟨S4096x2048, .f32⟩ : BufTy).Contents (Elt F) → (⟨S4096x2048, .f32⟩ : BufTy).Contents (Elt F)),
    StableHlo.nullary main_cst_2 (constant S_ .f32 0x3F800000#32),
    StableHlo.unary main_cst_2 main_v37 (broadcastInDim S4096x2048 ![] bcast_S_S4096x2048 : (⟨S_, .f32⟩ : BufTy).Contents (Elt F) → (⟨S4096x2048, .f32⟩ : BufTy).Contents (Elt F)),
    StableHlo.binary main_v37 main_v36 main_v38 (Host.divf : (⟨S4096x2048, .f32⟩ : BufTy).Contents (Elt F) → (⟨S4096x2048, .f32⟩ : BufTy).Contents (Elt F) → (⟨S4096x2048, .f32⟩ : BufTy).Contents (Elt F)),
    StableHlo.binary main_v31 main_v24 main_v39 (mulf : (⟨S4096x2048, .f32⟩ : BufTy).Contents (Elt F) → (⟨S4096x2048, .f32⟩ : BufTy).Contents (Elt F) → (⟨S4096x2048, .f32⟩ : BufTy).Contents (Elt F)),
    StableHlo.binary main_v21 main_v39 main_v40 (addf : (⟨S4096x2048, .f32⟩ : BufTy).Contents (Elt F) → (⟨S4096x2048, .f32⟩ : BufTy).Contents (Elt F) → (⟨S4096x2048, .f32⟩ : BufTy).Contents (Elt F)),
    StableHlo.unary main_v40 main_v41 (Host.tanh : (⟨S4096x2048, .f32⟩ : BufTy).Contents (Elt F) → (⟨S4096x2048, .f32⟩ : BufTy).Contents (Elt F)),
    StableHlo.nullary main_cst_3 (constant S_ .f32 0x3F800000#32),
    StableHlo.unary main_cst_3 main_v42 (broadcastInDim S4096x2048 ![] bcast_S_S4096x2048 : (⟨S_, .f32⟩ : BufTy).Contents (Elt F) → (⟨S4096x2048, .f32⟩ : BufTy).Contents (Elt F)),
    StableHlo.binary main_v42 main_v38 main_v43 (subf : (⟨S4096x2048, .f32⟩ : BufTy).Contents (Elt F) → (⟨S4096x2048, .f32⟩ : BufTy).Contents (Elt F) → (⟨S4096x2048, .f32⟩ : BufTy).Contents (Elt F)),
    StableHlo.binary main_v43 main_v41 main_v44 (mulf : (⟨S4096x2048, .f32⟩ : BufTy).Contents (Elt F) → (⟨S4096x2048, .f32⟩ : BufTy).Contents (Elt F) → (⟨S4096x2048, .f32⟩ : BufTy).Contents (Elt F)),
    StableHlo.binary main_v38 main_arg2 main_v45 (mulf : (⟨S4096x2048, .f32⟩ : BufTy).Contents (Elt F) → (⟨S4096x2048, .f32⟩ : BufTy).Contents (Elt F) → (⟨S4096x2048, .f32⟩ : BufTy).Contents (Elt F)),
    StableHlo.binary main_v44 main_v45 main_v46 (addf : (⟨S4096x2048, .f32⟩ : BufTy).Contents (Elt F) → (⟨S4096x2048, .f32⟩ : BufTy).Contents (Elt F) → (⟨S4096x2048, .f32⟩ : BufTy).Contents (Elt F)) ]

/-- On the belief: `main_v50 = v46·W + b`, `main_v51 = elu v50`, and the next layer's product `main_v52 = v51·W` with its bias row broadcast (`main_v54`). -/
abbrev opsA2 : List (HloOp τ sig (Elt F)) :=
  [ StableHlo.binary main_v46 main_arg12 main_v47 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    StableHlo.unary main_arg13 main_v48 (broadcastInDim S1x2048 ![1] bcast_S2048_S1x2048_1 : (⟨S2048, .f32⟩ : BufTy).Contents (Elt F) → (⟨S1x2048, .f32⟩ : BufTy).Contents (Elt F)),
    StableHlo.unary main_v48 main_v49 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v47 main_v49 main_v50 (addf : (⟨S4096x2048, .f32⟩ : BufTy).Contents (Elt F) → (⟨S4096x2048, .f32⟩ : BufTy).Contents (Elt F) → (⟨S4096x2048, .f32⟩ : BufTy).Contents (Elt F)),
    StableHlo.TRef.nullary main_call2.cst (constant S_ .f32 0x00000000#32),
    StableHlo.TRef.unary main_call2.cst main_call2.v0 (broadcastInDim S4096x2048 ![] bcast_S_S4096x2048),
    StableHlo.TRef.binary (.of main_v50 : StableHlo.TRef sig ⟨S4096x2048, .f32⟩) main_call2.v0 main_call2.v1 (cmpf .ogt),
    StableHlo.TRef.nullary main_call2.cst_0 (constant S_ .f32 0x00000000#32),
    StableHlo.TRef.unary main_call2.cst_0 main_call2.v2 (broadcastInDim S4096x2048 ![] bcast_S_S4096x2048),
    StableHlo.TRef.binary (.of main_v50 : StableHlo.TRef sig ⟨S4096x2048, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S4096x2048 ![] bcast_S_S4096x2048),
    StableHlo.TRef.ternary main_call2.v3 main_call2.call0.v1 (.of main_v50 : StableHlo.TRef sig ⟨S4096x2048, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S4096x2048 ![] bcast_S_S4096x2048),
    StableHlo.TRef.binary main_call2.v6 main_call2.v5 main_call2.v7 mulf,
    StableHlo.TRef.ternary main_call2.v1 (.of main_v50 : StableHlo.TRef sig ⟨S4096x2048, .f32⟩) main_call2.v7 main_call2.call1.v0 select,
    StableHlo.binary main_v51 main_arg14 main_v52 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    StableHlo.unary main_arg15 main_v53 (broadcastInDim S1x2048 ![1] bcast_S2048_S1x2048_1 : (⟨S2048, .f32⟩ : BufTy).Contents (Elt F) → (⟨S1x2048, .f32⟩ : BufTy).Contents (Elt F)),
    StableHlo.unary main_v53 main_v54 (broadcastInDim S4096x2048 ![0, 1] bcast_S1x2048_S4096x2048_0_1 : (⟨S1x2048, .f32⟩ : BufTy).Contents (Elt F) → (⟨S4096x2048, .f32⟩ : BufTy).Contents (Elt F)) ]

/-- `main_v55 = v52 + v54`, `main_v56 = elu v55`; the mean head `main_v60 = v56·W + b`; the deviation head `main_v64 = v56·W + b`, its softplus `main_v65` (max x 0 + log1p (exp (−|x|)), a NaN passed through), and `main_v67 = v65 + 0.1`. -/
abbrev opsB0 : List (HloOp τ sig (Elt F)) :=
  [ StableHlo.binary main_v52 main_v54 main_v55 (addf : (⟨S4096x2048, .f32⟩ : BufTy).Contents (Elt F) → (⟨S4096x2048, .f32⟩ : BufTy).Contents (Elt F) → (⟨S4096x2048, .f32⟩ : BufTy).Contents (Elt F)),
    StableHlo.TRef.nullary main_call3.cst (constant S_ .f32 0x00000000#32),
    StableHlo.TRef.unary main_call3.cst main_call3.v0 (broadcastInDim S4096x2048 ![] bcast_S_S4096x2048),
    StableHlo.TRef.binary (.of main_v55 : StableHlo.TRef sig ⟨S4096x2048, .f32⟩) main_call3.v0 main_call3.v1 (cmpf .ogt),
    StableHlo.TRef.nullary main_call3.cst_0 (constant S_ .f32 0x00000000#32),
    StableHlo.TRef.unary main_call3.cst_0 main_call3.v2 (broadcastInDim S4096x2048 ![] bcast_S_S4096x2048),
    StableHlo.TRef.binary (.of main_v55 : StableHlo.TRef sig ⟨S4096x2048, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S4096x2048 ![] bcast_S_S4096x2048),
    StableHlo.TRef.ternary main_call3.v3 main_call3.call0.v1 (.of main_v55 : StableHlo.TRef sig ⟨S4096x2048, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S4096x2048 ![] bcast_S_S4096x2048),
    StableHlo.TRef.binary main_call3.v6 main_call3.v5 main_call3.v7 mulf,
    StableHlo.TRef.ternary main_call3.v1 (.of main_v55 : StableHlo.TRef sig ⟨S4096x2048, .f32⟩) main_call3.v7 main_call3.call1.v0 select,
    StableHlo.binary main_v56 main_arg16 main_v57 ((fun l r => Host.dotGeneral dot_S4096x2048_S2048x1024_S4096x1024_1_0_0_1_n_n none l r) : (⟨S4096x2048, .f32⟩ : BufTy).Contents (Elt F) → (⟨S2048x1024, .f32⟩ : BufTy).Contents (Elt F) → (⟨S4096x1024, .f32⟩ : BufTy).Contents (Elt F)),
    StableHlo.unary main_arg17 main_v58 (broadcastInDim S1x1024 ![1] bcast_S1024_S1x1024_1 : (⟨S1024, .f32⟩ : BufTy).Contents (Elt F) → (⟨S1x1024, .f32⟩ : BufTy).Contents (Elt F)),
    StableHlo.unary main_v58 main_v59 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v57 main_v59 main_v60 (addf : (⟨S4096x1024, .f32⟩ : BufTy).Contents (Elt F) → (⟨S4096x1024, .f32⟩ : BufTy).Contents (Elt F) → (⟨S4096x1024, .f32⟩ : BufTy).Contents (Elt F)),
    StableHlo.binary main_v56 main_arg18 main_v61 ((fun l r => Host.dotGeneral dot_S4096x2048_S2048x1024_S4096x1024_1_0_0_1_n_n none l r) : (⟨S4096x2048, .f32⟩ : BufTy).Contents (Elt F) → (⟨S2048x1024, .f32⟩ : BufTy).Contents (Elt F) → (⟨S4096x1024, .f32⟩ : BufTy).Contents (Elt F)),
    StableHlo.unary main_arg19 main_v62 (broadcastInDim S1x1024 ![1] bcast_S1024_S1x1024_1 : (⟨S1024, .f32⟩ : BufTy).Contents (Elt F) → (⟨S1x1024, .f32⟩ : BufTy).Contents (Elt F)),
    StableHlo.unary main_v62 main_v63 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v61 main_v63 main_v64 (addf : (⟨S4096x1024, .f32⟩ : BufTy).Contents (Elt F) → (⟨S4096x1024, .f32⟩ : BufTy).Contents (Elt F) → (⟨S4096x1024, .f32⟩ : BufTy).Contents (Elt F)),
    StableHlo.TRef.nullary main_call4.cst (constant S_ .f32 0x00000000#32),
    StableHlo.TRef.unary main_call4.cst main_call4.v0 (broadcastInDim S4096x1024 ![] bcast_S_S4096x1024),
    StableHlo.TRef.binary (.of main_v64 : StableHlo.TRef sig ⟨S4096x1024, .f32⟩) main_call4.v0 main_call4.v1 maximumf,
    StableHlo.TRef.unary main_call4.cst main_call4.v2 (broadcastInDim S4096x1024 ![] bcast_S_S4096x1024),
    StableHlo.TRef.binary (.of main_v64 : StableHlo.TRef sig ⟨S4096x1024, .f32⟩) main_call4.v2 main_call4.v3 subf,
    StableHlo.TRef.binary main_call4.v3 main_call4.v3 main_call4.v4 (cmpf .une),
    StableHlo.TRef.unary main_call4.cst main_call4.v5 (broadcastInDim S4096x1024 ![] bcast_S_S4096x1024),
    StableHlo.TRef.binary (.of main_v64 : StableHlo.TRef sig ⟨S4096x1024, .f32⟩) main_call4.v5 main_call4.v6 addf,
    StableHlo.TRef.unary main_call4.v3 main_call4.v7 Host.absf,
    StableHlo.TRef.unary main_call4.v7 main_call4.v8 Host.negf,
    StableHlo.TRef.unary main_call4.v8 main_call4.v9 Host.exp,
    StableHlo.TRef.unary main_call4.v9 main_call4.v10 Host.log1p,
    StableHlo.TRef.binary main_call4.v1 main_call4.v10 main_call4.v11 addf,
    StableHlo.TRef.ternary main_call4.v4 main_call4.v6 main_call4.v11 main_call4.v12 select,
    StableHlo.nullary main_cst_4 (constant S_ .f32 0x3DCCCCCD#32),
    StableHlo.unary main_cst_4 main_v66 (broadcastInDim S4096x1024 ![] bcast_S_S4096x1024 : (⟨S_, .f32⟩ : BufTy).Contents (Elt F) → (⟨S4096x1024, .f32⟩ : BufTy).Contents (Elt F)),
    StableHlo.binary main_v65 main_v66 main_v67 (addf : (⟨S4096x1024, .f32⟩ : BufTy).Contents (Elt F) → (⟨S4096x1024, .f32⟩ : BufTy).Contents (Elt F) → (⟨S4096x1024, .f32⟩ : BufTy).Contents (Elt F)) ]

/-- The same two Linear+ELU layers on concat(belief, obs): `main_v68` the concatenation, `main_v72 = v68·W + b`, `main_v73 = elu v72`, `main_v77 = v73·W + b`, `main_v78 = elu v77`. -/
abbrev opsB1 : List (HloOp τ sig (Elt F)) :=
  [ StableHlo.binary main_v46 main_arg3 main_v68 ((fun a b => concatenate S4096x4096 1 [⟨S4096x2048, a⟩, ⟨S4096x2048, b⟩] concatenates_S4096x2048_S4096x2048_S4096x4096_d1) : (⟨S4096x2048, .f32⟩ : BufTy).Contents (Elt F) → (⟨S4096x2048, .f32⟩ : BufTy).Contents (Elt F) → (⟨S4096x4096, .f32⟩ : BufTy).Contents (Elt F)),
    StableHlo.binary main_v68 main_arg20 main_v69 ((fun l r => Host.dotGeneral dot_S4096x4096_S4096x2048_S4096x2048_1_0_0_1_n_n none l r) : (⟨S4096x4096, .f32⟩ : BufTy).Contents (Elt F) → (⟨S4096x2048, .f32⟩ : BufTy).Contents (Elt F) → (⟨S4096x2048, .f32⟩ : BufTy).Contents (Elt F)),
    StableHlo.unary main_arg21 main_v70 (broadcastInDim S1x2048 ![1] bcast_S2048_S1x2048_1 : (⟨S2048, .f32⟩ : BufTy).Contents (Elt F) → (⟨S1x2048, .f32⟩ : BufTy).Contents (Elt F)),
    StableHlo.unary main_v70 main_v71 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v69 main_v71 main_v72 (addf : (⟨S4096x2048, .f32⟩ : BufTy).Contents (Elt F) → (⟨S4096x2048, .f32⟩ : BufTy).Contents (Elt F) → (⟨S4096x2048, .f32⟩ : BufTy).Contents (Elt F)),
    StableHlo.TRef.nullary main_call5.cst (constant S_ .f32 0x00000000#32),
    StableHlo.TRef.unary main_call5.cst main_call5.v0 (broadcastInDim S4096x2048 ![] bcast_S_S4096x2048),
    StableHlo.TRef.binary (.of main_v72 : StableHlo.TRef sig ⟨S4096x2048, .f32⟩) main_call5.v0 main_call5.v1 (cmpf .ogt),
    StableHlo.TRef.nullary main_call5.cst_0 (constant S_ .f32 0x00000000#32),
    StableHlo.TRef.unary main_call5.cst_0 main_call5.v2 (broadcastInDim S4096x2048 ![] bcast_S_S4096x2048),
    StableHlo.TRef.binary (.of main_v72 : StableHlo.TRef sig ⟨S4096x2048, .f32⟩) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S4096x2048 ![] bcast_S_S4096x2048),
    StableHlo.TRef.ternary main_call5.v3 main_call5.call0.v1 (.of main_v72 : StableHlo.TRef sig ⟨S4096x2048, .f32⟩) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S4096x2048 ![] bcast_S_S4096x2048),
    StableHlo.TRef.binary main_call5.v6 main_call5.v5 main_call5.v7 mulf,
    StableHlo.TRef.ternary main_call5.v1 (.of main_v72 : StableHlo.TRef sig ⟨S4096x2048, .f32⟩) main_call5.v7 main_call5.call1.v0 select,
    StableHlo.binary main_v73 main_arg22 main_v74 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    StableHlo.unary main_arg23 main_v75 (broadcastInDim S1x2048 ![1] bcast_S2048_S1x2048_1 : (⟨S2048, .f32⟩ : BufTy).Contents (Elt F) → (⟨S1x2048, .f32⟩ : BufTy).Contents (Elt F)),
    StableHlo.unary main_v75 main_v76 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v74 main_v76 main_v77 (addf : (⟨S4096x2048, .f32⟩ : BufTy).Contents (Elt F) → (⟨S4096x2048, .f32⟩ : BufTy).Contents (Elt F) → (⟨S4096x2048, .f32⟩ : BufTy).Contents (Elt F)),
    StableHlo.TRef.nullary main_call6.cst (constant S_ .f32 0x00000000#32),
    StableHlo.TRef.unary main_call6.cst main_call6.v0 (broadcastInDim S4096x2048 ![] bcast_S_S4096x2048),
    StableHlo.TRef.binary (.of main_v77 : StableHlo.TRef sig ⟨S4096x2048, .f32⟩) main_call6.v0 main_call6.v1 (cmpf .ogt),
    StableHlo.TRef.nullary main_call6.cst_0 (constant S_ .f32 0x00000000#32),
    StableHlo.TRef.unary main_call6.cst_0 main_call6.v2 (broadcastInDim S4096x2048 ![] bcast_S_S4096x2048),
    StableHlo.TRef.binary (.of main_v77 : StableHlo.TRef sig ⟨S4096x2048, .f32⟩) main_call6.v2 main_call6.v3 (cmpf .ogt),
    StableHlo.TRef.nullary main_call6.cst_1 (constant S_ .f32 0x00000000#32),
    StableHlo.TRef.unary main_call6.cst_1 main_call6.call0.v0 id,
    StableHlo.TRef.unary main_call6.call0.v0 main_call6.call0.v1 (broadcastInDim S4096x2048 ![] bcast_S_S4096x2048),
    StableHlo.TRef.ternary main_call6.v3 main_call6.call0.v1 (.of main_v77 : StableHlo.TRef sig ⟨S4096x2048, .f32⟩) main_call6.call0.v2 select,
    StableHlo.TRef.unary main_call6.call0.v2 main_call6.v5 Host.expm1,
    StableHlo.TRef.nullary main_call6.cst_2 (constant S_ .f32 0x3F800000#32),
    StableHlo.TRef.unary main_call6.cst_2 main_call6.v6 (broadcastInDim S4096x2048 ![] bcast_S_S4096x2048),
    StableHlo.TRef.binary main_call6.v6 main_call6.v5 main_call6.v7 mulf,
    StableHlo.TRef.ternary main_call6.v1 (.of main_v77 : StableHlo.TRef sig ⟨S4096x2048, .f32⟩) main_call6.v7 main_call6.call1.v0 select ]

/-- The second pair of heads: the mean `main_v82 = v78·W + b`, the deviation `main_v89 = softplus (v78·W + b) + 0.1`; and the result `main_v90`: the five arrays `v60, v67, v82, v89, v46` concatenated along the last axis. -/
abbrev opsB2 : List (HloOp τ sig (Elt F)) :=
  [ StableHlo.binary main_v78 main_arg24 main_v79 ((fun l r => Host.dotGeneral dot_S4096x2048_S2048x1024_S4096x1024_1_0_0_1_n_n none l r) : (⟨S4096x2048, .f32⟩ : BufTy).Contents (Elt F) → (⟨S2048x1024, .f32⟩ : BufTy).Contents (Elt F) → (⟨S4096x1024, .f32⟩ : BufTy).Contents (Elt F)),
    StableHlo.unary main_arg25 main_v80 (broadcastInDim S1x1024 ![1] bcast_S1024_S1x1024_1 : (⟨S1024, .f32⟩ : BufTy).Contents (Elt F) → (⟨S1x1024, .f32⟩ : BufTy).Contents (Elt F)),
    StableHlo.unary main_v80 main_v81 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v79 main_v81 main_v82 (addf : (⟨S4096x1024, .f32⟩ : BufTy).Contents (Elt F) → (⟨S4096x1024, .f32⟩ : BufTy).Contents (Elt F) → (⟨S4096x1024, .f32⟩ : BufTy).Contents (Elt F)),
    StableHlo.binary main_v78 main_arg26 main_v83 ((fun l r => Host.dotGeneral dot_S4096x2048_S2048x1024_S4096x1024_1_0_0_1_n_n none l r) : (⟨S4096x2048, .f32⟩ : BufTy).Contents (Elt F) → (⟨S2048x1024, .f32⟩ : BufTy).Contents (Elt F) → (⟨S4096x1024, .f32⟩ : BufTy).Contents (Elt F)),
    StableHlo.unary main_arg27 main_v84 (broadcastInDim S1x1024 ![1] bcast_S1024_S1x1024_1 : (⟨S1024, .f32⟩ : BufTy).Contents (Elt F) → (⟨S1x1024, .f32⟩ : BufTy).Contents (Elt F)),
    StableHlo.unary main_v84 main_v85 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v83 main_v85 main_v86 (addf : (⟨S4096x1024, .f32⟩ : BufTy).Contents (Elt F) → (⟨S4096x1024, .f32⟩ : BufTy).Contents (Elt F) → (⟨S4096x1024, .f32⟩ : BufTy).Contents (Elt F)),
    StableHlo.TRef.nullary main_call7.cst (constant S_ .f32 0x00000000#32),
    StableHlo.TRef.unary main_call7.cst main_call7.v0 (broadcastInDim S4096x1024 ![] bcast_S_S4096x1024),
    StableHlo.TRef.binary (.of main_v86 : StableHlo.TRef sig ⟨S4096x1024, .f32⟩) main_call7.v0 main_call7.v1 maximumf,
    StableHlo.TRef.unary main_call7.cst main_call7.v2 (broadcastInDim S4096x1024 ![] bcast_S_S4096x1024),
    StableHlo.TRef.binary (.of main_v86 : StableHlo.TRef sig ⟨S4096x1024, .f32⟩) main_call7.v2 main_call7.v3 subf,
    StableHlo.TRef.binary main_call7.v3 main_call7.v3 main_call7.v4 (cmpf .une),
    StableHlo.TRef.unary main_call7.cst main_call7.v5 (broadcastInDim S4096x1024 ![] bcast_S_S4096x1024),
    StableHlo.TRef.binary (.of main_v86 : StableHlo.TRef sig ⟨S4096x1024, .f32⟩) main_call7.v5 main_call7.v6 addf,
    StableHlo.TRef.unary main_call7.v3 main_call7.v7 Host.absf,
    StableHlo.TRef.unary main_call7.v7 main_call7.v8 Host.negf,
    StableHlo.TRef.unary main_call7.v8 main_call7.v9 Host.exp,
    StableHlo.TRef.unary main_call7.v9 main_call7.v10 Host.log1p,
    StableHlo.TRef.binary main_call7.v1 main_call7.v10 main_call7.v11 addf,
    StableHlo.TRef.ternary main_call7.v4 main_call7.v6 main_call7.v11 main_call7.v12 select,
    StableHlo.nullary main_cst_5 (constant S_ .f32 0x3DCCCCCD#32),
    StableHlo.unary main_cst_5 main_v88 (broadcastInDim S4096x1024 ![] bcast_S_S4096x1024 : (⟨S_, .f32⟩ : BufTy).Contents (Elt F) → (⟨S4096x1024, .f32⟩ : BufTy).Contents (Elt F)),
    StableHlo.binary main_v87 main_v88 main_v89 (addf : (⟨S4096x1024, .f32⟩ : BufTy).Contents (Elt F) → (⟨S4096x1024, .f32⟩ : BufTy).Contents (Elt F) → (⟨S4096x1024, .f32⟩ : BufTy).Contents (Elt F)),
    StableHlo.nary ![main_v60, main_v67, main_v82, main_v89, main_v46] main_v90 (fun u => concatenate S4096x6144 1 [⟨S4096x1024, u 0⟩, ⟨S4096x1024, u 1⟩, ⟨S4096x1024, u 2⟩, ⟨S4096x1024, u 3⟩, ⟨S4096x2048, u 4⟩] concatenates_S4096x1024_S4096x1024_S4096x1024_S4096x1024_S4096x2048_S4096x6144_d1) ]

/-- The first window of @main: the operations up to the second layer's bias row on the belief. -/
abbrev opsA : List (HloOp τ sig (Elt F)) := opsA0 ++ (opsA1 ++ opsA2)
/-- The second window of @main: the rest, ending in the concatenation. -/
abbrev opsB : List (HloOp τ sig (Elt F)) := opsB0 ++ (opsB1 ++ opsB2)
/-- @main's 208 host operations, in order. -/
abbrev ops : List (HloOp τ sig (Elt F)) := opsA ++ opsB

set_option maxRecDepth 8192 in
set_option maxHeartbeats 4000000 in
/-- The first window is its operations run in order: each outlined function's body unfolds at its call over the call's
    record, and sequencing reassociates. -/
theorem main_part0_eq (c : Dev nD) : main_part0 (F := F) c = seq opsA := rfl
set_option maxRecDepth 8192 in
set_option maxHeartbeats 4000000 in
theorem main_part1_eq (c : Dev nD) : main_part1 (F := F) c = seq opsB := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation of `opsA0` touches TensorCore buffers only. -/
theorem opsA0_sub : (opsA0 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
/-- The buffers `opsA0`'s operations write: one each, its result's. -/
abbrev opsA0_W : List (Ref sig .tc) := [main_v0, main_v1, main_v2, main_v3, main_v4, main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v5, main_v6, main_v7, main_v8, main_v9, main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v10]
set_option maxRecDepth 8192 in
theorem opsA0_writes : (opsA0 : List (HloOp τ sig (Elt F))).Forall fun op => op.writes ⊆ (opsA0_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩

set_option maxRecDepth 8192 in
/-- Every operation of `opsA1` touches TensorCore buffers only. -/
theorem opsA1_sub : (opsA1 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
/-- The buffers `opsA1`'s operations write: one each, its result's. -/
abbrev opsA1_W : List (Ref sig .tc) := [main_v11, main_v12, main_v13, main_v14, main_v15, main_v16, main_v17, main_v18, main_v19, main_v20, main_v21, main_v22, main_v23, main_v24, main_v25, main_v26, main_v27, main_cst, main_v28, main_v29, main_cst_0, main_v30, main_v31, main_v32, main_v33, main_v34, main_cst_1, main_v35, main_v36, main_cst_2, main_v37, main_v38, main_v39, main_v40, main_v41, main_cst_3, main_v42, main_v43, main_v44, main_v45, main_v46]
set_option maxRecDepth 8192 in
theorem opsA1_writes : (opsA1 : List (HloOp τ sig (Elt F))).Forall fun op => op.writes ⊆ (opsA1_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩

set_option maxRecDepth 8192 in
/-- Every operation of `opsA2` touches TensorCore buffers only. -/
theorem opsA2_sub : (opsA2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub ..⟩
/-- The buffers `opsA2`'s operations write: one each, its result's. -/
abbrev opsA2_W : List (Ref sig .tc) := [main_v47, main_v48, main_v49, main_v50, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v51, main_v52, main_v53, main_v54]
set_option maxRecDepth 8192 in
theorem opsA2_writes : (opsA2 : List (HloOp τ sig (Elt F))).Forall fun op => op.writes ⊆ (opsA2_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩

set_option maxRecDepth 8192 in
/-- Every operation of `opsB0` touches TensorCore buffers only. -/
theorem opsB0_sub : (opsB0 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub ..⟩
/-- The buffers `opsB0`'s operations write: one each, its result's. -/
abbrev opsB0_W : List (Ref sig .tc) := [main_v55, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v56, main_v57, main_v58, main_v59, main_v60, main_v61, main_v62, main_v63, main_v64, main_call4_cst, main_call4_v0, main_call4_v1, main_call4_v2, main_call4_v3, main_call4_v4, main_call4_v5, main_call4_v6, main_call4_v7, main_call4_v8, main_call4_v9, main_call4_v10, main_call4_v11, main_v65, main_cst_4, main_v66, main_v67]
set_option maxRecDepth 8192 in
theorem opsB0_writes : (opsB0 : List (HloOp τ sig (Elt F))).Forall fun op => op.writes ⊆ (opsB0_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩

set_option maxRecDepth 8192 in
/-- Every operation of `opsB1` touches TensorCore buffers only. -/
theorem opsB1_sub : (opsB1 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
/-- The buffers `opsB1`'s operations write: one each, its result's. -/
abbrev opsB1_W : List (Ref sig .tc) := [main_v68, main_v69, main_v70, main_v71, main_v72, main_call5_cst, main_call5_v0, main_call5_v1, main_call5_cst_0, main_call5_v2, main_call5_v3, main_call5_cst_1, main_call5_call0_v0, main_call5_call0_v1, main_call5_v4, main_call5_v5, main_call5_cst_2, main_call5_v6, main_call5_v7, main_v73, main_v74, main_v75, main_v76, main_v77, main_call6_cst, main_call6_v0, main_call6_v1, main_call6_cst_0, main_call6_v2, main_call6_v3, main_call6_cst_1, main_call6_call0_v0, main_call6_call0_v1, main_call6_v4, main_call6_v5, main_call6_cst_2, main_call6_v6, main_call6_v7, main_v78]
set_option maxRecDepth 8192 in
theorem opsB1_writes : (opsB1 : List (HloOp τ sig (Elt F))).Forall fun op => op.writes ⊆ (opsB1_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩

set_option maxRecDepth 8192 in
/-- Every operation of `opsB2` touches TensorCore buffers only. -/
theorem opsB2_sub : (opsB2 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., nary_bufs_sub ..⟩
/-- The buffers `opsB2`'s operations write: one each, its result's. -/
abbrev opsB2_W : List (Ref sig .tc) := [main_v79, main_v80, main_v81, main_v82, main_v83, main_v84, main_v85, main_v86, main_call7_cst, main_call7_v0, main_call7_v1, main_call7_v2, main_call7_v3, main_call7_v4, main_call7_v5, main_call7_v6, main_call7_v7, main_call7_v8, main_call7_v9, main_call7_v10, main_call7_v11, main_v87, main_cst_5, main_v88, main_v89, main_v90]
set_option maxRecDepth 8192 in
theorem opsB2_writes : (opsB2 : List (HloOp τ sig (Elt F))).Forall fun op => op.writes ⊆ (opsB2_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩

theorem ops_sub : (ops : List (HloOp τ sig (Elt F))).Forall fun op => op.bufs ⊆ tcRefs τ sig :=
  List.forall_iff_forall_mem.mpr fun op h => by
    simp only [ops, opsA, opsB, List.mem_append] at h
    rcases h with (h | h | h) | (h | h | h)
    exacts [List.forall_iff_forall_mem.mp opsA0_sub op h, List.forall_iff_forall_mem.mp opsA1_sub op h, List.forall_iff_forall_mem.mp opsA2_sub op h, List.forall_iff_forall_mem.mp opsB0_sub op h, List.forall_iff_forall_mem.mp opsB1_sub op h, List.forall_iff_forall_mem.mp opsB2_sub op h]

/-- A buffer none of the six lists writes (an argument's) holds after @main what it held before. -/
theorem ops_keep (V : Valuation τ sig (Elt F)) (r : Ref sig .tc) (h0 : r ∉ opsA0_W) (h1 : r ∉ opsA1_W) (h2 : r ∉ opsA2_W) (h3 : r ∉ opsB0_W) (h4 : r ∉ opsB1_W) (h5 : r ∉ opsB2_W) :
    after ops V (Proc.devRef .tc r) = V (Proc.devRef .tc r) := by
  simp only [ops, opsA, opsB, after_append]
  rw [after_of_writes_sub opsB2 _ opsB2_writes h5,
    after_of_writes_sub opsB1 _ opsB1_writes h4,
    after_of_writes_sub opsB0 _ opsB0_writes h3,
    after_of_writes_sub opsA2 _ opsA2_writes h2,
    after_of_writes_sub opsA1 _ opsA1_writes h1,
    after_of_writes_sub opsA0 _ opsA0_writes h0]

variable (m : (ℓ : Loc nD τ sig) → Buf (Elt Ideal) ℓ) (ρ : Dev nD → PrngReg)

/-- The result array: the fold of @main's operations over the launch memory, read at the result's buffer. -/
def res (c : Dev nD) : Buf (Elt Ideal) ((c.tc : Thread nD τ).loc main_v90) :=
  StableHlo.after (ops (F := Ideal)) (fun b => m (c, b)) (Proc.devRef .tc main_v90)

/-- On every device, from any memory with zero counters: every weakly fair execution of @main terminates with the
    result at the operations' fold over the launch memory and the arguments unchanged. -/
theorem run : θ_run (defs (F := Ideal)) (onTc (τ := τ) (main (F := Ideal))) ⟨m, fun _ => 0, ρ⟩ (fun r => ∀ c : Dev nD,
      r.2.mem ((c.tc : Thread nD τ).loc main_v90) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c => ⟨h c main_v90,
      (h c main_arg0).trans (ops_keep _ main_arg0 (by decide) (by decide) (by decide) (by decide) (by decide) (by decide)),
      (h c main_arg1).trans (ops_keep _ main_arg1 (by decide) (by decide) (by decide) (by decide) (by decide) (by decide)),
      (h c main_arg2).trans (ops_keep _ main_arg2 (by decide) (by decide) (by decide) (by decide) (by decide) (by decide)),
      (h c main_arg3).trans (ops_keep _ main_arg3 (by decide) (by decide) (by decide) (by decide) (by decide) (by decide)),
      (h c main_arg4).trans (ops_keep _ main_arg4 (by decide) (by decide) (by decide) (by decide) (by decide) (by decide)),
      (h c main_arg5).trans (ops_keep _ main_arg5 (by decide) (by decide) (by decide) (by decide) (by decide) (by decide)),
      (h c main_arg6).trans (ops_keep _ main_arg6 (by decide) (by decide) (by decide) (by decide) (by decide) (by decide)),
      (h c main_arg7).trans (ops_keep _ main_arg7 (by decide) (by decide) (by decide) (by decide) (by decide) (by decide)),
      (h c main_arg8).trans (ops_keep _ main_arg8 (by decide) (by decide) (by decide) (by decide) (by decide) (by decide)),
      (h c main_arg9).trans (ops_keep _ main_arg9 (by decide) (by decide) (by decide) (by decide) (by decide) (by decide)),
      (h c main_arg10).trans (ops_keep _ main_arg10 (by decide) (by decide) (by decide) (by decide) (by decide) (by decide)),
      (h c main_arg11).trans (ops_keep _ main_arg11 (by decide) (by decide) (by decide) (by decide) (by decide) (by decide)),
      (h c main_arg12).trans (ops_keep _ main_arg12 (by decide) (by decide) (by decide) (by decide) (by decide) (by decide)),
      (h c main_arg13).trans (ops_keep _ main_arg13 (by decide) (by decide) (by decide) (by decide) (by decide) (by decide)),
      (h c main_arg14).trans (ops_keep _ main_arg14 (by decide) (by decide) (by decide) (by decide) (by decide) (by decide)),
      (h c main_arg15).trans (ops_keep _ main_arg15 (by decide) (by decide) (by decide) (by decide) (by decide) (by decide)),
      (h c main_arg16).trans (ops_keep _ main_arg16 (by decide) (by decide) (by decide) (by decide) (by decide) (by decide)),
      (h c main_arg17).trans (ops_keep _ main_arg17 (by decide) (by decide) (by decide) (by decide) (by decide) (by decide)),
      (h c main_arg18).trans (ops_keep _ main_arg18 (by decide) (by decide) (by decide) (by decide) (by decide) (by decide)),
      (h c main_arg19).trans (ops_keep _ main_arg19 (by decide) (by decide) (by decide) (by decide) (by decide) (by decide)),
      (h c main_arg20).trans (ops_keep _ main_arg20 (by decide) (by decide) (by decide) (by decide) (by decide) (by decide)),
      (h c main_arg21).trans (ops_keep _ main_arg21 (by decide) (by decide) (by decide) (by decide) (by decide) (by decide)),
      (h c main_arg22).trans (ops_keep _ main_arg22 (by decide) (by decide) (by decide) (by decide) (by decide) (by decide)),
      (h c main_arg23).trans (ops_keep _ main_arg23 (by decide) (by decide) (by decide) (by decide) (by decide) (by decide)),
      (h c main_arg24).trans (ops_keep _ main_arg24 (by decide) (by decide) (by decide) (by decide) (by decide) (by decide)),
      (h c main_arg25).trans (ops_keep _ main_arg25 (by decide) (by decide) (by decide) (by decide) (by decide) (by decide)),
      (h c main_arg26).trans (ops_keep _ main_arg26 (by decide) (by decide) (by decide) (by decide) (by decide) (by decide)),
      (h c main_arg27).trans (ops_keep _ main_arg27 (by decide) (by decide) (by decide) (by decide) (by decide) (by decide))⟩)
    (run_seq scopedRefs_eq scopedSems_eq defs main (fun _ => ops) main_eq (fun _ => ops_sub) m ρ)

/-- The reference runs and leaves its arguments as they were. -/
theorem frame_ri : Cert.frame_ReferenceIdeal := fun m ρ _ =>
  (θ_run Cert.ReferenceIdeal.defs _ _).mono (fun _ h c => (h c).2) (run m ρ)

end Cert.ReferenceIdeal.Hand

end
-- ==== Proof.Spec.lean ====
/-
  The common vocabulary of the two programs' values, over the extended reals. An array of rank two is read as a
  matrix (a function of a row and a column), an array of rank one as a row. Every layer of the network is an affine
  map of each row of its input, `x·W + b`, followed by a function applied entry by entry. The kernels contract a
  concatenated input piece by piece (`x₁·W₁ + x₂·W₂ + b` with `W₁`, `W₂` the upper and lower rows of `W`), and
  work on a third of the gates' columns at a time; the reference contracts the concatenation whole and slices
  afterwards. The laws below say these are the same numbers: a sum over `k₁ + k₂` terms is the sum over the first
  `k₁` plus the sum over the rest (addition of extended reals is commutative and associative — no finiteness is
  needed), and a column slice of an affine map is the affine map of the column slices.
-/
import Idealize.ShloMosaic.PureOps.Ideal
import Idealize.ShloMosaic.PureOps.Ideal.Laws
import Idealize.ShloMosaic.Lib.ValueIdx

noncomputable section

namespace Cert.Spec

open Idealize.ShloMosaic

abbrev Mat (a b : ℕ) := Fin a → Fin b → EReal
abbrev Row (b : ℕ) := Fin b → EReal

/-- A rank-2 array read as a matrix. -/
def mat {a b : ℕ} (f : (⟨2, ![a, b]⟩ : Shape).Idx → EReal) : Mat a b := fun n q => f (ValueIdx.ix2 n q)
/-- A rank-1 array read as a row. -/
def row {b : ℕ} (f : (⟨1, ![b]⟩ : Shape).Idx → EReal) : Row b := fun q => f (ValueIdx.ix1 q)

/-- The affine map of each row: `(x·W + b) n q = Σᵢ x n i · W i q + b q`. -/
def aff {a k j : ℕ} (x : Mat a k) (W : Mat k j) (b : Row j) : Mat a j := fun n q => (∑ i : Fin k, x n i * W i q) + b q
/-- The same contraction taken in two pieces: `(x₁·W₁ + x₂·W₂) + b`. -/
def aff2 {a k₁ k₂ j : ℕ} (x₁ : Mat a k₁) (W₁ : Mat k₁ j) (x₂ : Mat a k₂) (W₂ : Mat k₂ j) (b : Row j) : Mat a j :=
  fun n q => ((∑ i : Fin k₁, x₁ n i * W₁ i q) + ∑ i : Fin k₂, x₂ n i * W₂ i q) + b q
/-- A function applied entry by entry. -/
def map {a b : ℕ} (f : EReal → EReal) (x : Mat a b) : Mat a b := fun n q => f (x n q)
/-- Columns `off … off + j' − 1` of a matrix, and of a row. -/
def cols {k j : ℕ} (off j' : ℕ) (h : off + j' ≤ j) (W : Mat k j) : Mat k j' := fun i q => W i ⟨off + q.val, by have := q.isLt; omega⟩
def colsR {j : ℕ} (off j' : ℕ) (h : off + j' ≤ j) (b : Row j) : Row j' := fun q => b ⟨off + q.val, by have := q.isLt; omega⟩
/-- Rows `off … off + k' − 1` of a matrix. -/
def rows {k j : ℕ} (off k' : ℕ) (h : off + k' ≤ k) (W : Mat k j) : Mat k' j := fun i q => W ⟨off + i.val, by have := i.isLt; omega⟩ q
/-- Two matrices side by side. -/
def hcat {a k₁ k₂ : ℕ} (x₁ : Mat a k₁) (x₂ : Mat a k₂) : Mat a (k₁ + k₂) :=
  fun n i => if h : i.val < k₁ then x₁ n ⟨i.val, h⟩ else x₂ n ⟨i.val - k₁, by have := i.isLt; omega⟩

/-- A `[1, j]` array (a bias after its reshape) read as a row. -/
def row1 {j : ℕ} (f : Mat 1 j) : Row j := fun q => f 0 q

/-! ## The functions applied entry by entry, in the form the kernels print them -/

/-- The words of 0, 1 and the minimal standard deviation 0.1 (as rounded to f32), read at the extended reals. -/
def zero32 : EReal := Ideal.ofBits .f32 0x00000000#32
def one32 : EReal := Ideal.ofBits .f32 0x3F800000#32
def tenth32 : EReal := Ideal.ofBits .f32 0x3DCCCCCD#32
/-- ELU: `y` where `y > 0`, `eʸ − 1` elsewhere. -/
def elu (y : EReal) : EReal := Scalar.select (Ideal.cmp .ogt y zero32) y (Ideal.exp y - one32)
/-- The logistic function `1 / (1 + e⁻ʸ)`. -/
def sigm (y : EReal) : EReal := Ideal.logistic y
/-- Softplus as `max(y, 0) + log(1 + e^(−|y − 0|))` behind the source's guard for an undefined difference (which no
    extended real triggers), plus the minimal standard deviation. -/
def splus (y : EReal) : EReal :=
  Scalar.select (Ideal.cmp .one (y - zero32) (y - zero32)) (y + zero32)
    (max y zero32 + Ideal.log1p (Ideal.exp (zero32 - max (y - zero32) (-(y - zero32))))) + tenth32

/-- A column slice of an affine map is the affine map of the slices. -/
theorem cols_aff {a k j : ℕ} (off j' : ℕ) (h : off + j' ≤ j) (x : Mat a k) (W : Mat k j) (b : Row j) :
    cols off j' h (aff x W b) = aff x (cols off j' h W) (colsR off j' h b) := rfl

/-- A sum over `k₁ + k₂` terms is the sum over the first `k₁` plus the sum over the others. -/
theorem sum_split {k₁ k₂ : ℕ} (f : Fin (k₁ + k₂) → EReal) :
    (∑ i : Fin (k₁ + k₂), f i) = (∑ i : Fin k₁, f (Fin.castAdd k₂ i)) + ∑ i : Fin k₂, f (Fin.natAdd k₁ i) :=
  Fin.sum_univ_add f

/-- Contracting a concatenation whole is contracting it piece by piece against the upper and lower rows. -/
theorem aff_hcat {a k₁ k₂ j : ℕ} (x₁ : Mat a k₁) (x₂ : Mat a k₂) (W : Mat (k₁ + k₂) j) (b : Row j) :
    aff (hcat x₁ x₂) W b = aff2 x₁ (rows 0 k₁ (by omega) W) x₂ (rows k₁ k₂ (by omega) W) b := by
  funext n q
  unfold aff aff2
  rw [sum_split]
  congr 2
  · refine Finset.sum_congr rfl fun i _ => ?_
    have hi : (Fin.castAdd k₂ i).val < k₁ := i.isLt
    unfold hcat rows
    rw [dif_pos hi]
    congr 2
    · exact Fin.ext (by simp)
  · refine Finset.sum_congr rfl fun i _ => ?_
    have hi : ¬ (Fin.natAdd k₁ i).val < k₁ := by simp
    unfold hcat rows
    rw [dif_neg hi]
    congr 2
    · exact Fin.ext (by simp)

end Cert.Spec

end
-- ==== Proof.ValI0.lean ====
import proofs.«109395_j20375324852595_2_alg».proof.Proof.RegionI0
import proofs.«109395_j20375324852595_2_alg».proof.Proof.Spec
import Idealize.ShloMosaic.Lib.ValueIdx
import Idealize.ShloMosaic.Lib.Pipeline.Value
import Idealize.ShloMosaic.Lib.ValueLayout
import Idealize.ShloMosaic.PureOps.Ideal.Laws

/-! # The value of region 0's output array, at the extended reals

Region 0 runs the pre-network's kernel over 16 blocks of 256 rows. Row `n` of the output array depends on row `n` of
the two row-blocked input arrays and on the whole weight and bias arrays, so every block the pipeline writes back is the
restriction of ONE function of the arrays the region is entered with; the blocks cover the output array, which
therefore ends holding that function. -/

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem
open Idealize.ShloMosaic.Pipeline (Dat)

/-- The pre-network's two layers, row by row: the first contracts the sample's 1024 columns against rows 0–1023 of
    `W0` and the action's 512 columns against rows 1024–1535, `elu ((s·W0↑ + act·W0↓) + b0)`; the second is
    `elu (·W1 + b1)`. -/
def G0_6 {a : ℕ} (s : Mat a 1024) (act : Mat a 512) (W0 : Mat 1536 2048) (b0 : Row 2048) (W1 : Mat 2048 2048) (b1 : Row 2048) : Mat a 2048 :=
  map elu (aff (map elu (aff2 s (rows 0 1024 (by omega) W0) act (rows 1024 512 (by omega) W0) b0)) W1 b1)

/-- The pre-network with the first layer's weight given as its two row bands, as the kernel reads it. -/
def pre0 {a : ℕ} (s : Mat a 1024) (act : Mat a 512) (Wa : Mat 1024 2048) (Wb : Mat 512 2048) (b0 : Row 2048)
    (W1 : Mat 2048 2048) (b1 : Row 2048) : Mat a 2048 :=
  map elu (aff (map elu (aff2 s Wa act Wb b0)) W1 b1)

theorem G0_6_eq_pre0 {a : ℕ} (s : Mat a 1024) (act : Mat a 512) (W0 : Mat 1536 2048) (b0 : Row 2048) (W1 : Mat 2048 2048) (b1 : Row 2048) :
    G0_6 s act W0 b0 W1 b1 = pre0 s act (rows 0 1024 (by omega) W0) (rows 1024 512 (by omega) W0) b0 W1 b1 := rfl
/-! ## The kernel's operations read at an entry -/

/-- The offset `![0, 0]` of a whole-block rectangle is the zero offset. -/
theorem off00_0 : (![0, 0] : Fin 2 → Nat) = fun _ => 0 := funext fun a => by fin_cases a <;> rfl

/-- A matrix product into the zero accumulator, read at an entry, is the sum over the contracted coordinate of the
    products of the entries (no rounding at the extended reals, and `0 + x = x`). -/
theorem matmul_plain_apply0 {a k j : ℕ} {φ₁ φ₂ : FTy} (prec : Option ContractPrecision)
    (A : FVec Ideal ⟨2, ![a, k]⟩ φ₁) (B : FVec Ideal ⟨2, ![k, j]⟩ φ₂) (p : Fin a) (q : Fin j) :
    matmul (DotDims.plain a k j) prec A B (constant ⟨2, ![a, j]⟩ .f32 0x00000000#32) (ix2 p q)
      = ∑ c : Fin k, A (ix2 p c) * B (ix2 c q) := by
  show FloatOps.matmul _ prec A B _ (ix2 p q) = _
  rw [Ideal.matmul_constant_zero_apply, ← Equiv.sum_comp (contrEquiv1 (DotDims.plain a k j) k rfl rfl).symm]
  refine Finset.sum_congr rfl fun c _ => ?_
  have hc := contrEquiv1_symm_val (DotDims.plain a k j) k rfl rfl c
  have hl : (DotDims.plain a k j).lhsIdx (ix2 p q) ((contrEquiv1 _ k rfl rfl).symm c) = ix2 p c := by
    funext ax; apply Fin.ext
    match ax with
    | ⟨0, _⟩ => simp [DotDims.lhsIdx, DotDims.plain]; rfl
    | ⟨1, _⟩ => simp [DotDims.lhsIdx, DotDims.plain]; exact hc
  have hr : (DotDims.plain a k j).rhsIdx (ix2 p q) ((contrEquiv1 _ k rfl rfl).symm c) = ix2 c q := by
    funext ax; apply Fin.ext
    match ax with
    | ⟨0, _⟩ => simp [DotDims.rhsIdx, DotDims.plain]; exact hc
    | ⟨1, _⟩ => simp [DotDims.rhsIdx, DotDims.plain]; rfl
  rw [hl, hr]

/-- The kernel's exponential-linear unit on a vector (`y` where `y > 0`, `eʸ − 1` elsewhere), read at an entry. -/
theorem elu_apply0 {s : Shape} (y : FVec Ideal s .f32) (j : s.Idx) :
    select (cmpf .ogt y (broadcast s (Scalar.ofBits .f32 0x00000000#32 : Ideal .f32))) y
      (subf (exp y) (broadcast s (Scalar.ofBits .f32 0x3F800000#32 : Ideal .f32))) j = elu (y j) := rfl

/-- A row-wise affine map changes with the row only through that row of its input. -/
theorem aff_row0 {a a' k j : ℕ} (x : Mat a k) (y : Mat a' k) (W : Mat k j) (b : Row j) (p : Fin a) (n : Fin a')
    (h : ∀ i, x p i = y n i) (q : Fin j) : aff x W b p q = aff y W b n q := by
  unfold aff
  exact congrArg (· + b q) (Finset.sum_congr rfl fun i _ => by rw [h i])

/-- The two-piece affine map likewise changes with the row only through that row of its two inputs. -/
theorem aff2_row0 {a a' k₁ k₂ j : ℕ} (x₁ : Mat a k₁) (y₁ : Mat a' k₁) (W₁ : Mat k₁ j) (x₂ : Mat a k₂) (y₂ : Mat a' k₂) (W₂ : Mat k₂ j)
    (b : Row j) (p : Fin a) (n : Fin a') (h₁ : ∀ i, x₁ p i = y₁ n i) (h₂ : ∀ i, x₂ p i = y₂ n i) (q : Fin j) :
    aff2 x₁ W₁ x₂ W₂ b p q = aff2 y₁ W₁ y₂ W₂ b n q := by
  unfold aff2
  exact congrArg (· + b q) (congrArg₂ (· + ·) (Finset.sum_congr rfl fun i _ => by rw [h₁ i])
    (Finset.sum_congr rfl fun i _ => by rw [h₂ i]))

/-- Row `p` of the network on a block of rows is row `n` of the network on the whole arrays, when the block's row `p` is
    the arrays' row `n`; the weights enter as they are. -/
theorem pre0_congr {a a' : ℕ} (s : Mat a 1024) (s' : Mat a' 1024) (act : Mat a 512) (act' : Mat a' 512)
    (Wa Wa' : Mat 1024 2048) (Wb Wb' : Mat 512 2048) (b0 b0' : Row 2048) (W1 W1' : Mat 2048 2048) (b1 b1' : Row 2048)
    (p : Fin a) (n : Fin a') (q q' : Fin 2048)
    (hs : ∀ i, s p i = s' n i) (ha : ∀ i, act p i = act' n i) (hWa : Wa = Wa') (hWb : Wb = Wb') (hb0 : b0 = b0')
    (hW1 : W1 = W1') (hb1 : b1 = b1') (hq : q = q') :
    pre0 s act Wa Wb b0 W1 b1 p q = pre0 s' act' Wa' Wb' b0' W1' b1' n q' := by
  subst hWa hWb hb0 hW1 hb1 hq
  unfold pre0 map
  exact congrArg elu (aff_row0 _ _ _ _ p n (fun i => congrArg elu (aff2_row0 _ _ _ _ _ _ _ p n hs ha i)) q)

/-- The printed dimension numbers of the body's three matrix products are the plain product's. -/
theorem dotA0 : dot_S256x1024_S1024x2048_S256x2048_1_0_0_1_n_n = DotDims.plain 256 1024 2048 := rfl
theorem dotB0 : dot_S256x512_S512x2048_S256x2048_1_0_0_1_n_n = DotDims.plain 256 512 2048 := rfl
theorem dotC0 : dot_S256x2048_S2048x2048_S256x2048_1_0_0_1_n_n = DotDims.plain 256 2048 2048 := rfl

/-- The body's payload at entry `(p, q)` of a block: the pre-network of the loaded blocks read as matrices (the
    changes of float format are the identity on extended reals). -/
theorem k0_pay1_apply (v0 : Vec Ideal S256x1024 .f32) (v2 : Vec Ideal S256x512 .f32) (v4 : Vec Ideal S1024x2048 .bf16) (v6 : Vec Ideal S512x2048 .bf16)
    (v11 : Vec Ideal S1x2048 .f32) (v22 : Vec Ideal S2048x2048 .bf16) (v25 : Vec Ideal S1x2048 .f32) (p : Fin 256) (q : Fin 2048) :
    k0_pay1 v0 v2 v4 v6 v11 v22 v25 (ix2 p q)
      = pre0 (mat v0) (mat v2) (mat v4) (mat v6) (row1 (mat v11)) (mat v22) (row1 (mat v25)) p q := by
  unfold k0_pay1
  simp only [shapeCast_self]
  rw [truncf_apply, elu_apply0, addf_apply, dotC0, matmul_plain_apply0, broadcastTo_1b_ab_apply]
  refine congrArg elu (congrArg (· + v25 (ix2 (0 : Fin 1) q)) (Finset.sum_congr rfl fun c _ => congrArg (· * v22 (ix2 c q)) ?_))
  rw [truncf_apply, elu_apply0, addf_apply, addf_apply, dotA0, dotB0, matmul_plain_apply0, matmul_plain_apply0, broadcastTo_1b_ab_apply]
  rfl

/-! ## The windows' blocks, read off the arrays -/

/-- The index maps, decided over the 16 grid points: windows 0, 1 and 6 are at row block `t`, windows 2–5 at their whole arrays. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- Row `p` of window 0's block at point `t` is row `256 t + p` of the array. -/
theorem iblk0_0_apply (c : Dev nD) (t : Fin cfg0.N) (p : Fin 256) (n : Fin 4096) (hn : n.val = 256 * t.val + p.val) (i : Fin 1024) :
    mat (iblk0 V c 0 t : Vec Ideal S256x1024 .f32) p i = mat (V c main_arg0 : S4096x1024.Idx → EReal) n i := by
  obtain ⟨e0, e1, -⟩ := idx0 t
  unfold mat iblk0
  rw [View.read_apply]
  show V c main_arg0 _ = V c main_arg0 _
  refine congrArg _ (funext fun a => Fin.ext ?_)
  match a with
  | ⟨0, _⟩ => show win0_0.index t (0 : Fin 2) * 256 + 1 * p.val = n.val; rw [e0, hn]; omega
  | ⟨1, _⟩ => show win0_0.index t (1 : Fin 2) * 1024 + 1 * i.val = i.val; rw [e1]; omega

/-- Row `p` of window 1's block at point `t` is row `256 t + p` of the array. -/
theorem iblk0_1_apply (c : Dev nD) (t : Fin cfg0.N) (p : Fin 256) (n : Fin 4096) (hn : n.val = 256 * t.val + p.val) (i : Fin 512) :
    mat (iblk0 V c 1 t : Vec Ideal S256x512 .f32) p i = mat (V c main_arg1 : S4096x512.Idx → EReal) n i := by
  obtain ⟨-, -, e0, e1, -⟩ := idx0 t
  unfold mat iblk0
  rw [View.read_apply]
  show V c main_arg1 _ = V c main_arg1 _
  refine congrArg _ (funext fun a => Fin.ext ?_)
  match a with
  | ⟨0, _⟩ => show win0_1.index t (0 : Fin 2) * 256 + 1 * p.val = n.val; rw [e0, hn]; omega
  | ⟨1, _⟩ => show win0_1.index t (1 : Fin 2) * 512 + 1 * i.val = i.val; rw [e1]; omega

/-- Windows 2–5 hold their whole arrays at every point. -/
theorem iblk0_2_eq (c : Dev nD) (t : Fin cfg0.N) : (iblk0 V c 2 t : Vec Ideal S1536x2048 .bf16) = (V c main_v0 : S1536x2048.Idx → EReal) := by
  obtain ⟨-, -, -, -, e0, e1, -⟩ := idx0 t
  funext j
  unfold iblk0
  rw [View.read_apply]
  show V c main_v0 _ = V c main_v0 j
  refine congrArg _ (funext fun a => Fin.ext ?_)
  match a with
  | ⟨0, _⟩ => show win0_2.index t (0 : Fin 2) * 1536 + 1 * (j 0).val = (j 0).val; rw [e0]; omega
  | ⟨1, _⟩ => show win0_2.index t (1 : Fin 2) * 2048 + 1 * (j 1).val = (j 1).val; rw [e1]; omega

theorem iblk0_3_eq (c : Dev nD) (t : Fin cfg0.N) : (iblk0 V c 3 t : Vec Ideal S1x2048 .f32) = (V c main_v12 : S1x2048.Idx → EReal) := by
  obtain ⟨-, -, -, -, -, -, e0, e1, -⟩ := idx0 t
  funext j
  unfold iblk0
  rw [View.read_apply]
  show V c main_v12 _ = V c main_v12 j
  refine congrArg _ (funext fun a => Fin.ext ?_)
  match a with
  | ⟨0, _⟩ => show win0_3.index t (0 : Fin 2) * 1 + 1 * (j 0).val = (j 0).val; rw [e0]; omega
  | ⟨1, _⟩ => show win0_3.index t (1 : Fin 2) * 2048 + 1 * (j 1).val = (j 1).val; rw [e1]; omega

theorem iblk0_4_eq (c : Dev nD) (t : Fin cfg0.N) : (iblk0 V c 4 t : Vec Ideal S2048x2048 .bf16) = (V c main_v1 : S2048x2048.Idx → EReal) := by
  obtain ⟨-, -, -, -, -, -, -, -, e0, e1, -⟩ := idx0 t
  funext j
  unfold iblk0
  rw [View.read_apply]
  show V c main_v1 _ = V c main_v1 j
  refine congrArg _ (funext fun a => Fin.ext ?_)
  match a with
  | ⟨0, _⟩ => show win0_4.index t (0 : Fin 2) * 2048 + 1 * (j 0).val = (j 0).val; rw [e0]; omega
  | ⟨1, _⟩ => show win0_4.index t (1 : Fin 2) * 2048 + 1 * (j 1).val = (j 1).val; rw [e1]; omega

theorem iblk0_5_eq (c : Dev nD) (t : Fin cfg0.N) : (iblk0 V c 5 t : Vec Ideal S1x2048 .f32) = (V c main_v13 : S1x2048.Idx → EReal) := by
  obtain ⟨-, -, -, -, -, -, -, -, -, -, e0, e1, -⟩ := idx0 t
  funext j
  unfold iblk0
  rw [View.read_apply]
  show V c main_v13 _ = V c main_v13 j
  refine congrArg _ (funext fun a => Fin.ext ?_)
  match a with
  | ⟨0, _⟩ => show win0_5.index t (0 : Fin 2) * 1 + 1 * (j 0).val = (j 0).val; rw [e0]; omega
  | ⟨1, _⟩ => show win0_5.index t (1 : Fin 2) * 2048 + 1 * (j 1).val = (j 1).val; rw [e1]; omega

/-- The body's two loads of window 2's block are the upper 1024 and the lower 512 rows of the weight. -/
theorem ld_top0 (X : Vec Ideal S1536x2048 .bf16) : mat (View.ld X r0_2 : Vec Ideal S1024x2048 .bf16) = rows 0 1024 (by omega) (mat X) := by
  funext i q
  show X (r0_2.idx (ix2 i q)) = X (ix2 ⟨0 + i.val, _⟩ q)
  refine congrArg X (funext fun a => Fin.ext ?_)
  match a with
  | ⟨0, _⟩ => show 0 + 1 * i.val = 0 + i.val; omega
  | ⟨1, _⟩ => show 0 + 1 * q.val = q.val; omega

theorem ld_bot0 (X : Vec Ideal S1536x2048 .bf16) : mat (View.ld X r0_3 : Vec Ideal S512x2048 .bf16) = rows 1024 512 (by omega) (mat X) := by
  funext i q
  show X (r0_3.idx (ix2 i q)) = X (ix2 ⟨1024 + i.val, _⟩ q)
  refine congrArg X (funext fun a => Fin.ext ?_)
  match a with
  | ⟨0, _⟩ => show 1024 + 1 * i.val = 1024 + i.val; omega
  | ⟨1, _⟩ => show 0 + 1 * q.val = q.val; omega

/-! ## From the blocks to the array -/

/-- The output array as ONE function of the arrays the region is entered with. -/
def arr0_6 (c : Dev nD) : S4096x2048.Idx → EReal := fun i =>
  G0_6 (mat (V c main_arg0 : S4096x1024.Idx → EReal)) (mat (V c main_arg1 : S4096x512.Idx → EReal))
    (mat (V c main_v0 : S1536x2048.Idx → EReal)) (row1 (mat (V c main_v12 : S1x2048.Idx → EReal)))
    (mat (V c main_v1 : S2048x2048.Idx → EReal)) (row1 (mat (V c main_v13 : S1x2048.Idx → EReal))) (i 0) (i 1)

/-- What point `t` writes back is block `t` of that function. -/
theorem flushed0_6_eq (c : Dev nD) (t : Fin cfg0.N) :
    (dat0 (F := Ideal) V c).flushed 6 t = ((cfg0.win 6).blk t).view.read (Elt Ideal) (arr0_6 V c) := by
  show (cfg0.win 6).cut (grid0.coords t) ((dat0 (F := Ideal) V c).after 6 t) = _
  rw [after0_6]
  unfold out0_6
  rw [View.canon_unit_zero off00_0]
  simp only [View.ld_unit_zero (S := S256x1024) off00_0, View.ld_unit_zero (S := S256x512) off00_0,
    View.ld_unit_zero (S := S1x2048) off00_0, View.ld_unit_zero (S := S2048x2048) off00_0]
  funext j
  obtain ⟨p, q, rfl⟩ : ∃ (p : Fin 256) (q : Fin 2048), j = ix2 p q := ⟨j 0, j 1, eq_ix2 j⟩
  obtain ⟨-, -, -, -, -, -, -, -, -, -, -, -, e0, e1⟩ := idx0 t
  have hn : ((((cfg0.win 6).blk t).view.emb (ix2 p q)) 0 : Fin 4096).val = 256 * t.val + p.val := by
    show win0_6.index t (0 : Fin 2) * 256 + 1 * p.val = _
    rw [e0]; omega
  have hq : q = ((((cfg0.win 6).blk t).view.emb (ix2 p q)) 1 : Fin 2048) := Fin.ext (by
    show q.val = win0_6.index t (1 : Fin 2) * 2048 + 1 * q.val
    rw [e1]; omega)
  refine (k0_pay1_apply (iblk0 V c 0 t) (iblk0 V c 1 t) (View.ld (iblk0 V c 2 t) r0_2) (View.ld (iblk0 V c 2 t) r0_3)
    (iblk0 V c 3 t) (iblk0 V c 4 t) (iblk0 V c 5 t) p q).trans ?_
  rw [View.read_apply]
  show _ = arr0_6 V c (((cfg0.win 6).blk t).view.emb (ix2 p q))
  unfold arr0_6
  rw [G0_6_eq_pre0]
  exact pre0_congr _ _ _ _ _ _ _ _ _ _ _ _ _ _ p _ q _
    (fun i => iblk0_0_apply V c t p _ hn i) (fun i => iblk0_1_apply V c t p _ hn i)
    ((ld_top0 _).trans (congrArg (fun X => rows 0 1024 (by omega) (mat X)) (iblk0_2_eq V c t)))
    ((ld_bot0 _).trans (congrArg (fun X => rows 1024 512 (by omega) (mat X)) (iblk0_2_eq V c t)))
    (congrArg (fun X => row1 (mat X)) (iblk0_3_eq V c t)) (congrArg mat (iblk0_4_eq V c t))
    (congrArg (fun X => row1 (mat X)) (iblk0_5_eq V c t)) hq

/-- An index of the array is in point `t`'s block iff each coordinate is in the block's range on its axis. -/
theorem mem_blk0_6 (t : Fin cfg0.N) (i : S4096x2048.Idx) :
    i ∈ ((cfg0.win 6).blk t).view.set ↔ ∀ a : Fin 2, win0_6.index t a * S256x2048.size a ≤ (i a).val ∧ (i a).val < win0_6.index t a * S256x2048.size a + S256x2048.size a := by
  show i ∈ ((View.whole main_v14).slice (win0_6.rect t)).set ↔ _
  rw [View.set_slice_whole, Rect.mem_set_unit]
  exact Iff.rfl

/-- Every index of the array is in the block of the point its row falls in, `row / 256`, and every point writes back. -/
theorem covered0_6 (i : S4096x2048.Idx) : ∃ t : Fin cfg0.N, (cfg0.win 6).flush t = true ∧ i ∈ ((cfg0.win 6).blk t).view.set := by
  have hi0 : (i 0).val < 4096 := idx2_lt0 i
  have hi1 : (i 1).val < 2048 := idx2_lt1 i
  have hN : cfg0.N = 16 := N_0
  let t : Fin cfg0.N := ⟨(i 0).val / 256, by rw [hN]; omega⟩
  obtain ⟨-, -, -, -, -, -, -, -, -, -, -, -, e0, e1⟩ := idx0 t
  refine ⟨t, flush0_6 t, ?_⟩
  rw [mem_blk0_6]
  intro a
  match a with
  | ⟨0, _⟩ =>
    show win0_6.index t (0 : Fin 2) * 256 ≤ (i 0).val ∧ (i 0).val < win0_6.index t (0 : Fin 2) * 256 + 256
    rw [e0]; show (i 0).val / 256 * 256 ≤ (i 0).val ∧ (i 0).val < (i 0).val / 256 * 256 + 256; omega
  | ⟨1, _⟩ =>
    show win0_6.index t (1 : Fin 2) * 2048 ≤ (i 1).val ∧ (i 1).val < win0_6.index t (1 : Fin 2) * 2048 + 2048
    rw [e1]; omega

/-- So the array ends holding that function. -/
theorem arrAt0_6 (c : Dev nD) : (dat0 (F := Ideal) V c).arrAt 6 cfg0.N = arr0_6 V c :=
  (dat0 (F := Ideal) V c).arrAt_eq_of_cover 6 (arr0_6 V c) (fun t _ => flushed0_6_eq V c t) covered0_6

theorem final0_6 (V : (c : Dev nD) → (b : Ref sig .tc) → Buf (Elt Ideal) ((c : Thread nD τ).loc b)) (c : Dev nD) (n : Fin 4096) (q : Fin 2048) :
    (dat0 (F := Ideal) V c).arrAt 6 cfg0.N (ValueIdx.ix2 n q)
      = G0_6 (mat (V c main_arg0 : S4096x1024.Idx → EReal)) (mat (V c main_arg1 : S4096x512.Idx → EReal))
        (mat (V c main_v0 : S1536x2048.Idx → EReal)) (row1 (mat (V c main_v12 : S1x2048.Idx → EReal)))
        (mat (V c main_v1 : S2048x2048.Idx → EReal)) (row1 (mat (V c main_v13 : S1x2048.Idx → EReal))) n q := by
  rw [arrAt0_6]
  rfl

end Cert.KernelIdeal.Val
-- ==== Proof.ValI1.lean ====
import proofs.«109395_j20375324852595_2_alg».proof.Proof.RegionI1
import proofs.«109395_j20375324852595_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx
open Idealize.SL Idealize.SL.Sem
open Idealize.ShloMosaic.Pipeline (Dat)

/-! ## The result as one function of whole matrices -/

/-- The gate as a function of whole matrices: row `n` of the result is the logistic function, entry by entry, of
    `(x·Wi + bi) + (h·Wh + bh)` at row `n` — the sum of the two affine maps of the rows `x n` and `h n`. -/
def G1_6 (x : Mat 4096 2048) (h : Mat 4096 2048) (Wi : Mat 2048 2048) (Wh : Mat 2048 2048) (bi : Row 2048) (bh : Row 2048) : Mat 4096 2048 :=
  fun n q => sigm (aff x Wi bi n q + aff h Wh bh n q)

/-! ## The body's payload at an entry -/

theorem hz1 : (![0, 0] : Fin 2 → Nat) = fun _ => 0 := funext fun a => by fin_cases a <;> rfl

/-- The product of a 256 × 2048 block by a 2048 × 2048 block, accumulated into zero, at an entry: the sum over the contracted
    coordinate of the products of the entries. -/
theorem mm1_apply (a : FVec Ideal S256x2048 .bf16) (b : FVec Ideal S2048x2048 .bf16) (p : Fin 256) (q : Fin 2048) :
    matmul dot_S256x2048_S2048x2048_S256x2048_1_0_0_1_n_n none a b (constant S256x2048 .f32 0x00000000#32) (ix2 p q)
      = ∑ i : Fin 2048, a (ix2 p i) * b (ix2 i q) := by
  show FloatOps.matmul dot_S256x2048_S2048x2048_S256x2048_1_0_0_1_n_n none a b _ (ix2 p q) = _
  rw [Ideal.matmul_constant_zero_apply, ← Equiv.sum_comp (contrEquiv1 dot_S256x2048_S2048x2048_S256x2048_1_0_0_1_n_n 2048 rfl rfl).symm]
  refine Finset.sum_congr rfl fun i _ => ?_
  have c2 := contrEquiv1_symm_val dot_S256x2048_S2048x2048_S256x2048_1_0_0_1_n_n 2048 rfl rfl i
  have l2 : (dot_S256x2048_S2048x2048_S256x2048_1_0_0_1_n_n).lhsIdx (ix2 p q) ((contrEquiv1 _ 2048 rfl rfl).symm i) = ix2 p i := by
    funext ax; apply Fin.ext
    match ax with
    | ⟨0, _⟩ => simp [DotDims.lhsIdx, dot_S256x2048_S2048x2048_S256x2048_1_0_0_1_n_n]; rfl
    | ⟨1, _⟩ => simp [DotDims.lhsIdx, dot_S256x2048_S2048x2048_S256x2048_1_0_0_1_n_n]; exact c2
  have r2 : (dot_S256x2048_S2048x2048_S256x2048_1_0_0_1_n_n).rhsIdx (ix2 p q) ((contrEquiv1 _ 2048 rfl rfl).symm i) = ix2 i q := by
    funext ax; apply Fin.ext
    match ax with
    | ⟨0, _⟩ => simp [DotDims.rhsIdx, dot_S256x2048_S2048x2048_S256x2048_1_0_0_1_n_n]; exact c2
    | ⟨1, _⟩ => simp [DotDims.rhsIdx, dot_S256x2048_S2048x2048_S256x2048_1_0_0_1_n_n]; rfl
  rw [l2, r2]

/-- A bias row broadcast down the 256 rows, at an entry: the row's entry in that column. -/
theorem bc1_apply (v : FVec Ideal S1x2048 .f32) (p : Fin 256) (q : Fin 2048) :
    broadcastTo S256x2048 v broadcasts_S1x2048_S256x2048 (ix2 p q) = v (ix2 0 q) :=
  broadcastTo_apply v broadcasts_S1x2048_S256x2048 (ix2 p q) (ix2 0 q) (fun a => by
    match a with
    | ⟨0, _⟩ => rfl
    | ⟨1, _⟩ => rfl)

/-- The payload at an entry: the logistic function of the two affine maps' sum. -/
theorem pay1_apply (v0 : Vec Ideal S256x2048 .bf16) (v2 : Vec Ideal S256x2048 .f32) (v4 : Vec Ideal S2048x2048 .bf16) (v7 : Vec Ideal S1x2048 .f32)
    (v11 : Vec Ideal S2048x2048 .bf16) (v14 : Vec Ideal S1x2048 .f32) (p : Fin 256) (q : Fin 2048) :
    k1_pay1 v0 v2 v4 v7 v11 v14 (ix2 p q)
      = sigm (((∑ i : Fin 2048, v0 (ix2 p i) * v4 (ix2 i q)) + v7 (ix2 0 q)) + ((∑ i : Fin 2048, v2 (ix2 p i) * v11 (ix2 i q)) + v14 (ix2 0 q))) := by
  unfold k1_pay1
  simp only [shapeCast_self]
  exact congrArg sigm (congrArg₂ (· + ·)
    (congrArg₂ (· + ·) (mm1_apply v0 v4 p q) (bc1_apply v7 p q))
    (congrArg₂ (· + ·) (mm1_apply (truncf .bf16 v2 bitsLt_bf16_f32) v11 p q) (bc1_apply v14 p q)))

/-! ## The windows' index maps over the grid -/

/-- Over the 16 grid points: the row-blocked windows (0, 1 and the output 6) sit at row block `t`, column block 0; the weights'
    and the biases' windows sit at row block 0, column block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-! ## Each input block, read at an entry, is an entry of its array -/

/-- Row `p` of row block `t` of the first operand is row `256 t + p` of its array. -/
theorem blk1_0 (c : Dev nD) (t : Fin cfg1.N) (p : Fin 256) (i : Fin 2048) (n : Fin 4096) (hn : n.val = 256 * t.val + p.val) :
    (iblk1 V c 0 t : Vec Ideal S256x2048 .bf16) (ix2 p i) = (V c main_v14 : S4096x2048.Idx → EReal) (ix2 n i) := by
  obtain ⟨e0, e1, -⟩ := idx1 t
  unfold iblk1
  rw [View.read_apply]
  show (V c main_v14 : S4096x2048.Idx → EReal) _ = _
  congr 1
  funext a; apply Fin.ext
  match a with
  | ⟨0, _⟩ => show win1_0.index t (0 : Fin 2) * 256 + 1 * p.val = n.val; rw [e0]; omega
  | ⟨1, _⟩ => show win1_0.index t (1 : Fin 2) * 2048 + 1 * i.val = i.val; rw [e1]; omega

/-- The same of the second operand. -/
theorem blk1_1 (c : Dev nD) (t : Fin cfg1.N) (p : Fin 256) (i : Fin 2048) (n : Fin 4096) (hn : n.val = 256 * t.val + p.val) :
    (iblk1 V c 1 t : Vec Ideal S256x2048 .f32) (ix2 p i) = (V c main_arg2 : S4096x2048.Idx → EReal) (ix2 n i) := by
  obtain ⟨-, -, e0, e1, -⟩ := idx1 t
  unfold iblk1
  rw [View.read_apply]
  show (V c main_arg2 : S4096x2048.Idx → EReal) _ = _
  congr 1
  funext a; apply Fin.ext
  match a with
  | ⟨0, _⟩ => show win1_1.index t (0 : Fin 2) * 256 + 1 * p.val = n.val; rw [e0]; omega
  | ⟨1, _⟩ => show win1_1.index t (1 : Fin 2) * 2048 + 1 * i.val = i.val; rw [e1]; omega

/-- Column `q` of the first weight's block is column `0 + q` of its array. -/
theorem blk1_2 (c : Dev nD) (t : Fin cfg1.N) (i : Fin 2048) (q : Fin 2048) (q' : Fin 6144) (hq : q'.val = 0 + q.val) :
    (iblk1 V c 2 t : Vec Ideal S2048x2048 .bf16) (ix2 i q) = (V c main_v2 : S2048x6144.Idx → EReal) (ix2 i q') := by
  obtain ⟨-, -, -, -, e0, e1, -⟩ := idx1 t
  unfold iblk1
  rw [View.read_apply]
  show (V c main_v2 : S2048x6144.Idx → EReal) _ = _
  congr 1
  funext a; apply Fin.ext
  match a with
  | ⟨0, _⟩ => show win1_2.index t (0 : Fin 2) * 2048 + 1 * i.val = i.val; rw [e0]; omega
  | ⟨1, _⟩ => show win1_2.index t (1 : Fin 2) * 2048 + 1 * q.val = q'.val; rw [e1]; omega

/-- The same of the second weight. -/
theorem blk1_3 (c : Dev nD) (t : Fin cfg1.N) (i : Fin 2048) (q : Fin 2048) (q' : Fin 6144) (hq : q'.val = 0 + q.val) :
    (iblk1 V c 3 t : Vec Ideal S2048x2048 .bf16) (ix2 i q) = (V c main_v3 : S2048x6144.Idx → EReal) (ix2 i q') := by
  obtain ⟨-, -, -, -, -, -, e0, e1, -⟩ := idx1 t
  unfold iblk1
  rw [View.read_apply]
  show (V c main_v3 : S2048x6144.Idx → EReal) _ = _
  congr 1
  funext a; apply Fin.ext
  match a with
  | ⟨0, _⟩ => show win1_3.index t (0 : Fin 2) * 2048 + 1 * i.val = i.val; rw [e0]; omega
  | ⟨1, _⟩ => show win1_3.index t (1 : Fin 2) * 2048 + 1 * q.val = q'.val; rw [e1]; omega

/-- Column `q` of the first bias row's block is column `0 + q` of its array. -/
theorem blk1_4 (c : Dev nD) (t : Fin cfg1.N) (q : Fin 2048) (q' : Fin 6144) (hq : q'.val = 0 + q.val) :
    (iblk1 V c 4 t : Vec Ideal S1x2048 .f32) (ix2 0 q) = (V c main_v15 : S1x6144.Idx → EReal) (ix2 0 q') := by
  obtain ⟨-, -, -, -, -, -, -, -, e0, e1, -⟩ := idx1 t
  unfold iblk1
  rw [View.read_apply]
  show (V c main_v15 : S1x6144.Idx → EReal) _ = _
  congr 1
  funext a; apply Fin.ext
  match a with
  | ⟨0, _⟩ => show win1_4.index t (0 : Fin 2) * 1 + 1 * 0 = 0; rw [e0]
  | ⟨1, _⟩ => show win1_4.index t (1 : Fin 2) * 2048 + 1 * q.val = q'.val; rw [e1]; omega

/-- The same of the second bias row. -/
theorem blk1_5 (c : Dev nD) (t : Fin cfg1.N) (q : Fin 2048) (q' : Fin 6144) (hq : q'.val = 0 + q.val) :
    (iblk1 V c 5 t : Vec Ideal S1x2048 .f32) (ix2 0 q) = (V c main_v16 : S1x6144.Idx → EReal) (ix2 0 q') := by
  obtain ⟨-, -, -, -, -, -, -, -, -, -, e0, e1, -⟩ := idx1 t
  unfold iblk1
  rw [View.read_apply]
  show (V c main_v16 : S1x6144.Idx → EReal) _ = _
  congr 1
  funext a; apply Fin.ext
  match a with
  | ⟨0, _⟩ => show win1_5.index t (0 : Fin 2) * 1 + 1 * 0 = 0; rw [e0]
  | ⟨1, _⟩ => show win1_5.index t (1 : Fin 2) * 2048 + 1 * q.val = q'.val; rw [e1]; omega

/-! ## What a point writes back is its block of the whole result -/

/-- The whole result as an array: `G1_6` of the region's input arrays as the region finds them. -/
def GA1 (c : Dev nD) : S4096x2048.Idx → EReal := fun i =>
  G1_6 (mat (V c main_v14 : S4096x2048.Idx → EReal)) (mat (V c main_arg2 : S4096x2048.Idx → EReal))
    (cols (2048 * 0) 2048 (by decide) (mat (V c main_v2 : S2048x6144.Idx → EReal)))
    (cols (2048 * 0) 2048 (by decide) (mat (V c main_v3 : S2048x6144.Idx → EReal)))
    (colsR (2048 * 0) 2048 (by decide) (row1 (mat (V c main_v15 : S1x6144.Idx → EReal))))
    (colsR (2048 * 0) 2048 (by decide) (row1 (mat (V c main_v16 : S1x6144.Idx → EReal)))) (i 0) (i 1)

/-- What point `t` writes back is rows `256 t … 256 t + 255` of the whole result. -/
theorem flushed1_eq (c : Dev nD) (t : Fin cfg1.N) :
    (dat1 (F := Ideal) V c).flushed 6 t = ((cfg1.win 6).blk t).view.read (Elt Ideal) (GA1 V c) := by
  show (cfg1.win 6).cut (grid1.coords t) ((dat1 (F := Ideal) V c).after 6 t) = _
  rw [after1_6]
  unfold out1_6
  rw [View.canon_unit_zero hz1]
  simp only [View.ld_unit_zero (S := S256x2048) hz1, View.ld_unit_zero (S := S2048x2048) hz1, View.ld_unit_zero (S := S1x2048) hz1]
  funext j
  obtain ⟨p, q, rfl⟩ : ∃ (p : Fin 256) (q : Fin 2048), j = ix2 p q := ⟨j 0, j 1, eq_ix2 j⟩
  obtain ⟨-, -, -, -, -, -, -, -, -, -, -, -, e0, e1⟩ := idx1 t
  have ht : t.val < 16 := by have := t.isLt; have hN : cfg1.N = 16 := N_1; omega
  refine (pay1_apply (iblk1 V c 0 t) (iblk1 V c 1 t) (iblk1 V c 2 t) (iblk1 V c 4 t) (iblk1 V c 3 t) (iblk1 V c 5 t) p q).trans ?_
  rw [View.read_apply]
  have hemb : ((cfg1.win 6).blk t).view.emb (ix2 p q) = (ix2 ⟨256 * t.val + p.val, by have := p.isLt; omega⟩ q : S4096x2048.Idx) := by
    funext a; apply Fin.ext
    match a with
    | ⟨0, _⟩ => show win1_6.index t (0 : Fin 2) * 256 + 1 * p.val = 256 * t.val + p.val; rw [e0]; omega
    | ⟨1, _⟩ => show win1_6.index t (1 : Fin 2) * 2048 + 1 * q.val = q.val; rw [e1]; omega
  rw [hemb]
  unfold GA1 G1_6 aff
  refine congrArg sigm (congrArg₂ (· + ·) (congrArg₂ (· + ·) (Finset.sum_congr rfl fun i _ => ?_) ?_) (congrArg₂ (· + ·) (Finset.sum_congr rfl fun i _ => ?_) ?_))
  · exact congrArg₂ (· * ·) (blk1_0 V c t p i _ rfl) (blk1_2 V c t i q _ rfl)
  · exact blk1_4 V c t q _ rfl
  · exact congrArg₂ (· * ·) (blk1_1 V c t p i _ rfl) (blk1_3 V c t i q _ rfl)
  · exact blk1_5 V c t q _ rfl

/-! ## The blocks cover the array -/

/-- An entry of the array is in point `t`'s block iff each coordinate is in the block's range on its axis. -/
theorem mem_blk1 (t : Fin cfg1.N) (i : S4096x2048.Idx) :
    i ∈ ((cfg1.win 6).blk t).view.set ↔ ∀ a : Fin 2, win1_6.index t a * S256x2048.size a ≤ (i a).val ∧ (i a).val < win1_6.index t a * S256x2048.size a + S256x2048.size a := by
  show i ∈ ((View.whole main_v17).slice (win1_6.rect t)).set ↔ _
  rw [View.set_slice_whole, Rect.mem_set_unit]
  exact Iff.rfl

/-- Row `r` is in the block of point `r / 256`, and every point writes its block back. -/
theorem cover1 (i : S4096x2048.Idx) : ∃ t : Fin cfg1.N, (cfg1.win 6).flush t = true ∧ i ∈ ((cfg1.win 6).blk t).view.set := by
  have hi0 : (i 0).val < 4096 := (i 0).isLt
  have hi1 : (i 1).val < 2048 := (i 1).isLt
  have hN : cfg1.N = 16 := N_1
  obtain ⟨t, ht⟩ : ∃ t : Fin cfg1.N, t.val = (i 0).val / 256 := ⟨⟨(i 0).val / 256, by omega⟩, rfl⟩
  obtain ⟨-, -, -, -, -, -, -, -, -, -, -, -, e0, e1⟩ := idx1 t
  refine ⟨t, flush1_6 t, ?_⟩
  rw [mem_blk1]
  intro a
  match a with
  | ⟨0, _⟩ => show win1_6.index t (0 : Fin 2) * 256 ≤ (i 0).val ∧ (i 0).val < win1_6.index t (0 : Fin 2) * 256 + 256; rw [e0]; omega
  | ⟨1, _⟩ => show win1_6.index t (1 : Fin 2) * 2048 ≤ (i 1).val ∧ (i 1).val < win1_6.index t (1 : Fin 2) * 2048 + 2048; rw [e1]; omega

/-! ## The array after the region -/

theorem final1_6 (V : (c : Dev nD) → (b : Ref sig .tc) → Buf (Elt Ideal) ((c : Thread nD τ).loc b)) (c : Dev nD) (n : Fin 4096) (q : Fin 2048) :
    (dat1 (F := Ideal) V c).arrAt 6 cfg1.N (ValueIdx.ix2 n q)
      = G1_6 (mat (V c main_v14 : S4096x2048.Idx → EReal)) (mat (V c main_arg2 : S4096x2048.Idx → EReal))
          (cols (2048 * 0) 2048 (by decide) (mat (V c main_v2 : S2048x6144.Idx → EReal)))
          (cols (2048 * 0) 2048 (by decide) (mat (V c main_v3 : S2048x6144.Idx → EReal)))
          (colsR (2048 * 0) 2048 (by decide) (row1 (mat (V c main_v15 : S1x6144.Idx → EReal))))
          (colsR (2048 * 0) 2048 (by decide) (row1 (mat (V c main_v16 : S1x6144.Idx → EReal)))) n q :=
  congrFun ((dat1 (F := Ideal) V c).arrAt_eq_of_cover 6 (GA1 V c) (fun t _ => flushed1_eq V c t) cover1) (ix2 n q)

end Cert.KernelIdeal.Val

end
-- ==== Proof.ValI2.lean ====
import proofs.«109395_j20375324852595_2_alg».proof.Proof.RegionI2
import proofs.«109395_j20375324852595_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx
open Idealize.SL Idealize.SL.Sem
open Idealize.ShloMosaic.Pipeline (Dat)

/-! ## The result as one function of whole matrices -/

/-- The gate as a function of whole matrices: row `n` of the result is the logistic function, entry by entry, of
    `(x·Wi + bi) + (h·Wh + bh)` at row `n` — the sum of the two affine maps of the rows `x n` and `h n`. -/
def G2_6 (x : Mat 4096 2048) (h : Mat 4096 2048) (Wi : Mat 2048 2048) (Wh : Mat 2048 2048) (bi : Row 2048) (bh : Row 2048) : Mat 4096 2048 :=
  fun n q => sigm (aff x Wi bi n q + aff h Wh bh n q)

/-! ## The body's payload at an entry -/

theorem hz2 : (![0, 0] : Fin 2 → Nat) = fun _ => 0 := funext fun a => by fin_cases a <;> rfl

/-- The product of a 256 × 2048 block by a 2048 × 2048 block, accumulated into zero, at an entry: the sum over the contracted
    coordinate of the products of the entries. -/
theorem mm2_apply (a : FVec Ideal S256x2048 .bf16) (b : FVec Ideal S2048x2048 .bf16) (p : Fin 256) (q : Fin 2048) :
    matmul dot_S256x2048_S2048x2048_S256x2048_1_0_0_1_n_n none a b (constant S256x2048 .f32 0x00000000#32) (ix2 p q)
      = ∑ i : Fin 2048, a (ix2 p i) * b (ix2 i q) := by
  show FloatOps.matmul dot_S256x2048_S2048x2048_S256x2048_1_0_0_1_n_n none a b _ (ix2 p q) = _
  rw [Ideal.matmul_constant_zero_apply, ← Equiv.sum_comp (contrEquiv1 dot_S256x2048_S2048x2048_S256x2048_1_0_0_1_n_n 2048 rfl rfl).symm]
  refine Finset.sum_congr rfl fun i _ => ?_
  have c2 := contrEquiv1_symm_val dot_S256x2048_S2048x2048_S256x2048_1_0_0_1_n_n 2048 rfl rfl i
  have l2 : (dot_S256x2048_S2048x2048_S256x2048_1_0_0_1_n_n).lhsIdx (ix2 p q) ((contrEquiv1 _ 2048 rfl rfl).symm i) = ix2 p i := by
    funext ax; apply Fin.ext
    match ax with
    | ⟨0, _⟩ => simp [DotDims.lhsIdx, dot_S256x2048_S2048x2048_S256x2048_1_0_0_1_n_n]; rfl
    | ⟨1, _⟩ => simp [DotDims.lhsIdx, dot_S256x2048_S2048x2048_S256x2048_1_0_0_1_n_n]; exact c2
  have r2 : (dot_S256x2048_S2048x2048_S256x2048_1_0_0_1_n_n).rhsIdx (ix2 p q) ((contrEquiv1 _ 2048 rfl rfl).symm i) = ix2 i q := by
    funext ax; apply Fin.ext
    match ax with
    | ⟨0, _⟩ => simp [DotDims.rhsIdx, dot_S256x2048_S2048x2048_S256x2048_1_0_0_1_n_n]; exact c2
    | ⟨1, _⟩ => simp [DotDims.rhsIdx, dot_S256x2048_S2048x2048_S256x2048_1_0_0_1_n_n]; rfl
  rw [l2, r2]

/-- A bias row broadcast down the 256 rows, at an entry: the row's entry in that column. -/
theorem bc2_apply (v : FVec Ideal S1x2048 .f32) (p : Fin 256) (q : Fin 2048) :
    broadcastTo S256x2048 v broadcasts_S1x2048_S256x2048 (ix2 p q) = v (ix2 0 q) :=
  broadcastTo_apply v broadcasts_S1x2048_S256x2048 (ix2 p q) (ix2 0 q) (fun a => by
    match a with
    | ⟨0, _⟩ => rfl
    | ⟨1, _⟩ => rfl)

/-- The payload at an entry: the logistic function of the two affine maps' sum. -/
theorem pay2_apply (v0 : Vec Ideal S256x2048 .bf16) (v2 : Vec Ideal S256x2048 .f32) (v4 : Vec Ideal S2048x2048 .bf16) (v7 : Vec Ideal S1x2048 .f32)
    (v11 : Vec Ideal S2048x2048 .bf16) (v14 : Vec Ideal S1x2048 .f32) (p : Fin 256) (q : Fin 2048) :
    k2_pay1 v0 v2 v4 v7 v11 v14 (ix2 p q)
      = sigm (((∑ i : Fin 2048, v0 (ix2 p i) * v4 (ix2 i q)) + v7 (ix2 0 q)) + ((∑ i : Fin 2048, v2 (ix2 p i) * v11 (ix2 i q)) + v14 (ix2 0 q))) := by
  unfold k2_pay1
  simp only [shapeCast_self]
  exact congrArg sigm (congrArg₂ (· + ·)
    (congrArg₂ (· + ·) (mm2_apply v0 v4 p q) (bc2_apply v7 p q))
    (congrArg₂ (· + ·) (mm2_apply (truncf .bf16 v2 bitsLt_bf16_f32) v11 p q) (bc2_apply v14 p q)))

/-! ## The windows' index maps over the grid -/

/-- Over the 16 grid points: the row-blocked windows (0, 1 and the output 6) sit at row block `t`, column block 0; the weights'
    and the biases' windows sit at row block 0, column block 1. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 1
    ∧ win2_3.index t (0 : Fin 2) = 0 ∧ win2_3.index t (1 : Fin 2) = 1
    ∧ win2_4.index t (0 : Fin 2) = 0 ∧ win2_4.index t (1 : Fin 2) = 1
    ∧ win2_5.index t (0 : Fin 2) = 0 ∧ win2_5.index t (1 : Fin 2) = 1
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

/-! ## Each input block, read at an entry, is an entry of its array -/

/-- Row `p` of row block `t` of the first operand is row `256 t + p` of its array. -/
theorem blk2_0 (c : Dev nD) (t : Fin cfg2.N) (p : Fin 256) (i : Fin 2048) (n : Fin 4096) (hn : n.val = 256 * t.val + p.val) :
    (iblk2 V c 0 t : Vec Ideal S256x2048 .bf16) (ix2 p i) = (V c main_v14 : S4096x2048.Idx → EReal) (ix2 n i) := by
  obtain ⟨e0, e1, -⟩ := idx2 t
  unfold iblk2
  rw [View.read_apply]
  show (V c main_v14 : S4096x2048.Idx → EReal) _ = _
  congr 1
  funext a; apply Fin.ext
  match a with
  | ⟨0, _⟩ => show win2_0.index t (0 : Fin 2) * 256 + 1 * p.val = n.val; rw [e0]; omega
  | ⟨1, _⟩ => show win2_0.index t (1 : Fin 2) * 2048 + 1 * i.val = i.val; rw [e1]; omega

/-- The same of the second operand. -/
theorem blk2_1 (c : Dev nD) (t : Fin cfg2.N) (p : Fin 256) (i : Fin 2048) (n : Fin 4096) (hn : n.val = 256 * t.val + p.val) :
    (iblk2 V c 1 t : Vec Ideal S256x2048 .f32) (ix2 p i) = (V c main_arg2 : S4096x2048.Idx → EReal) (ix2 n i) := by
  obtain ⟨-, -, e0, e1, -⟩ := idx2 t
  unfold iblk2
  rw [View.read_apply]
  show (V c main_arg2 : S4096x2048.Idx → EReal) _ = _
  congr 1
  funext a; apply Fin.ext
  match a with
  | ⟨0, _⟩ => show win2_1.index t (0 : Fin 2) * 256 + 1 * p.val = n.val; rw [e0]; omega
  | ⟨1, _⟩ => show win2_1.index t (1 : Fin 2) * 2048 + 1 * i.val = i.val; rw [e1]; omega

/-- Column `q` of the first weight's block is column `2048 + q` of its array. -/
theorem blk2_2 (c : Dev nD) (t : Fin cfg2.N) (i : Fin 2048) (q : Fin 2048) (q' : Fin 6144) (hq : q'.val = 2048 + q.val) :
    (iblk2 V c 2 t : Vec Ideal S2048x2048 .bf16) (ix2 i q) = (V c main_v2 : S2048x6144.Idx → EReal) (ix2 i q') := by
  obtain ⟨-, -, -, -, e0, e1, -⟩ := idx2 t
  unfold iblk2
  rw [View.read_apply]
  show (V c main_v2 : S2048x6144.Idx → EReal) _ = _
  congr 1
  funext a; apply Fin.ext
  match a with
  | ⟨0, _⟩ => show win2_2.index t (0 : Fin 2) * 2048 + 1 * i.val = i.val; rw [e0]; omega
  | ⟨1, _⟩ => show win2_2.index t (1 : Fin 2) * 2048 + 1 * q.val = q'.val; rw [e1]; omega

/-- The same of the second weight. -/
theorem blk2_3 (c : Dev nD) (t : Fin cfg2.N) (i : Fin 2048) (q : Fin 2048) (q' : Fin 6144) (hq : q'.val = 2048 + q.val) :
    (iblk2 V c 3 t : Vec Ideal S2048x2048 .bf16) (ix2 i q) = (V c main_v3 : S2048x6144.Idx → EReal) (ix2 i q') := by
  obtain ⟨-, -, -, -, -, -, e0, e1, -⟩ := idx2 t
  unfold iblk2
  rw [View.read_apply]
  show (V c main_v3 : S2048x6144.Idx → EReal) _ = _
  congr 1
  funext a; apply Fin.ext
  match a with
  | ⟨0, _⟩ => show win2_3.index t (0 : Fin 2) * 2048 + 1 * i.val = i.val; rw [e0]; omega
  | ⟨1, _⟩ => show win2_3.index t (1 : Fin 2) * 2048 + 1 * q.val = q'.val; rw [e1]; omega

/-- Column `q` of the first bias row's block is column `2048 + q` of its array. -/
theorem blk2_4 (c : Dev nD) (t : Fin cfg2.N) (q : Fin 2048) (q' : Fin 6144) (hq : q'.val = 2048 + q.val) :
    (iblk2 V c 4 t : Vec Ideal S1x2048 .f32) (ix2 0 q) = (V c main_v18 : S1x6144.Idx → EReal) (ix2 0 q') := by
  obtain ⟨-, -, -, -, -, -, -, -, e0, e1, -⟩ := idx2 t
  unfold iblk2
  rw [View.read_apply]
  show (V c main_v18 : S1x6144.Idx → EReal) _ = _
  congr 1
  funext a; apply Fin.ext
  match a with
  | ⟨0, _⟩ => show win2_4.index t (0 : Fin 2) * 1 + 1 * 0 = 0; rw [e0]
  | ⟨1, _⟩ => show win2_4.index t (1 : Fin 2) * 2048 + 1 * q.val = q'.val; rw [e1]; omega

/-- The same of the second bias row. -/
theorem blk2_5 (c : Dev nD) (t : Fin cfg2.N) (q : Fin 2048) (q' : Fin 6144) (hq : q'.val = 2048 + q.val) :
    (iblk2 V c 5 t : Vec Ideal S1x2048 .f32) (ix2 0 q) = (V c main_v19 : S1x6144.Idx → EReal) (ix2 0 q') := by
  obtain ⟨-, -, -, -, -, -, -, -, -, -, e0, e1, -⟩ := idx2 t
  unfold iblk2
  rw [View.read_apply]
  show (V c main_v19 : S1x6144.Idx → EReal) _ = _
  congr 1
  funext a; apply Fin.ext
  match a with
  | ⟨0, _⟩ => show win2_5.index t (0 : Fin 2) * 1 + 1 * 0 = 0; rw [e0]
  | ⟨1, _⟩ => show win2_5.index t (1 : Fin 2) * 2048 + 1 * q.val = q'.val; rw [e1]; omega

/-! ## What a point writes back is its block of the whole result -/

/-- The whole result as an array: `G2_6` of the region's input arrays as the region finds them. -/
def GA2 (c : Dev nD) : S4096x2048.Idx → EReal := fun i =>
  G2_6 (mat (V c main_v14 : S4096x2048.Idx → EReal)) (mat (V c main_arg2 : S4096x2048.Idx → EReal))
    (cols (2048 * 1) 2048 (by decide) (mat (V c main_v2 : S2048x6144.Idx → EReal)))
    (cols (2048 * 1) 2048 (by decide) (mat (V c main_v3 : S2048x6144.Idx → EReal)))
    (colsR (2048 * 1) 2048 (by decide) (row1 (mat (V c main_v18 : S1x6144.Idx → EReal))))
    (colsR (2048 * 1) 2048 (by decide) (row1 (mat (V c main_v19 : S1x6144.Idx → EReal)))) (i 0) (i 1)

/-- What point `t` writes back is rows `256 t … 256 t + 255` of the whole result. -/
theorem flushed2_eq (c : Dev nD) (t : Fin cfg2.N) :
    (dat2 (F := Ideal) V c).flushed 6 t = ((cfg2.win 6).blk t).view.read (Elt Ideal) (GA2 V c) := by
  show (cfg2.win 6).cut (grid2.coords t) ((dat2 (F := Ideal) V c).after 6 t) = _
  rw [after2_6]
  unfold out2_6
  rw [View.canon_unit_zero hz2]
  simp only [View.ld_unit_zero (S := S256x2048) hz2, View.ld_unit_zero (S := S2048x2048) hz2, View.ld_unit_zero (S := S1x2048) hz2]
  funext j
  obtain ⟨p, q, rfl⟩ : ∃ (p : Fin 256) (q : Fin 2048), j = ix2 p q := ⟨j 0, j 1, eq_ix2 j⟩
  obtain ⟨-, -, -, -, -, -, -, -, -, -, -, -, e0, e1⟩ := idx2 t
  have ht : t.val < 16 := by have := t.isLt; have hN : cfg2.N = 16 := N_2; omega
  refine (pay2_apply (iblk2 V c 0 t) (iblk2 V c 1 t) (iblk2 V c 2 t) (iblk2 V c 4 t) (iblk2 V c 3 t) (iblk2 V c 5 t) p q).trans ?_
  rw [View.read_apply]
  have hemb : ((cfg2.win 6).blk t).view.emb (ix2 p q) = (ix2 ⟨256 * t.val + p.val, by have := p.isLt; omega⟩ q : S4096x2048.Idx) := by
    funext a; apply Fin.ext
    match a with
    | ⟨0, _⟩ => show win2_6.index t (0 : Fin 2) * 256 + 1 * p.val = 256 * t.val + p.val; rw [e0]; omega
    | ⟨1, _⟩ => show win2_6.index t (1 : Fin 2) * 2048 + 1 * q.val = q.val; rw [e1]; omega
  rw [hemb]
  unfold GA2 G2_6 aff
  refine congrArg sigm (congrArg₂ (· + ·) (congrArg₂ (· + ·) (Finset.sum_congr rfl fun i _ => ?_) ?_) (congrArg₂ (· + ·) (Finset.sum_congr rfl fun i _ => ?_) ?_))
  · exact congrArg₂ (· * ·) (blk2_0 V c t p i _ rfl) (blk2_2 V c t i q _ rfl)
  · exact blk2_4 V c t q _ rfl
  · exact congrArg₂ (· * ·) (blk2_1 V c t p i _ rfl) (blk2_3 V c t i q _ rfl)
  · exact blk2_5 V c t q _ rfl

/-! ## The blocks cover the array -/

/-- An entry of the array is in point `t`'s block iff each coordinate is in the block's range on its axis. -/
theorem mem_blk2 (t : Fin cfg2.N) (i : S4096x2048.Idx) :
    i ∈ ((cfg2.win 6).blk t).view.set ↔ ∀ a : Fin 2, win2_6.index t a * S256x2048.size a ≤ (i a).val ∧ (i a).val < win2_6.index t a * S256x2048.size a + S256x2048.size a := by
  show i ∈ ((View.whole main_v20).slice (win2_6.rect t)).set ↔ _
  rw [View.set_slice_whole, Rect.mem_set_unit]
  exact Iff.rfl

/-- Row `r` is in the block of point `r / 256`, and every point writes its block back. -/
theorem cover2 (i : S4096x2048.Idx) : ∃ t : Fin cfg2.N, (cfg2.win 6).flush t = true ∧ i ∈ ((cfg2.win 6).blk t).view.set := by
  have hi0 : (i 0).val < 4096 := (i 0).isLt
  have hi1 : (i 1).val < 2048 := (i 1).isLt
  have hN : cfg2.N = 16 := N_2
  obtain ⟨t, ht⟩ : ∃ t : Fin cfg2.N, t.val = (i 0).val / 256 := ⟨⟨(i 0).val / 256, by omega⟩, rfl⟩
  obtain ⟨-, -, -, -, -, -, -, -, -, -, -, -, e0, e1⟩ := idx2 t
  refine ⟨t, flush2_6 t, ?_⟩
  rw [mem_blk2]
  intro a
  match a with
  | ⟨0, _⟩ => show win2_6.index t (0 : Fin 2) * 256 ≤ (i 0).val ∧ (i 0).val < win2_6.index t (0 : Fin 2) * 256 + 256; rw [e0]; omega
  | ⟨1, _⟩ => show win2_6.index t (1 : Fin 2) * 2048 ≤ (i 1).val ∧ (i 1).val < win2_6.index t (1 : Fin 2) * 2048 + 2048; rw [e1]; omega

/-! ## The array after the region -/

theorem final2_6 (V : (c : Dev nD) → (b : Ref sig .tc) → Buf (Elt Ideal) ((c : Thread nD τ).loc b)) (c : Dev nD) (n : Fin 4096) (q : Fin 2048) :
    (dat2 (F := Ideal) V c).arrAt 6 cfg2.N (ValueIdx.ix2 n q)
      = G2_6 (mat (V c main_v14 : S4096x2048.Idx → EReal)) (mat (V c main_arg2 : S4096x2048.Idx → EReal))
          (cols (2048 * 1) 2048 (by decide) (mat (V c main_v2 : S2048x6144.Idx → EReal)))
          (cols (2048 * 1) 2048 (by decide) (mat (V c main_v3 : S2048x6144.Idx → EReal)))
          (colsR (2048 * 1) 2048 (by decide) (row1 (mat (V c main_v18 : S1x6144.Idx → EReal))))
          (colsR (2048 * 1) 2048 (by decide) (row1 (mat (V c main_v19 : S1x6144.Idx → EReal)))) n q :=
  congrFun ((dat2 (F := Ideal) V c).arrAt_eq_of_cover 6 (GA2 V c) (fun t _ => flushed2_eq V c t) cover2) (ix2 n q)

end Cert.KernelIdeal.Val

end
-- ==== Proof.ValI3.lean ====
import proofs.«109395_j20375324852595_2_alg».proof.Proof.RegionI3
import proofs.«109395_j20375324852595_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx
open Idealize.SL Idealize.SL.Sem
open Idealize.ShloMosaic.Pipeline (Dat)

/-! ## The result as one function of whole matrices -/

/-- The new state as a function of whole matrices: with `r` and `z` the two gates, the candidate is the hyperbolic tangent,
    entry by entry, of `(x·Wi + bi) + r * (h·Wh + bh)`, and the result is `(1 - z) * candidate + z * h`. -/
def G3_8 (x : Mat 4096 2048) (h : Mat 4096 2048) (r : Mat 4096 2048) (z : Mat 4096 2048) (Wi : Mat 2048 2048) (Wh : Mat 2048 2048)
    (bi : Row 2048) (bh : Row 2048) : Mat 4096 2048 :=
  fun n q => (one32 - z n q) * Ideal.tanh (aff x Wi bi n q + r n q * aff h Wh bh n q) + z n q * h n q

/-! ## The body's payload at an entry -/

theorem hz3 : (![0, 0] : Fin 2 → Nat) = fun _ => 0 := funext fun a => by fin_cases a <;> rfl

/-- The product of a 256 × 2048 block by a 2048 × 2048 block, accumulated into zero, at an entry: the sum over the contracted
    coordinate of the products of the entries. -/
theorem mm3_apply (a : FVec Ideal S256x2048 .bf16) (b : FVec Ideal S2048x2048 .bf16) (p : Fin 256) (q : Fin 2048) :
    matmul dot_S256x2048_S2048x2048_S256x2048_1_0_0_1_n_n none a b (constant S256x2048 .f32 0x00000000#32) (ix2 p q)
      = ∑ i : Fin 2048, a (ix2 p i) * b (ix2 i q) := by
  show FloatOps.matmul dot_S256x2048_S2048x2048_S256x2048_1_0_0_1_n_n none a b _ (ix2 p q) = _
  rw [Ideal.matmul_constant_zero_apply, ← Equiv.sum_comp (contrEquiv1 dot_S256x2048_S2048x2048_S256x2048_1_0_0_1_n_n 2048 rfl rfl).symm]
  refine Finset.sum_congr rfl fun i _ => ?_
  have c2 := contrEquiv1_symm_val dot_S256x2048_S2048x2048_S256x2048_1_0_0_1_n_n 2048 rfl rfl i
  have l2 : (dot_S256x2048_S2048x2048_S256x2048_1_0_0_1_n_n).lhsIdx (ix2 p q) ((contrEquiv1 _ 2048 rfl rfl).symm i) = ix2 p i := by
    funext ax; apply Fin.ext
    match ax with
    | ⟨0, _⟩ => simp [DotDims.lhsIdx, dot_S256x2048_S2048x2048_S256x2048_1_0_0_1_n_n]; rfl
    | ⟨1, _⟩ => simp [DotDims.lhsIdx, dot_S256x2048_S2048x2048_S256x2048_1_0_0_1_n_n]; exact c2
  have r2 : (dot_S256x2048_S2048x2048_S256x2048_1_0_0_1_n_n).rhsIdx (ix2 p q) ((contrEquiv1 _ 2048 rfl rfl).symm i) = ix2 i q := by
    funext ax; apply Fin.ext
    match ax with
    | ⟨0, _⟩ => simp [DotDims.rhsIdx, dot_S256x2048_S2048x2048_S256x2048_1_0_0_1_n_n]; exact c2
    | ⟨1, _⟩ => simp [DotDims.rhsIdx, dot_S256x2048_S2048x2048_S256x2048_1_0_0_1_n_n]; rfl
  rw [l2, r2]

/-- A bias row broadcast down the 256 rows, at an entry: the row's entry in that column. -/
theorem bc3_apply (v : FVec Ideal S1x2048 .f32) (p : Fin 256) (q : Fin 2048) :
    broadcastTo S256x2048 v broadcasts_S1x2048_S256x2048 (ix2 p q) = v (ix2 0 q) :=
  broadcastTo_apply v broadcasts_S1x2048_S256x2048 (ix2 p q) (ix2 0 q) (fun a => by
    match a with
    | ⟨0, _⟩ => rfl
    | ⟨1, _⟩ => rfl)

/-- The payload at an entry: with `r` = `v4` and `z` = `v7`, `(1 - z) * tanh ((v0·v10 + v13) + r * (v2·v17 + v20)) + z * v2`. -/
theorem pay3_apply (v0 : Vec Ideal S256x2048 .bf16) (v2 : Vec Ideal S256x2048 .f32) (v4 : Vec Ideal S256x2048 .bf16) (v7 : Vec Ideal S256x2048 .bf16)
    (v10 : Vec Ideal S2048x2048 .bf16) (v13 : Vec Ideal S1x2048 .f32) (v17 : Vec Ideal S2048x2048 .bf16) (v20 : Vec Ideal S1x2048 .f32)
    (p : Fin 256) (q : Fin 2048) :
    k3_pay1 v0 v2 v4 v7 v10 v13 v17 v20 (ix2 p q)
      = (one32 - v7 (ix2 p q)) * Ideal.tanh (((∑ i : Fin 2048, v0 (ix2 p i) * v10 (ix2 i q)) + v13 (ix2 0 q))
          + v4 (ix2 p q) * ((∑ i : Fin 2048, v2 (ix2 p i) * v17 (ix2 i q)) + v20 (ix2 0 q))) + v7 (ix2 p q) * v2 (ix2 p q) := by
  unfold k3_pay1
  simp only [shapeCast_self]
  have ha := congrArg₂ (· + ·) (mm3_apply v0 v10 p q) (bc3_apply v13 p q)
  have hb := congrArg₂ (· + ·) (mm3_apply (truncf .bf16 v2 bitsLt_bf16_f32) v17 p q) (bc3_apply v20 p q)
  exact congrArg (fun y => (one32 - v7 (ix2 p q)) * Ideal.tanh y + v7 (ix2 p q) * v2 (ix2 p q))
    (congrArg₂ (· + ·) ha (congrArg (fun y => v4 (ix2 p q) * y) hb))

/-! ## The windows' index maps over the grid: the row-blocked windows (0–3 and the output 8) sit at row block `t`, column block 0;
    the weights' and the biases' windows sit at row block 0, column block 2 -/

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)
theorem idx3_3 : ∀ t : Fin cfg3.N, win3_3.index t (0 : Fin 2) = t.val ∧ win3_3.index t (1 : Fin 2) = 0 :=
  (by decide +kernel : ∀ t : Fin grid3.N, _)
theorem idx3_8 : ∀ t : Fin cfg3.N, win3_8.index t (0 : Fin 2) = t.val ∧ win3_8.index t (1 : Fin 2) = 0 :=
  (by decide +kernel : ∀ t : Fin grid3.N, _)
theorem idx3_4 : ∀ t : Fin cfg3.N, win3_4.index t (0 : Fin 2) = 0 ∧ win3_4.index t (1 : Fin 2) = 2 :=
  (by decide +kernel : ∀ t : Fin grid3.N, _)
theorem idx3_5 : ∀ t : Fin cfg3.N, win3_5.index t (0 : Fin 2) = 0 ∧ win3_5.index t (1 : Fin 2) = 2 :=
  (by decide +kernel : ∀ t : Fin grid3.N, _)
theorem idx3_6 : ∀ t : Fin cfg3.N, win3_6.index t (0 : Fin 2) = 0 ∧ win3_6.index t (1 : Fin 2) = 2 :=
  (by decide +kernel : ∀ t : Fin grid3.N, _)
theorem idx3_7 : ∀ t : Fin cfg3.N, win3_7.index t (0 : Fin 2) = 0 ∧ win3_7.index t (1 : Fin 2) = 2 :=
  (by decide +kernel : ∀ t : Fin grid3.N, _)

variable (V : (c : Dev nD) → (b : Ref sig .tc) → Buf (Elt Ideal) ((c : Thread nD τ).loc b))

/-! ## Each input block, read at an entry, is an entry of its array -/

/-- Row `p` of row block `t` of the first operand is row `256 t + p` of its array. -/
theorem blk3_0 (c : Dev nD) (t : Fin cfg3.N) (p : Fin 256) (i : Fin 2048) (n : Fin 4096) (hn : n.val = 256 * t.val + p.val) :
    (iblk3 V c 0 t : Vec Ideal S256x2048 .bf16) (ix2 p i) = (V c main_v14 : S4096x2048.Idx → EReal) (ix2 n i) := by
  obtain ⟨e0, e1⟩ := idx3_0 t
  unfold iblk3
  rw [View.read_apply]
  show (V c main_v14 : S4096x2048.Idx → EReal) _ = _
  congr 1
  funext a; apply Fin.ext
  match a with
  | ⟨0, _⟩ => show win3_0.index t (0 : Fin 2) * 256 + 1 * p.val = n.val; rw [e0]; omega
  | ⟨1, _⟩ => show win3_0.index t (1 : Fin 2) * 2048 + 1 * i.val = i.val; rw [e1]; omega

/-- The same of the previous state. -/
theorem blk3_1 (c : Dev nD) (t : Fin cfg3.N) (p : Fin 256) (i : Fin 2048) (n : Fin 4096) (hn : n.val = 256 * t.val + p.val) :
    (iblk3 V c 1 t : Vec Ideal S256x2048 .f32) (ix2 p i) = (V c main_arg2 : S4096x2048.Idx → EReal) (ix2 n i) := by
  obtain ⟨e0, e1⟩ := idx3_1 t
  unfold iblk3
  rw [View.read_apply]
  show (V c main_arg2 : S4096x2048.Idx → EReal) _ = _
  congr 1
  funext a; apply Fin.ext
  match a with
  | ⟨0, _⟩ => show win3_1.index t (0 : Fin 2) * 256 + 1 * p.val = n.val; rw [e0]; omega
  | ⟨1, _⟩ => show win3_1.index t (1 : Fin 2) * 2048 + 1 * i.val = i.val; rw [e1]; omega

/-- The same of the first gate. -/
theorem blk3_2 (c : Dev nD) (t : Fin cfg3.N) (p : Fin 256) (i : Fin 2048) (n : Fin 4096) (hn : n.val = 256 * t.val + p.val) :
    (iblk3 V c 2 t : Vec Ideal S256x2048 .bf16) (ix2 p i) = (V c main_v17 : S4096x2048.Idx → EReal) (ix2 n i) := by
  obtain ⟨e0, e1⟩ := idx3_2 t
  unfold iblk3
  rw [View.read_apply]
  show (V c main_v17 : S4096x2048.Idx → EReal) _ = _
  congr 1
  funext a; apply Fin.ext
  match a with
  | ⟨0, _⟩ => show win3_2.index t (0 : Fin 2) * 256 + 1 * p.val = n.val; rw [e0]; omega
  | ⟨1, _⟩ => show win3_2.index t (1 : Fin 2) * 2048 + 1 * i.val = i.val; rw [e1]; omega

/-- The same of the second gate. -/
theorem blk3_3 (c : Dev nD) (t : Fin cfg3.N) (p : Fin 256) (i : Fin 2048) (n : Fin 4096) (hn : n.val = 256 * t.val + p.val) :
    (iblk3 V c 3 t : Vec Ideal S256x2048 .bf16) (ix2 p i) = (V c main_v20 : S4096x2048.Idx → EReal) (ix2 n i) := by
  obtain ⟨e0, e1⟩ := idx3_3 t
  unfold iblk3
  rw [View.read_apply]
  show (V c main_v20 : S4096x2048.Idx → EReal) _ = _
  congr 1
  funext a; apply Fin.ext
  match a with
  | ⟨0, _⟩ => show win3_3.index t (0 : Fin 2) * 256 + 1 * p.val = n.val; rw [e0]; omega
  | ⟨1, _⟩ => show win3_3.index t (1 : Fin 2) * 2048 + 1 * i.val = i.val; rw [e1]; omega

/-- Column `q` of the first weight's block is column `4096 + q` of its array. -/
theorem blk3_4 (c : Dev nD) (t : Fin cfg3.N) (i : Fin 2048) (q : Fin 2048) (q' : Fin 6144) (hq : q'.val = 4096 + q.val) :
    (iblk3 V c 4 t : Vec Ideal S2048x2048 .bf16) (ix2 i q) = (V c main_v2 : S2048x6144.Idx → EReal) (ix2 i q') := by
  obtain ⟨e0, e1⟩ := idx3_4 t
  unfold iblk3
  rw [View.read_apply]
  show (V c main_v2 : S2048x6144.Idx → EReal) _ = _
  congr 1
  funext a; apply Fin.ext
  match a with
  | ⟨0, _⟩ => show win3_4.index t (0 : Fin 2) * 2048 + 1 * i.val = i.val; rw [e0]; omega
  | ⟨1, _⟩ => show win3_4.index t (1 : Fin 2) * 2048 + 1 * q.val = q'.val; rw [e1]; omega

/-- The same of the second weight. -/
theorem blk3_5 (c : Dev nD) (t : Fin cfg3.N) (i : Fin 2048) (q : Fin 2048) (q' : Fin 6144) (hq : q'.val = 4096 + q.val) :
    (iblk3 V c 5 t : Vec Ideal S2048x2048 .bf16) (ix2 i q) = (V c main_v3 : S2048x6144.Idx → EReal) (ix2 i q') := by
  obtain ⟨e0, e1⟩ := idx3_5 t
  unfold iblk3
  rw [View.read_apply]
  show (V c main_v3 : S2048x6144.Idx → EReal) _ = _
  congr 1
  funext a; apply Fin.ext
  match a with
  | ⟨0, _⟩ => show win3_5.index t (0 : Fin 2) * 2048 + 1 * i.val = i.val; rw [e0]; omega
  | ⟨1, _⟩ => show win3_5.index t (1 : Fin 2) * 2048 + 1 * q.val = q'.val; rw [e1]; omega

/-- Column `q` of the first bias row's block is column `4096 + q` of its array. -/
theorem blk3_6 (c : Dev nD) (t : Fin cfg3.N) (q : Fin 2048) (q' : Fin 6144) (hq : q'.val = 4096 + q.val) :
    (iblk3 V c 6 t : Vec Ideal S1x2048 .f32) (ix2 0 q) = (V c main_v21 : S1x6144.Idx → EReal) (ix2 0 q') := by
  obtain ⟨e0, e1⟩ := idx3_6 t
  unfold iblk3
  rw [View.read_apply]
  show (V c main_v21 : S1x6144.Idx → EReal) _ = _
  congr 1
  funext a; apply Fin.ext
  match a with
  | ⟨0, _⟩ => show win3_6.index t (0 : Fin 2) * 1 + 1 * 0 = 0; rw [e0]
  | ⟨1, _⟩ => show win3_6.index t (1 : Fin 2) * 2048 + 1 * q.val = q'.val; rw [e1]; omega

/-- The same of the second bias row. -/
theorem blk3_7 (c : Dev nD) (t : Fin cfg3.N) (q : Fin 2048) (q' : Fin 6144) (hq : q'.val = 4096 + q.val) :
    (iblk3 V c 7 t : Vec Ideal S1x2048 .f32) (ix2 0 q) = (V c main_v22 : S1x6144.Idx → EReal) (ix2 0 q') := by
  obtain ⟨e0, e1⟩ := idx3_7 t
  unfold iblk3
  rw [View.read_apply]
  show (V c main_v22 : S1x6144.Idx → EReal) _ = _
  congr 1
  funext a; apply Fin.ext
  match a with
  | ⟨0, _⟩ => show win3_7.index t (0 : Fin 2) * 1 + 1 * 0 = 0; rw [e0]
  | ⟨1, _⟩ => show win3_7.index t (1 : Fin 2) * 2048 + 1 * q.val = q'.val; rw [e1]; omega

/-! ## What a point writes back is its block of the whole result -/

/-- The whole result as an array: `G3_8` of the region's input arrays as the region finds them. -/
def GA3 (c : Dev nD) : S4096x2048.Idx → EReal := fun i =>
  G3_8 (mat (V c main_v14 : S4096x2048.Idx → EReal)) (mat (V c main_arg2 : S4096x2048.Idx → EReal))
    (mat (V c main_v17 : S4096x2048.Idx → EReal)) (mat (V c main_v20 : S4096x2048.Idx → EReal))
    (cols (2048 * 2) 2048 (by decide) (mat (V c main_v2 : S2048x6144.Idx → EReal)))
    (cols (2048 * 2) 2048 (by decide) (mat (V c main_v3 : S2048x6144.Idx → EReal)))
    (colsR (2048 * 2) 2048 (by decide) (row1 (mat (V c main_v21 : S1x6144.Idx → EReal))))
    (colsR (2048 * 2) 2048 (by decide) (row1 (mat (V c main_v22 : S1x6144.Idx → EReal)))) (i 0) (i 1)

/-- What point `t` writes back is rows `256 t … 256 t + 255` of the whole result. -/
theorem flushed3_eq (c : Dev nD) (t : Fin cfg3.N) :
    (dat3 (F := Ideal) V c).flushed 8 t = ((cfg3.win 8).blk t).view.read (Elt Ideal) (GA3 V c) := by
  show (cfg3.win 8).cut (grid3.coords t) ((dat3 (F := Ideal) V c).after 8 t) = _
  rw [after3_8]
  unfold out3_8
  rw [View.canon_unit_zero hz3]
  simp only [View.ld_unit_zero (S := S256x2048) hz3, View.ld_unit_zero (S := S2048x2048) hz3, View.ld_unit_zero (S := S1x2048) hz3]
  funext j
  obtain ⟨p, q, rfl⟩ : ∃ (p : Fin 256) (q : Fin 2048), j = ix2 p q := ⟨j 0, j 1, eq_ix2 j⟩
  obtain ⟨e0, e1⟩ := idx3_8 t
  have ht : t.val < 16 := by have := t.isLt; have hN : cfg3.N = 16 := N_3; omega
  refine (pay3_apply (iblk3 V c 0 t) (iblk3 V c 1 t) (iblk3 V c 2 t) (iblk3 V c 3 t) (iblk3 V c 4 t) (iblk3 V c 6 t) (iblk3 V c 5 t) (iblk3 V c 7 t) p q).trans ?_
  rw [View.read_apply]
  have hemb : ((cfg3.win 8).blk t).view.emb (ix2 p q) = (ix2 ⟨256 * t.val + p.val, by have := p.isLt; omega⟩ q : S4096x2048.Idx) := by
    funext a; apply Fin.ext
    match a with
    | ⟨0, _⟩ => show win3_8.index t (0 : Fin 2) * 256 + 1 * p.val = 256 * t.val + p.val; rw [e0]; omega
    | ⟨1, _⟩ => show win3_8.index t (1 : Fin 2) * 2048 + 1 * q.val = q.val; rw [e1]; omega
  rw [hemb]
  unfold GA3 G3_8 aff
  have hz := blk3_3 V c t p q ⟨256 * t.val + p.val, by have := p.isLt; omega⟩ rfl
  have hr := blk3_2 V c t p q ⟨256 * t.val + p.val, by have := p.isLt; omega⟩ rfl
  have hh := blk3_1 V c t p q ⟨256 * t.val + p.val, by have := p.isLt; omega⟩ rfl
  refine congrArg₂ (· + ·) (congrArg₂ (· * ·) (congrArg (fun y => one32 - y) hz) (congrArg Ideal.tanh (congrArg₂ (· + ·)
    (congrArg₂ (· + ·) (Finset.sum_congr rfl fun i _ => ?_) ?_)
    (congrArg₂ (· * ·) hr (congrArg₂ (· + ·) (Finset.sum_congr rfl fun i _ => ?_) ?_))))) (congrArg₂ (· * ·) hz hh)
  · exact congrArg₂ (· * ·) (blk3_0 V c t p i _ rfl) (blk3_4 V c t i q _ rfl)
  · exact blk3_6 V c t q _ rfl
  · exact congrArg₂ (· * ·) (blk3_1 V c t p i _ rfl) (blk3_5 V c t i q _ rfl)
  · exact blk3_7 V c t q _ rfl

/-! ## The blocks cover the array -/

/-- An entry of the array is in point `t`'s block iff each coordinate is in the block's range on its axis. -/
theorem mem_blk3 (t : Fin cfg3.N) (i : S4096x2048.Idx) :
    i ∈ ((cfg3.win 8).blk t).view.set ↔ ∀ a : Fin 2, win3_8.index t a * S256x2048.size a ≤ (i a).val ∧ (i a).val < win3_8.index t a * S256x2048.size a + S256x2048.size a := by
  show i ∈ ((View.whole main_v23).slice (win3_8.rect t)).set ↔ _
  rw [View.set_slice_whole, Rect.mem_set_unit]
  exact Iff.rfl

/-- Row `r` is in the block of point `r / 256`, and every point writes its block back. -/
theorem cover3 (i : S4096x2048.Idx) : ∃ t : Fin cfg3.N, (cfg3.win 8).flush t = true ∧ i ∈ ((cfg3.win 8).blk t).view.set := by
  have hi0 : (i 0).val < 4096 := (i 0).isLt
  have hi1 : (i 1).val < 2048 := (i 1).isLt
  have hN : cfg3.N = 16 := N_3
  obtain ⟨t, ht⟩ : ∃ t : Fin cfg3.N, t.val = (i 0).val / 256 := ⟨⟨(i 0).val / 256, by omega⟩, rfl⟩
  obtain ⟨e0, e1⟩ := idx3_8 t
  refine ⟨t, flush3_8 t, ?_⟩
  rw [mem_blk3]
  intro a
  match a with
  | ⟨0, _⟩ => show win3_8.index t (0 : Fin 2) * 256 ≤ (i 0).val ∧ (i 0).val < win3_8.index t (0 : Fin 2) * 256 + 256; rw [e0]; omega
  | ⟨1, _⟩ => show win3_8.index t (1 : Fin 2) * 2048 ≤ (i 1).val ∧ (i 1).val < win3_8.index t (1 : Fin 2) * 2048 + 2048; rw [e1]; omega

/-! ## The array after the region -/

theorem final3_8 (V : (c : Dev nD) → (b : Ref sig .tc) → Buf (Elt Ideal) ((c : Thread nD τ).loc b)) (c : Dev nD) (n : Fin 4096) (q : Fin 2048) :
    (dat3 (F := Ideal) V c).arrAt 8 cfg3.N (ValueIdx.ix2 n q)
      = G3_8 (mat (V c main_v14 : S4096x2048.Idx → EReal)) (mat (V c main_arg2 : S4096x2048.Idx → EReal))
          (mat (V c main_v17 : S4096x2048.Idx → EReal)) (mat (V c main_v20 : S4096x2048.Idx → EReal))
          (cols (2048 * 2) 2048 (by decide) (mat (V c main_v2 : S2048x6144.Idx → EReal)))
          (cols (2048 * 2) 2048 (by decide) (mat (V c main_v3 : S2048x6144.Idx → EReal)))
          (colsR (2048 * 2) 2048 (by decide) (row1 (mat (V c main_v21 : S1x6144.Idx → EReal))))
          (colsR (2048 * 2) 2048 (by decide) (row1 (mat (V c main_v22 : S1x6144.Idx → EReal)))) n q :=
  congrFun ((dat3 (F := Ideal) V c).arrAt_eq_of_cover 8 (GA3 V c) (fun t _ => flushed3_eq V c t) cover3) (ix2 n q)

end Cert.KernelIdeal.Val

end
-- ==== Proof.ValI4.lean ====
import proofs.«109395_j20375324852595_2_alg».proof.Proof.RegionI4
import proofs.«109395_j20375324852595_2_alg».proof.Proof.Spec
import Idealize.ShloMosaic.Lib.ValueIdx
import Idealize.ShloMosaic.Lib.Pipeline.Value
import Idealize.ShloMosaic.Lib.ValueLayout
import Idealize.ShloMosaic.PureOps.Ideal.Laws

/-! # The value of region 4's two output arrays, at the extended reals

Region 4 runs the prior network's kernel over 32 blocks of 128 rows. Row `n` of each output array depends on row `n` of
the row-blocked input array and on the whole weight and bias arrays, so every block the pipeline writes back is the
restriction of ONE function of the arrays the region is entered with; the blocks cover the output arrays, which
therefore end holding that function. -/

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem
open Idealize.ShloMosaic.Pipeline (Dat)

/-- The prior network's two hidden layers, row by row: `elu (elu (x·P₀ + b₀)·P₁ + b₁)`. -/
def hid4 {a : ℕ} (x : Mat a 2048) (P0 : Mat 2048 2048) (b0 : Row 2048) (P1 : Mat 2048 2048) (b1 : Row 2048) : Mat a 2048 :=
  map elu (aff (map elu (aff x P0 b0)) P1 b1)

/-- The mean head: the affine map `Wm`, `bm` of the hidden activations. -/
def G4_9 {a : ℕ} (x : Mat a 2048) (P0 : Mat 2048 2048) (b0 : Row 2048) (P1 : Mat 2048 2048) (b1 : Row 2048)
    (Wm : Mat 2048 1024) (bm : Row 1024) : Mat a 1024 :=
  aff (hid4 x P0 b0 P1 b1) Wm bm

/-- The standard-deviation head: softplus (plus the minimal deviation) of the affine map `Ws`, `bs` of the hidden
    activations. -/
def G4_10 {a : ℕ} (x : Mat a 2048) (P0 : Mat 2048 2048) (b0 : Row 2048) (P1 : Mat 2048 2048) (b1 : Row 2048)
    (Ws : Mat 2048 1024) (bs : Row 1024) : Mat a 1024 :=
  map splus (aff (hid4 x P0 b0 P1 b1) Ws bs)
/-! ## The kernel's operations read at an entry -/

/-- The offset `![0, 0]` of a whole-block rectangle is the zero offset. -/
theorem off00_4 : (![0, 0] : Fin 2 → Nat) = fun _ => 0 := funext fun a => by fin_cases a <;> rfl

/-- A matrix product into the zero accumulator, read at an entry, is the sum over the contracted coordinate of the
    products of the entries (no rounding at the extended reals, and `0 + x = x`). -/
theorem matmul_plain_apply4 {a k j : ℕ} {φ₁ φ₂ : FTy} (prec : Option ContractPrecision)
    (A : FVec Ideal ⟨2, ![a, k]⟩ φ₁) (B : FVec Ideal ⟨2, ![k, j]⟩ φ₂) (p : Fin a) (q : Fin j) :
    matmul (DotDims.plain a k j) prec A B (constant ⟨2, ![a, j]⟩ .f32 0x00000000#32) (ix2 p q)
      = ∑ c : Fin k, A (ix2 p c) * B (ix2 c q) := by
  show FloatOps.matmul _ prec A B _ (ix2 p q) = _
  rw [Ideal.matmul_constant_zero_apply, ← Equiv.sum_comp (contrEquiv1 (DotDims.plain a k j) k rfl rfl).symm]
  refine Finset.sum_congr rfl fun c _ => ?_
  have hc := contrEquiv1_symm_val (DotDims.plain a k j) k rfl rfl c
  have hl : (DotDims.plain a k j).lhsIdx (ix2 p q) ((contrEquiv1 _ k rfl rfl).symm c) = ix2 p c := by
    funext ax; apply Fin.ext
    match ax with
    | ⟨0, _⟩ => simp [DotDims.lhsIdx, DotDims.plain]; rfl
    | ⟨1, _⟩ => simp [DotDims.lhsIdx, DotDims.plain]; exact hc
  have hr : (DotDims.plain a k j).rhsIdx (ix2 p q) ((contrEquiv1 _ k rfl rfl).symm c) = ix2 c q := by
    funext ax; apply Fin.ext
    match ax with
    | ⟨0, _⟩ => simp [DotDims.rhsIdx, DotDims.plain]; exact hc
    | ⟨1, _⟩ => simp [DotDims.rhsIdx, DotDims.plain]; rfl
  rw [hl, hr]

/-- The kernel's exponential-linear unit on a vector (`y` where `y > 0`, `eʸ − 1` elsewhere), read at an entry. -/
theorem elu_apply4 {s : Shape} (y : FVec Ideal s .f32) (j : s.Idx) :
    select (cmpf .ogt y (broadcast s (Scalar.ofBits .f32 0x00000000#32 : Ideal .f32))) y
      (subf (exp y) (broadcast s (Scalar.ofBits .f32 0x3F800000#32 : Ideal .f32))) j = elu (y j) := rfl

/-- A row-wise affine map changes with the row only through that row of its input. -/
theorem aff_row4 {a a' k j : ℕ} (x : Mat a k) (y : Mat a' k) (W : Mat k j) (b : Row j) (p : Fin a) (n : Fin a')
    (h : ∀ i, x p i = y n i) (q : Fin j) : aff x W b p q = aff y W b n q := by
  unfold aff
  exact congrArg (· + b q) (Finset.sum_congr rfl fun i _ => by rw [h i])

/-- The kernel's softplus (behind the source's guard for an undefined difference) plus the minimal standard deviation,
    on a vector, read at an entry. -/
theorem splus_apply4 {s : Shape} (y : FVec Ideal s .f32) (j : s.Idx) :
    addf (select (cmpf .one (subf y (broadcast s (Scalar.ofBits .f32 0x00000000#32 : Ideal .f32))) (subf y (broadcast s (Scalar.ofBits .f32 0x00000000#32 : Ideal .f32))))
        (addf y (broadcast s (Scalar.ofBits .f32 0x00000000#32 : Ideal .f32)))
        (addf (maximumf y (broadcast s (Scalar.ofBits .f32 0x00000000#32 : Ideal .f32)))
          (log1p (exp (subf (broadcast s (Scalar.ofBits .f32 0x00000000#32 : Ideal .f32))
            (absf (subf y (broadcast s (Scalar.ofBits .f32 0x00000000#32 : Ideal .f32)))))))))
      (broadcast s (Scalar.ofBits .f32 0x3DCCCCCD#32 : Ideal .f32)) j = splus (y j) := rfl

/-- The hidden layers change with the row only through that row of the input. -/
theorem hid4_row {a a' : ℕ} (x : Mat a 2048) (y : Mat a' 2048) (P0 : Mat 2048 2048) (b0 : Row 2048) (P1 : Mat 2048 2048) (b1 : Row 2048)
    (p : Fin a) (n : Fin a') (h : ∀ i, x p i = y n i) (i : Fin 2048) : hid4 x P0 b0 P1 b1 p i = hid4 y P0 b0 P1 b1 n i := by
  unfold hid4 map
  exact congrArg elu (aff_row4 _ _ _ _ p n (fun i' => congrArg elu (aff_row4 _ _ _ _ p n h i')) i)

/-- Row `p` of a head on a block of rows is row `n` of the head on the whole arrays, when the block's row `p` is the
    array's row `n`; the weights enter as they are. -/
theorem G4_9_congr {a a' : ℕ} (x : Mat a 2048) (y : Mat a' 2048) (P0 P0' : Mat 2048 2048) (b0 b0' : Row 2048)
    (P1 P1' : Mat 2048 2048) (b1 b1' : Row 2048) (Wm Wm' : Mat 2048 1024) (bm bm' : Row 1024)
    (p : Fin a) (n : Fin a') (q q' : Fin 1024)
    (hx : ∀ i, x p i = y n i) (hP0 : P0 = P0') (hb0 : b0 = b0') (hP1 : P1 = P1') (hb1 : b1 = b1')
    (hW : Wm = Wm') (hb : bm = bm') (hq : q = q') :
    G4_9 x P0 b0 P1 b1 Wm bm p q = G4_9 y P0' b0' P1' b1' Wm' bm' n q' := by
  subst hP0 hb0 hP1 hb1 hW hb hq
  unfold G4_9
  exact aff_row4 _ _ _ _ p n (fun i => hid4_row _ _ _ _ _ _ p n hx i) q

theorem G4_10_congr {a a' : ℕ} (x : Mat a 2048) (y : Mat a' 2048) (P0 P0' : Mat 2048 2048) (b0 b0' : Row 2048)
    (P1 P1' : Mat 2048 2048) (b1 b1' : Row 2048) (Ws Ws' : Mat 2048 1024) (bs bs' : Row 1024)
    (p : Fin a) (n : Fin a') (q q' : Fin 1024)
    (hx : ∀ i, x p i = y n i) (hP0 : P0 = P0') (hb0 : b0 = b0') (hP1 : P1 = P1') (hb1 : b1 = b1')
    (hW : Ws = Ws') (hb : bs = bs') (hq : q = q') :
    G4_10 x P0 b0 P1 b1 Ws bs p q = G4_10 y P0' b0' P1' b1' Ws' bs' n q' := by
  subst hP0 hb0 hP1 hb1 hW hb hq
  unfold G4_10 map
  exact congrArg splus (aff_row4 _ _ _ _ p n (fun i => hid4_row _ _ _ _ _ _ p n hx i) q)

/-- The printed dimension numbers of the body's matrix products are the plain product's. -/
theorem dotD4 : dot_S128x2048_S2048x2048_S128x2048_1_0_0_1_n_n = DotDims.plain 128 2048 2048 := rfl
theorem dotE4 : dot_S128x2048_S2048x1024_S128x1024_1_0_0_1_n_n = DotDims.plain 128 2048 1024 := rfl

/-- The hidden activations' payload at entry `(p, i)` of a block (the changes of float format are the identity on
    extended reals). -/
theorem k4_pay2_apply (v0 : Vec Ideal S128x2048 .f32) (v3 : Vec Ideal S2048x2048 .bf16) (v6 : Vec Ideal S1x2048 .f32)
    (v17 : Vec Ideal S2048x2048 .bf16) (v20 : Vec Ideal S1x2048 .f32) (p : Fin 128) (i : Fin 2048) :
    k4_pay2 v0 v3 v6 v17 v20 (ix2 p i) = hid4 (mat v0) (mat v3) (row1 (mat v6)) (mat v17) (row1 (mat v20)) p i := by
  unfold k4_pay2
  simp only [shapeCast_self]
  rw [truncf_apply, elu_apply4, addf_apply, dotD4, matmul_plain_apply4, broadcastTo_1b_ab_apply]
  refine congrArg elu (congrArg (· + v20 (ix2 (0 : Fin 1) i)) (Finset.sum_congr rfl fun c _ => congrArg (· * v17 (ix2 c i)) ?_))
  rw [truncf_apply, elu_apply4, addf_apply, matmul_plain_apply4, broadcastTo_1b_ab_apply]
  rfl

/-- The mean head's payload at entry `(p, q)` of a block. -/
theorem k4_pay3_apply (v0 : Vec Ideal S128x2048 .f32) (v3 : Vec Ideal S2048x2048 .bf16) (v6 : Vec Ideal S1x2048 .f32)
    (v17 : Vec Ideal S2048x2048 .bf16) (v20 : Vec Ideal S1x2048 .f32) (v31 : Vec Ideal S2048x1024 .bf16) (v34 : Vec Ideal S1x1024 .f32)
    (p : Fin 128) (q : Fin 1024) :
    k4_pay3 v0 v3 v6 v17 v20 v31 v34 (ix2 p q)
      = G4_9 (mat v0) (mat v3) (row1 (mat v6)) (mat v17) (row1 (mat v20)) (mat v31) (row1 (mat v34)) p q := by
  unfold k4_pay3
  simp only [shapeCast_self]
  rw [addf_apply, dotE4, matmul_plain_apply4, broadcastTo_1b_ab_apply]
  refine congrArg (· + v34 (ix2 (0 : Fin 1) q)) (Finset.sum_congr rfl fun c _ => congrArg (· * v31 (ix2 c q)) ?_)
  exact k4_pay2_apply v0 v3 v6 v17 v20 p c

/-- The standard-deviation head's payload at entry `(p, q)` of a block, over the hidden activations' payload. -/
theorem k4_pay1_apply (v0 : Vec Ideal S128x2048 .f32) (v3 : Vec Ideal S2048x2048 .bf16) (v6 : Vec Ideal S1x2048 .f32)
    (v17 : Vec Ideal S2048x2048 .bf16) (v20 : Vec Ideal S1x2048 .f32) (v38 : Vec Ideal S2048x1024 .bf16) (v41 : Vec Ideal S1x1024 .f32)
    (p : Fin 128) (q : Fin 1024) :
    k4_pay1 (k4_pay2 v0 v3 v6 v17 v20) v38 v41 (ix2 p q)
      = G4_10 (mat v0) (mat v3) (row1 (mat v6)) (mat v17) (row1 (mat v20)) (mat v38) (row1 (mat v41)) p q := by
  unfold k4_pay1
  simp only [shapeCast_self]
  rw [splus_apply4, addf_apply, dotE4, matmul_plain_apply4, broadcastTo_1b_ab_apply]
  refine congrArg splus (congrArg (· + v41 (ix2 (0 : Fin 1) q)) (Finset.sum_congr rfl fun c _ => congrArg (· * v38 (ix2 c q)) ?_))
  exact k4_pay2_apply v0 v3 v6 v17 v20 p c

/-! ## The windows' blocks, read off the arrays -/

/-- The index maps, decided over the 32 grid points: windows 0, 9 and 10 are at row block `t`, windows 1–8 at their whole arrays. -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = t.val ∧ win4_9.index t (1 : Fin 2) = 0
    ∧ win4_10.index t (0 : Fin 2) = t.val ∧ win4_10.index t (1 : Fin 2) = 0 :=
  (by decide +kernel : ∀ t : Fin grid4.N, _)

variable (V : (c : Dev nD) → (b : Ref sig .tc) → Buf (Elt Ideal) ((c : Thread nD τ).loc b))

/-- Row `p` of window 0's block at point `t` is row `128 t + p` of the array. -/
theorem iblk4_0_apply (c : Dev nD) (t : Fin cfg4.N) (p : Fin 128) (n : Fin 4096) (hn : n.val = 128 * t.val + p.val) (i : Fin 2048) :
    mat (iblk4 V c 0 t : Vec Ideal S128x2048 .f32) p i = mat (V c main_v23 : S4096x2048.Idx → EReal) n i := by
  obtain ⟨e0, e1, -⟩ := idx4 t
  unfold mat iblk4
  rw [View.read_apply]
  show V c main_v23 _ = V c main_v23 _
  refine congrArg _ (funext fun a => Fin.ext ?_)
  match a with
  | ⟨0, _⟩ => show win4_0.index t (0 : Fin 2) * 128 + 1 * p.val = n.val; rw [e0, hn]; omega
  | ⟨1, _⟩ => show win4_0.index t (1 : Fin 2) * 2048 + 1 * i.val = i.val; rw [e1]; omega

/-! Windows 1–8 hold their whole arrays at every point. -/
theorem iblk4_1_eq (c : Dev nD) (t : Fin cfg4.N) : (iblk4 V c 1 t : Vec Ideal S2048x2048 .bf16) = (V c main_v4 : S2048x2048.Idx → EReal) := by
  obtain ⟨-, -, e0, e1, -⟩ := idx4 t
  funext j
  unfold iblk4
  rw [View.read_apply]
  show V c main_v4 _ = V c main_v4 j
  refine congrArg _ (funext fun a => Fin.ext ?_)
  match a with
  | ⟨0, _⟩ => show win4_1.index t (0 : Fin 2) * 2048 + 1 * (j 0).val = (j 0).val; rw [e0]; omega
  | ⟨1, _⟩ => show win4_1.index t (1 : Fin 2) * 2048 + 1 * (j 1).val = (j 1).val; rw [e1]; omega

theorem iblk4_2_eq (c : Dev nD) (t : Fin cfg4.N) : (iblk4 V c 2 t : Vec Ideal S1x2048 .f32) = (V c main_v24 : S1x2048.Idx → EReal) := by
  obtain ⟨-, -, -, -, e0, e1, -⟩ := idx4 t
  funext j
  unfold iblk4
  rw [View.read_apply]
  show V c main_v24 _ = V c main_v24 j
  refine congrArg _ (funext fun a => Fin.ext ?_)
  match a with
  | ⟨0, _⟩ => show win4_2.index t (0 : Fin 2) * 1 + 1 * (j 0).val = (j 0).val; rw [e0]; omega
  | ⟨1, _⟩ => show win4_2.index t (1 : Fin 2) * 2048 + 1 * (j 1).val = (j 1).val; rw [e1]; omega

theorem iblk4_3_eq (c : Dev nD) (t : Fin cfg4.N) : (iblk4 V c 3 t : Vec Ideal S2048x2048 .bf16) = (V c main_v5 : S2048x2048.Idx → EReal) := by
  obtain ⟨-, -, -, -, -, -, e0, e1, -⟩ := idx4 t
  funext j
  unfold iblk4
  rw [View.read_apply]
  show V c main_v5 _ = V c main_v5 j
  refine congrArg _ (funext fun a => Fin.ext ?_)
  match a with
  | ⟨0, _⟩ => show win4_3.index t (0 : Fin 2) * 2048 + 1 * (j 0).val = (j 0).val; rw [e0]; omega
  | ⟨1, _⟩ => show win4_3.index t (1 : Fin 2) * 2048 + 1 * (j 1).val = (j 1).val; rw [e1]; omega

theorem iblk4_4_eq (c : Dev nD) (t : Fin cfg4.N) : (iblk4 V c 4 t : Vec Ideal S1x2048 .f32) = (V c main_v25 : S1x2048.Idx → EReal) := by
  obtain ⟨-, -, -, -, -, -, -, -, e0, e1, -⟩ := idx4 t
  funext j
  unfold iblk4
  rw [View.read_apply]
  show V c main_v25 _ = V c main_v25 j
  refine congrArg _ (funext fun a => Fin.ext ?_)
  match a with
  | ⟨0, _⟩ => show win4_4.index t (0 : Fin 2) * 1 + 1 * (j 0).val = (j 0).val; rw [e0]; omega
  | ⟨1, _⟩ => show win4_4.index t (1 : Fin 2) * 2048 + 1 * (j 1).val = (j 1).val; rw [e1]; omega

theorem iblk4_5_eq (c : Dev nD) (t : Fin cfg4.N) : (iblk4 V c 5 t : Vec Ideal S2048x1024 .bf16) = (V c main_v6 : S2048x1024.Idx → EReal) := by
  obtain ⟨-, -, -, -, -, -, -, -, -, -, e0, e1, -⟩ := idx4 t
  funext j
  unfold iblk4
  rw [View.read_apply]
  show V c main_v6 _ = V c main_v6 j
  refine congrArg _ (funext fun a => Fin.ext ?_)
  match a with
  | ⟨0, _⟩ => show win4_5.index t (0 : Fin 2) * 2048 + 1 * (j 0).val = (j 0).val; rw [e0]; omega
  | ⟨1, _⟩ => show win4_5.index t (1 : Fin 2) * 1024 + 1 * (j 1).val = (j 1).val; rw [e1]; omega

theorem iblk4_6_eq (c : Dev nD) (t : Fin cfg4.N) : (iblk4 V c 6 t : Vec Ideal S1x1024 .f32) = (V c main_v26 : S1x1024.Idx → EReal) := by
  obtain ⟨-, -, -, -, -, -, -, -, -, -, -, -, e0, e1, -⟩ := idx4 t
  funext j
  unfold iblk4
  rw [View.read_apply]
  show V c main_v26 _ = V c main_v26 j
  refine congrArg _ (funext fun a => Fin.ext ?_)
  match a with
  | ⟨0, _⟩ => show win4_6.index t (0 : Fin 2) * 1 + 1 * (j 0).val = (j 0).val; rw [e0]; omega
  | ⟨1, _⟩ => show win4_6.index t (1 : Fin 2) * 1024 + 1 * (j 1).val = (j 1).val; rw [e1]; omega

theorem iblk4_7_eq (c : Dev nD) (t : Fin cfg4.N) : (iblk4 V c 7 t : Vec Ideal S2048x1024 .bf16) = (V c main_v7 : S2048x1024.Idx → EReal) := by
  obtain ⟨-, -, -, -, -, -, -, -, -, -, -, -, -, -, e0, e1, -⟩ := idx4 t
  funext j
  unfold iblk4
  rw [View.read_apply]
  show V c main_v7 _ = V c main_v7 j
  refine congrArg _ (funext fun a => Fin.ext ?_)
  match a with
  | ⟨0, _⟩ => show win4_7.index t (0 : Fin 2) * 2048 + 1 * (j 0).val = (j 0).val; rw [e0]; omega
  | ⟨1, _⟩ => show win4_7.index t (1 : Fin 2) * 1024 + 1 * (j 1).val = (j 1).val; rw [e1]; omega

theorem iblk4_8_eq (c : Dev nD) (t : Fin cfg4.N) : (iblk4 V c 8 t : Vec Ideal S1x1024 .f32) = (V c main_v27 : S1x1024.Idx → EReal) := by
  obtain ⟨-, -, -, -, -, -, -, -, -, -, -, -, -, -, -, -, e0, e1, -⟩ := idx4 t
  funext j
  unfold iblk4
  rw [View.read_apply]
  show V c main_v27 _ = V c main_v27 j
  refine congrArg _ (funext fun a => Fin.ext ?_)
  match a with
  | ⟨0, _⟩ => show win4_8.index t (0 : Fin 2) * 1 + 1 * (j 0).val = (j 0).val; rw [e0]; omega
  | ⟨1, _⟩ => show win4_8.index t (1 : Fin 2) * 1024 + 1 * (j 1).val = (j 1).val; rw [e1]; omega

/-! ## From the blocks to the arrays -/

/-- Output array 9 (the mean head) as ONE function of the arrays the region is entered with. -/
def arr4_9 (c : Dev nD) : S4096x1024.Idx → EReal := fun i =>
  G4_9 (mat (V c main_v23 : S4096x2048.Idx → EReal)) (mat (V c main_v4 : S2048x2048.Idx → EReal))
        (row1 (mat (V c main_v24 : S1x2048.Idx → EReal))) (mat (V c main_v5 : S2048x2048.Idx → EReal))
        (row1 (mat (V c main_v25 : S1x2048.Idx → EReal)))
    (mat (V c main_v6 : S2048x1024.Idx → EReal)) (row1 (mat (V c main_v26 : S1x1024.Idx → EReal))) (i 0) (i 1)

/-- What point `t` writes back to it is block `t` of that function. -/
theorem flushed4_9_eq (c : Dev nD) (t : Fin cfg4.N) :
    (dat4 (F := Ideal) V c).flushed 9 t = ((cfg4.win 9).blk t).view.read (Elt Ideal) (arr4_9 V c) := by
  show (cfg4.win 9).cut (grid4.coords t) ((dat4 (F := Ideal) V c).after 9 t) = _
  rw [after4_9]
  unfold out4_9
  rw [View.canon_unit_zero off00_4]
  simp only [View.ld_unit_zero (S := S128x2048) off00_4, View.ld_unit_zero (S := S2048x2048) off00_4,
    View.ld_unit_zero (S := S1x2048) off00_4, View.ld_unit_zero (S := S2048x1024) off00_4, View.ld_unit_zero (S := S1x1024) off00_4]
  funext j
  obtain ⟨p, q, rfl⟩ : ∃ (p : Fin 128) (q : Fin 1024), j = ix2 p q := ⟨j 0, j 1, eq_ix2 j⟩
  obtain ⟨-, -, -, -, -, -, -, -, -, -, -, -, -, -, -, -, -, -, e0, e1, -⟩ := idx4 t
  have hn : ((((cfg4.win 9).blk t).view.emb (ix2 p q)) 0 : Fin 4096).val = 128 * t.val + p.val := by
    show win4_9.index t (0 : Fin 2) * 128 + 1 * p.val = _
    rw [e0]; omega
  have hq : q = ((((cfg4.win 9).blk t).view.emb (ix2 p q)) 1 : Fin 1024) := Fin.ext (by
    show q.val = win4_9.index t (1 : Fin 2) * 1024 + 1 * q.val
    rw [e1]; omega)
  refine (k4_pay3_apply (iblk4 V c 0 t) (iblk4 V c 1 t) (iblk4 V c 2 t) (iblk4 V c 3 t) (iblk4 V c 4 t)
    (iblk4 V c 5 t) (iblk4 V c 6 t) p q).trans ?_
  rw [View.read_apply]
  show _ = arr4_9 V c (((cfg4.win 9).blk t).view.emb (ix2 p q))
  unfold arr4_9
  exact G4_9_congr _ _ _ _ _ _ _ _ _ _ _ _ _ _ p _ q _
    (fun i => iblk4_0_apply V c t p _ hn i)
    (congrArg mat (iblk4_1_eq V c t)) (congrArg (fun X => row1 (mat X)) (iblk4_2_eq V c t))
    (congrArg mat (iblk4_3_eq V c t)) (congrArg (fun X => row1 (mat X)) (iblk4_4_eq V c t))
    (congrArg mat (iblk4_5_eq V c t)) (congrArg (fun X => row1 (mat X)) (iblk4_6_eq V c t)) hq

/-- An index of the array is in point `t`'s block iff each coordinate is in the block's range on its axis. -/
theorem mem_blk4_9 (t : Fin cfg4.N) (i : S4096x1024.Idx) :
    i ∈ ((cfg4.win 9).blk t).view.set ↔ ∀ a : Fin 2, win4_9.index t a * S128x1024.size a ≤ (i a).val ∧ (i a).val < win4_9.index t a * S128x1024.size a + S128x1024.size a := by
  show i ∈ ((View.whole main_v28_0).slice (win4_9.rect t)).set ↔ _
  rw [View.set_slice_whole, Rect.mem_set_unit]
  exact Iff.rfl

/-- Every index of the array is in the block of the point its row falls in, `row / 128`, and every point writes back. -/
theorem covered4_9 (i : S4096x1024.Idx) : ∃ t : Fin cfg4.N, (cfg4.win 9).flush t = true ∧ i ∈ ((cfg4.win 9).blk t).view.set := by
  have hi0 : (i 0).val < 4096 := idx2_lt0 i
  have hi1 : (i 1).val < 1024 := idx2_lt1 i
  have hN : cfg4.N = 32 := N_4
  let t : Fin cfg4.N := ⟨(i 0).val / 128, by rw [hN]; omega⟩
  obtain ⟨-, -, -, -, -, -, -, -, -, -, -, -, -, -, -, -, -, -, e0, e1, -⟩ := idx4 t
  refine ⟨t, flush4_9 t, ?_⟩
  rw [mem_blk4_9]
  intro a
  match a with
  | ⟨0, _⟩ =>
    show win4_9.index t (0 : Fin 2) * 128 ≤ (i 0).val ∧ (i 0).val < win4_9.index t (0 : Fin 2) * 128 + 128
    rw [e0]; show (i 0).val / 128 * 128 ≤ (i 0).val ∧ (i 0).val < (i 0).val / 128 * 128 + 128; omega
  | ⟨1, _⟩ =>
    show win4_9.index t (1 : Fin 2) * 1024 ≤ (i 1).val ∧ (i 1).val < win4_9.index t (1 : Fin 2) * 1024 + 1024
    rw [e1]; omega

/-- So the array ends holding that function. -/
theorem arrAt4_9 (c : Dev nD) : (dat4 (F := Ideal) V c).arrAt 9 cfg4.N = arr4_9 V c :=
  (dat4 (F := Ideal) V c).arrAt_eq_of_cover 9 (arr4_9 V c) (fun t _ => flushed4_9_eq V c t) covered4_9

/-- Output array 10 (the standard-deviation head) as ONE function of the arrays the region is entered with. -/
def arr4_10 (c : Dev nD) : S4096x1024.Idx → EReal := fun i =>
  G4_10 (mat (V c main_v23 : S4096x2048.Idx → EReal)) (mat (V c main_v4 : S2048x2048.Idx → EReal))
        (row1 (mat (V c main_v24 : S1x2048.Idx → EReal))) (mat (V c main_v5 : S2048x2048.Idx → EReal))
        (row1 (mat (V c main_v25 : S1x2048.Idx → EReal)))
    (mat (V c main_v7 : S2048x1024.Idx → EReal)) (row1 (mat (V c main_v27 : S1x1024.Idx → EReal))) (i 0) (i 1)

/-- What point `t` writes back to it is block `t` of that function. -/
theorem flushed4_10_eq (c : Dev nD) (t : Fin cfg4.N) :
    (dat4 (F := Ideal) V c).flushed 10 t = ((cfg4.win 10).blk t).view.read (Elt Ideal) (arr4_10 V c) := by
  show (cfg4.win 10).cut (grid4.coords t) ((dat4 (F := Ideal) V c).after 10 t) = _
  rw [after4_10]
  unfold out4_10
  rw [View.canon_unit_zero off00_4]
  simp only [View.ld_unit_zero (S := S128x2048) off00_4, View.ld_unit_zero (S := S2048x2048) off00_4,
    View.ld_unit_zero (S := S1x2048) off00_4, View.ld_unit_zero (S := S2048x1024) off00_4, View.ld_unit_zero (S := S1x1024) off00_4]
  funext j
  obtain ⟨p, q, rfl⟩ : ∃ (p : Fin 128) (q : Fin 1024), j = ix2 p q := ⟨j 0, j 1, eq_ix2 j⟩
  obtain ⟨-, -, -, -, -, -, -, -, -, -, -, -, -, -, -, -, -, -, -, -, e0, e1⟩ := idx4 t
  have hn : ((((cfg4.win 10).blk t).view.emb (ix2 p q)) 0 : Fin 4096).val = 128 * t.val + p.val := by
    show win4_10.index t (0 : Fin 2) * 128 + 1 * p.val = _
    rw [e0]; omega
  have hq : q = ((((cfg4.win 10).blk t).view.emb (ix2 p q)) 1 : Fin 1024) := Fin.ext (by
    show q.val = win4_10.index t (1 : Fin 2) * 1024 + 1 * q.val
    rw [e1]; omega)
  refine (k4_pay1_apply (iblk4 V c 0 t) (iblk4 V c 1 t) (iblk4 V c 2 t) (iblk4 V c 3 t) (iblk4 V c 4 t)
    (iblk4 V c 7 t) (iblk4 V c 8 t) p q).trans ?_
  rw [View.read_apply]
  show _ = arr4_10 V c (((cfg4.win 10).blk t).view.emb (ix2 p q))
  unfold arr4_10
  exact G4_10_congr _ _ _ _ _ _ _ _ _ _ _ _ _ _ p _ q _
    (fun i => iblk4_0_apply V c t p _ hn i)
    (congrArg mat (iblk4_1_eq V c t)) (congrArg (fun X => row1 (mat X)) (iblk4_2_eq V c t))
    (congrArg mat (iblk4_3_eq V c t)) (congrArg (fun X => row1 (mat X)) (iblk4_4_eq V c t))
    (congrArg mat (iblk4_7_eq V c t)) (congrArg (fun X => row1 (mat X)) (iblk4_8_eq V c t)) hq

/-- An index of the array is in point `t`'s block iff each coordinate is in the block's range on its axis. -/
theorem mem_blk4_10 (t : Fin cfg4.N) (i : S4096x1024.Idx) :
    i ∈ ((cfg4.win 10).blk t).view.set ↔ ∀ a : Fin 2, win4_10.index t a * S128x1024.size a ≤ (i a).val ∧ (i a).val < win4_10.index t a * S128x1024.size a + S128x1024.size a := by
  show i ∈ ((View.whole main_v28_1).slice (win4_10.rect t)).set ↔ _
  rw [View.set_slice_whole, Rect.mem_set_unit]
  exact Iff.rfl

/-- Every index of the array is in the block of the point its row falls in, `row / 128`, and every point writes back. -/
theorem covered4_10 (i : S4096x1024.Idx) : ∃ t : Fin cfg4.N, (cfg4.win 10).flush t = true ∧ i ∈ ((cfg4.win 10).blk t).view.set := by
  have hi0 : (i 0).val < 4096 := idx2_lt0 i
  have hi1 : (i 1).val < 1024 := idx2_lt1 i
  have hN : cfg4.N = 32 := N_4
  let t : Fin cfg4.N := ⟨(i 0).val / 128, by rw [hN]; omega⟩
  obtain ⟨-, -, -, -, -, -, -, -, -, -, -, -, -, -, -, -, -, -, -, -, e0, e1⟩ := idx4 t
  refine ⟨t, flush4_10 t, ?_⟩
  rw [mem_blk4_10]
  intro a
  match a with
  | ⟨0, _⟩ =>
    show win4_10.index t (0 : Fin 2) * 128 ≤ (i 0).val ∧ (i 0).val < win4_10.index t (0 : Fin 2) * 128 + 128
    rw [e0]; show (i 0).val / 128 * 128 ≤ (i 0).val ∧ (i 0).val < (i 0).val / 128 * 128 + 128; omega
  | ⟨1, _⟩ =>
    show win4_10.index t (1 : Fin 2) * 1024 ≤ (i 1).val ∧ (i 1).val < win4_10.index t (1 : Fin 2) * 1024 + 1024
    rw [e1]; omega

/-- So the array ends holding that function. -/
theorem arrAt4_10 (c : Dev nD) : (dat4 (F := Ideal) V c).arrAt 10 cfg4.N = arr4_10 V c :=
  (dat4 (F := Ideal) V c).arrAt_eq_of_cover 10 (arr4_10 V c) (fun t _ => flushed4_10_eq V c t) covered4_10

theorem final4_9 (V : (c : Dev nD) → (b : Ref sig .tc) → Buf (Elt Ideal) ((c : Thread nD τ).loc b)) (c : Dev nD) (n : Fin 4096) (q : Fin 1024) :
    (dat4 (F := Ideal) V c).arrAt 9 cfg4.N (ValueIdx.ix2 n q)
      = G4_9 (mat (V c main_v23 : S4096x2048.Idx → EReal)) (mat (V c main_v4 : S2048x2048.Idx → EReal))
        (row1 (mat (V c main_v24 : S1x2048.Idx → EReal))) (mat (V c main_v5 : S2048x2048.Idx → EReal))
        (row1 (mat (V c main_v25 : S1x2048.Idx → EReal)))
        (mat (V c main_v6 : S2048x1024.Idx → EReal)) (row1 (mat (V c main_v26 : S1x1024.Idx → EReal))) n q := by
  rw [arrAt4_9]
  rfl

theorem final4_10 (V : (c : Dev nD) → (b : Ref sig .tc) → Buf (Elt Ideal) ((c : Thread nD τ).loc b)) (c : Dev nD) (n : Fin 4096) (q : Fin 1024) :
    (dat4 (F := Ideal) V c).arrAt 10 cfg4.N (ValueIdx.ix2 n q)
      = G4_10 (mat (V c main_v23 : S4096x2048.Idx → EReal)) (mat (V c main_v4 : S2048x2048.Idx → EReal))
        (row1 (mat (V c main_v24 : S1x2048.Idx → EReal))) (mat (V c main_v5 : S2048x2048.Idx → EReal))
        (row1 (mat (V c main_v25 : S1x2048.Idx → EReal)))
        (mat (V c main_v7 : S2048x1024.Idx → EReal)) (row1 (mat (V c main_v27 : S1x1024.Idx → EReal))) n q := by
  rw [arrAt4_10]
  rfl

end Cert.KernelIdeal.Val
-- ==== Proof.ValI5.lean ====
/- The value of region 5's output array over the extended reals: after the region's sixteen points, row `n` of the
   4096×2048 output is the ELU of an affine map of row `n` of the two 4096×2048 inputs, the first contracted against the
   upper 2048 rows of the 4096×2048 weight and the second against its lower 2048 rows, plus the bias row. Every
   point's block is the restriction of this one whole-array function to the point's 256 rows. -/
import proofs.«109395_j20375324852595_2_alg».proof.Proof.RegionI5
import proofs.«109395_j20375324852595_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.SL.Sem Idealize.ShloMosaic.ValueIdx
open Idealize.ShloMosaic.Pipeline (Dat)

/-- Region 5's output as a function of the arrays the region is entered with: `elu ((x₁·W↑ + x₂·W↓) + b)`, `W↑` and `W↓`
    the upper and lower 2048 rows of `W`. -/
def G5_4 (x₁ x₂ : Mat 4096 2048) (W : Mat 4096 2048) (b : Row 2048) : Mat 4096 2048 :=
  map elu (aff2 x₁ (rows 0 2048 (by omega) W) x₂ (rows 2048 2048 (by omega) W) b)

/-! ## The body's payload at an index -/

/-- The offsets `(0, 0)` are zero on every axis. -/
theorem zeroOff5 : (![0, 0] : Fin 2 → Nat) = fun _ => 0 := funext fun a => by fin_cases a <;> rfl

/-- The contraction of a 256×2048 block with a 2048×2048 matrix over the block's columns and the matrix's rows. -/
abbrev contr5 := dot_S256x2048_S2048x2048_S256x2048_1_0_0_1_n_n

/-- At output entry `(p, q)` and contraction position `i` the left operand is read at `(p, i)`, -/
theorem contr5_lhs (p : Fin 256) (q : Fin 2048) (i : Fin 2048) :
    contr5.lhsIdx (ix2 p q) ((contrEquiv1 contr5 2048 rfl rfl).symm i) = ix2 p i := by
  funext a
  apply Fin.ext
  match a with
  | ⟨0, _⟩ =>
    show (contr5.lhsIdx (ix2 p q) ((contrEquiv1 contr5 2048 rfl rfl).symm i) 0 : ℕ) = p.val
    simp [DotDims.lhsIdx, contr5, dot_S256x2048_S2048x2048_S256x2048_1_0_0_1_n_n]; rfl
  | ⟨1, _⟩ =>
    show (contr5.lhsIdx (ix2 p q) ((contrEquiv1 contr5 2048 rfl rfl).symm i) 1 : ℕ) = i.val
    rw [contr5.lhsIdx_val_of_single (cl := 1) rfl]
    exact contrEquiv1_symm_val contr5 2048 rfl rfl i

/-- and the right operand at `(i, q)`. -/
theorem contr5_rhs (p : Fin 256) (q : Fin 2048) (i : Fin 2048) :
    contr5.rhsIdx (ix2 p q) ((contrEquiv1 contr5 2048 rfl rfl).symm i) = ix2 i q := by
  funext a
  apply Fin.ext
  match a with
  | ⟨0, _⟩ =>
    show (contr5.rhsIdx (ix2 p q) ((contrEquiv1 contr5 2048 rfl rfl).symm i) 0 : ℕ) = i.val
    rw [contr5.rhsIdx_val_of_single (cr := 0) rfl]
    exact contrEquiv1_symm_val contr5 2048 rfl rfl i
  | ⟨1, _⟩ =>
    show (contr5.rhsIdx (ix2 p q) ((contrEquiv1 contr5 2048 rfl rfl).symm i) 1 : ℕ) = q.val
    simp [DotDims.rhsIdx, contr5, dot_S256x2048_S2048x2048_S256x2048_1_0_0_1_n_n]; rfl

/-- The matrix product into a zero accumulator, at entry `(p, q)`: `Σᵢ x p i · W i q`. -/
theorem matmul5_apply {φ₁ φ₂ : FTy} (x : FVec Ideal S256x2048 φ₁) (W : FVec Ideal S2048x2048 φ₂) (p : Fin 256) (q : Fin 2048) :
    FloatOps.matmul contr5 none x W (constant S256x2048 .f32 0x00000000#32) (ix2 p q) = ∑ i : Fin 2048, x (ix2 p i) * W (ix2 i q) := by
  rw [Ideal.matmul_constant_zero_apply, ← Equiv.sum_comp (contrEquiv1 contr5 2048 rfl rfl).symm]
  refine Finset.sum_congr rfl fun i _ => ?_
  rw [contr5_lhs, contr5_rhs]

/-- The stored value at entry `(p, q)` of the block: the ELU of the two contractions added, plus the bias row's entry
    `q`. Over the extended reals the changes of float format and the casts to the same shape are the identity. -/
theorem pay5_apply (v0 v3 : Vec Ideal S256x2048 .f32) (v5 v7 : Vec Ideal S2048x2048 .bf16) (v12 : Vec Ideal S1x2048 .f32) (p : Fin 256) (q : Fin 2048) :
    k5_pay1 v0 v3 v5 v7 v12 (ix2 p q)
      = elu (((∑ i : Fin 2048, v0 (ix2 p i) * v5 (ix2 i q)) + ∑ i : Fin 2048, v3 (ix2 p i) * v7 (ix2 i q)) + v12 (ix2 (0 : Fin 1) q)) := by
  unfold k5_pay1
  simp only [shapeCast_self]
  show elu _ = _
  refine congrArg elu ?_
  show (_ + _) + _ = _
  refine congrArg₂ (· + ·) (congrArg₂ (· + ·) ?_ ?_) ?_
  · exact matmul5_apply (truncf .bf16 v0 bitsLt_bf16_f32) v5 p q
  · exact matmul5_apply (truncf .bf16 v3 bitsLt_bf16_f32) v7 p q
  · exact broadcastTo_1b_ab_apply v12 _ p q

/-! ## The windows' blocks as parts of their arrays -/

variable (V : (c : Dev nD) → (b : Ref sig .tc) → Buf (Elt Ideal) ((c : Thread nD τ).loc b))

/-- The index maps over the grid: windows 0, 1 and 4 are at row block `t` at point `t`; windows 2 and 3 do not move. -/
theorem idx5 : ∀ t : Fin cfg5.N, (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = t.val ∧ win5_4.index t (1 : Fin 2) = 0) :=
  (by decide +kernel : ∀ t : Fin grid5.N, _)

/-- Window 0's block at point `t` is rows `256t … 256t + 255` of its array. -/
theorem iblk5_0_apply (c : Dev nD) (t : Fin cfg5.N) (x : S256x2048.Idx) (k : S4096x2048.Idx)
    (hk0 : (k 0).val = 256 * t.val + (x 0).val) (hk1 : (k 1).val = (x 1).val) :
    (iblk5 V c 0 t : Vec Ideal S256x2048 .f32) x = (V c main_v23 : S4096x2048.Idx → EReal) k := by
  have hi := (idx5 t).1
  unfold iblk5
  rw [View.read_apply]
  show V c main_v23 _ = V c main_v23 _
  congr 1
  funext a
  apply Fin.ext
  match a with
  | ⟨0, _⟩ => show win5_0.index t 0 * 256 + 1 * (x 0).val = (k 0).val; rw [hi.1, hk0]; omega
  | ⟨1, _⟩ => show win5_0.index t 1 * 2048 + 1 * (x 1).val = (k 1).val; rw [hi.2, hk1]; omega

/-- Window 1's block at point `t` is rows `256t … 256t + 255` of its array. -/
theorem iblk5_1_apply (c : Dev nD) (t : Fin cfg5.N) (x : S256x2048.Idx) (k : S4096x2048.Idx)
    (hk0 : (k 0).val = 256 * t.val + (x 0).val) (hk1 : (k 1).val = (x 1).val) :
    (iblk5 V c 1 t : Vec Ideal S256x2048 .f32) x = (V c main_arg3 : S4096x2048.Idx → EReal) k := by
  have hi := (idx5 t).2.1
  unfold iblk5
  rw [View.read_apply]
  show V c main_arg3 _ = V c main_arg3 _
  congr 1
  funext a
  apply Fin.ext
  match a with
  | ⟨0, _⟩ => show win5_1.index t 0 * 256 + 1 * (x 0).val = (k 0).val; rw [hi.1, hk0]; omega
  | ⟨1, _⟩ => show win5_1.index t 1 * 2048 + 1 * (x 1).val = (k 1).val; rw [hi.2, hk1]; omega

/-- Window 2's block is its whole array, at every point. -/
theorem iblk5_2_apply (c : Dev nD) (t : Fin cfg5.N) (x : S4096x2048.Idx) (k : S4096x2048.Idx)
    (hk0 : (k 0).val = (x 0).val) (hk1 : (k 1).val = (x 1).val) :
    (iblk5 V c 2 t : Vec Ideal S4096x2048 .bf16) x = (V c main_v8 : S4096x2048.Idx → EReal) k := by
  have hi := (idx5 t).2.2.1
  unfold iblk5
  rw [View.read_apply]
  show V c main_v8 _ = V c main_v8 _
  congr 1
  funext a
  apply Fin.ext
  match a with
  | ⟨0, _⟩ => show win5_2.index t 0 * 4096 + 1 * (x 0).val = (k 0).val; rw [hi.1, hk0]; omega
  | ⟨1, _⟩ => show win5_2.index t 1 * 2048 + 1 * (x 1).val = (k 1).val; rw [hi.2, hk1]; omega

/-- Window 3's block is its whole array, at every point. -/
theorem iblk5_3_apply (c : Dev nD) (t : Fin cfg5.N) (x : S1x2048.Idx) (k : S1x2048.Idx)
    (hk0 : (k 0).val = (x 0).val) (hk1 : (k 1).val = (x 1).val) :
    (iblk5 V c 3 t : Vec Ideal S1x2048 .f32) x = (V c main_v29 : S1x2048.Idx → EReal) k := by
  have hi := (idx5 t).2.2.2.1
  unfold iblk5
  rw [View.read_apply]
  show V c main_v29 _ = V c main_v29 _
  congr 1
  funext a
  apply Fin.ext
  match a with
  | ⟨0, _⟩ => show win5_3.index t 0 * 1 + 1 * (x 0).val = (k 0).val; rw [hi.1, hk0]; omega
  | ⟨1, _⟩ => show win5_3.index t 1 * 2048 + 1 * (x 1).val = (k 1).val; rw [hi.2, hk1]; omega

/-! ## Each point writes its block of one whole-array function -/

/-- `G5_4` of the entry arrays, as an array. -/
def arr5_4 (c : Dev nD) : S4096x2048.Idx → EReal := fun i =>
  G5_4 (mat (V c main_v23 : S4096x2048.Idx → EReal)) (mat (V c main_arg3 : S4096x2048.Idx → EReal))
    (mat (V c main_v8 : S4096x2048.Idx → EReal)) (row1 (mat (V c main_v29 : S1x2048.Idx → EReal))) (i 0) (i 1)

/-- The payload of the blocks at point `t`, at entry `y` of the block, is `G5_4` at row `256t + y₀`, column `y₁`: the
    two row blocks supply row `256t + y₀` of the inputs, the weight's halves and the bias are whole. -/
theorem point5 (c : Dev nD) (t : Fin cfg5.N) (y : S256x2048.Idx) (k : S4096x2048.Idx)
    (hk0 : (k 0).val = 256 * t.val + (y 0).val) (hk1 : (k 1).val = (y 1).val) :
    k5_pay1 (iblk5 V c 0 t) (iblk5 V c 1 t) (View.ld (iblk5 V c 2 t) r5_1) (View.ld (iblk5 V c 2 t) r5_2) (iblk5 V c 3 t) y
      = arr5_4 V c k := by
  obtain ⟨p, q, rfl⟩ : ∃ (p : Fin 256) (q : Fin 2048), y = ix2 p q := ⟨y 0, y 1, eq_ix2 y⟩
  refine (pay5_apply (iblk5 V c 0 t) (iblk5 V c 1 t) (View.ld (iblk5 V c 2 t) r5_1) (View.ld (iblk5 V c 2 t) r5_2) (iblk5 V c 3 t) p q).trans ?_
  unfold arr5_4 G5_4 map aff2 rows mat row1
  refine congrArg elu ?_
  refine congrArg₂ (· + ·) (congrArg₂ (· + ·) (Finset.sum_congr rfl fun i _ => ?_) (Finset.sum_congr rfl fun i _ => ?_)) ?_
  · refine congrArg₂ (· * ·) (iblk5_0_apply V c t _ _ hk0 rfl) ?_
    exact iblk5_2_apply V c t _ _ (by show 0 + i.val = 0 + 1 * i.val; omega) (by show (k 1).val = 0 + 1 * q.val; rw [hk1]; show q.val = 0 + 1 * q.val; omega)
  · refine congrArg₂ (· * ·) (iblk5_1_apply V c t _ _ hk0 rfl) ?_
    exact iblk5_2_apply V c t _ _ (by show 2048 + i.val = 2048 + 1 * i.val; omega) (by show (k 1).val = 0 + 1 * q.val; rw [hk1]; show q.val = 0 + 1 * q.val; omega)
  · exact iblk5_3_apply V c t _ _ rfl (by show (k 1).val = q.val; rw [hk1])

/-- What point `t` writes back to the output array is block `t` of `arr5_4`. -/
theorem flushed5_eq (c : Dev nD) (t : Fin cfg5.N) :
    (dat5 (F := Ideal) V c).flushed 4 t = ((cfg5.win 4).blk t).view.read (Elt Ideal) (arr5_4 V c) := by
  have hi := (idx5 t).2.2.2.2
  show (cfg5.win 4).cut (grid5.coords t) ((dat5 V c).after 4 t) = _
  rw [after5_4]
  unfold out5_4
  rw [View.canon_unit_zero zeroOff5]
  simp only [View.ld_unit_zero (S := S256x2048) zeroOff5, View.ld_unit_zero (S := S1x2048) zeroOff5]
  funext j
  show k5_pay1 (iblk5 V c 0 t) (iblk5 V c 1 t) (View.ld (iblk5 V c 2 t) r5_1) (View.ld (iblk5 V c 2 t) r5_2) (iblk5 V c 3 t) j
    = arr5_4 V c (((cfg5.win 4).blk t).view.emb j)
  refine point5 V c t j _ ?_ ?_
  · show win5_4.index t 0 * 256 + 1 * (j 0).val = 256 * t.val + (j 0).val; rw [hi.1]; omega
  · show win5_4.index t 1 * 2048 + 1 * (j 1).val = (j 1).val; rw [hi.2]; omega

/-! ## The blocks cover the array -/

/-- An index of the output array is in point `t`'s block iff each coordinate is in the block's range on its axis. -/
theorem mem_blk5 (t : Fin cfg5.N) (i : S4096x2048.Idx) :
    i ∈ ((cfg5.win 4).blk t).view.set ↔ ∀ a : Fin 2, win5_4.index t a * S256x2048.size a ≤ (i a).val ∧ (i a).val < win5_4.index t a * S256x2048.size a + S256x2048.size a := by
  show i ∈ ((View.whole main_v30).slice (win5_4.rect t)).set ↔ _
  rw [View.set_slice_whole, Rect.mem_set_unit]
  exact Iff.rfl

/-- Row `r` of the output is in the block of point `r / 256`, which is written back. -/
theorem cover5 (i : S4096x2048.Idx) : ∃ t : Fin cfg5.N, (cfg5.win 4).flush t = true ∧ i ∈ ((cfg5.win 4).blk t).view.set := by
  have h0 : (i 0).val < 4096 := (i 0).isLt
  have h1 : (i 1).val < 2048 := (i 1).isLt
  have hN : cfg5.N = 16 := N_5
  refine ⟨⟨(i 0).val / 256, by rw [hN]; omega⟩, flush5_4 _, ?_⟩
  have hi := (idx5 ⟨(i 0).val / 256, by rw [hN]; omega⟩).2.2.2.2
  rw [mem_blk5]
  intro a
  match a with
  | ⟨0, _⟩ =>
    show win5_4.index _ 0 * 256 ≤ (i 0).val ∧ (i 0).val < win5_4.index _ 0 * 256 + 256
    rw [hi.1]; show (i 0).val / 256 * 256 ≤ (i 0).val ∧ (i 0).val < (i 0).val / 256 * 256 + 256; omega
  | ⟨1, _⟩ =>
    show win5_4.index _ 1 * 2048 ≤ (i 1).val ∧ (i 1).val < win5_4.index _ 1 * 2048 + 2048
    rw [hi.2]; omega

/-! ## The output array after the region -/

/-- The output array after the region's last point, entry by entry. -/
theorem final5_4 (c : Dev nD) (n : Fin 4096) (q : Fin 2048) :
    (dat5 (F := Ideal) V c).arrAt 4 cfg5.N (ValueIdx.ix2 n q)
      = G5_4 (mat (V c main_v23 : S4096x2048.Idx → EReal)) (mat (V c main_arg3 : S4096x2048.Idx → EReal))
          (mat (V c main_v8 : S4096x2048.Idx → EReal)) (row1 (mat (V c main_v29 : S1x2048.Idx → EReal))) n q := by
  have h := (dat5 (F := Ideal) V c).arrAt_eq_of_cover 4 (arr5_4 V c) (fun t _ => flushed5_eq V c t) cover5
  exact (congrFun h (ValueIdx.ix2 n q)).trans rfl

end Cert.KernelIdeal.Val

end
-- ==== Proof.ValI6.lean ====
/- The value of region 6's two output arrays over the extended reals. Both heads share a first layer: row `n` of the
   4096×2048 input goes through an affine map (2048×2048 weight, bias row) and the ELU. The first output (4096×1024) is an
   affine map of that (2048×1024 weight, bias row); the second is another affine map of it followed, entry by entry, by
   the softplus plus the minimal standard deviation. Every point's block is the restriction of these whole-array
   functions to the point's 256 rows. -/
import proofs.«109395_j20375324852595_2_alg».proof.Proof.RegionI6
import proofs.«109395_j20375324852595_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.SL.Sem Idealize.ShloMosaic.ValueIdx
open Idealize.ShloMosaic.Pipeline (Dat)

/-- Region 6's first output as a function of the arrays the region is entered with: `elu (x·W₁ + b₁)·W + b`. -/
def G6_7 (x : Mat 4096 2048) (W₁ : Mat 2048 2048) (b₁ : Row 2048) (W : Mat 2048 1024) (b : Row 1024) : Mat 4096 1024 :=
  aff (map elu (aff x W₁ b₁)) W b

/-- Region 6's second output: `splus (elu (x·W₁ + b₁)·W + b)`, entry by entry. -/
def G6_8 (x : Mat 4096 2048) (W₁ : Mat 2048 2048) (b₁ : Row 2048) (W : Mat 2048 1024) (b : Row 1024) : Mat 4096 1024 :=
  map splus (aff (map elu (aff x W₁ b₁)) W b)

/-- An affine map at an entry. -/
theorem aff_apply6 {a k j : ℕ} (x : Mat a k) (W : Mat k j) (b : Row j) (n : Fin a) (q : Fin j) :
    aff x W b n q = (∑ i : Fin k, x n i * W i q) + b q := rfl

/-! ## The body's payloads at an index -/

/-- The offsets `(0, 0)` are zero on every axis. -/
theorem zeroOff6 : (![0, 0] : Fin 2 → Nat) = fun _ => 0 := funext fun a => by fin_cases a <;> rfl

/-- The first layer's contraction: a 256×2048 block with the 2048×2048 matrix, over the block's columns and the matrix's rows. -/
abbrev contr6a := dot_S256x2048_S2048x2048_S256x2048_1_0_0_1_n_n

/-- At output entry `(p, q)` and contraction position `i` the left operand is read at `(p, i)`, -/
theorem contr6a_lhs (p : Fin 256) (q : Fin 2048) (i : Fin 2048) :
    contr6a.lhsIdx (ix2 p q) ((contrEquiv1 contr6a 2048 rfl rfl).symm i) = ix2 p i := by
  funext a
  apply Fin.ext
  match a with
  | ⟨0, _⟩ =>
    show (contr6a.lhsIdx (ix2 p q) ((contrEquiv1 contr6a 2048 rfl rfl).symm i) 0 : ℕ) = p.val
    simp [DotDims.lhsIdx, contr6a, dot_S256x2048_S2048x2048_S256x2048_1_0_0_1_n_n]; rfl
  | ⟨1, _⟩ =>
    show (contr6a.lhsIdx (ix2 p q) ((contrEquiv1 contr6a 2048 rfl rfl).symm i) 1 : ℕ) = i.val
    rw [contr6a.lhsIdx_val_of_single (cl := 1) rfl]
    exact contrEquiv1_symm_val contr6a 2048 rfl rfl i

/-- and the right operand at `(i, q)`. -/
theorem contr6a_rhs (p : Fin 256) (q : Fin 2048) (i : Fin 2048) :
    contr6a.rhsIdx (ix2 p q) ((contrEquiv1 contr6a 2048 rfl rfl).symm i) = ix2 i q := by
  funext a
  apply Fin.ext
  match a with
  | ⟨0, _⟩ =>
    show (contr6a.rhsIdx (ix2 p q) ((contrEquiv1 contr6a 2048 rfl rfl).symm i) 0 : ℕ) = i.val
    rw [contr6a.rhsIdx_val_of_single (cr := 0) rfl]
    exact contrEquiv1_symm_val contr6a 2048 rfl rfl i
  | ⟨1, _⟩ =>
    show (contr6a.rhsIdx (ix2 p q) ((contrEquiv1 contr6a 2048 rfl rfl).symm i) 1 : ℕ) = q.val
    simp [DotDims.rhsIdx, contr6a, dot_S256x2048_S2048x2048_S256x2048_1_0_0_1_n_n]; rfl

/-- The matrix product into a zero accumulator, at entry `(p, q)`: `Σᵢ x p i · W i q`. -/
theorem contr6a_matmul {φ₁ φ₂ : FTy} (x : FVec Ideal S256x2048 φ₁) (W : FVec Ideal S2048x2048 φ₂) (p : Fin 256) (q : Fin 2048) :
    FloatOps.matmul contr6a none x W (constant S256x2048 .f32 0x00000000#32) (ix2 p q) = ∑ i : Fin 2048, x (ix2 p i) * W (ix2 i q) := by
  rw [Ideal.matmul_constant_zero_apply, ← Equiv.sum_comp (contrEquiv1 contr6a 2048 rfl rfl).symm]
  refine Finset.sum_congr rfl fun i _ => ?_
  rw [contr6a_lhs, contr6a_rhs]

/-- A head's contraction: the 256×2048 hidden block with a 2048×1024 matrix, over the block's columns and the matrix's rows. -/
abbrev contr6b := dot_S256x2048_S2048x1024_S256x1024_1_0_0_1_n_n

/-- At output entry `(p, q)` and contraction position `i` the left operand is read at `(p, i)`, -/
theorem contr6b_lhs (p : Fin 256) (q : Fin 1024) (i : Fin 2048) :
    contr6b.lhsIdx (ix2 p q) ((contrEquiv1 contr6b 2048 rfl rfl).symm i) = ix2 p i := by
  funext a
  apply Fin.ext
  match a with
  | ⟨0, _⟩ =>
    show (contr6b.lhsIdx (ix2 p q) ((contrEquiv1 contr6b 2048 rfl rfl).symm i) 0 : ℕ) = p.val
    simp [DotDims.lhsIdx, contr6b, dot_S256x2048_S2048x1024_S256x1024_1_0_0_1_n_n]; rfl
  | ⟨1, _⟩ =>
    show (contr6b.lhsIdx (ix2 p q) ((contrEquiv1 contr6b 2048 rfl rfl).symm i) 1 : ℕ) = i.val
    rw [contr6b.lhsIdx_val_of_single (cl := 1) rfl]
    exact contrEquiv1_symm_val contr6b 2048 rfl rfl i

/-- and the right operand at `(i, q)`. -/
theorem contr6b_rhs (p : Fin 256) (q : Fin 1024) (i : Fin 2048) :
    contr6b.rhsIdx (ix2 p q) ((contrEquiv1 contr6b 2048 rfl rfl).symm i) = ix2 i q := by
  funext a
  apply Fin.ext
  match a with
  | ⟨0, _⟩ =>
    show (contr6b.rhsIdx (ix2 p q) ((contrEquiv1 contr6b 2048 rfl rfl).symm i) 0 : ℕ) = i.val
    rw [contr6b.rhsIdx_val_of_single (cr := 0) rfl]
    exact contrEquiv1_symm_val contr6b 2048 rfl rfl i
  | ⟨1, _⟩ =>
    show (contr6b.rhsIdx (ix2 p q) ((contrEquiv1 contr6b 2048 rfl rfl).symm i) 1 : ℕ) = q.val
    simp [DotDims.rhsIdx, contr6b, dot_S256x2048_S2048x1024_S256x1024_1_0_0_1_n_n]; rfl

/-- The matrix product into a zero accumulator, at entry `(p, q)`: `Σᵢ x p i · W i q`. -/
theorem contr6b_matmul {φ₁ φ₂ : FTy} (x : FVec Ideal S256x2048 φ₁) (W : FVec Ideal S2048x1024 φ₂) (p : Fin 256) (q : Fin 1024) :
    FloatOps.matmul contr6b none x W (constant S256x1024 .f32 0x00000000#32) (ix2 p q) = ∑ i : Fin 2048, x (ix2 p i) * W (ix2 i q) := by
  rw [Ideal.matmul_constant_zero_apply, ← Equiv.sum_comp (contrEquiv1 contr6b 2048 rfl rfl).symm]
  refine Finset.sum_congr rfl fun i _ => ?_
  rw [contr6b_lhs, contr6b_rhs]

/-- The hidden block at entry `(p, i)`: the ELU of the first layer's contraction plus its bias row's entry `i`. Over the
    extended reals the changes of float format and the casts to the same shape are the identity. -/
theorem pay6_2_apply (v0 : Vec Ideal S256x2048 .bf16) (v2 : Vec Ideal S2048x2048 .bf16) (v5 : Vec Ideal S1x2048 .f32) (p : Fin 256) (i : Fin 2048) :
    k6_pay2 v0 v2 v5 (ix2 p i) = elu ((∑ j : Fin 2048, v0 (ix2 p j) * v2 (ix2 j i)) + v5 (ix2 (0 : Fin 1) i)) := by
  unfold k6_pay2
  simp only [shapeCast_self]
  show elu _ = _
  refine congrArg elu ?_
  show _ + _ = _
  refine congrArg₂ (· + ·) ?_ ?_
  · exact contr6a_matmul v0 v2 p i
  · exact broadcastTo_1b_ab_apply v5 _ p i

/-- The first head at entry `(p, q)`: the hidden block's row `p` against the head's matrix, plus its bias row's entry. -/
theorem pay6_3_apply (v0 : Vec Ideal S256x2048 .bf16) (v2 : Vec Ideal S2048x2048 .bf16) (v5 : Vec Ideal S1x2048 .f32)
    (v16 : Vec Ideal S2048x1024 .bf16) (v19 : Vec Ideal S1x1024 .f32) (p : Fin 256) (q : Fin 1024) :
    k6_pay3 v0 v2 v5 v16 v19 (ix2 p q) = (∑ i : Fin 2048, k6_pay2 v0 v2 v5 (ix2 p i) * v16 (ix2 i q)) + v19 (ix2 (0 : Fin 1) q) := by
  unfold k6_pay3
  simp only [shapeCast_self]
  show _ + _ = _
  refine congrArg₂ (· + ·) ?_ ?_
  · exact contr6b_matmul (k6_pay2 v0 v2 v5) v16 p q
  · exact broadcastTo_1b_ab_apply v19 _ p q

/-- The second head before its entrywise function, at entry `(p, q)`: the same form with its own matrix and bias row. -/
theorem pay6_4_apply (v0 : Vec Ideal S256x2048 .bf16) (v2 : Vec Ideal S2048x2048 .bf16) (v5 : Vec Ideal S1x2048 .f32)
    (v23 : Vec Ideal S2048x1024 .bf16) (v26 : Vec Ideal S1x1024 .f32) (p : Fin 256) (q : Fin 1024) :
    k6_pay4 v0 v2 v5 v23 v26 (ix2 p q) = (∑ i : Fin 2048, k6_pay2 v0 v2 v5 (ix2 p i) * v23 (ix2 i q)) + v26 (ix2 (0 : Fin 1) q) := by
  unfold k6_pay4
  simp only [shapeCast_self]
  show _ + _ = _
  refine congrArg₂ (· + ·) ?_ ?_
  · exact contr6b_matmul (k6_pay2 v0 v2 v5) v23 p q
  · exact broadcastTo_1b_ab_apply v26 _ p q

/-- The second output's stored value at an entry is `splus` of the second head there: the maximum with zero, the
    difference from zero with its absolute value, the guard comparing that difference with itself, and the sum with
    zero are the pieces of `splus` as printed. -/
theorem pay6_1_apply (v0 : Vec Ideal S256x2048 .bf16) (v2 : Vec Ideal S2048x2048 .bf16) (v5 : Vec Ideal S1x2048 .f32)
    (v23 : Vec Ideal S2048x1024 .bf16) (v26 : Vec Ideal S1x1024 .f32) (y : S256x1024.Idx) :
    k6_pay1 (k6_pay5 v0 v2 v5 v23 v26) (k6_pay7 v0 v2 v5 v23 v26) (k6_pay8 v0 v2 v5 v23 v26) (k6_pay9 v0 v2 v5 v23 v26)
        (Scalar.ofBits .f32 0x00000000#32) y
      = splus (k6_pay4 v0 v2 v5 v23 v26 y) := by
  unfold k6_pay1 k6_pay5 k6_pay7 k6_pay8 k6_pay9 k6_pay6
  rfl

/-! ## The windows' blocks as parts of their arrays -/

variable (V : (c : Dev nD) → (b : Ref sig .tc) → Buf (Elt Ideal) ((c : Thread nD τ).loc b))

/-- The index maps over the grid: windows 0, 7 and 8 are at row block `t` at point `t`; the others do not move. -/
theorem idx6_0 : ∀ t : Fin cfg6.N, win6_0.index t (0 : Fin 2) = t.val ∧ win6_0.index t (1 : Fin 2) = 0 :=
  (by decide +kernel : ∀ t : Fin grid6.N, _)
theorem idx6_1 : ∀ t : Fin cfg6.N, win6_1.index t (0 : Fin 2) = 0 ∧ win6_1.index t (1 : Fin 2) = 0 :=
  (by decide +kernel : ∀ t : Fin grid6.N, _)
theorem idx6_2 : ∀ t : Fin cfg6.N, win6_2.index t (0 : Fin 2) = 0 ∧ win6_2.index t (1 : Fin 2) = 0 :=
  (by decide +kernel : ∀ t : Fin grid6.N, _)
theorem idx6_3 : ∀ t : Fin cfg6.N, win6_3.index t (0 : Fin 2) = 0 ∧ win6_3.index t (1 : Fin 2) = 0 :=
  (by decide +kernel : ∀ t : Fin grid6.N, _)
theorem idx6_4 : ∀ t : Fin cfg6.N, win6_4.index t (0 : Fin 2) = 0 ∧ win6_4.index t (1 : Fin 2) = 0 :=
  (by decide +kernel : ∀ t : Fin grid6.N, _)
theorem idx6_5 : ∀ t : Fin cfg6.N, win6_5.index t (0 : Fin 2) = 0 ∧ win6_5.index t (1 : Fin 2) = 0 :=
  (by decide +kernel : ∀ t : Fin grid6.N, _)
theorem idx6_6 : ∀ t : Fin cfg6.N, win6_6.index t (0 : Fin 2) = 0 ∧ win6_6.index t (1 : Fin 2) = 0 :=
  (by decide +kernel : ∀ t : Fin grid6.N, _)
theorem idx6_7 : ∀ t : Fin cfg6.N, win6_7.index t (0 : Fin 2) = t.val ∧ win6_7.index t (1 : Fin 2) = 0 :=
  (by decide +kernel : ∀ t : Fin grid6.N, _)
theorem idx6_8 : ∀ t : Fin cfg6.N, win6_8.index t (0 : Fin 2) = t.val ∧ win6_8.index t (1 : Fin 2) = 0 :=
  (by decide +kernel : ∀ t : Fin grid6.N, _)

/-- Window 0's block at point `t` is rows `256t … 256t + 255` of its array. -/
theorem iblk6_0_apply (c : Dev nD) (t : Fin cfg6.N) (x : S256x2048.Idx) (k : S4096x2048.Idx)
    (hk0 : (k 0).val = 256 * t.val + (x 0).val) (hk1 : (k 1).val = (x 1).val) :
    (iblk6 V c 0 t : Vec Ideal S256x2048 .bf16) x = (V c main_v30 : S4096x2048.Idx → EReal) k := by
  have hi := idx6_0 t
  unfold iblk6
  rw [View.read_apply]
  show V c main_v30 _ = V c main_v30 _
  congr 1
  funext a
  apply Fin.ext
  match a with
  | ⟨0, _⟩ => show win6_0.index t 0 * 256 + 1 * (x 0).val = (k 0).val; rw [hi.1, hk0]; omega
  | ⟨1, _⟩ => show win6_0.index t 1 * 2048 + 1 * (x 1).val = (k 1).val; rw [hi.2, hk1]; omega

/-- Window 1's block is its whole array, at every point. -/
theorem iblk6_1_apply (c : Dev nD) (t : Fin cfg6.N) (x : S2048x2048.Idx) (k : S2048x2048.Idx)
    (hk0 : (k 0).val = (x 0).val) (hk1 : (k 1).val = (x 1).val) :
    (iblk6 V c 1 t : Vec Ideal S2048x2048 .bf16) x = (V c main_v9 : S2048x2048.Idx → EReal) k := by
  have hi := idx6_1 t
  unfold iblk6
  rw [View.read_apply]
  show V c main_v9 _ = V c main_v9 _
  congr 1
  funext a
  apply Fin.ext
  match a with
  | ⟨0, _⟩ => show win6_1.index t 0 * 2048 + 1 * (x 0).val = (k 0).val; rw [hi.1, hk0]; omega
  | ⟨1, _⟩ => show win6_1.index t 1 * 2048 + 1 * (x 1).val = (k 1).val; rw [hi.2, hk1]; omega

/-- Window 2's block is its whole array, at every point. -/
theorem iblk6_2_apply (c : Dev nD) (t : Fin cfg6.N) (x : S1x2048.Idx) (k : S1x2048.Idx)
    (hk0 : (k 0).val = (x 0).val) (hk1 : (k 1).val = (x 1).val) :
    (iblk6 V c 2 t : Vec Ideal S1x2048 .f32) x = (V c main_v31 : S1x2048.Idx → EReal) k := by
  have hi := idx6_2 t
  unfold iblk6
  rw [View.read_apply]
  show V c main_v31 _ = V c main_v31 _
  congr 1
  funext a
  apply Fin.ext
  match a with
  | ⟨0, _⟩ => show win6_2.index t 0 * 1 + 1 * (x 0).val = (k 0).val; rw [hi.1, hk0]; omega
  | ⟨1, _⟩ => show win6_2.index t 1 * 2048 + 1 * (x 1).val = (k 1).val; rw [hi.2, hk1]; omega

/-- Window 3's block is its whole array, at every point. -/
theorem iblk6_3_apply (c : Dev nD) (t : Fin cfg6.N) (x : S2048x1024.Idx) (k : S2048x1024.Idx)
    (hk0 : (k 0).val = (x 0).val) (hk1 : (k 1).val = (x 1).val) :
    (iblk6 V c 3 t : Vec Ideal S2048x1024 .bf16) x = (V c main_v10 : S2048x1024.Idx → EReal) k := by
  have hi := idx6_3 t
  unfold iblk6
  rw [View.read_apply]
  show V c main_v10 _ = V c main_v10 _
  congr 1
  funext a
  apply Fin.ext
  match a with
  | ⟨0, _⟩ => show win6_3.index t 0 * 2048 + 1 * (x 0).val = (k 0).val; rw [hi.1, hk0]; omega
  | ⟨1, _⟩ => show win6_3.index t 1 * 1024 + 1 * (x 1).val = (k 1).val; rw [hi.2, hk1]; omega

/-- Window 4's block is its whole array, at every point. -/
theorem iblk6_4_apply (c : Dev nD) (t : Fin cfg6.N) (x : S1x1024.Idx) (k : S1x1024.Idx)
    (hk0 : (k 0).val = (x 0).val) (hk1 : (k 1).val = (x 1).val) :
    (iblk6 V c 4 t : Vec Ideal S1x1024 .f32) x = (V c main_v32 : S1x1024.Idx → EReal) k := by
  have hi := idx6_4 t
  unfold iblk6
  rw [View.read_apply]
  show V c main_v32 _ = V c main_v32 _
  congr 1
  funext a
  apply Fin.ext
  match a with
  | ⟨0, _⟩ => show win6_4.index t 0 * 1 + 1 * (x 0).val = (k 0).val; rw [hi.1, hk0]; omega
  | ⟨1, _⟩ => show win6_4.index t 1 * 1024 + 1 * (x 1).val = (k 1).val; rw [hi.2, hk1]; omega

/-- Window 5's block is its whole array, at every point. -/
theorem iblk6_5_apply (c : Dev nD) (t : Fin cfg6.N) (x : S2048x1024.Idx) (k : S2048x1024.Idx)
    (hk0 : (k 0).val = (x 0).val) (hk1 : (k 1).val = (x 1).val) :
    (iblk6 V c 5 t : Vec Ideal S2048x1024 .bf16) x = (V c main_v11 : S2048x1024.Idx → EReal) k := by
  have hi := idx6_5 t
  unfold iblk6
  rw [View.read_apply]
  show V c main_v11 _ = V c main_v11 _
  congr 1
  funext a
  apply Fin.ext
  match a with
  | ⟨0, _⟩ => show win6_5.index t 0 * 2048 + 1 * (x 0).val = (k 0).val; rw [hi.1, hk0]; omega
  | ⟨1, _⟩ => show win6_5.index t 1 * 1024 + 1 * (x 1).val = (k 1).val; rw [hi.2, hk1]; omega

/-- Window 6's block is its whole array, at every point. -/
theorem iblk6_6_apply (c : Dev nD) (t : Fin cfg6.N) (x : S1x1024.Idx) (k : S1x1024.Idx)
    (hk0 : (k 0).val = (x 0).val) (hk1 : (k 1).val = (x 1).val) :
    (iblk6 V c 6 t : Vec Ideal S1x1024 .f32) x = (V c main_v33 : S1x1024.Idx → EReal) k := by
  have hi := idx6_6 t
  unfold iblk6
  rw [View.read_apply]
  show V c main_v33 _ = V c main_v33 _
  congr 1
  funext a
  apply Fin.ext
  match a with
  | ⟨0, _⟩ => show win6_6.index t 0 * 1 + 1 * (x 0).val = (k 0).val; rw [hi.1, hk0]; omega
  | ⟨1, _⟩ => show win6_6.index t 1 * 1024 + 1 * (x 1).val = (k 1).val; rw [hi.2, hk1]; omega

/-! ## Each point writes its blocks of two whole-array functions -/

/-- The hidden block at point `t`, at entry `(p, i)`, is the first layer at row `256t + p`, column `i`. -/
theorem hidden6 (c : Dev nD) (t : Fin cfg6.N) (p : Fin 256) (n : Fin 4096) (i : Fin 2048) (hn : n.val = 256 * t.val + p.val) :
    k6_pay2 (iblk6 V c 0 t) (iblk6 V c 1 t) (iblk6 V c 2 t) (ix2 p i)
      = map elu (aff (mat (V c main_v30 : S4096x2048.Idx → EReal)) (mat (V c main_v9 : S2048x2048.Idx → EReal))
    (row1 (mat (V c main_v31 : S1x2048.Idx → EReal)))) n i := by
  refine (pay6_2_apply (iblk6 V c 0 t) (iblk6 V c 1 t) (iblk6 V c 2 t) p i).trans ?_
  unfold map aff mat row1
  refine congrArg elu (congrArg₂ (· + ·) (Finset.sum_congr rfl fun j _ => congrArg₂ (· * ·) ?_ ?_) ?_)
  · exact iblk6_0_apply V c t (ix2 p j) (ix2 n j) hn rfl
  · exact iblk6_1_apply V c t (ix2 j i) (ix2 j i) rfl rfl
  · exact iblk6_2_apply V c t (ix2 (0 : Fin 1) i) (ix2 (0 : Fin 1) i) rfl rfl

/-- `G6_7` and `G6_8` of the entry arrays, as arrays. -/
def arr6_7 (c : Dev nD) : S4096x1024.Idx → EReal := fun i =>
  G6_7 (mat (V c main_v30 : S4096x2048.Idx → EReal)) (mat (V c main_v9 : S2048x2048.Idx → EReal))
    (row1 (mat (V c main_v31 : S1x2048.Idx → EReal)))
    (mat (V c main_v10 : S2048x1024.Idx → EReal)) (row1 (mat (V c main_v32 : S1x1024.Idx → EReal))) (i 0) (i 1)
def arr6_8 (c : Dev nD) : S4096x1024.Idx → EReal := fun i =>
  G6_8 (mat (V c main_v30 : S4096x2048.Idx → EReal)) (mat (V c main_v9 : S2048x2048.Idx → EReal))
    (row1 (mat (V c main_v31 : S1x2048.Idx → EReal)))
    (mat (V c main_v11 : S2048x1024.Idx → EReal)) (row1 (mat (V c main_v33 : S1x1024.Idx → EReal))) (i 0) (i 1)

/-- The first head's payload of the blocks at point `t`, at entry `y`, is `G6_7` at row `256t + y₀`, column `y₁`. -/
theorem point6_7 (c : Dev nD) (t : Fin cfg6.N) (y : S256x1024.Idx) (k : S4096x1024.Idx)
    (hk0 : (k 0).val = 256 * t.val + (y 0).val) (hk1 : (k 1).val = (y 1).val) :
    k6_pay3 (iblk6 V c 0 t) (iblk6 V c 1 t) (iblk6 V c 2 t) (iblk6 V c 3 t) (iblk6 V c 4 t) y = arr6_7 V c k := by
  obtain ⟨p, q, rfl⟩ : ∃ (p : Fin 256) (q : Fin 1024), y = ix2 p q := ⟨y 0, y 1, eq_ix2 y⟩
  refine (pay6_3_apply (iblk6 V c 0 t) (iblk6 V c 1 t) (iblk6 V c 2 t) (iblk6 V c 3 t) (iblk6 V c 4 t) p q).trans ?_
  unfold arr6_7 G6_7
  refine Eq.trans ?_ (aff_apply6 _ _ _ _ _).symm
  refine congrArg₂ (· + ·) (Finset.sum_congr rfl fun i _ => congrArg₂ (· * ·) ?_ ?_) ?_
  · exact hidden6 V c t p (k 0) i hk0
  · exact iblk6_3_apply V c t (ix2 i q) (ix2 i (k 1)) rfl hk1
  · exact iblk6_4_apply V c t (ix2 (0 : Fin 1) q) (ix2 (0 : Fin 1) (k 1)) rfl hk1

/-- The second head's payload of the blocks at point `t`, at entry `y`, is `G6_8` at row `256t + y₀`, column `y₁`. -/
theorem point6_8 (c : Dev nD) (t : Fin cfg6.N) (y : S256x1024.Idx) (k : S4096x1024.Idx)
    (hk0 : (k 0).val = 256 * t.val + (y 0).val) (hk1 : (k 1).val = (y 1).val) :
    k6_pay1 (k6_pay5 (iblk6 V c 0 t) (iblk6 V c 1 t) (iblk6 V c 2 t) (iblk6 V c 5 t) (iblk6 V c 6 t)) (k6_pay7 (iblk6 V c 0 t) (iblk6 V c 1 t) (iblk6 V c 2 t) (iblk6 V c 5 t) (iblk6 V c 6 t))
        (k6_pay8 (iblk6 V c 0 t) (iblk6 V c 1 t) (iblk6 V c 2 t) (iblk6 V c 5 t) (iblk6 V c 6 t)) (k6_pay9 (iblk6 V c 0 t) (iblk6 V c 1 t) (iblk6 V c 2 t) (iblk6 V c 5 t) (iblk6 V c 6 t))
        (Scalar.ofBits .f32 0x00000000#32) y
      = arr6_8 V c k := by
  refine (pay6_1_apply (iblk6 V c 0 t) (iblk6 V c 1 t) (iblk6 V c 2 t) (iblk6 V c 5 t) (iblk6 V c 6 t) y).trans ?_
  obtain ⟨p, q, rfl⟩ : ∃ (p : Fin 256) (q : Fin 1024), y = ix2 p q := ⟨y 0, y 1, eq_ix2 y⟩
  unfold arr6_8 G6_8
  show splus _ = splus _
  refine congrArg splus ?_
  refine (pay6_4_apply (iblk6 V c 0 t) (iblk6 V c 1 t) (iblk6 V c 2 t) (iblk6 V c 5 t) (iblk6 V c 6 t) p q).trans ?_
  refine Eq.trans ?_ (aff_apply6 _ _ _ _ _).symm
  refine congrArg₂ (· + ·) (Finset.sum_congr rfl fun i _ => congrArg₂ (· * ·) ?_ ?_) ?_
  · exact hidden6 V c t p (k 0) i hk0
  · exact iblk6_5_apply V c t (ix2 i q) (ix2 i (k 1)) rfl hk1
  · exact iblk6_6_apply V c t (ix2 (0 : Fin 1) q) (ix2 (0 : Fin 1) (k 1)) rfl hk1

/-- What point `t` writes back to the first output array is block `t` of `arr6_7`. -/
theorem flushed6_7_eq (c : Dev nD) (t : Fin cfg6.N) :
    (dat6 (F := Ideal) V c).flushed 7 t = ((cfg6.win 7).blk t).view.read (Elt Ideal) (arr6_7 V c) := by
  have hi := idx6_7 t
  show (cfg6.win 7).cut (grid6.coords t) ((dat6 V c).after 7 t) = _
  rw [after6_7]
  unfold out6_7
  rw [View.canon_unit_zero zeroOff6]
  simp only [View.ld_unit_zero (S := S256x2048) zeroOff6, View.ld_unit_zero (S := S2048x2048) zeroOff6, View.ld_unit_zero (S := S1x2048) zeroOff6,
    View.ld_unit_zero (S := S2048x1024) zeroOff6, View.ld_unit_zero (S := S1x1024) zeroOff6]
  funext j
  show k6_pay3 (iblk6 V c 0 t) (iblk6 V c 1 t) (iblk6 V c 2 t) (iblk6 V c 3 t) (iblk6 V c 4 t) j = arr6_7 V c (((cfg6.win 7).blk t).view.emb j)
  refine point6_7 V c t j _ ?_ ?_
  · show win6_7.index t 0 * 256 + 1 * (j 0).val = 256 * t.val + (j 0).val; rw [hi.1]; omega
  · show win6_7.index t 1 * 1024 + 1 * (j 1).val = (j 1).val; rw [hi.2]; omega

/-- What point `t` writes back to the second output array is block `t` of `arr6_8`. -/
theorem flushed6_8_eq (c : Dev nD) (t : Fin cfg6.N) :
    (dat6 (F := Ideal) V c).flushed 8 t = ((cfg6.win 8).blk t).view.read (Elt Ideal) (arr6_8 V c) := by
  have hi := idx6_8 t
  show (cfg6.win 8).cut (grid6.coords t) ((dat6 V c).after 8 t) = _
  rw [after6_8]
  unfold out6_8
  rw [View.canon_unit_zero zeroOff6]
  simp only [View.ld_unit_zero (S := S256x2048) zeroOff6, View.ld_unit_zero (S := S2048x2048) zeroOff6, View.ld_unit_zero (S := S1x2048) zeroOff6,
    View.ld_unit_zero (S := S2048x1024) zeroOff6, View.ld_unit_zero (S := S1x1024) zeroOff6]
  funext j
  show k6_pay1 (k6_pay5 (iblk6 V c 0 t) (iblk6 V c 1 t) (iblk6 V c 2 t) (iblk6 V c 5 t) (iblk6 V c 6 t)) (k6_pay7 (iblk6 V c 0 t) (iblk6 V c 1 t) (iblk6 V c 2 t) (iblk6 V c 5 t) (iblk6 V c 6 t))
        (k6_pay8 (iblk6 V c 0 t) (iblk6 V c 1 t) (iblk6 V c 2 t) (iblk6 V c 5 t) (iblk6 V c 6 t)) (k6_pay9 (iblk6 V c 0 t) (iblk6 V c 1 t) (iblk6 V c 2 t) (iblk6 V c 5 t) (iblk6 V c 6 t))
        (Scalar.ofBits .f32 0x00000000#32) j = arr6_8 V c (((cfg6.win 8).blk t).view.emb j)
  refine point6_8 V c t j _ ?_ ?_
  · show win6_8.index t 0 * 256 + 1 * (j 0).val = 256 * t.val + (j 0).val; rw [hi.1]; omega
  · show win6_8.index t 1 * 1024 + 1 * (j 1).val = (j 1).val; rw [hi.2]; omega

/-! ## The blocks cover the arrays -/

/-- An index of output array 7 is in point `t`'s block iff each coordinate is in the block's range on its axis. -/
theorem mem_blk6_7 (t : Fin cfg6.N) (i : S4096x1024.Idx) :
    i ∈ ((cfg6.win 7).blk t).view.set ↔ ∀ a : Fin 2, win6_7.index t a * S256x1024.size a ≤ (i a).val ∧ (i a).val < win6_7.index t a * S256x1024.size a + S256x1024.size a := by
  show i ∈ ((View.whole main_v34_0).slice (win6_7.rect t)).set ↔ _
  rw [View.set_slice_whole, Rect.mem_set_unit]
  exact Iff.rfl

/-- Row `r` of output array 7 is in the block of point `r / 256`, which is written back. -/
theorem cover6_7_arr (i : S4096x1024.Idx) : ∃ t : Fin cfg6.N, (cfg6.win 7).flush t = true ∧ i ∈ ((cfg6.win 7).blk t).view.set := by
  have h0 : (i 0).val < 4096 := (i 0).isLt
  have h1 : (i 1).val < 1024 := (i 1).isLt
  have hN : cfg6.N = 16 := N_6
  refine ⟨⟨(i 0).val / 256, by rw [hN]; omega⟩, flush6_7 _, ?_⟩
  have hi := idx6_7 ⟨(i 0).val / 256, by rw [hN]; omega⟩
  rw [mem_blk6_7]
  intro a
  match a with
  | ⟨0, _⟩ =>
    show win6_7.index _ 0 * 256 ≤ (i 0).val ∧ (i 0).val < win6_7.index _ 0 * 256 + 256
    rw [hi.1]; show (i 0).val / 256 * 256 ≤ (i 0).val ∧ (i 0).val < (i 0).val / 256 * 256 + 256; omega
  | ⟨1, _⟩ =>
    show win6_7.index _ 1 * 1024 ≤ (i 1).val ∧ (i 1).val < win6_7.index _ 1 * 1024 + 1024
    rw [hi.2]; omega

/-- An index of output array 8 is in point `t`'s block iff each coordinate is in the block's range on its axis. -/
theorem mem_blk6_8 (t : Fin cfg6.N) (i : S4096x1024.Idx) :
    i ∈ ((cfg6.win 8).blk t).view.set ↔ ∀ a : Fin 2, win6_8.index t a * S256x1024.size a ≤ (i a).val ∧ (i a).val < win6_8.index t a * S256x1024.size a + S256x1024.size a := by
  show i ∈ ((View.whole main_v34_1).slice (win6_8.rect t)).set ↔ _
  rw [View.set_slice_whole, Rect.mem_set_unit]
  exact Iff.rfl

/-- Row `r` of output array 8 is in the block of point `r / 256`, which is written back. -/
theorem cover6_8_arr (i : S4096x1024.Idx) : ∃ t : Fin cfg6.N, (cfg6.win 8).flush t = true ∧ i ∈ ((cfg6.win 8).blk t).view.set := by
  have h0 : (i 0).val < 4096 := (i 0).isLt
  have h1 : (i 1).val < 1024 := (i 1).isLt
  have hN : cfg6.N = 16 := N_6
  refine ⟨⟨(i 0).val / 256, by rw [hN]; omega⟩, flush6_8 _, ?_⟩
  have hi := idx6_8 ⟨(i 0).val / 256, by rw [hN]; omega⟩
  rw [mem_blk6_8]
  intro a
  match a with
  | ⟨0, _⟩ =>
    show win6_8.index _ 0 * 256 ≤ (i 0).val ∧ (i 0).val < win6_8.index _ 0 * 256 + 256
    rw [hi.1]; show (i 0).val / 256 * 256 ≤ (i 0).val ∧ (i 0).val < (i 0).val / 256 * 256 + 256; omega
  | ⟨1, _⟩ =>
    show win6_8.index _ 1 * 1024 ≤ (i 1).val ∧ (i 1).val < win6_8.index _ 1 * 1024 + 1024
    rw [hi.2]; omega

/-! ## The output arrays after the region -/

/-- The first output array after the region's last point, entry by entry. -/
theorem final6_7 (c : Dev nD) (n : Fin 4096) (q : Fin 1024) :
    (dat6 (F := Ideal) V c).arrAt 7 cfg6.N (ValueIdx.ix2 n q)
      = G6_7 (mat (V c main_v30 : S4096x2048.Idx → EReal)) (mat (V c main_v9 : S2048x2048.Idx → EReal))
          (row1 (mat (V c main_v31 : S1x2048.Idx → EReal))) (mat (V c main_v10 : S2048x1024.Idx → EReal))
          (row1 (mat (V c main_v32 : S1x1024.Idx → EReal))) n q := by
  have h := (dat6 (F := Ideal) V c).arrAt_eq_of_cover 7 (arr6_7 V c) (fun t _ => flushed6_7_eq V c t) cover6_7_arr
  exact (congrFun h (ValueIdx.ix2 n q)).trans rfl

/-- The second output array after the region's last point, entry by entry. -/
theorem final6_8 (c : Dev nD) (n : Fin 4096) (q : Fin 1024) :
    (dat6 (F := Ideal) V c).arrAt 8 cfg6.N (ValueIdx.ix2 n q)
      = G6_8 (mat (V c main_v30 : S4096x2048.Idx → EReal)) (mat (V c main_v9 : S2048x2048.Idx → EReal))
          (row1 (mat (V c main_v31 : S1x2048.Idx → EReal))) (mat (V c main_v11 : S2048x1024.Idx → EReal))
          (row1 (mat (V c main_v33 : S1x1024.Idx → EReal))) n q := by
  have h := (dat6 (F := Ideal) V c).arrAt_eq_of_cover 8 (arr6_8 V c) (fun t _ => flushed6_8_eq V c t) cover6_8_arr
  exact (congrFun h (ValueIdx.ix2 n q)).trans rfl

end Cert.KernelIdeal.Val

end
-- ==== Proof.LibConcatCols.lean ====
import Idealize.ShloMosaic.Lib.ValueIdx
import Idealize.ShloMosaic.Lib.Pipeline.Value
import Idealize.ShloMosaic.Lib.ValueLayout

/-! # Arrays laid side by side, and a row given a leading unit axis, read at an entry

Five matrices of one height laid side by side along their columns (`concatenate` along axis 1), read at entry
`(n, q)`: the piece whose span of columns holds `q`, at `q` less the widths of the pieces before it. And a vector
reshaped to a one-row matrix, read at its one row. Both for entries of any type. -/

noncomputable section

namespace Cert.Lib

open Idealize.ShloMosaic Idealize.ShloMosaic.ValueIdx

variable {α : Type}

/-- Five matrices with `R` rows — four of width `w`, then one of width `w'` — laid side by side (`concatenate` along
    axis 1 into `[R, T]`, `T = 4 w + w'`), read at entry `(n, q)`: `a` for `q < w`, `b` at `q − w` for `q < 2 w`, `c` at
    `q − 2 w` for `q < 3 w`, `d` at `q − 3 w` for `q < 4 w`, and `e` at `q − 4 w` beyond. The thresholds are
    arguments (`t1 = w`, …, `t4 = 4 w`) so that an instance can state them as literals. -/
theorem concatenate5_cols_apply {R w w' T : ℕ} (t1 t2 t3 t4 : ℕ) (ht1 : t1 = w) (ht2 : t2 = 2 * w) (ht3 : t3 = 3 * w)
    (ht4 : t4 = 4 * w) (hT : T = 4 * w + w')
    (a b c d : (⟨2, ![R, w]⟩ : Shape).Idx → α) (e : (⟨2, ![R, w']⟩ : Shape).Idx → α)
    (h : Shape.Concatenates (([⟨_, a⟩, ⟨_, b⟩, ⟨_, c⟩, ⟨_, d⟩, ⟨_, e⟩] : List ((s : Shape) × (s.Idx → α))).map (·.1)) ⟨2, ![R, T]⟩ 1)
    (n : Fin R) (q : Fin T) :
    concatenate ⟨2, ![R, T]⟩ 1 [⟨_, a⟩, ⟨_, b⟩, ⟨_, c⟩, ⟨_, d⟩, ⟨_, e⟩] h (ix2 n q)
      = if h1 : q.val < t1 then a (ix2 n ⟨q.val, by omega⟩)
        else if h2 : q.val < t2 then b (ix2 n ⟨q.val - t1, by omega⟩)
        else if h3 : q.val < t3 then c (ix2 n ⟨q.val - t2, by omega⟩)
        else if h4 : q.val < t4 then d (ix2 n ⟨q.val - t3, by omega⟩)
        else e (ix2 n ⟨q.val - t4, by have := q.isLt; omega⟩) := by
  have hq := q.isLt
  by_cases h1 : q.val < t1
  · rw [dif_pos h1]
    exact concatenate_apply_piece (1 : Fin 2) _ h (ix2 n q) 0 (by simp) _ a rfl rfl 0 (by simp) (ix2 n ⟨q.val, by omega⟩)
      (fun b hb => by
        match b with
        | ⟨0, _⟩ => rfl
        | ⟨1, _⟩ => exact absurd rfl hb)
      (by show 0 + (q.val) = q.val; omega)
  rw [dif_neg h1]
  by_cases h2 : q.val < t2
  · rw [dif_pos h2]
    exact concatenate_apply_piece (1 : Fin 2) _ h (ix2 n q) 1 (by simp) _ b rfl rfl w (by simp) (ix2 n ⟨q.val - t1, by omega⟩)
      (fun b hb => by
        match b with
        | ⟨0, _⟩ => rfl
        | ⟨1, _⟩ => exact absurd rfl hb)
      (by show w + (q.val - t1) = q.val; omega)
  rw [dif_neg h2]
  by_cases h3 : q.val < t3
  · rw [dif_pos h3]
    exact concatenate_apply_piece (1 : Fin 2) _ h (ix2 n q) 2 (by simp) _ c rfl rfl (w + w) (by simp) (ix2 n ⟨q.val - t2, by omega⟩)
      (fun b hb => by
        match b with
        | ⟨0, _⟩ => rfl
        | ⟨1, _⟩ => exact absurd rfl hb)
      (by show (w + w) + (q.val - t2) = q.val; omega)
  rw [dif_neg h3]
  by_cases h4 : q.val < t4
  · rw [dif_pos h4]
    exact concatenate_apply_piece (1 : Fin 2) _ h (ix2 n q) 3 (by simp) _ d rfl rfl (w + (w + w)) (by simp) (ix2 n ⟨q.val - t3, by omega⟩)
      (fun b hb => by
        match b with
        | ⟨0, _⟩ => rfl
        | ⟨1, _⟩ => exact absurd rfl hb)
      (by show (w + (w + w)) + (q.val - t3) = q.val; omega)
  rw [dif_neg h4]
  exact concatenate_apply_piece (1 : Fin 2) _ h (ix2 n q) 4 (by simp) _ e rfl rfl (w + (w + (w + w))) (by simp) (ix2 n ⟨q.val - t4, by omega⟩)
      (fun b hb => by
        match b with
        | ⟨0, _⟩ => rfl
        | ⟨1, _⟩ => exact absurd rfl hb)
      (by show (w + (w + (w + w))) + (q.val - t4) = q.val; omega)

/-- The instance the two programs print: four `[4096, 1024]` arrays and one `[4096, 2048]` array side by side in
    `[4096, 6144]`. -/
theorem concatenate5_4096_apply
    (a b c d : (⟨2, ![4096, 1024]⟩ : Shape).Idx → α) (e : (⟨2, ![4096, 2048]⟩ : Shape).Idx → α)
    (h : Shape.Concatenates (([⟨_, a⟩, ⟨_, b⟩, ⟨_, c⟩, ⟨_, d⟩, ⟨_, e⟩] : List ((s : Shape) × (s.Idx → α))).map (·.1)) ⟨2, ![4096, 6144]⟩ 1)
    (n : Fin 4096) (q : Fin 6144) :
    concatenate ⟨2, ![4096, 6144]⟩ 1 [⟨_, a⟩, ⟨_, b⟩, ⟨_, c⟩, ⟨_, d⟩, ⟨_, e⟩] h (ix2 n q)
      = if h1 : q.val < 1024 then a (ix2 n ⟨q.val, h1⟩)
        else if h2 : q.val < 2048 then b (ix2 n ⟨q.val - 1024, by omega⟩)
        else if h3 : q.val < 3072 then c (ix2 n ⟨q.val - 2048, by omega⟩)
        else if h4 : q.val < 4096 then d (ix2 n ⟨q.val - 3072, by omega⟩)
        else e (ix2 n ⟨q.val - 4096, by have := q.isLt; omega⟩) :=
  concatenate5_cols_apply 1024 2048 3072 4096 rfl rfl rfl rfl rfl a b c d e h n q

/-- A vector of length `J` reshaped to a one-row matrix `[1, J]`, read at `(0, q)`, is the vector at `q`. -/
theorem shapeCast_row_apply {J : ℕ} (v : (⟨1, ![J]⟩ : Shape).Idx → α) (h : (⟨1, ![J]⟩ : Shape).ShapeCasts ⟨2, ![1, J]⟩)
    (q : Fin J) : shapeCast ⟨2, ![1, J]⟩ v h (ix2 (0 : Fin 1) q) = v (ix1 q) :=
  shapeCast_a_1a_apply v h 0 q

end Cert.Lib
-- ==== Proof.ValRun.lean ====
/-
  The kernel program's result over the extended reals, as one function of the launch arrays. Between two items of
  @main a buffer that the items in between do not write keeps its contents; so each region finds, in its input
  arrays, either a launch array (possibly after a change of float format, which is the identity here, or a
  reshape of a bias to one row) or what an earlier region left — and what a region leaves is its whole-array
  function of what it finds. Composing the seven regions and the final concatenation along the columns gives the
  result array entry by entry.
-/
import proofs.«109395_j20375324852595_2_alg».proof.Proof.RunI
import proofs.«109395_j20375324852595_2_alg».proof.Proof.Spec
import proofs.«109395_j20375324852595_2_alg».proof.Proof.ValI0
import proofs.«109395_j20375324852595_2_alg».proof.Proof.ValI1
import proofs.«109395_j20375324852595_2_alg».proof.Proof.ValI2
import proofs.«109395_j20375324852595_2_alg».proof.Proof.ValI3
import proofs.«109395_j20375324852595_2_alg».proof.Proof.ValI4
import proofs.«109395_j20375324852595_2_alg».proof.Proof.ValI5
import proofs.«109395_j20375324852595_2_alg».proof.Proof.ValI6
import proofs.«109395_j20375324852595_2_alg».proof.Proof.LibConcatCols
import Idealize.ShloMosaic.Lib.StableHlo.Run
import Idealize.ShloMosaic.Lib.ValueIdx
import Idealize.ShloMosaic.Lib.ValueLayout
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx Idealize.ShloMosaic.Tactic

-- one declaration at a time: reading a host stretch holds memory while it runs
set_option Elab.async false

/-! ## The result as one function of the launch arrays -/

/-- Five matrices side by side: 1024 + 1024 + 1024 + 1024 + 2048 columns. -/
def cat5 (m1 s1 m2 s2 : Mat 4096 1024) (bel : Mat 4096 2048) : Mat 4096 6144 := fun n q =>
  if h1 : q.val < 1024 then m1 n ⟨q.val, h1⟩ else if h2 : q.val < 2048 then s1 n ⟨q.val - 1024, by omega⟩ else if h3 : q.val < 3072 then m2 n ⟨q.val - 2048, by omega⟩ else if h4 : q.val < 4096 then s2 n ⟨q.val - 3072, by omega⟩ else bel n ⟨q.val - 4096, by have := q.isLt; omega⟩

/-- The whole program: the pre-network, the three thirds of the recurrent cell (two gates and the new state), the two
    heads over the new state, the second network over the new state and the observation with its two heads, and the
    five results side by side. -/
def Gker (ps : Mat 4096 1024) (pa : Mat 4096 512) (st ob : Mat 4096 2048) (t0W : Mat 1536 2048) (t0b : Row 2048) (t1W : Mat 2048 2048) (t1b : Row 2048) (Wih Whh : Mat 2048 6144) (bih bhh : Row 6144) (p0W : Mat 2048 2048) (p0b : Row 2048) (p1W : Mat 2048 2048) (p1b : Row 2048) (pmW : Mat 2048 1024) (pmb : Row 1024) (psW : Mat 2048 1024) (psb : Row 1024) (q0W : Mat 4096 2048) (q0b : Row 2048) (q1W : Mat 2048 2048) (q1b : Row 2048) (qmW : Mat 2048 1024) (qmb : Row 1024) (qsW : Mat 2048 1024) (qsb : Row 1024) : Mat 4096 6144 :=
  let h1 := G0_6 ps pa t0W t0b t1W t1b
  let r := G1_6 h1 st (cols (2048 * 0) 2048 (by decide) Wih) (cols (2048 * 0) 2048 (by decide) Whh) (colsR (2048 * 0) 2048 (by decide) bih) (colsR (2048 * 0) 2048 (by decide) bhh)
  let z := G2_6 h1 st (cols (2048 * 1) 2048 (by decide) Wih) (cols (2048 * 1) 2048 (by decide) Whh) (colsR (2048 * 1) 2048 (by decide) bih) (colsR (2048 * 1) 2048 (by decide) bhh)
  let bel := G3_8 h1 st r z (cols (2048 * 2) 2048 (by decide) Wih) (cols (2048 * 2) 2048 (by decide) Whh) (colsR (2048 * 2) 2048 (by decide) bih) (colsR (2048 * 2) 2048 (by decide) bhh)
  let hq0 := G5_4 bel ob q0W q0b
  cat5 (G4_9 bel p0W p0b p1W p1b pmW pmb) (G4_10 bel p0W p0b p1W p1b psW psb) (G6_7 hq0 q1W q1b qmW qmb) (G6_8 hq0 q1W q1b qsW qsb) bel

variable (m : (ℓ : Loc nD τ sig) → Buf (Elt Ideal) ℓ) (c : Dev nD)

/-! ## A buffer keeps its contents across the items that do not write it -/

/-- The sixteen contents of the fold, as one family. -/
def Bs : ℕ → Valuation τ sig (Elt Ideal)
  | 0 => B0 m c | 1 => B1 m c | 2 => B2 m c | 3 => B3 m c | 4 => B4 m c | 5 => B5 m c | 6 => B6 m c | 7 => B7 m c
  | 8 => B8 m c | 9 => B9 m c | 10 => B10 m c | 11 => B11 m c | 12 => B12 m c | 13 => B13 m c | 14 => B14 m c | _ => B15 m c

/-- The references item `j` (the step from contents `j − 1` to contents `j`) writes. -/
def Ws : ℕ → List (Ref sig .tc)
  | 1 => hostOps0_W | 2 => [main_v14] | 3 => hostOps1_W | 4 => [main_v17] | 5 => hostOps2_W | 6 => [main_v20]
  | 7 => hostOps3_W | 8 => [main_v23] | 9 => hostOps4_W | 10 => [main_v28_0, main_v28_1] | 11 => hostOps5_W
  | 12 => [main_v30] | 13 => hostOps6_W | 14 => [main_v34_0, main_v34_1] | 15 => hostOps7_W | _ => []

theorem B1_of (r : Ref sig .tc) (h : r ∉ hostOps0_W) : B1 m c r = B0 m c r := V1_of m c r h
theorem B3_of (r : Ref sig .tc) (h : r ∉ hostOps1_W) : B3 m c r = B2 m c r :=
  (congrFun (V3_eq m c) (Proc.devRef .tc r)).symm.trans ((V3_of m (outs m) c r h).trans (congrFun (V2_eq m c) (Proc.devRef .tc r)))
theorem B5_of (r : Ref sig .tc) (h : r ∉ hostOps2_W) : B5 m c r = B4 m c r :=
  (congrFun (V5_eq m c) (Proc.devRef .tc r)).symm.trans ((V5_of m (outs m) c r h).trans (congrFun (V4_eq m c) (Proc.devRef .tc r)))
theorem B7_of (r : Ref sig .tc) (h : r ∉ hostOps3_W) : B7 m c r = B6 m c r :=
  (congrFun (V7_eq m c) (Proc.devRef .tc r)).symm.trans ((V7_of m (outs m) c r h).trans (congrFun (V6_eq m c) (Proc.devRef .tc r)))
theorem B9_of (r : Ref sig .tc) (h : r ∉ hostOps4_W) : B9 m c r = B8 m c r :=
  (congrFun (V9_eq m c) (Proc.devRef .tc r)).symm.trans ((V9_of m (outs m) c r h).trans (congrFun (V8_eq m c) (Proc.devRef .tc r)))
theorem B11_of (r : Ref sig .tc) (h : r ∉ hostOps5_W) : B11 m c r = B10 m c r :=
  (congrFun (V11_eq m c) (Proc.devRef .tc r)).symm.trans ((V11_of m (outs m) c r h).trans (congrFun (V10_eq m c) (Proc.devRef .tc r)))
theorem B13_of (r : Ref sig .tc) (h : r ∉ hostOps6_W) : B13 m c r = B12 m c r :=
  (congrFun (V13_eq m c) (Proc.devRef .tc r)).symm.trans ((V13_of m (outs m) c r h).trans (congrFun (V12_eq m c) (Proc.devRef .tc r)))
theorem B15_of (r : Ref sig .tc) (h : r ∉ hostOps7_W) : B15 m c r = B14 m c r :=
  (congrFun (V15_eq m c) (Proc.devRef .tc r)).symm.trans ((V15_of m (outs m) c r h).trans (congrFun (V14_eq m c) (Proc.devRef .tc r)))

theorem Bs_step (j : ℕ) (r : Ref sig .tc) (h : r ∉ Ws (j + 1)) : Bs m c (j + 1) r = Bs m c j r := by
  match j, h with
  | 0, h => exact B1_of m c r h
  | 1, h => exact B2_of m c r h
  | 2, h => exact B3_of m c r h
  | 3, h => exact B4_of m c r h
  | 4, h => exact B5_of m c r h
  | 5, h => exact B6_of m c r h
  | 6, h => exact B7_of m c r h
  | 7, h => exact B8_of m c r h
  | 8, h => exact B9_of m c r h
  | 9, h => exact B10_of m c r h
  | 10, h => exact B11_of m c r h
  | 11, h => exact B12_of m c r h
  | 12, h => exact B13_of m c r h
  | 13, h => exact B14_of m c r h
  | 14, h => exact B15_of m c r h
  | (_ + 15), _ => rfl

/-- From contents `i` to contents `i + d`: a reference none of the items in between writes holds the same array. -/
theorem Bs_persist (i d : ℕ) (r : Ref sig .tc) (h : ∀ k ∈ List.range d, r ∉ Ws (i + k + 1)) : Bs m c (i + d) r = Bs m c i r := by
  induction d with
  | zero => rfl
  | succ d ih =>
    exact (Bs_step m c (i + d) r (h d (List.mem_range.mpr (Nat.lt_succ_self d)))).trans
      (ih fun k hk => h k (List.mem_range.mpr (Nat.lt_succ_of_lt (List.mem_range.mp hk))))

/-! ## Small facts about the host operations, over the extended reals, at any contents `W` before the stretch -/

/-- A bias `[a]` reshaped to `[1, a]` and read as a row is the bias read as a row. -/
theorem row1_reshape {a : ℕ} (b : (⟨1, ![a]⟩ : Shape).Idx → EReal) (h : (⟨1, ![a]⟩ : Shape).ShapeCasts ⟨2, ![1, a]⟩) :
    row1 (mat (shapeCast ⟨2, ![1, a]⟩ b h)) = row b := by
  funext q; exact shapeCast_a_1a_apply b h 0 q

/-! ### A weight after its change of float format (the identity over the extended reals) is the weight before it -/

theorem wW_v0 (W : Valuation τ sig (Elt Ideal)) :
    (StableHlo.after hostOps0 W (Proc.devRef .tc main_v0) : S1536x2048.Idx → EReal) = (W main_arg4 : S1536x2048.Idx → EReal) := by
  after_results; rfl
theorem w_v0 : (B1 m c main_v0 : S1536x2048.Idx → EReal) = (m ((c : Thread nD τ).loc main_arg4) : S1536x2048.Idx → EReal) := wW_v0 (B0 m c)
theorem wW_v1 (W : Valuation τ sig (Elt Ideal)) :
    (StableHlo.after hostOps0 W (Proc.devRef .tc main_v1) : S2048x2048.Idx → EReal) = (W main_arg6 : S2048x2048.Idx → EReal) := by
  after_results; rfl
theorem w_v1 : (B1 m c main_v1 : S2048x2048.Idx → EReal) = (m ((c : Thread nD τ).loc main_arg6) : S2048x2048.Idx → EReal) := wW_v1 (B0 m c)
theorem wW_v2 (W : Valuation τ sig (Elt Ideal)) :
    (StableHlo.after hostOps0 W (Proc.devRef .tc main_v2) : S2048x6144.Idx → EReal) = (W main_arg8 : S2048x6144.Idx → EReal) := by
  after_results; rfl
theorem w_v2 : (B1 m c main_v2 : S2048x6144.Idx → EReal) = (m ((c : Thread nD τ).loc main_arg8) : S2048x6144.Idx → EReal) := wW_v2 (B0 m c)
theorem wW_v3 (W : Valuation τ sig (Elt Ideal)) :
    (StableHlo.after hostOps0 W (Proc.devRef .tc main_v3) : S2048x6144.Idx → EReal) = (W main_arg9 : S2048x6144.Idx → EReal) := by
  after_results; rfl
theorem w_v3 : (B1 m c main_v3 : S2048x6144.Idx → EReal) = (m ((c : Thread nD τ).loc main_arg9) : S2048x6144.Idx → EReal) := wW_v3 (B0 m c)
theorem wW_v4 (W : Valuation τ sig (Elt Ideal)) :
    (StableHlo.after hostOps0 W (Proc.devRef .tc main_v4) : S2048x2048.Idx → EReal) = (W main_arg12 : S2048x2048.Idx → EReal) := by
  after_results; rfl
theorem w_v4 : (B1 m c main_v4 : S2048x2048.Idx → EReal) = (m ((c : Thread nD τ).loc main_arg12) : S2048x2048.Idx → EReal) := wW_v4 (B0 m c)
theorem wW_v5 (W : Valuation τ sig (Elt Ideal)) :
    (StableHlo.after hostOps0 W (Proc.devRef .tc main_v5) : S2048x2048.Idx → EReal) = (W main_arg14 : S2048x2048.Idx → EReal) := by
  after_results; rfl
theorem w_v5 : (B1 m c main_v5 : S2048x2048.Idx → EReal) = (m ((c : Thread nD τ).loc main_arg14) : S2048x2048.Idx → EReal) := wW_v5 (B0 m c)
theorem wW_v6 (W : Valuation τ sig (Elt Ideal)) :
    (StableHlo.after hostOps0 W (Proc.devRef .tc main_v6) : S2048x1024.Idx → EReal) = (W main_arg16 : S2048x1024.Idx → EReal) := by
  after_results; rfl
theorem w_v6 : (B1 m c main_v6 : S2048x1024.Idx → EReal) = (m ((c : Thread nD τ).loc main_arg16) : S2048x1024.Idx → EReal) := wW_v6 (B0 m c)
theorem wW_v7 (W : Valuation τ sig (Elt Ideal)) :
    (StableHlo.after hostOps0 W (Proc.devRef .tc main_v7) : S2048x1024.Idx → EReal) = (W main_arg18 : S2048x1024.Idx → EReal) := by
  after_results; rfl
theorem w_v7 : (B1 m c main_v7 : S2048x1024.Idx → EReal) = (m ((c : Thread nD τ).loc main_arg18) : S2048x1024.Idx → EReal) := wW_v7 (B0 m c)
theorem wW_v8 (W : Valuation τ sig (Elt Ideal)) :
    (StableHlo.after hostOps0 W (Proc.devRef .tc main_v8) : S4096x2048.Idx → EReal) = (W main_arg20 : S4096x2048.Idx → EReal) := by
  after_results; rfl
theorem w_v8 : (B1 m c main_v8 : S4096x2048.Idx → EReal) = (m ((c : Thread nD τ).loc main_arg20) : S4096x2048.Idx → EReal) := wW_v8 (B0 m c)
theorem wW_v9 (W : Valuation τ sig (Elt Ideal)) :
    (StableHlo.after hostOps0 W (Proc.devRef .tc main_v9) : S2048x2048.Idx → EReal) = (W main_arg22 : S2048x2048.Idx → EReal) := by
  after_results; rfl
theorem w_v9 : (B1 m c main_v9 : S2048x2048.Idx → EReal) = (m ((c : Thread nD τ).loc main_arg22) : S2048x2048.Idx → EReal) := wW_v9 (B0 m c)
theorem wW_v10 (W : Valuation τ sig (Elt Ideal)) :
    (StableHlo.after hostOps0 W (Proc.devRef .tc main_v10) : S2048x1024.Idx → EReal) = (W main_arg24 : S2048x1024.Idx → EReal) := by
  after_results; rfl
theorem w_v10 : (B1 m c main_v10 : S2048x1024.Idx → EReal) = (m ((c : Thread nD τ).loc main_arg24) : S2048x1024.Idx → EReal) := wW_v10 (B0 m c)
theorem wW_v11 (W : Valuation τ sig (Elt Ideal)) :
    (StableHlo.after hostOps0 W (Proc.devRef .tc main_v11) : S2048x1024.Idx → EReal) = (W main_arg26 : S2048x1024.Idx → EReal) := by
  after_results; rfl
theorem w_v11 : (B1 m c main_v11 : S2048x1024.Idx → EReal) = (m ((c : Thread nD τ).loc main_arg26) : S2048x1024.Idx → EReal) := wW_v11 (B0 m c)

/-! ### A bias after its reshape to one row, read as a row, is the bias before it -/

theorem bW_v12 (W : Valuation τ sig (Elt Ideal)) :
    row1 (mat (StableHlo.after hostOps0 W (Proc.devRef .tc main_v12) : S1x2048.Idx → EReal)) = row (W main_arg5 : S2048.Idx → EReal) := by
  have e : (StableHlo.after hostOps0 W (Proc.devRef .tc main_v12) : S1x2048.Idx → EReal)
      = shapeCast S1x2048 (W main_arg5 : S2048.Idx → EReal) shapeCasts_S2048_S1x2048 := by
    after_results; rfl
  rw [e]; exact row1_reshape _ _
theorem b_v12 : row1 (mat (B1 m c main_v12 : S1x2048.Idx → EReal)) = row (m ((c : Thread nD τ).loc main_arg5) : S2048.Idx → EReal) :=
  (bW_v12 (B0 m c)).trans (congrArg row ((rfl : B0 m c main_arg5 = B0 m c main_arg5)))
theorem bW_v13 (W : Valuation τ sig (Elt Ideal)) :
    row1 (mat (StableHlo.after hostOps0 W (Proc.devRef .tc main_v13) : S1x2048.Idx → EReal)) = row (W main_arg7 : S2048.Idx → EReal) := by
  have e : (StableHlo.after hostOps0 W (Proc.devRef .tc main_v13) : S1x2048.Idx → EReal)
      = shapeCast S1x2048 (W main_arg7 : S2048.Idx → EReal) shapeCasts_S2048_S1x2048 := by
    after_results; rfl
  rw [e]; exact row1_reshape _ _
theorem b_v13 : row1 (mat (B1 m c main_v13 : S1x2048.Idx → EReal)) = row (m ((c : Thread nD τ).loc main_arg7) : S2048.Idx → EReal) :=
  (bW_v13 (B0 m c)).trans (congrArg row ((rfl : B0 m c main_arg7 = B0 m c main_arg7)))
theorem bW_v15 (W : Valuation τ sig (Elt Ideal)) :
    row1 (mat (StableHlo.after hostOps1 W (Proc.devRef .tc main_v15) : S1x6144.Idx → EReal)) = row (W main_arg10 : S6144.Idx → EReal) := by
  have e : (StableHlo.after hostOps1 W (Proc.devRef .tc main_v15) : S1x6144.Idx → EReal)
      = shapeCast S1x6144 (W main_arg10 : S6144.Idx → EReal) shapeCasts_S6144_S1x6144 := by
    after_results; rfl
  rw [e]; exact row1_reshape _ _
theorem b_v15 : row1 (mat (B3 m c main_v15 : S1x6144.Idx → EReal)) = row (m ((c : Thread nD τ).loc main_arg10) : S6144.Idx → EReal) :=
  (bW_v15 (B2 m c)).trans (congrArg row (((B2_of m c main_arg10 (by decide)).trans ((B1_of m c main_arg10 (by decide))))))
theorem bW_v16 (W : Valuation τ sig (Elt Ideal)) :
    row1 (mat (StableHlo.after hostOps1 W (Proc.devRef .tc main_v16) : S1x6144.Idx → EReal)) = row (W main_arg11 : S6144.Idx → EReal) := by
  have e : (StableHlo.after hostOps1 W (Proc.devRef .tc main_v16) : S1x6144.Idx → EReal)
      = shapeCast S1x6144 (W main_arg11 : S6144.Idx → EReal) shapeCasts_S6144_S1x6144 := by
    after_results; rfl
  rw [e]; exact row1_reshape _ _
theorem b_v16 : row1 (mat (B3 m c main_v16 : S1x6144.Idx → EReal)) = row (m ((c : Thread nD τ).loc main_arg11) : S6144.Idx → EReal) :=
  (bW_v16 (B2 m c)).trans (congrArg row (((B2_of m c main_arg11 (by decide)).trans ((B1_of m c main_arg11 (by decide))))))
theorem bW_v18 (W : Valuation τ sig (Elt Ideal)) :
    row1 (mat (StableHlo.after hostOps2 W (Proc.devRef .tc main_v18) : S1x6144.Idx → EReal)) = row (W main_arg10 : S6144.Idx → EReal) := by
  have e : (StableHlo.after hostOps2 W (Proc.devRef .tc main_v18) : S1x6144.Idx → EReal)
      = shapeCast S1x6144 (W main_arg10 : S6144.Idx → EReal) shapeCasts_S6144_S1x6144 := by
    after_results; rfl
  rw [e]; exact row1_reshape _ _
theorem b_v18 : row1 (mat (B5 m c main_v18 : S1x6144.Idx → EReal)) = row (m ((c : Thread nD τ).loc main_arg10) : S6144.Idx → EReal) :=
  (bW_v18 (B4 m c)).trans (congrArg row (((B4_of m c main_arg10 (by decide)).trans ((B3_of m c main_arg10 (by decide)).trans ((B2_of m c main_arg10 (by decide)).trans ((B1_of m c main_arg10 (by decide))))))))
theorem bW_v19 (W : Valuation τ sig (Elt Ideal)) :
    row1 (mat (StableHlo.after hostOps2 W (Proc.devRef .tc main_v19) : S1x6144.Idx → EReal)) = row (W main_arg11 : S6144.Idx → EReal) := by
  have e : (StableHlo.after hostOps2 W (Proc.devRef .tc main_v19) : S1x6144.Idx → EReal)
      = shapeCast S1x6144 (W main_arg11 : S6144.Idx → EReal) shapeCasts_S6144_S1x6144 := by
    after_results; rfl
  rw [e]; exact row1_reshape _ _
theorem b_v19 : row1 (mat (B5 m c main_v19 : S1x6144.Idx → EReal)) = row (m ((c : Thread nD τ).loc main_arg11) : S6144.Idx → EReal) :=
  (bW_v19 (B4 m c)).trans (congrArg row (((B4_of m c main_arg11 (by decide)).trans ((B3_of m c main_arg11 (by decide)).trans ((B2_of m c main_arg11 (by decide)).trans ((B1_of m c main_arg11 (by decide))))))))
theorem bW_v21 (W : Valuation τ sig (Elt Ideal)) :
    row1 (mat (StableHlo.after hostOps3 W (Proc.devRef .tc main_v21) : S1x6144.Idx → EReal)) = row (W main_arg10 : S6144.Idx → EReal) := by
  have e : (StableHlo.after hostOps3 W (Proc.devRef .tc main_v21) : S1x6144.Idx → EReal)
      = shapeCast S1x6144 (W main_arg10 : S6144.Idx → EReal) shapeCasts_S6144_S1x6144 := by
    after_results; rfl
  rw [e]; exact row1_reshape _ _
theorem b_v21 : row1 (mat (B7 m c main_v21 : S1x6144.Idx → EReal)) = row (m ((c : Thread nD τ).loc main_arg10) : S6144.Idx → EReal) :=
  (bW_v21 (B6 m c)).trans (congrArg row (((B6_of m c main_arg10 (by decide)).trans ((B5_of m c main_arg10 (by decide)).trans ((B4_of m c main_arg10 (by decide)).trans ((B3_of m c main_arg10 (by decide)).trans ((B2_of m c main_arg10 (by decide)).trans ((B1_of m c main_arg10 (by decide))))))))))
theorem bW_v22 (W : Valuation τ sig (Elt Ideal)) :
    row1 (mat (StableHlo.after hostOps3 W (Proc.devRef .tc main_v22) : S1x6144.Idx → EReal)) = row (W main_arg11 : S6144.Idx → EReal) := by
  have e : (StableHlo.after hostOps3 W (Proc.devRef .tc main_v22) : S1x6144.Idx → EReal)
      = shapeCast S1x6144 (W main_arg11 : S6144.Idx → EReal) shapeCasts_S6144_S1x6144 := by
    after_results; rfl
  rw [e]; exact row1_reshape _ _
theorem b_v22 : row1 (mat (B7 m c main_v22 : S1x6144.Idx → EReal)) = row (m ((c : Thread nD τ).loc main_arg11) : S6144.Idx → EReal) :=
  (bW_v22 (B6 m c)).trans (congrArg row (((B6_of m c main_arg11 (by decide)).trans ((B5_of m c main_arg11 (by decide)).trans ((B4_of m c main_arg11 (by decide)).trans ((B3_of m c main_arg11 (by decide)).trans ((B2_of m c main_arg11 (by decide)).trans ((B1_of m c main_arg11 (by decide))))))))))
theorem bW_v24 (W : Valuation τ sig (Elt Ideal)) :
    row1 (mat (StableHlo.after hostOps4 W (Proc.devRef .tc main_v24) : S1x2048.Idx → EReal)) = row (W main_arg13 : S2048.Idx → EReal) := by
  have e : (StableHlo.after hostOps4 W (Proc.devRef .tc main_v24) : S1x2048.Idx → EReal)
      = shapeCast S1x2048 (W main_arg13 : S2048.Idx → EReal) shapeCasts_S2048_S1x2048 := by
    after_results; rfl
  rw [e]; exact row1_reshape _ _
theorem b_v24 : row1 (mat (B9 m c main_v24 : S1x2048.Idx → EReal)) = row (m ((c : Thread nD τ).loc main_arg13) : S2048.Idx → EReal) :=
  (bW_v24 (B8 m c)).trans (congrArg row (((B8_of m c main_arg13 (by decide)).trans ((B7_of m c main_arg13 (by decide)).trans ((B6_of m c main_arg13 (by decide)).trans ((B5_of m c main_arg13 (by decide)).trans ((B4_of m c main_arg13 (by decide)).trans ((B3_of m c main_arg13 (by decide)).trans ((B2_of m c main_arg13 (by decide)).trans ((B1_of m c main_arg13 (by decide))))))))))))
theorem bW_v25 (W : Valuation τ sig (Elt Ideal)) :
    row1 (mat (StableHlo.after hostOps4 W (Proc.devRef .tc main_v25) : S1x2048.Idx → EReal)) = row (W main_arg15 : S2048.Idx → EReal) := by
  have e : (StableHlo.after hostOps4 W (Proc.devRef .tc main_v25) : S1x2048.Idx → EReal)
      = shapeCast S1x2048 (W main_arg15 : S2048.Idx → EReal) shapeCasts_S2048_S1x2048 := by
    after_results; rfl
  rw [e]; exact row1_reshape _ _
theorem b_v25 : row1 (mat (B9 m c main_v25 : S1x2048.Idx → EReal)) = row (m ((c : Thread nD τ).loc main_arg15) : S2048.Idx → EReal) :=
  (bW_v25 (B8 m c)).trans (congrArg row (((B8_of m c main_arg15 (by decide)).trans ((B7_of m c main_arg15 (by decide)).trans ((B6_of m c main_arg15 (by decide)).trans ((B5_of m c main_arg15 (by decide)).trans ((B4_of m c main_arg15 (by decide)).trans ((B3_of m c main_arg15 (by decide)).trans ((B2_of m c main_arg15 (by decide)).trans ((B1_of m c main_arg15 (by decide))))))))))))
theorem bW_v26 (W : Valuation τ sig (Elt Ideal)) :
    row1 (mat (StableHlo.after hostOps4 W (Proc.devRef .tc main_v26) : S1x1024.Idx → EReal)) = row (W main_arg17 : S1024.Idx → EReal) := by
  have e : (StableHlo.after hostOps4 W (Proc.devRef .tc main_v26) : S1x1024.Idx → EReal)
      = shapeCast S1x1024 (W main_arg17 : S1024.Idx → EReal) shapeCasts_S1024_S1x1024 := by
    after_results; rfl
  rw [e]; exact row1_reshape _ _
theorem b_v26 : row1 (mat (B9 m c main_v26 : S1x1024.Idx → EReal)) = row (m ((c : Thread nD τ).loc main_arg17) : S1024.Idx → EReal) :=
  (bW_v26 (B8 m c)).trans (congrArg row (((B8_of m c main_arg17 (by decide)).trans ((B7_of m c main_arg17 (by decide)).trans ((B6_of m c main_arg17 (by decide)).trans ((B5_of m c main_arg17 (by decide)).trans ((B4_of m c main_arg17 (by decide)).trans ((B3_of m c main_arg17 (by decide)).trans ((B2_of m c main_arg17 (by decide)).trans ((B1_of m c main_arg17 (by decide))))))))))))
theorem bW_v27 (W : Valuation τ sig (Elt Ideal)) :
    row1 (mat (StableHlo.after hostOps4 W (Proc.devRef .tc main_v27) : S1x1024.Idx → EReal)) = row (W main_arg19 : S1024.Idx → EReal) := by
  have e : (StableHlo.after hostOps4 W (Proc.devRef .tc main_v27) : S1x1024.Idx → EReal)
      = shapeCast S1x1024 (W main_arg19 : S1024.Idx → EReal) shapeCasts_S1024_S1x1024 := by
    after_results; rfl
  rw [e]; exact row1_reshape _ _
theorem b_v27 : row1 (mat (B9 m c main_v27 : S1x1024.Idx → EReal)) = row (m ((c : Thread nD τ).loc main_arg19) : S1024.Idx → EReal) :=
  (bW_v27 (B8 m c)).trans (congrArg row (((B8_of m c main_arg19 (by decide)).trans ((B7_of m c main_arg19 (by decide)).trans ((B6_of m c main_arg19 (by decide)).trans ((B5_of m c main_arg19 (by decide)).trans ((B4_of m c main_arg19 (by decide)).trans ((B3_of m c main_arg19 (by decide)).trans ((B2_of m c main_arg19 (by decide)).trans ((B1_of m c main_arg19 (by decide))))))))))))
theorem bW_v29 (W : Valuation τ sig (Elt Ideal)) :
    row1 (mat (StableHlo.after hostOps5 W (Proc.devRef .tc main_v29) : S1x2048.Idx → EReal)) = row (W main_arg21 : S2048.Idx → EReal) := by
  have e : (StableHlo.after hostOps5 W (Proc.devRef .tc main_v29) : S1x2048.Idx → EReal)
      = shapeCast S1x2048 (W main_arg21 : S2048.Idx → EReal) shapeCasts_S2048_S1x2048 := by
    after_results; rfl
  rw [e]; exact row1_reshape _ _
theorem b_v29 : row1 (mat (B11 m c main_v29 : S1x2048.Idx → EReal)) = row (m ((c : Thread nD τ).loc main_arg21) : S2048.Idx → EReal) :=
  (bW_v29 (B10 m c)).trans (congrArg row (((B10_of m c main_arg21 (by decide)).trans ((B9_of m c main_arg21 (by decide)).trans ((B8_of m c main_arg21 (by decide)).trans ((B7_of m c main_arg21 (by decide)).trans ((B6_of m c main_arg21 (by decide)).trans ((B5_of m c main_arg21 (by decide)).trans ((B4_of m c main_arg21 (by decide)).trans ((B3_of m c main_arg21 (by decide)).trans ((B2_of m c main_arg21 (by decide)).trans ((B1_of m c main_arg21 (by decide))))))))))))))
theorem bW_v31 (W : Valuation τ sig (Elt Ideal)) :
    row1 (mat (StableHlo.after hostOps6 W (Proc.devRef .tc main_v31) : S1x2048.Idx → EReal)) = row (W main_arg23 : S2048.Idx → EReal) := by
  have e : (StableHlo.after hostOps6 W (Proc.devRef .tc main_v31) : S1x2048.Idx → EReal)
      = shapeCast S1x2048 (W main_arg23 : S2048.Idx → EReal) shapeCasts_S2048_S1x2048 := by
    after_results; rfl
  rw [e]; exact row1_reshape _ _
theorem b_v31 : row1 (mat (B13 m c main_v31 : S1x2048.Idx → EReal)) = row (m ((c : Thread nD τ).loc main_arg23) : S2048.Idx → EReal) :=
  (bW_v31 (B12 m c)).trans (congrArg row (((B12_of m c main_arg23 (by decide)).trans ((B11_of m c main_arg23 (by decide)).trans ((B10_of m c main_arg23 (by decide)).trans ((B9_of m c main_arg23 (by decide)).trans ((B8_of m c main_arg23 (by decide)).trans ((B7_of m c main_arg23 (by decide)).trans ((B6_of m c main_arg23 (by decide)).trans ((B5_of m c main_arg23 (by decide)).trans ((B4_of m c main_arg23 (by decide)).trans ((B3_of m c main_arg23 (by decide)).trans ((B2_of m c main_arg23 (by decide)).trans ((B1_of m c main_arg23 (by decide))))))))))))))))
theorem bW_v32 (W : Valuation τ sig (Elt Ideal)) :
    row1 (mat (StableHlo.after hostOps6 W (Proc.devRef .tc main_v32) : S1x1024.Idx → EReal)) = row (W main_arg25 : S1024.Idx → EReal) := by
  have e : (StableHlo.after hostOps6 W (Proc.devRef .tc main_v32) : S1x1024.Idx → EReal)
      = shapeCast S1x1024 (W main_arg25 : S1024.Idx → EReal) shapeCasts_S1024_S1x1024 := by
    after_results; rfl
  rw [e]; exact row1_reshape _ _
theorem b_v32 : row1 (mat (B13 m c main_v32 : S1x1024.Idx → EReal)) = row (m ((c : Thread nD τ).loc main_arg25) : S1024.Idx → EReal) :=
  (bW_v32 (B12 m c)).trans (congrArg row (((B12_of m c main_arg25 (by decide)).trans ((B11_of m c main_arg25 (by decide)).trans ((B10_of m c main_arg25 (by decide)).trans ((B9_of m c main_arg25 (by decide)).trans ((B8_of m c main_arg25 (by decide)).trans ((B7_of m c main_arg25 (by decide)).trans ((B6_of m c main_arg25 (by decide)).trans ((B5_of m c main_arg25 (by decide)).trans ((B4_of m c main_arg25 (by decide)).trans ((B3_of m c main_arg25 (by decide)).trans ((B2_of m c main_arg25 (by decide)).trans ((B1_of m c main_arg25 (by decide))))))))))))))))
theorem bW_v33 (W : Valuation τ sig (Elt Ideal)) :
    row1 (mat (StableHlo.after hostOps6 W (Proc.devRef .tc main_v33) : S1x1024.Idx → EReal)) = row (W main_arg27 : S1024.Idx → EReal) := by
  have e : (StableHlo.after hostOps6 W (Proc.devRef .tc main_v33) : S1x1024.Idx → EReal)
      = shapeCast S1x1024 (W main_arg27 : S1024.Idx → EReal) shapeCasts_S1024_S1x1024 := by
    after_results; rfl
  rw [e]; exact row1_reshape _ _
theorem b_v33 : row1 (mat (B13 m c main_v33 : S1x1024.Idx → EReal)) = row (m ((c : Thread nD τ).loc main_arg27) : S1024.Idx → EReal) :=
  (bW_v33 (B12 m c)).trans (congrArg row (((B12_of m c main_arg27 (by decide)).trans ((B11_of m c main_arg27 (by decide)).trans ((B10_of m c main_arg27 (by decide)).trans ((B9_of m c main_arg27 (by decide)).trans ((B8_of m c main_arg27 (by decide)).trans ((B7_of m c main_arg27 (by decide)).trans ((B6_of m c main_arg27 (by decide)).trans ((B5_of m c main_arg27 (by decide)).trans ((B4_of m c main_arg27 (by decide)).trans ((B3_of m c main_arg27 (by decide)).trans ((B2_of m c main_arg27 (by decide)).trans ((B1_of m c main_arg27 (by decide))))))))))))))))

/-! ## What each region leaves, as a matrix -/

def h1M : Mat 4096 2048 := mat (B2 m c main_v14 : S4096x2048.Idx → EReal)
def rM : Mat 4096 2048 := mat (B4 m c main_v17 : S4096x2048.Idx → EReal)
def zM : Mat 4096 2048 := mat (B6 m c main_v20 : S4096x2048.Idx → EReal)
def belM : Mat 4096 2048 := mat (B8 m c main_v23 : S4096x2048.Idx → EReal)
def m1M : Mat 4096 1024 := mat (B10 m c main_v28_0 : S4096x1024.Idx → EReal)
def s1M : Mat 4096 1024 := mat (B10 m c main_v28_1 : S4096x1024.Idx → EReal)
def hq0M : Mat 4096 2048 := mat (B12 m c main_v30 : S4096x2048.Idx → EReal)
def m2M : Mat 4096 1024 := mat (B14 m c main_v34_0 : S4096x1024.Idx → EReal)
def s2M : Mat 4096 1024 := mat (B14 m c main_v34_1 : S4096x1024.Idx → EReal)

theorem h1M_eq : h1M m c = G0_6 (mat (m ((c : Thread nD τ).loc main_arg0) : S4096x1024.Idx → EReal)) (mat (m ((c : Thread nD τ).loc main_arg1) : S4096x512.Idx → EReal)) (mat (m ((c : Thread nD τ).loc main_arg4) : S1536x2048.Idx → EReal)) (row (m ((c : Thread nD τ).loc main_arg5) : S2048.Idx → EReal)) (mat (m ((c : Thread nD τ).loc main_arg6) : S2048x2048.Idx → EReal)) (row (m ((c : Thread nD τ).loc main_arg7) : S2048.Idx → EReal)) := by
  funext n q
  show (B2 m c main_v14 : S4096x2048.Idx → EReal) (ix2 n q) = _
  have e : (B2 m c main_v14 : S4096x2048.Idx → EReal) = (dat0 (F := Ideal) (E1 m) c).arrAt 6 cfg0.N := by
    unfold B2; exact Function.update_self _ _ _
  rw [e, final0_6 (E1 m) c n q]
  have i0 : (E1 m c main_arg0 : S4096x1024.Idx → EReal) = (m ((c : Thread nD τ).loc main_arg0) : S4096x1024.Idx → EReal) := ((B1_of m c main_arg0 (by decide)))
  have i1 : (E1 m c main_arg1 : S4096x512.Idx → EReal) = (m ((c : Thread nD τ).loc main_arg1) : S4096x512.Idx → EReal) := ((B1_of m c main_arg1 (by decide)))
  have i2 : (E1 m c main_v0 : S1536x2048.Idx → EReal) = (m ((c : Thread nD τ).loc main_arg4) : S1536x2048.Idx → EReal) := w_v0 m c
  have i3 : row1 (mat (E1 m c main_v12 : S1x2048.Idx → EReal)) = row (m ((c : Thread nD τ).loc main_arg5) : S2048.Idx → EReal) := b_v12 m c
  have i4 : (E1 m c main_v1 : S2048x2048.Idx → EReal) = (m ((c : Thread nD τ).loc main_arg6) : S2048x2048.Idx → EReal) := w_v1 m c
  have i5 : row1 (mat (E1 m c main_v13 : S1x2048.Idx → EReal)) = row (m ((c : Thread nD τ).loc main_arg7) : S2048.Idx → EReal) := b_v13 m c
  rw [i0, i1, i2, i3, i4, i5]

theorem rM_eq : rM m c = G1_6 (h1M m c) (mat (m ((c : Thread nD τ).loc main_arg2) : S4096x2048.Idx → EReal)) (cols (2048 * 0) 2048 (by decide) (mat (m ((c : Thread nD τ).loc main_arg8) : S2048x6144.Idx → EReal))) (cols (2048 * 0) 2048 (by decide) (mat (m ((c : Thread nD τ).loc main_arg9) : S2048x6144.Idx → EReal))) (colsR (2048 * 0) 2048 (by decide) (row (m ((c : Thread nD τ).loc main_arg10) : S6144.Idx → EReal))) (colsR (2048 * 0) 2048 (by decide) (row (m ((c : Thread nD τ).loc main_arg11) : S6144.Idx → EReal))) := by
  funext n q
  show (B4 m c main_v17 : S4096x2048.Idx → EReal) (ix2 n q) = _
  have e : (B4 m c main_v17 : S4096x2048.Idx → EReal) = (dat1 (F := Ideal) (E3 m) c).arrAt 6 cfg1.N := by
    unfold B4; exact Function.update_self _ _ _
  rw [e, final1_6 (E3 m) c n q]
  have i0 : mat (E3 m c main_v14 : S4096x2048.Idx → EReal) = h1M m c := congrArg mat (((B3_of m c main_v14 (by decide))))
  have i1 : (E3 m c main_arg2 : S4096x2048.Idx → EReal) = (m ((c : Thread nD τ).loc main_arg2) : S4096x2048.Idx → EReal) := ((B3_of m c main_arg2 (by decide)).trans ((B2_of m c main_arg2 (by decide)).trans ((B1_of m c main_arg2 (by decide)))))
  have i2 : (E3 m c main_v2 : S2048x6144.Idx → EReal) = (m ((c : Thread nD τ).loc main_arg8) : S2048x6144.Idx → EReal) := (((B3_of m c main_v2 (by decide)).trans ((B2_of m c main_v2 (by decide))))).trans (w_v2 m c)
  have i3 : (E3 m c main_v3 : S2048x6144.Idx → EReal) = (m ((c : Thread nD τ).loc main_arg9) : S2048x6144.Idx → EReal) := (((B3_of m c main_v3 (by decide)).trans ((B2_of m c main_v3 (by decide))))).trans (w_v3 m c)
  have i4 : row1 (mat (E3 m c main_v15 : S1x6144.Idx → EReal)) = row (m ((c : Thread nD τ).loc main_arg10) : S6144.Idx → EReal) := b_v15 m c
  have i5 : row1 (mat (E3 m c main_v16 : S1x6144.Idx → EReal)) = row (m ((c : Thread nD τ).loc main_arg11) : S6144.Idx → EReal) := b_v16 m c
  rw [i0, i1, i2, i3, i4, i5]

theorem zM_eq : zM m c = G2_6 (h1M m c) (mat (m ((c : Thread nD τ).loc main_arg2) : S4096x2048.Idx → EReal)) (cols (2048 * 1) 2048 (by decide) (mat (m ((c : Thread nD τ).loc main_arg8) : S2048x6144.Idx → EReal))) (cols (2048 * 1) 2048 (by decide) (mat (m ((c : Thread nD τ).loc main_arg9) : S2048x6144.Idx → EReal))) (colsR (2048 * 1) 2048 (by decide) (row (m ((c : Thread nD τ).loc main_arg10) : S6144.Idx → EReal))) (colsR (2048 * 1) 2048 (by decide) (row (m ((c : Thread nD τ).loc main_arg11) : S6144.Idx → EReal))) := by
  funext n q
  show (B6 m c main_v20 : S4096x2048.Idx → EReal) (ix2 n q) = _
  have e : (B6 m c main_v20 : S4096x2048.Idx → EReal) = (dat2 (F := Ideal) (E5 m) c).arrAt 6 cfg2.N := by
    unfold B6; exact Function.update_self _ _ _
  rw [e, final2_6 (E5 m) c n q]
  have i0 : mat (E5 m c main_v14 : S4096x2048.Idx → EReal) = h1M m c := congrArg mat (((B5_of m c main_v14 (by decide)).trans ((B4_of m c main_v14 (by decide)).trans ((B3_of m c main_v14 (by decide))))))
  have i1 : (E5 m c main_arg2 : S4096x2048.Idx → EReal) = (m ((c : Thread nD τ).loc main_arg2) : S4096x2048.Idx → EReal) := ((B5_of m c main_arg2 (by decide)).trans ((B4_of m c main_arg2 (by decide)).trans ((B3_of m c main_arg2 (by decide)).trans ((B2_of m c main_arg2 (by decide)).trans ((B1_of m c main_arg2 (by decide)))))))
  have i2 : (E5 m c main_v2 : S2048x6144.Idx → EReal) = (m ((c : Thread nD τ).loc main_arg8) : S2048x6144.Idx → EReal) := (((B5_of m c main_v2 (by decide)).trans ((B4_of m c main_v2 (by decide)).trans ((B3_of m c main_v2 (by decide)).trans ((B2_of m c main_v2 (by decide))))))).trans (w_v2 m c)
  have i3 : (E5 m c main_v3 : S2048x6144.Idx → EReal) = (m ((c : Thread nD τ).loc main_arg9) : S2048x6144.Idx → EReal) := (((B5_of m c main_v3 (by decide)).trans ((B4_of m c main_v3 (by decide)).trans ((B3_of m c main_v3 (by decide)).trans ((B2_of m c main_v3 (by decide))))))).trans (w_v3 m c)
  have i4 : row1 (mat (E5 m c main_v18 : S1x6144.Idx → EReal)) = row (m ((c : Thread nD τ).loc main_arg10) : S6144.Idx → EReal) := b_v18 m c
  have i5 : row1 (mat (E5 m c main_v19 : S1x6144.Idx → EReal)) = row (m ((c : Thread nD τ).loc main_arg11) : S6144.Idx → EReal) := b_v19 m c
  rw [i0, i1, i2, i3, i4, i5]

theorem belM_eq : belM m c = G3_8 (h1M m c) (mat (m ((c : Thread nD τ).loc main_arg2) : S4096x2048.Idx → EReal)) (rM m c) (zM m c) (cols (2048 * 2) 2048 (by decide) (mat (m ((c : Thread nD τ).loc main_arg8) : S2048x6144.Idx → EReal))) (cols (2048 * 2) 2048 (by decide) (mat (m ((c : Thread nD τ).loc main_arg9) : S2048x6144.Idx → EReal))) (colsR (2048 * 2) 2048 (by decide) (row (m ((c : Thread nD τ).loc main_arg10) : S6144.Idx → EReal))) (colsR (2048 * 2) 2048 (by decide) (row (m ((c : Thread nD τ).loc main_arg11) : S6144.Idx → EReal))) := by
  funext n q
  show (B8 m c main_v23 : S4096x2048.Idx → EReal) (ix2 n q) = _
  have e : (B8 m c main_v23 : S4096x2048.Idx → EReal) = (dat3 (F := Ideal) (E7 m) c).arrAt 8 cfg3.N := by
    unfold B8; exact Function.update_self _ _ _
  rw [e, final3_8 (E7 m) c n q]
  have i0 : mat (E7 m c main_v14 : S4096x2048.Idx → EReal) = h1M m c := congrArg mat (((B7_of m c main_v14 (by decide)).trans ((B6_of m c main_v14 (by decide)).trans ((B5_of m c main_v14 (by decide)).trans ((B4_of m c main_v14 (by decide)).trans ((B3_of m c main_v14 (by decide))))))))
  have i1 : (E7 m c main_arg2 : S4096x2048.Idx → EReal) = (m ((c : Thread nD τ).loc main_arg2) : S4096x2048.Idx → EReal) := ((B7_of m c main_arg2 (by decide)).trans ((B6_of m c main_arg2 (by decide)).trans ((B5_of m c main_arg2 (by decide)).trans ((B4_of m c main_arg2 (by decide)).trans ((B3_of m c main_arg2 (by decide)).trans ((B2_of m c main_arg2 (by decide)).trans ((B1_of m c main_arg2 (by decide)))))))))
  have i2 : mat (E7 m c main_v17 : S4096x2048.Idx → EReal) = rM m c := congrArg mat (((B7_of m c main_v17 (by decide)).trans ((B6_of m c main_v17 (by decide)).trans ((B5_of m c main_v17 (by decide))))))
  have i3 : mat (E7 m c main_v20 : S4096x2048.Idx → EReal) = zM m c := congrArg mat (((B7_of m c main_v20 (by decide))))
  have i4 : (E7 m c main_v2 : S2048x6144.Idx → EReal) = (m ((c : Thread nD τ).loc main_arg8) : S2048x6144.Idx → EReal) := (((B7_of m c main_v2 (by decide)).trans ((B6_of m c main_v2 (by decide)).trans ((B5_of m c main_v2 (by decide)).trans ((B4_of m c main_v2 (by decide)).trans ((B3_of m c main_v2 (by decide)).trans ((B2_of m c main_v2 (by decide))))))))).trans (w_v2 m c)
  have i5 : (E7 m c main_v3 : S2048x6144.Idx → EReal) = (m ((c : Thread nD τ).loc main_arg9) : S2048x6144.Idx → EReal) := (((B7_of m c main_v3 (by decide)).trans ((B6_of m c main_v3 (by decide)).trans ((B5_of m c main_v3 (by decide)).trans ((B4_of m c main_v3 (by decide)).trans ((B3_of m c main_v3 (by decide)).trans ((B2_of m c main_v3 (by decide))))))))).trans (w_v3 m c)
  have i6 : row1 (mat (E7 m c main_v21 : S1x6144.Idx → EReal)) = row (m ((c : Thread nD τ).loc main_arg10) : S6144.Idx → EReal) := b_v21 m c
  have i7 : row1 (mat (E7 m c main_v22 : S1x6144.Idx → EReal)) = row (m ((c : Thread nD τ).loc main_arg11) : S6144.Idx → EReal) := b_v22 m c
  rw [i0, i1, i2, i3, i4, i5, i6, i7]

theorem m1M_eq : m1M m c = G4_9 (belM m c) (mat (m ((c : Thread nD τ).loc main_arg12) : S2048x2048.Idx → EReal)) (row (m ((c : Thread nD τ).loc main_arg13) : S2048.Idx → EReal)) (mat (m ((c : Thread nD τ).loc main_arg14) : S2048x2048.Idx → EReal)) (row (m ((c : Thread nD τ).loc main_arg15) : S2048.Idx → EReal)) (mat (m ((c : Thread nD τ).loc main_arg16) : S2048x1024.Idx → EReal)) (row (m ((c : Thread nD τ).loc main_arg17) : S1024.Idx → EReal)) := by
  funext n q
  show (B10 m c main_v28_0 : S4096x1024.Idx → EReal) (ix2 n q) = _
  have e : (B10 m c main_v28_0 : S4096x1024.Idx → EReal) = (dat4 (F := Ideal) (E9 m) c).arrAt 9 cfg4.N := by
    unfold B10; rw [Function.update_of_ne (StableHlo.devRef_ne_of_ne (by decide) : (Proc.devRef .tc main_v28_0 : DevRef τ sig) ≠ Proc.devRef .tc main_v28_1)]; exact Function.update_self _ _ _
  rw [e, final4_9 (E9 m) c n q]
  have i0 : mat (E9 m c main_v23 : S4096x2048.Idx → EReal) = belM m c := congrArg mat (((B9_of m c main_v23 (by decide))))
  have i1 : (E9 m c main_v4 : S2048x2048.Idx → EReal) = (m ((c : Thread nD τ).loc main_arg12) : S2048x2048.Idx → EReal) := (((B9_of m c main_v4 (by decide)).trans ((B8_of m c main_v4 (by decide)).trans ((B7_of m c main_v4 (by decide)).trans ((B6_of m c main_v4 (by decide)).trans ((B5_of m c main_v4 (by decide)).trans ((B4_of m c main_v4 (by decide)).trans ((B3_of m c main_v4 (by decide)).trans ((B2_of m c main_v4 (by decide))))))))))).trans (w_v4 m c)
  have i2 : row1 (mat (E9 m c main_v24 : S1x2048.Idx → EReal)) = row (m ((c : Thread nD τ).loc main_arg13) : S2048.Idx → EReal) := b_v24 m c
  have i3 : (E9 m c main_v5 : S2048x2048.Idx → EReal) = (m ((c : Thread nD τ).loc main_arg14) : S2048x2048.Idx → EReal) := (((B9_of m c main_v5 (by decide)).trans ((B8_of m c main_v5 (by decide)).trans ((B7_of m c main_v5 (by decide)).trans ((B6_of m c main_v5 (by decide)).trans ((B5_of m c main_v5 (by decide)).trans ((B4_of m c main_v5 (by decide)).trans ((B3_of m c main_v5 (by decide)).trans ((B2_of m c main_v5 (by decide))))))))))).trans (w_v5 m c)
  have i4 : row1 (mat (E9 m c main_v25 : S1x2048.Idx → EReal)) = row (m ((c : Thread nD τ).loc main_arg15) : S2048.Idx → EReal) := b_v25 m c
  have i5 : (E9 m c main_v6 : S2048x1024.Idx → EReal) = (m ((c : Thread nD τ).loc main_arg16) : S2048x1024.Idx → EReal) := (((B9_of m c main_v6 (by decide)).trans ((B8_of m c main_v6 (by decide)).trans ((B7_of m c main_v6 (by decide)).trans ((B6_of m c main_v6 (by decide)).trans ((B5_of m c main_v6 (by decide)).trans ((B4_of m c main_v6 (by decide)).trans ((B3_of m c main_v6 (by decide)).trans ((B2_of m c main_v6 (by decide))))))))))).trans (w_v6 m c)
  have i6 : row1 (mat (E9 m c main_v26 : S1x1024.Idx → EReal)) = row (m ((c : Thread nD τ).loc main_arg17) : S1024.Idx → EReal) := b_v26 m c
  rw [i0, i1, i2, i3, i4, i5, i6]

theorem s1M_eq : s1M m c = G4_10 (belM m c) (mat (m ((c : Thread nD τ).loc main_arg12) : S2048x2048.Idx → EReal)) (row (m ((c : Thread nD τ).loc main_arg13) : S2048.Idx → EReal)) (mat (m ((c : Thread nD τ).loc main_arg14) : S2048x2048.Idx → EReal)) (row (m ((c : Thread nD τ).loc main_arg15) : S2048.Idx → EReal)) (mat (m ((c : Thread nD τ).loc main_arg18) : S2048x1024.Idx → EReal)) (row (m ((c : Thread nD τ).loc main_arg19) : S1024.Idx → EReal)) := by
  funext n q
  show (B10 m c main_v28_1 : S4096x1024.Idx → EReal) (ix2 n q) = _
  have e : (B10 m c main_v28_1 : S4096x1024.Idx → EReal) = (dat4 (F := Ideal) (E9 m) c).arrAt 10 cfg4.N := by
    unfold B10; exact Function.update_self _ _ _
  rw [e, final4_10 (E9 m) c n q]
  have i0 : mat (E9 m c main_v23 : S4096x2048.Idx → EReal) = belM m c := congrArg mat (((B9_of m c main_v23 (by decide))))
  have i1 : (E9 m c main_v4 : S2048x2048.Idx → EReal) = (m ((c : Thread nD τ).loc main_arg12) : S2048x2048.Idx → EReal) := (((B9_of m c main_v4 (by decide)).trans ((B8_of m c main_v4 (by decide)).trans ((B7_of m c main_v4 (by decide)).trans ((B6_of m c main_v4 (by decide)).trans ((B5_of m c main_v4 (by decide)).trans ((B4_of m c main_v4 (by decide)).trans ((B3_of m c main_v4 (by decide)).trans ((B2_of m c main_v4 (by decide))))))))))).trans (w_v4 m c)
  have i2 : row1 (mat (E9 m c main_v24 : S1x2048.Idx → EReal)) = row (m ((c : Thread nD τ).loc main_arg13) : S2048.Idx → EReal) := b_v24 m c
  have i3 : (E9 m c main_v5 : S2048x2048.Idx → EReal) = (m ((c : Thread nD τ).loc main_arg14) : S2048x2048.Idx → EReal) := (((B9_of m c main_v5 (by decide)).trans ((B8_of m c main_v5 (by decide)).trans ((B7_of m c main_v5 (by decide)).trans ((B6_of m c main_v5 (by decide)).trans ((B5_of m c main_v5 (by decide)).trans ((B4_of m c main_v5 (by decide)).trans ((B3_of m c main_v5 (by decide)).trans ((B2_of m c main_v5 (by decide))))))))))).trans (w_v5 m c)
  have i4 : row1 (mat (E9 m c main_v25 : S1x2048.Idx → EReal)) = row (m ((c : Thread nD τ).loc main_arg15) : S2048.Idx → EReal) := b_v25 m c
  have i5 : (E9 m c main_v7 : S2048x1024.Idx → EReal) = (m ((c : Thread nD τ).loc main_arg18) : S2048x1024.Idx → EReal) := (((B9_of m c main_v7 (by decide)).trans ((B8_of m c main_v7 (by decide)).trans ((B7_of m c main_v7 (by decide)).trans ((B6_of m c main_v7 (by decide)).trans ((B5_of m c main_v7 (by decide)).trans ((B4_of m c main_v7 (by decide)).trans ((B3_of m c main_v7 (by decide)).trans ((B2_of m c main_v7 (by decide))))))))))).trans (w_v7 m c)
  have i6 : row1 (mat (E9 m c main_v27 : S1x1024.Idx → EReal)) = row (m ((c : Thread nD τ).loc main_arg19) : S1024.Idx → EReal) := b_v27 m c
  rw [i0, i1, i2, i3, i4, i5, i6]

theorem hq0M_eq : hq0M m c = G5_4 (belM m c) (mat (m ((c : Thread nD τ).loc main_arg3) : S4096x2048.Idx → EReal)) (mat (m ((c : Thread nD τ).loc main_arg20) : S4096x2048.Idx → EReal)) (row (m ((c : Thread nD τ).loc main_arg21) : S2048.Idx → EReal)) := by
  funext n q
  show (B12 m c main_v30 : S4096x2048.Idx → EReal) (ix2 n q) = _
  have e : (B12 m c main_v30 : S4096x2048.Idx → EReal) = (dat5 (F := Ideal) (E11 m) c).arrAt 4 cfg5.N := by
    unfold B12; exact Function.update_self _ _ _
  rw [e, final5_4 (E11 m) c n q]
  have i0 : mat (E11 m c main_v23 : S4096x2048.Idx → EReal) = belM m c := congrArg mat (((B11_of m c main_v23 (by decide)).trans ((B10_of m c main_v23 (by decide)).trans ((B9_of m c main_v23 (by decide))))))
  have i1 : (E11 m c main_arg3 : S4096x2048.Idx → EReal) = (m ((c : Thread nD τ).loc main_arg3) : S4096x2048.Idx → EReal) := ((B11_of m c main_arg3 (by decide)).trans ((B10_of m c main_arg3 (by decide)).trans ((B9_of m c main_arg3 (by decide)).trans ((B8_of m c main_arg3 (by decide)).trans ((B7_of m c main_arg3 (by decide)).trans ((B6_of m c main_arg3 (by decide)).trans ((B5_of m c main_arg3 (by decide)).trans ((B4_of m c main_arg3 (by decide)).trans ((B3_of m c main_arg3 (by decide)).trans ((B2_of m c main_arg3 (by decide)).trans ((B1_of m c main_arg3 (by decide)))))))))))))
  have i2 : (E11 m c main_v8 : S4096x2048.Idx → EReal) = (m ((c : Thread nD τ).loc main_arg20) : S4096x2048.Idx → EReal) := (((B11_of m c main_v8 (by decide)).trans ((B10_of m c main_v8 (by decide)).trans ((B9_of m c main_v8 (by decide)).trans ((B8_of m c main_v8 (by decide)).trans ((B7_of m c main_v8 (by decide)).trans ((B6_of m c main_v8 (by decide)).trans ((B5_of m c main_v8 (by decide)).trans ((B4_of m c main_v8 (by decide)).trans ((B3_of m c main_v8 (by decide)).trans ((B2_of m c main_v8 (by decide))))))))))))).trans (w_v8 m c)
  have i3 : row1 (mat (E11 m c main_v29 : S1x2048.Idx → EReal)) = row (m ((c : Thread nD τ).loc main_arg21) : S2048.Idx → EReal) := b_v29 m c
  rw [i0, i1, i2, i3]

theorem m2M_eq : m2M m c = G6_7 (hq0M m c) (mat (m ((c : Thread nD τ).loc main_arg22) : S2048x2048.Idx → EReal)) (row (m ((c : Thread nD τ).loc main_arg23) : S2048.Idx → EReal)) (mat (m ((c : Thread nD τ).loc main_arg24) : S2048x1024.Idx → EReal)) (row (m ((c : Thread nD τ).loc main_arg25) : S1024.Idx → EReal)) := by
  funext n q
  show (B14 m c main_v34_0 : S4096x1024.Idx → EReal) (ix2 n q) = _
  have e : (B14 m c main_v34_0 : S4096x1024.Idx → EReal) = (dat6 (F := Ideal) (E13 m) c).arrAt 7 cfg6.N := by
    unfold B14; rw [Function.update_of_ne (StableHlo.devRef_ne_of_ne (by decide) : (Proc.devRef .tc main_v34_0 : DevRef τ sig) ≠ Proc.devRef .tc main_v34_1)]; exact Function.update_self _ _ _
  rw [e, final6_7 (E13 m) c n q]
  have i0 : mat (E13 m c main_v30 : S4096x2048.Idx → EReal) = hq0M m c := congrArg mat (((B13_of m c main_v30 (by decide))))
  have i1 : (E13 m c main_v9 : S2048x2048.Idx → EReal) = (m ((c : Thread nD τ).loc main_arg22) : S2048x2048.Idx → EReal) := (((B13_of m c main_v9 (by decide)).trans ((B12_of m c main_v9 (by decide)).trans ((B11_of m c main_v9 (by decide)).trans ((B10_of m c main_v9 (by decide)).trans ((B9_of m c main_v9 (by decide)).trans ((B8_of m c main_v9 (by decide)).trans ((B7_of m c main_v9 (by decide)).trans ((B6_of m c main_v9 (by decide)).trans ((B5_of m c main_v9 (by decide)).trans ((B4_of m c main_v9 (by decide)).trans ((B3_of m c main_v9 (by decide)).trans ((B2_of m c main_v9 (by decide))))))))))))))).trans (w_v9 m c)
  have i2 : row1 (mat (E13 m c main_v31 : S1x2048.Idx → EReal)) = row (m ((c : Thread nD τ).loc main_arg23) : S2048.Idx → EReal) := b_v31 m c
  have i3 : (E13 m c main_v10 : S2048x1024.Idx → EReal) = (m ((c : Thread nD τ).loc main_arg24) : S2048x1024.Idx → EReal) := (((B13_of m c main_v10 (by decide)).trans ((B12_of m c main_v10 (by decide)).trans ((B11_of m c main_v10 (by decide)).trans ((B10_of m c main_v10 (by decide)).trans ((B9_of m c main_v10 (by decide)).trans ((B8_of m c main_v10 (by decide)).trans ((B7_of m c main_v10 (by decide)).trans ((B6_of m c main_v10 (by decide)).trans ((B5_of m c main_v10 (by decide)).trans ((B4_of m c main_v10 (by decide)).trans ((B3_of m c main_v10 (by decide)).trans ((B2_of m c main_v10 (by decide))))))))))))))).trans (w_v10 m c)
  have i4 : row1 (mat (E13 m c main_v32 : S1x1024.Idx → EReal)) = row (m ((c : Thread nD τ).loc main_arg25) : S1024.Idx → EReal) := b_v32 m c
  rw [i0, i1, i2, i3, i4]

theorem s2M_eq : s2M m c = G6_8 (hq0M m c) (mat (m ((c : Thread nD τ).loc main_arg22) : S2048x2048.Idx → EReal)) (row (m ((c : Thread nD τ).loc main_arg23) : S2048.Idx → EReal)) (mat (m ((c : Thread nD τ).loc main_arg26) : S2048x1024.Idx → EReal)) (row (m ((c : Thread nD τ).loc main_arg27) : S1024.Idx → EReal)) := by
  funext n q
  show (B14 m c main_v34_1 : S4096x1024.Idx → EReal) (ix2 n q) = _
  have e : (B14 m c main_v34_1 : S4096x1024.Idx → EReal) = (dat6 (F := Ideal) (E13 m) c).arrAt 8 cfg6.N := by
    unfold B14; exact Function.update_self _ _ _
  rw [e, final6_8 (E13 m) c n q]
  have i0 : mat (E13 m c main_v30 : S4096x2048.Idx → EReal) = hq0M m c := congrArg mat (((B13_of m c main_v30 (by decide))))
  have i1 : (E13 m c main_v9 : S2048x2048.Idx → EReal) = (m ((c : Thread nD τ).loc main_arg22) : S2048x2048.Idx → EReal) := (((B13_of m c main_v9 (by decide)).trans ((B12_of m c main_v9 (by decide)).trans ((B11_of m c main_v9 (by decide)).trans ((B10_of m c main_v9 (by decide)).trans ((B9_of m c main_v9 (by decide)).trans ((B8_of m c main_v9 (by decide)).trans ((B7_of m c main_v9 (by decide)).trans ((B6_of m c main_v9 (by decide)).trans ((B5_of m c main_v9 (by decide)).trans ((B4_of m c main_v9 (by decide)).trans ((B3_of m c main_v9 (by decide)).trans ((B2_of m c main_v9 (by decide))))))))))))))).trans (w_v9 m c)
  have i2 : row1 (mat (E13 m c main_v31 : S1x2048.Idx → EReal)) = row (m ((c : Thread nD τ).loc main_arg23) : S2048.Idx → EReal) := b_v31 m c
  have i3 : (E13 m c main_v11 : S2048x1024.Idx → EReal) = (m ((c : Thread nD τ).loc main_arg26) : S2048x1024.Idx → EReal) := (((B13_of m c main_v11 (by decide)).trans ((B12_of m c main_v11 (by decide)).trans ((B11_of m c main_v11 (by decide)).trans ((B10_of m c main_v11 (by decide)).trans ((B9_of m c main_v11 (by decide)).trans ((B8_of m c main_v11 (by decide)).trans ((B7_of m c main_v11 (by decide)).trans ((B6_of m c main_v11 (by decide)).trans ((B5_of m c main_v11 (by decide)).trans ((B4_of m c main_v11 (by decide)).trans ((B3_of m c main_v11 (by decide)).trans ((B2_of m c main_v11 (by decide))))))))))))))).trans (w_v11 m c)
  have i4 : row1 (mat (E13 m c main_v33 : S1x1024.Idx → EReal)) = row (m ((c : Thread nD τ).loc main_arg27) : S1024.Idx → EReal) := b_v33 m c
  rw [i0, i1, i2, i3, i4]

/-! ## The final concatenation, entry by entry -/

/-- The five pieces side by side, read at an entry: the piece whose columns hold the entry's column. -/
theorem concat5_apply (u0 u1 u2 u3 : S4096x1024.Idx → EReal) (u4 : S4096x2048.Idx → EReal) (n : Fin 4096) (q : Fin 6144) :
    concatenate S4096x6144 1 [⟨S4096x1024, u0⟩, ⟨S4096x1024, u1⟩, ⟨S4096x1024, u2⟩, ⟨S4096x1024, u3⟩, ⟨S4096x2048, u4⟩] concatenates_S4096x1024_S4096x1024_S4096x1024_S4096x1024_S4096x2048_S4096x6144_d1 (ix2 n q)
      = cat5 (mat u0) (mat u1) (mat u2) (mat u3) (mat u4) n q := by
  rw [Cert.Lib.concatenate5_4096_apply]
  rfl

/-- The result array after the last stretch is the concatenation of five arrays before it, at any contents `W`. -/
theorem resW_eq (W : Valuation τ sig (Elt Ideal)) : (StableHlo.after hostOps7 W (Proc.devRef .tc main_v35) : S4096x6144.Idx → EReal)
    = concatenate S4096x6144 1 [⟨S4096x1024, W main_v28_0⟩, ⟨S4096x1024, W main_v28_1⟩, ⟨S4096x1024, W main_v34_0⟩, ⟨S4096x1024, W main_v34_1⟩, ⟨S4096x2048, W main_v23⟩] concatenates_S4096x1024_S4096x1024_S4096x1024_S4096x1024_S4096x2048_S4096x6144_d1 := by
  after_results; rfl

/-! ## The result -/

/-- The result array entry by entry, over the matrices the regions leave. -/
theorem res_cat (n : Fin 4096) (q : Fin 6144) :
    (B15 m c main_v35 : S4096x6144.Idx → EReal) (ix2 n q) = cat5 (m1M m c) (s1M m c) (m2M m c) (s2M m c) (belM m c) n q := by
  have h := congrFun (resW_eq (B14 m c)) (ix2 n q)
  rw [concat5_apply] at h
  have p0 : mat (B14 m c main_v28_0 : S4096x1024.Idx → EReal) = m1M m c := congrArg mat (((B14_of m c main_v28_0 (by decide)).trans ((B13_of m c main_v28_0 (by decide)).trans ((B12_of m c main_v28_0 (by decide)).trans ((B11_of m c main_v28_0 (by decide)))))))
  have p1 : mat (B14 m c main_v28_1 : S4096x1024.Idx → EReal) = s1M m c := congrArg mat (((B14_of m c main_v28_1 (by decide)).trans ((B13_of m c main_v28_1 (by decide)).trans ((B12_of m c main_v28_1 (by decide)).trans ((B11_of m c main_v28_1 (by decide)))))))
  have p4 : mat (B14 m c main_v23 : S4096x2048.Idx → EReal) = belM m c := congrArg mat (((B14_of m c main_v23 (by decide)).trans ((B13_of m c main_v23 (by decide)).trans ((B12_of m c main_v23 (by decide)).trans ((B11_of m c main_v23 (by decide)).trans ((B10_of m c main_v23 (by decide)).trans ((B9_of m c main_v23 (by decide)))))))))
  rw [p0, p1, p4] at h
  exact h

theorem ker_result (m : (ℓ : Loc nD τ sig) → Buf (Elt Ideal) ℓ) (c : Dev nD) (n : Fin 4096) (q : Fin 6144) :
    (B15 (F := Ideal) m c main_v35 : S4096x6144.Idx → EReal) (ix2 n q)
      = Gker (mat (m ((c : Thread nD τ).loc main_arg0) : S4096x1024.Idx → EReal))
          (mat (m ((c : Thread nD τ).loc main_arg1) : S4096x512.Idx → EReal))
          (mat (m ((c : Thread nD τ).loc main_arg2) : S4096x2048.Idx → EReal))
          (mat (m ((c : Thread nD τ).loc main_arg3) : S4096x2048.Idx → EReal))
          (mat (m ((c : Thread nD τ).loc main_arg4) : S1536x2048.Idx → EReal))
          (row (m ((c : Thread nD τ).loc main_arg5) : S2048.Idx → EReal))
          (mat (m ((c : Thread nD τ).loc main_arg6) : S2048x2048.Idx → EReal))
          (row (m ((c : Thread nD τ).loc main_arg7) : S2048.Idx → EReal))
          (mat (m ((c : Thread nD τ).loc main_arg8) : S2048x6144.Idx → EReal))
          (mat (m ((c : Thread nD τ).loc main_arg9) : S2048x6144.Idx → EReal))
          (row (m ((c : Thread nD τ).loc main_arg10) : S6144.Idx → EReal))
          (row (m ((c : Thread nD τ).loc main_arg11) : S6144.Idx → EReal))
          (mat (m ((c : Thread nD τ).loc main_arg12) : S2048x2048.Idx → EReal))
          (row (m ((c : Thread nD τ).loc main_arg13) : S2048.Idx → EReal))
          (mat (m ((c : Thread nD τ).loc main_arg14) : S2048x2048.Idx → EReal))
          (row (m ((c : Thread nD τ).loc main_arg15) : S2048.Idx → EReal))
          (mat (m ((c : Thread nD τ).loc main_arg16) : S2048x1024.Idx → EReal))
          (row (m ((c : Thread nD τ).loc main_arg17) : S1024.Idx → EReal))
          (mat (m ((c : Thread nD τ).loc main_arg18) : S2048x1024.Idx → EReal))
          (row (m ((c : Thread nD τ).loc main_arg19) : S1024.Idx → EReal))
          (mat (m ((c : Thread nD τ).loc main_arg20) : S4096x2048.Idx → EReal))
          (row (m ((c : Thread nD τ).loc main_arg21) : S2048.Idx → EReal))
          (mat (m ((c : Thread nD τ).loc main_arg22) : S2048x2048.Idx → EReal))
          (row (m ((c : Thread nD τ).loc main_arg23) : S2048.Idx → EReal))
          (mat (m ((c : Thread nD τ).loc main_arg24) : S2048x1024.Idx → EReal))
          (row (m ((c : Thread nD τ).loc main_arg25) : S1024.Idx → EReal))
          (mat (m ((c : Thread nD τ).loc main_arg26) : S2048x1024.Idx → EReal))
          (row (m ((c : Thread nD τ).loc main_arg27) : S1024.Idx → EReal)) n q := by
  rw [res_cat m c n q]
  unfold Gker
  rw [← h1M_eq m c, ← rM_eq m c, ← zM_eq m c, ← belM_eq m c, ← hq0M_eq m c, ← m1M_eq m c, ← s1M_eq m c, ← m2M_eq m c, ← s2M_eq m c]

end Cert.KernelIdeal.Val

end
-- ==== Proof.RefVal.lean ====
/- The reference's result as a pure term of the launch contents, stage by stage.

   Each stage's array is named (`res_main_vN`): the two Linear+ELU layers (`res_main_v5`, `res_main_v10`), the GRU
   cell's two affine maps (`res_main_v14`, `res_main_v18`), its gates r (`res_main_v31`) and z (`res_main_v38`), its
   candidate n (`res_main_v41`) and the belief (`res_main_v46`), the layers and the two heads on the belief
   (`res_main_v51`, `res_main_v56`, mean `res_main_v60`, deviation `res_main_v67`), the same on concat(belief, obs)
   (`res_main_v73`, `res_main_v78`, `res_main_v82`, `res_main_v89`) and the concatenation `res_main_v90`. The fold of the
   operations over a valuation is read off six lists at a time: after each list, every buffer a later list reads
   holds its named term (or, an argument, what it held at the start). -/
import proofs.«109395_j20375324852595_2_alg».proof.Proof.RefRun

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

/-- The contents of an f32 array of shape `S`. -/
abbrev Arr (F : FTy → Type) (S : Shape) : Type := (⟨S, .f32⟩ : BufTy).Contents (Elt F)
/-- The contents of an array of truth values of shape `S`. -/
abbrev Msk (F : FTy → Type) (S : Shape) : Type := (⟨S, .i1⟩ : BufTy).Contents (Elt F)

variable {F : FTy → Type} [FloatOps F]

/-- ELU: `x` where `x > 0`, and elsewhere `1 · expm1 y` with `y` the array that is `0` where `x > 0` and `x`
    elsewhere (so the exponential is never taken of a positive entry). -/
def elu (x : Arr F S4096x2048) : Arr F S4096x2048 :=
  (select : Msk F S4096x2048 → Arr F S4096x2048 → Arr F S4096x2048 → Arr F S4096x2048) ((cmpf .ogt : Arr F S4096x2048 → Arr F S4096x2048 → Msk F S4096x2048) x ((broadcastInDim S4096x2048 ![] bcast_S_S4096x2048 : Arr F S_ → Arr F S4096x2048) ((constant (F := F) S_ .f32 0x00000000#32 : Arr F S_)))) x ((mulf : Arr F S4096x2048 → Arr F S4096x2048 → Arr F S4096x2048) ((broadcastInDim S4096x2048 ![] bcast_S_S4096x2048 : Arr F S_ → Arr F S4096x2048) ((constant (F := F) S_ .f32 0x3F800000#32 : Arr F S_))) ((Host.expm1 : Arr F S4096x2048 → Arr F S4096x2048) (((select : Msk F S4096x2048 → Arr F S4096x2048 → Arr F S4096x2048 → Arr F S4096x2048) ((cmpf .ogt : Arr F S4096x2048 → Arr F S4096x2048 → Msk F S4096x2048) x ((broadcastInDim S4096x2048 ![] bcast_S_S4096x2048 : Arr F S_ → Arr F S4096x2048) ((constant (F := F) S_ .f32 0x00000000#32 : Arr F S_)))) ((broadcastInDim S4096x2048 ![] bcast_S_S4096x2048 : Arr F S_ → Arr F S4096x2048) ((id : Arr F S_ → Arr F S_) ((constant (F := F) S_ .f32 0x00000000#32 : Arr F S_)))) x))))

/-- Softplus, the stable form: `max x 0 + log1p (exp (−|x − 0|))`, and `x + 0` where `x − 0` is not equal to itself. -/
def softplus (x : Arr F S4096x1024) : Arr F S4096x1024 :=
  (select : Msk F S4096x1024 → Arr F S4096x1024 → Arr F S4096x1024 → Arr F S4096x1024) ((cmpf .une : Arr F S4096x1024 → Arr F S4096x1024 → Msk F S4096x1024) ((subf : Arr F S4096x1024 → Arr F S4096x1024 → Arr F S4096x1024) x ((broadcastInDim S4096x1024 ![] bcast_S_S4096x1024 : Arr F S_ → Arr F S4096x1024) ((constant (F := F) S_ .f32 0x00000000#32 : Arr F S_)))) ((subf : Arr F S4096x1024 → Arr F S4096x1024 → Arr F S4096x1024) x ((broadcastInDim S4096x1024 ![] bcast_S_S4096x1024 : Arr F S_ → Arr F S4096x1024) ((constant (F := F) S_ .f32 0x00000000#32 : Arr F S_))))) ((addf : Arr F S4096x1024 → Arr F S4096x1024 → Arr F S4096x1024) x ((broadcastInDim S4096x1024 ![] bcast_S_S4096x1024 : Arr F S_ → Arr F S4096x1024) ((constant (F := F) S_ .f32 0x00000000#32 : Arr F S_)))) ((addf : Arr F S4096x1024 → Arr F S4096x1024 → Arr F S4096x1024) ((maximumf : Arr F S4096x1024 → Arr F S4096x1024 → Arr F S4096x1024) x ((broadcastInDim S4096x1024 ![] bcast_S_S4096x1024 : Arr F S_ → Arr F S4096x1024) ((constant (F := F) S_ .f32 0x00000000#32 : Arr F S_)))) ((Host.log1p : Arr F S4096x1024 → Arr F S4096x1024) ((Host.exp : Arr F S4096x1024 → Arr F S4096x1024) ((Host.negf : Arr F S4096x1024 → Arr F S4096x1024) ((Host.absf : Arr F S4096x1024 → Arr F S4096x1024) ((subf : Arr F S4096x1024 → Arr F S4096x1024 → Arr F S4096x1024) x ((broadcastInDim S4096x1024 ![] bcast_S_S4096x1024 : Arr F S_ → Arr F S4096x1024) ((constant (F := F) S_ .f32 0x00000000#32 : Arr F S_)))))))))

/-- The five arrays side by side along the last axis: 1024 + 1024 + 1024 + 1024 + 2048 = 6144 columns. -/
def cat5 (a b c d : Arr F S4096x1024) (e : Arr F S4096x2048) : Arr F S4096x6144 :=
  concatenate S4096x6144 1 [⟨S4096x1024, a⟩, ⟨S4096x1024, b⟩, ⟨S4096x1024, c⟩, ⟨S4096x1024, d⟩, ⟨S4096x2048, e⟩] concatenates_S4096x1024_S4096x1024_S4096x1024_S4096x1024_S4096x2048_S4096x6144_d1

/-- Two 2048-column arrays side by side. -/
def cat2 (a b : Arr F S4096x2048) : Arr F S4096x4096 :=
  concatenate S4096x4096 1 [⟨S4096x2048, a⟩, ⟨S4096x2048, b⟩] concatenates_S4096x2048_S4096x2048_S4096x4096_d1

/-- The first layer before its activation: concat(prev_sample, prev_action) · W + b. -/
def res_main_v4 (V0 : Valuation τ sig (Elt F)) : Arr F S4096x2048 :=
  (addf : Arr F S4096x2048 → Arr F S4096x2048 → Arr F S4096x2048) (((fun l r => Host.dotGeneral dot_S4096x1536_S1536x2048_S4096x2048_1_0_0_1_n_n none l r) : Arr F S4096x1536 → Arr F S1536x2048 → Arr F S4096x2048) (((fun a b => concatenate S4096x1536 1 [⟨S4096x1024, a⟩, ⟨S4096x512, b⟩] concatenates_S4096x1024_S4096x512_S4096x1536_d1) : Arr F S4096x1024 → Arr F S4096x512 → Arr F S4096x1536) (V0 (Proc.devRef .tc main_arg0)) (V0 (Proc.devRef .tc main_arg1))) (V0 (Proc.devRef .tc main_arg4))) ((broadcastInDim S4096x2048 ![0, 1] bcast_S1x2048_S4096x2048_0_1 : Arr F S1x2048 → Arr F S4096x2048) ((broadcastInDim S1x2048 ![1] bcast_S2048_S1x2048_1 : Arr F S2048 → Arr F S1x2048) (V0 (Proc.devRef .tc main_arg5))))

/-- The first layer. -/
def res_main_v5 (V0 : Valuation τ sig (Elt F)) : Arr F S4096x2048 :=
  elu (res_main_v4 V0)

/-- The second layer before its activation. -/
def res_main_v9 (V0 : Valuation τ sig (Elt F)) : Arr F S4096x2048 :=
  (addf : Arr F S4096x2048 → Arr F S4096x2048 → Arr F S4096x2048) (((fun l r => Host.dotGeneral dot_S4096x2048_S2048x2048_S4096x2048_1_0_0_1_n_n none l r) : Arr F S4096x2048 → Arr F S2048x2048 → Arr F S4096x2048) (res_main_v5 V0) (V0 (Proc.devRef .tc main_arg6))) ((broadcastInDim S4096x2048 ![0, 1] bcast_S1x2048_S4096x2048_0_1 : Arr F S1x2048 → Arr F S4096x2048) ((broadcastInDim S1x2048 ![1] bcast_S2048_S1x2048_1 : Arr F S2048 → Arr F S1x2048) (V0 (Proc.devRef .tc main_arg7))))

/-- The second layer: the GRU cell's input. -/
def res_main_v10 (V0 : Valuation τ sig (Elt F)) : Arr F S4096x2048 :=
  elu (res_main_v9 V0)

/-- The input's affine map into the three gate blocks (6144 columns). -/
def res_main_v14 (V0 : Valuation τ sig (Elt F)) : Arr F S4096x6144 :=
  (addf : Arr F S4096x6144 → Arr F S4096x6144 → Arr F S4096x6144) (((fun l r => Host.dotGeneral dot_S4096x2048_S2048x6144_S4096x6144_1_0_0_1_n_n none l r) : Arr F S4096x2048 → Arr F S2048x6144 → Arr F S4096x6144) (res_main_v10 V0) (V0 (Proc.devRef .tc main_arg8))) ((broadcastInDim S4096x6144 ![0, 1] bcast_S1x6144_S4096x6144_0_1 : Arr F S1x6144 → Arr F S4096x6144) ((broadcastInDim S1x6144 ![1] bcast_S6144_S1x6144_1 : Arr F S6144 → Arr F S1x6144) (V0 (Proc.devRef .tc main_arg10))))

/-- The state's affine map into the three gate blocks. -/
def res_main_v18 (V0 : Valuation τ sig (Elt F)) : Arr F S4096x6144 :=
  (addf : Arr F S4096x6144 → Arr F S4096x6144 → Arr F S4096x6144) (((fun l r => Host.dotGeneral dot_S4096x2048_S2048x6144_S4096x6144_1_0_0_1_n_n none l r) : Arr F S4096x2048 → Arr F S2048x6144 → Arr F S4096x6144) (V0 (Proc.devRef .tc main_arg2)) (V0 (Proc.devRef .tc main_arg9))) ((broadcastInDim S4096x6144 ![0, 1] bcast_S1x6144_S4096x6144_0_1 : Arr F S1x6144 → Arr F S4096x6144) ((broadcastInDim S1x6144 ![1] bcast_S6144_S1x6144_1 : Arr F S6144 → Arr F S1x6144) (V0 (Proc.devRef .tc main_arg11))))

/-- The gate r: 1 / (1 + exp (−(first thirds' sum))). -/
def res_main_v31 (V0 : Valuation τ sig (Elt F)) : Arr F S4096x2048 :=
  (Host.divf : Arr F S4096x2048 → Arr F S4096x2048 → Arr F S4096x2048) ((broadcastInDim S4096x2048 ![] bcast_S_S4096x2048 : Arr F S_ → Arr F S4096x2048) ((constant (F := F) S_ .f32 0x3F800000#32 : Arr F S_))) ((addf : Arr F S4096x2048 → Arr F S4096x2048 → Arr F S4096x2048) ((broadcastInDim S4096x2048 ![] bcast_S_S4096x2048 : Arr F S_ → Arr F S4096x2048) ((constant (F := F) S_ .f32 0x3F800000#32 : Arr F S_))) ((Host.exp : Arr F S4096x2048 → Arr F S4096x2048) ((Host.negf : Arr F S4096x2048 → Arr F S4096x2048) ((addf : Arr F S4096x2048 → Arr F S4096x2048 → Arr F S4096x2048) (((extractStridedSlice S4096x2048 ![0, 0] · slices_S4096x6144_S4096x2048_0_0) : Arr F S4096x6144 → Arr F S4096x2048) (res_main_v14 V0)) (((extractStridedSlice S4096x2048 ![0, 0] · slices_S4096x6144_S4096x2048_0_0) : Arr F S4096x6144 → Arr F S4096x2048) (res_main_v18 V0))))))

/-- The gate z: 1 / (1 + exp (−(second thirds' sum))). -/
def res_main_v38 (V0 : Valuation τ sig (Elt F)) : Arr F S4096x2048 :=
  (Host.divf : Arr F S4096x2048 → Arr F S4096x2048 → Arr F S4096x2048) ((broadcastInDim S4096x2048 ![] bcast_S_S4096x2048 : Arr F S_ → Arr F S4096x2048) ((constant (F := F) S_ .f32 0x3F800000#32 : Arr F S_))) ((addf : Arr F S4096x2048 → Arr F S4096x2048 → Arr F S4096x2048) ((broadcastInDim S4096x2048 ![] bcast_S_S4096x2048 : Arr F S_ → Arr F S4096x2048) ((constant (F := F) S_ .f32 0x3F800000#32 : Arr F S_))) ((Host.exp : Arr F S4096x2048 → Arr F S4096x2048) ((Host.negf : Arr F S4096x2048 → Arr F S4096x2048) ((addf : Arr F S4096x2048 → Arr F S4096x2048 → Arr F S4096x2048) (((extractStridedSlice S4096x2048 ![0, 2048] · slices_S4096x6144_S4096x2048_0_2048) : Arr F S4096x6144 → Arr F S4096x2048) (res_main_v14 V0)) (((extractStridedSlice S4096x2048 ![0, 2048] · slices_S4096x6144_S4096x2048_0_2048) : Arr F S4096x6144 → Arr F S4096x2048) (res_main_v18 V0))))))

/-- The candidate n: tanh (input's last third + r · state's last third). -/
def res_main_v41 (V0 : Valuation τ sig (Elt F)) : Arr F S4096x2048 :=
  (Host.tanh : Arr F S4096x2048 → Arr F S4096x2048) ((addf : Arr F S4096x2048 → Arr F S4096x2048 → Arr F S4096x2048) (((extractStridedSlice S4096x2048 ![0, 4096] · slices_S4096x6144_S4096x2048_0_4096) : Arr F S4096x6144 → Arr F S4096x2048) (res_main_v14 V0)) ((mulf : Arr F S4096x2048 → Arr F S4096x2048 → Arr F S4096x2048) (res_main_v31 V0) (((extractStridedSlice S4096x2048 ![0, 4096] · slices_S4096x6144_S4096x2048_0_4096) : Arr F S4096x6144 → Arr F S4096x2048) (res_main_v18 V0))))

/-- The belief: (1 − z) · n + z · state. -/
def res_main_v46 (V0 : Valuation τ sig (Elt F)) : Arr F S4096x2048 :=
  (addf : Arr F S4096x2048 → Arr F S4096x2048 → Arr F S4096x2048) ((mulf : Arr F S4096x2048 → Arr F S4096x2048 → Arr F S4096x2048) ((subf : Arr F S4096x2048 → Arr F S4096x2048 → Arr F S4096x2048) ((broadcastInDim S4096x2048 ![] bcast_S_S4096x2048 : Arr F S_ → Arr F S4096x2048) ((constant (F := F) S_ .f32 0x3F800000#32 : Arr F S_))) (res_main_v38 V0)) (res_main_v41 V0)) ((mulf : Arr F S4096x2048 → Arr F S4096x2048 → Arr F S4096x2048) (res_main_v38 V0) (V0 (Proc.devRef .tc main_arg2)))

/-- The first layer on the belief, before its activation. -/
def res_main_v50 (V0 : Valuation τ sig (Elt F)) : Arr F S4096x2048 :=
  (addf : Arr F S4096x2048 → Arr F S4096x2048 → Arr F S4096x2048) (((fun l r => Host.dotGeneral dot_S4096x2048_S2048x2048_S4096x2048_1_0_0_1_n_n none l r) : Arr F S4096x2048 → Arr F S2048x2048 → Arr F S4096x2048) (res_main_v46 V0) (V0 (Proc.devRef .tc main_arg12))) ((broadcastInDim S4096x2048 ![0, 1] bcast_S1x2048_S4096x2048_0_1 : Arr F S1x2048 → Arr F S4096x2048) ((broadcastInDim S1x2048 ![1] bcast_S2048_S1x2048_1 : Arr F S2048 → Arr F S1x2048) (V0 (Proc.devRef .tc main_arg13))))

/-- The first layer on the belief. -/
def res_main_v51 (V0 : Valuation τ sig (Elt F)) : Arr F S4096x2048 :=
  elu (res_main_v50 V0)

/-- The second layer's product on the belief. -/
def res_main_v52 (V0 : Valuation τ sig (Elt F)) : Arr F S4096x2048 :=
  ((fun l r => Host.dotGeneral dot_S4096x2048_S2048x2048_S4096x2048_1_0_0_1_n_n none l r) : Arr F S4096x2048 → Arr F S2048x2048 → Arr F S4096x2048) (res_main_v51 V0) (V0 (Proc.devRef .tc main_arg14))

/-- The second layer on the belief, before its activation. -/
def res_main_v55 (V0 : Valuation τ sig (Elt F)) : Arr F S4096x2048 :=
  (addf : Arr F S4096x2048 → Arr F S4096x2048 → Arr F S4096x2048) (res_main_v52 V0) ((broadcastInDim S4096x2048 ![0, 1] bcast_S1x2048_S4096x2048_0_1 : Arr F S1x2048 → Arr F S4096x2048) ((broadcastInDim S1x2048 ![1] bcast_S2048_S1x2048_1 : Arr F S2048 → Arr F S1x2048) (V0 (Proc.devRef .tc main_arg15))))

/-- The second layer on the belief. -/
def res_main_v56 (V0 : Valuation τ sig (Elt F)) : Arr F S4096x2048 :=
  elu (res_main_v55 V0)

/-- The mean head on the belief. -/
def res_main_v60 (V0 : Valuation τ sig (Elt F)) : Arr F S4096x1024 :=
  (addf : Arr F S4096x1024 → Arr F S4096x1024 → Arr F S4096x1024) (((fun l r => Host.dotGeneral dot_S4096x2048_S2048x1024_S4096x1024_1_0_0_1_n_n none l r) : Arr F S4096x2048 → Arr F S2048x1024 → Arr F S4096x1024) (res_main_v56 V0) (V0 (Proc.devRef .tc main_arg16))) ((broadcastInDim S4096x1024 ![0, 1] bcast_S1x1024_S4096x1024_0_1 : Arr F S1x1024 → Arr F S4096x1024) ((broadcastInDim S1x1024 ![1] bcast_S1024_S1x1024_1 : Arr F S1024 → Arr F S1x1024) (V0 (Proc.devRef .tc main_arg17))))

/-- The deviation head on the belief, before softplus. -/
def res_main_v64 (V0 : Valuation τ sig (Elt F)) : Arr F S4096x1024 :=
  (addf : Arr F S4096x1024 → Arr F S4096x1024 → Arr F S4096x1024) (((fun l r => Host.dotGeneral dot_S4096x2048_S2048x1024_S4096x1024_1_0_0_1_n_n none l r) : Arr F S4096x2048 → Arr F S2048x1024 → Arr F S4096x1024) (res_main_v56 V0) (V0 (Proc.devRef .tc main_arg18))) ((broadcastInDim S4096x1024 ![0, 1] bcast_S1x1024_S4096x1024_0_1 : Arr F S1x1024 → Arr F S4096x1024) ((broadcastInDim S1x1024 ![1] bcast_S1024_S1x1024_1 : Arr F S1024 → Arr F S1x1024) (V0 (Proc.devRef .tc main_arg19))))

/-- Its softplus. -/
def res_main_v65 (V0 : Valuation τ sig (Elt F)) : Arr F S4096x1024 :=
  softplus (res_main_v64 V0)

/-- The deviation on the belief: softplus + 0.1. -/
def res_main_v67 (V0 : Valuation τ sig (Elt F)) : Arr F S4096x1024 :=
  (addf : Arr F S4096x1024 → Arr F S4096x1024 → Arr F S4096x1024) (res_main_v65 V0) ((broadcastInDim S4096x1024 ![] bcast_S_S4096x1024 : Arr F S_ → Arr F S4096x1024) ((constant (F := F) S_ .f32 0x3DCCCCCD#32 : Arr F S_)))

/-- concat(belief, obs). -/
def res_main_v68 (V0 : Valuation τ sig (Elt F)) : Arr F S4096x4096 :=
  cat2 (res_main_v46 V0) (V0 (Proc.devRef .tc main_arg3))

/-- The first layer on concat(belief, obs), before its activation. -/
def res_main_v72 (V0 : Valuation τ sig (Elt F)) : Arr F S4096x2048 :=
  (addf : Arr F S4096x2048 → Arr F S4096x2048 → Arr F S4096x2048) (((fun l r => Host.dotGeneral dot_S4096x4096_S4096x2048_S4096x2048_1_0_0_1_n_n none l r) : Arr F S4096x4096 → Arr F S4096x2048 → Arr F S4096x2048) (res_main_v68 V0) (V0 (Proc.devRef .tc main_arg20))) ((broadcastInDim S4096x2048 ![0, 1] bcast_S1x2048_S4096x2048_0_1 : Arr F S1x2048 → Arr F S4096x2048) ((broadcastInDim S1x2048 ![1] bcast_S2048_S1x2048_1 : Arr F S2048 → Arr F S1x2048) (V0 (Proc.devRef .tc main_arg21))))

/-- The first layer on concat(belief, obs). -/
def res_main_v73 (V0 : Valuation τ sig (Elt F)) : Arr F S4096x2048 :=
  elu (res_main_v72 V0)

/-- The second layer there, before its activation. -/
def res_main_v77 (V0 : Valuation τ sig (Elt F)) : Arr F S4096x2048 :=
  (addf : Arr F S4096x2048 → Arr F S4096x2048 → Arr F S4096x2048) (((fun l r => Host.dotGeneral dot_S4096x2048_S2048x2048_S4096x2048_1_0_0_1_n_n none l r) : Arr F S4096x2048 → Arr F S2048x2048 → Arr F S4096x2048) (res_main_v73 V0) (V0 (Proc.devRef .tc main_arg22))) ((broadcastInDim S4096x2048 ![0, 1] bcast_S1x2048_S4096x2048_0_1 : Arr F S1x2048 → Arr F S4096x2048) ((broadcastInDim S1x2048 ![1] bcast_S2048_S1x2048_1 : Arr F S2048 → Arr F S1x2048) (V0 (Proc.devRef .tc main_arg23))))

/-- The second layer there. -/
def res_main_v78 (V0 : Valuation τ sig (Elt F)) : Arr F S4096x2048 :=
  elu (res_main_v77 V0)

/-- The second mean head. -/
def res_main_v82 (V0 : Valuation τ sig (Elt F)) : Arr F S4096x1024 :=
  (addf : Arr F S4096x1024 → Arr F S4096x1024 → Arr F S4096x1024) (((fun l r => Host.dotGeneral dot_S4096x2048_S2048x1024_S4096x1024_1_0_0_1_n_n none l r) : Arr F S4096x2048 → Arr F S2048x1024 → Arr F S4096x1024) (res_main_v78 V0) (V0 (Proc.devRef .tc main_arg24))) ((broadcastInDim S4096x1024 ![0, 1] bcast_S1x1024_S4096x1024_0_1 : Arr F S1x1024 → Arr F S4096x1024) ((broadcastInDim S1x1024 ![1] bcast_S1024_S1x1024_1 : Arr F S1024 → Arr F S1x1024) (V0 (Proc.devRef .tc main_arg25))))

/-- The second deviation head, before softplus. -/
def res_main_v86 (V0 : Valuation τ sig (Elt F)) : Arr F S4096x1024 :=
  (addf : Arr F S4096x1024 → Arr F S4096x1024 → Arr F S4096x1024) (((fun l r => Host.dotGeneral dot_S4096x2048_S2048x1024_S4096x1024_1_0_0_1_n_n none l r) : Arr F S4096x2048 → Arr F S2048x1024 → Arr F S4096x1024) (res_main_v78 V0) (V0 (Proc.devRef .tc main_arg26))) ((broadcastInDim S4096x1024 ![0, 1] bcast_S1x1024_S4096x1024_0_1 : Arr F S1x1024 → Arr F S4096x1024) ((broadcastInDim S1x1024 ![1] bcast_S1024_S1x1024_1 : Arr F S1024 → Arr F S1x1024) (V0 (Proc.devRef .tc main_arg27))))

/-- Its softplus. -/
def res_main_v87 (V0 : Valuation τ sig (Elt F)) : Arr F S4096x1024 :=
  softplus (res_main_v86 V0)

/-- The second deviation: softplus + 0.1. -/
def res_main_v89 (V0 : Valuation τ sig (Elt F)) : Arr F S4096x1024 :=
  (addf : Arr F S4096x1024 → Arr F S4096x1024 → Arr F S4096x1024) (res_main_v87 V0) ((broadcastInDim S4096x1024 ![] bcast_S_S4096x1024 : Arr F S_ → Arr F S4096x1024) ((constant (F := F) S_ .f32 0x3DCCCCCD#32 : Arr F S_)))

/-- The result: means, deviations and belief side by side. -/
def res_main_v90 (V0 : Valuation τ sig (Elt F)) : Arr F S4096x6144 :=
  cat5 (res_main_v60 V0) (res_main_v67 V0) (res_main_v82 V0) (res_main_v89 V0) (res_main_v46 V0)

/-- The buffers' contents after the operations up to `main_v10`. -/
def val1 (V0 : Valuation τ sig (Elt F)) : Valuation τ sig (Elt F) := after opsA0 V0
/-- A buffer that list does not write keeps its contents through it. -/
theorem val1_keep (V0 : Valuation τ sig (Elt F)) (r : Ref sig .tc) (h : r ∉ opsA0_W) :
    val1 V0 (Proc.devRef .tc r) = V0 (Proc.devRef .tc r) :=
  after_of_writes_sub opsA0 _ opsA0_writes h
theorem val1_main_arg2 (V0 : Valuation τ sig (Elt F)) : val1 V0 (no_index (Proc.devRef .tc main_arg2)) = V0 (Proc.devRef .tc main_arg2) :=
  (val1_keep V0 main_arg2 (by decide))
theorem val1_main_arg3 (V0 : Valuation τ sig (Elt F)) : val1 V0 (no_index (Proc.devRef .tc main_arg3)) = V0 (Proc.devRef .tc main_arg3) :=
  (val1_keep V0 main_arg3 (by decide))
theorem val1_main_arg8 (V0 : Valuation τ sig (Elt F)) : val1 V0 (no_index (Proc.devRef .tc main_arg8)) = V0 (Proc.devRef .tc main_arg8) :=
  (val1_keep V0 main_arg8 (by decide))
theorem val1_main_arg9 (V0 : Valuation τ sig (Elt F)) : val1 V0 (no_index (Proc.devRef .tc main_arg9)) = V0 (Proc.devRef .tc main_arg9) :=
  (val1_keep V0 main_arg9 (by decide))
theorem val1_main_arg10 (V0 : Valuation τ sig (Elt F)) : val1 V0 (no_index (Proc.devRef .tc main_arg10)) = V0 (Proc.devRef .tc main_arg10) :=
  (val1_keep V0 main_arg10 (by decide))
theorem val1_main_arg11 (V0 : Valuation τ sig (Elt F)) : val1 V0 (no_index (Proc.devRef .tc main_arg11)) = V0 (Proc.devRef .tc main_arg11) :=
  (val1_keep V0 main_arg11 (by decide))
theorem val1_main_arg12 (V0 : Valuation τ sig (Elt F)) : val1 V0 (no_index (Proc.devRef .tc main_arg12)) = V0 (Proc.devRef .tc main_arg12) :=
  (val1_keep V0 main_arg12 (by decide))
theorem val1_main_arg13 (V0 : Valuation τ sig (Elt F)) : val1 V0 (no_index (Proc.devRef .tc main_arg13)) = V0 (Proc.devRef .tc main_arg13) :=
  (val1_keep V0 main_arg13 (by decide))
theorem val1_main_arg14 (V0 : Valuation τ sig (Elt F)) : val1 V0 (no_index (Proc.devRef .tc main_arg14)) = V0 (Proc.devRef .tc main_arg14) :=
  (val1_keep V0 main_arg14 (by decide))
theorem val1_main_arg15 (V0 : Valuation τ sig (Elt F)) : val1 V0 (no_index (Proc.devRef .tc main_arg15)) = V0 (Proc.devRef .tc main_arg15) :=
  (val1_keep V0 main_arg15 (by decide))
theorem val1_main_arg16 (V0 : Valuation τ sig (Elt F)) : val1 V0 (no_index (Proc.devRef .tc main_arg16)) = V0 (Proc.devRef .tc main_arg16) :=
  (val1_keep V0 main_arg16 (by decide))
theorem val1_main_arg17 (V0 : Valuation τ sig (Elt F)) : val1 V0 (no_index (Proc.devRef .tc main_arg17)) = V0 (Proc.devRef .tc main_arg17) :=
  (val1_keep V0 main_arg17 (by decide))
theorem val1_main_arg18 (V0 : Valuation τ sig (Elt F)) : val1 V0 (no_index (Proc.devRef .tc main_arg18)) = V0 (Proc.devRef .tc main_arg18) :=
  (val1_keep V0 main_arg18 (by decide))
theorem val1_main_arg19 (V0 : Valuation τ sig (Elt F)) : val1 V0 (no_index (Proc.devRef .tc main_arg19)) = V0 (Proc.devRef .tc main_arg19) :=
  (val1_keep V0 main_arg19 (by decide))
theorem val1_main_arg20 (V0 : Valuation τ sig (Elt F)) : val1 V0 (no_index (Proc.devRef .tc main_arg20)) = V0 (Proc.devRef .tc main_arg20) :=
  (val1_keep V0 main_arg20 (by decide))
theorem val1_main_arg21 (V0 : Valuation τ sig (Elt F)) : val1 V0 (no_index (Proc.devRef .tc main_arg21)) = V0 (Proc.devRef .tc main_arg21) :=
  (val1_keep V0 main_arg21 (by decide))
theorem val1_main_arg22 (V0 : Valuation τ sig (Elt F)) : val1 V0 (no_index (Proc.devRef .tc main_arg22)) = V0 (Proc.devRef .tc main_arg22) :=
  (val1_keep V0 main_arg22 (by decide))
theorem val1_main_arg23 (V0 : Valuation τ sig (Elt F)) : val1 V0 (no_index (Proc.devRef .tc main_arg23)) = V0 (Proc.devRef .tc main_arg23) :=
  (val1_keep V0 main_arg23 (by decide))
theorem val1_main_arg24 (V0 : Valuation τ sig (Elt F)) : val1 V0 (no_index (Proc.devRef .tc main_arg24)) = V0 (Proc.devRef .tc main_arg24) :=
  (val1_keep V0 main_arg24 (by decide))
theorem val1_main_arg25 (V0 : Valuation τ sig (Elt F)) : val1 V0 (no_index (Proc.devRef .tc main_arg25)) = V0 (Proc.devRef .tc main_arg25) :=
  (val1_keep V0 main_arg25 (by decide))
theorem val1_main_arg26 (V0 : Valuation τ sig (Elt F)) : val1 V0 (no_index (Proc.devRef .tc main_arg26)) = V0 (Proc.devRef .tc main_arg26) :=
  (val1_keep V0 main_arg26 (by decide))
theorem val1_main_arg27 (V0 : Valuation τ sig (Elt F)) : val1 V0 (no_index (Proc.devRef .tc main_arg27)) = V0 (Proc.devRef .tc main_arg27) :=
  (val1_keep V0 main_arg27 (by decide))
set_option maxRecDepth 8192 in
set_option maxHeartbeats 2000000 in
theorem val1_main_v10 (V0 : Valuation τ sig (Elt F)) : val1 V0 (no_index (Proc.devRef .tc main_v10)) = res_main_v10 V0 := by
  unfold val1
  simp only [opsA0]
  after_results_simp
  rfl

/-- The buffers' contents after the operations up to `main_v46`. -/
def val2 (V0 : Valuation τ sig (Elt F)) : Valuation τ sig (Elt F) := after opsA1 (val1 V0)
/-- A buffer that list does not write keeps its contents through it. -/
theorem val2_keep (V0 : Valuation τ sig (Elt F)) (r : Ref sig .tc) (h : r ∉ opsA1_W) :
    val2 V0 (Proc.devRef .tc r) = val1 V0 (Proc.devRef .tc r) :=
  after_of_writes_sub opsA1 _ opsA1_writes h
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val2_main_arg15 (V0 : Valuation τ sig (Elt F)) : val2 V0 (no_index (Proc.devRef .tc main_arg15)) = V0 (Proc.devRef .tc main_arg15) :=
  (val2_keep V0 main_arg15 (by decide)).trans (val1_main_arg15 V0)
theorem val2_main_arg16 (V0 : Valuation τ sig (Elt F)) : val2 V0 (no_index (Proc.devRef .tc main_arg16)) = V0 (Proc.devRef .tc main_arg16) :=
  (val2_keep V0 main_arg16 (by decide)).trans (val1_main_arg16 V0)
theorem val2_main_arg17 (V0 : Valuation τ sig (Elt F)) : val2 V0 (no_index (Proc.devRef .tc main_arg17)) = V0 (Proc.devRef .tc main_arg17) :=
  (val2_keep V0 main_arg17 (by decide)).trans (val1_main_arg17 V0)
theorem val2_main_arg18 (V0 : Valuation τ sig (Elt F)) : val2 V0 (no_index (Proc.devRef .tc main_arg18)) = V0 (Proc.devRef .tc main_arg18) :=
  (val2_keep V0 main_arg18 (by decide)).trans (val1_main_arg18 V0)
theorem val2_main_arg19 (V0 : Valuation τ sig (Elt F)) : val2 V0 (no_index (Proc.devRef .tc main_arg19)) = V0 (Proc.devRef .tc main_arg19) :=
  (val2_keep V0 main_arg19 (by decide)).trans (val1_main_arg19 V0)
theorem val2_main_arg20 (V0 : Valuation τ sig (Elt F)) : val2 V0 (no_index (Proc.devRef .tc main_arg20)) = V0 (Proc.devRef .tc main_arg20) :=
  (val2_keep V0 main_arg20 (by decide)).trans (val1_main_arg20 V0)
theorem val2_main_arg21 (V0 : Valuation τ sig (Elt F)) : val2 V0 (no_index (Proc.devRef .tc main_arg21)) = V0 (Proc.devRef .tc main_arg21) :=
  (val2_keep V0 main_arg21 (by decide)).trans (val1_main_arg21 V0)
theorem val2_main_arg22 (V0 : Valuation τ sig (Elt F)) : val2 V0 (no_index (Proc.devRef .tc main_arg22)) = V0 (Proc.devRef .tc main_arg22) :=
  (val2_keep V0 main_arg22 (by decide)).trans (val1_main_arg22 V0)
theorem val2_main_arg23 (V0 : Valuation τ sig (Elt F)) : val2 V0 (no_index (Proc.devRef .tc main_arg23)) = V0 (Proc.devRef .tc main_arg23) :=
  (val2_keep V0 main_arg23 (by decide)).trans (val1_main_arg23 V0)
theorem val2_main_arg24 (V0 : Valuation τ sig (Elt F)) : val2 V0 (no_index (Proc.devRef .tc main_arg24)) = V0 (Proc.devRef .tc main_arg24) :=
  (val2_keep V0 main_arg24 (by decide)).trans (val1_main_arg24 V0)
theorem val2_main_arg25 (V0 : Valuation τ sig (Elt F)) : val2 V0 (no_index (Proc.devRef .tc main_arg25)) = V0 (Proc.devRef .tc main_arg25) :=
  (val2_keep V0 main_arg25 (by decide)).trans (val1_main_arg25 V0)
theorem val2_main_arg26 (V0 : Valuation τ sig (Elt F)) : val2 V0 (no_index (Proc.devRef .tc main_arg26)) = V0 (Proc.devRef .tc main_arg26) :=
  (val2_keep V0 main_arg26 (by decide)).trans (val1_main_arg26 V0)
theorem val2_main_arg27 (V0 : Valuation τ sig (Elt F)) : val2 V0 (no_index (Proc.devRef .tc main_arg27)) = V0 (Proc.devRef .tc main_arg27) :=
  (val2_keep V0 main_arg27 (by decide)).trans (val1_main_arg27 V0)
set_option maxRecDepth 8192 in
set_option maxHeartbeats 2000000 in
theorem val2_main_v46 (V0 : Valuation τ sig (Elt F)) : val2 V0 (no_index (Proc.devRef .tc main_v46)) = res_main_v46 V0 := by
  unfold val2
  simp only [opsA1]
  after_results_simp
  simp only [val1_main_arg2, val1_main_arg11, val1_main_arg9, val1_main_arg10, val1_main_arg8, val1_main_v10] <;> rfl

/-- The buffers' contents after the operations up to `main_v54`. -/
def val3 (V0 : Valuation τ sig (Elt F)) : Valuation τ sig (Elt F) := after opsA2 (val2 V0)
/-- A buffer that list does not write keeps its contents through it. -/
theorem val3_keep (V0 : Valuation τ sig (Elt F)) (r : Ref sig .tc) (h : r ∉ opsA2_W) :
    val3 V0 (Proc.devRef .tc r) = val2 V0 (Proc.devRef .tc r) :=
  after_of_writes_sub opsA2 _ opsA2_writes h
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg16 (V0 : Valuation τ sig (Elt F)) : val3 V0 (no_index (Proc.devRef .tc main_arg16)) = V0 (Proc.devRef .tc main_arg16) :=
  (val3_keep V0 main_arg16 (by decide)).trans (val2_main_arg16 V0)
theorem val3_main_arg17 (V0 : Valuation τ sig (Elt F)) : val3 V0 (no_index (Proc.devRef .tc main_arg17)) = V0 (Proc.devRef .tc main_arg17) :=
  (val3_keep V0 main_arg17 (by decide)).trans (val2_main_arg17 V0)
theorem val3_main_arg18 (V0 : Valuation τ sig (Elt F)) : val3 V0 (no_index (Proc.devRef .tc main_arg18)) = V0 (Proc.devRef .tc main_arg18) :=
  (val3_keep V0 main_arg18 (by decide)).trans (val2_main_arg18 V0)
theorem val3_main_arg19 (V0 : Valuation τ sig (Elt F)) : val3 V0 (no_index (Proc.devRef .tc main_arg19)) = V0 (Proc.devRef .tc main_arg19) :=
  (val3_keep V0 main_arg19 (by decide)).trans (val2_main_arg19 V0)
theorem val3_main_arg20 (V0 : Valuation τ sig (Elt F)) : val3 V0 (no_index (Proc.devRef .tc main_arg20)) = V0 (Proc.devRef .tc main_arg20) :=
  (val3_keep V0 main_arg20 (by decide)).trans (val2_main_arg20 V0)
theorem val3_main_arg21 (V0 : Valuation τ sig (Elt F)) : val3 V0 (no_index (Proc.devRef .tc main_arg21)) = V0 (Proc.devRef .tc main_arg21) :=
  (val3_keep V0 main_arg21 (by decide)).trans (val2_main_arg21 V0)
theorem val3_main_arg22 (V0 : Valuation τ sig (Elt F)) : val3 V0 (no_index (Proc.devRef .tc main_arg22)) = V0 (Proc.devRef .tc main_arg22) :=
  (val3_keep V0 main_arg22 (by decide)).trans (val2_main_arg22 V0)
theorem val3_main_arg23 (V0 : Valuation τ sig (Elt F)) : val3 V0 (no_index (Proc.devRef .tc main_arg23)) = V0 (Proc.devRef .tc main_arg23) :=
  (val3_keep V0 main_arg23 (by decide)).trans (val2_main_arg23 V0)
theorem val3_main_arg24 (V0 : Valuation τ sig (Elt F)) : val3 V0 (no_index (Proc.devRef .tc main_arg24)) = V0 (Proc.devRef .tc main_arg24) :=
  (val3_keep V0 main_arg24 (by decide)).trans (val2_main_arg24 V0)
theorem val3_main_arg25 (V0 : Valuation τ sig (Elt F)) : val3 V0 (no_index (Proc.devRef .tc main_arg25)) = V0 (Proc.devRef .tc main_arg25) :=
  (val3_keep V0 main_arg25 (by decide)).trans (val2_main_arg25 V0)
theorem val3_main_arg26 (V0 : Valuation τ sig (Elt F)) : val3 V0 (no_index (Proc.devRef .tc main_arg26)) = V0 (Proc.devRef .tc main_arg26) :=
  (val3_keep V0 main_arg26 (by decide)).trans (val2_main_arg26 V0)
theorem val3_main_arg27 (V0 : Valuation τ sig (Elt F)) : val3 V0 (no_index (Proc.devRef .tc main_arg27)) = V0 (Proc.devRef .tc main_arg27) :=
  (val3_keep V0 main_arg27 (by decide)).trans (val2_main_arg27 V0)
theorem val3_main_v46 (V0 : Valuation τ sig (Elt F)) : val3 V0 (no_index (Proc.devRef .tc main_v46)) = res_main_v46 V0 :=
  (val3_keep V0 main_v46 (by decide)).trans (val2_main_v46 V0)
set_option maxRecDepth 8192 in
set_option maxHeartbeats 2000000 in
theorem val3_main_v52 (V0 : Valuation τ sig (Elt F)) : val3 V0 (no_index (Proc.devRef .tc main_v52)) = res_main_v52 V0 := by
  unfold val3
  simp only [opsA2]
  after_results_simp
  simp only [val2_main_arg14, val2_main_arg13, val2_main_arg12, val2_main_v46] <;> rfl
set_option maxRecDepth 8192 in
set_option maxHeartbeats 2000000 in
theorem val3_main_v54 (V0 : Valuation τ sig (Elt F)) : val3 V0 (no_index (Proc.devRef .tc main_v54)) = (broadcastInDim S4096x2048 ![0, 1] bcast_S1x2048_S4096x2048_0_1 : Arr F S1x2048 → Arr F S4096x2048) ((broadcastInDim S1x2048 ![1] bcast_S2048_S1x2048_1 : Arr F S2048 → Arr F S1x2048) (V0 (Proc.devRef .tc main_arg15))) := by
  unfold val3
  simp only [opsA2]
  after_results_simp
  simp only [val2_main_arg15] <;> rfl

/-- The buffers' contents after the operations up to `main_v67`. -/
def val4 (V0 : Valuation τ sig (Elt F)) : Valuation τ sig (Elt F) := after opsB0 (val3 V0)
/-- A buffer that list does not write keeps its contents through it. -/
theorem val4_keep (V0 : Valuation τ sig (Elt F)) (r : Ref sig .tc) (h : r ∉ opsB0_W) :
    val4 V0 (Proc.devRef .tc r) = val3 V0 (Proc.devRef .tc r) :=
  after_of_writes_sub opsB0 _ opsB0_writes h
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg20 (V0 : Valuation τ sig (Elt F)) : val4 V0 (no_index (Proc.devRef .tc main_arg20)) = V0 (Proc.devRef .tc main_arg20) :=
  (val4_keep V0 main_arg20 (by decide)).trans (val3_main_arg20 V0)
theorem val4_main_arg21 (V0 : Valuation τ sig (Elt F)) : val4 V0 (no_index (Proc.devRef .tc main_arg21)) = V0 (Proc.devRef .tc main_arg21) :=
  (val4_keep V0 main_arg21 (by decide)).trans (val3_main_arg21 V0)
theorem val4_main_arg22 (V0 : Valuation τ sig (Elt F)) : val4 V0 (no_index (Proc.devRef .tc main_arg22)) = V0 (Proc.devRef .tc main_arg22) :=
  (val4_keep V0 main_arg22 (by decide)).trans (val3_main_arg22 V0)
theorem val4_main_arg23 (V0 : Valuation τ sig (Elt F)) : val4 V0 (no_index (Proc.devRef .tc main_arg23)) = V0 (Proc.devRef .tc main_arg23) :=
  (val4_keep V0 main_arg23 (by decide)).trans (val3_main_arg23 V0)
theorem val4_main_arg24 (V0 : Valuation τ sig (Elt F)) : val4 V0 (no_index (Proc.devRef .tc main_arg24)) = V0 (Proc.devRef .tc main_arg24) :=
  (val4_keep V0 main_arg24 (by decide)).trans (val3_main_arg24 V0)
theorem val4_main_arg25 (V0 : Valuation τ sig (Elt F)) : val4 V0 (no_index (Proc.devRef .tc main_arg25)) = V0 (Proc.devRef .tc main_arg25) :=
  (val4_keep V0 main_arg25 (by decide)).trans (val3_main_arg25 V0)
theorem val4_main_arg26 (V0 : Valuation τ sig (Elt F)) : val4 V0 (no_index (Proc.devRef .tc main_arg26)) = V0 (Proc.devRef .tc main_arg26) :=
  (val4_keep V0 main_arg26 (by decide)).trans (val3_main_arg26 V0)
theorem val4_main_arg27 (V0 : Valuation τ sig (Elt F)) : val4 V0 (no_index (Proc.devRef .tc main_arg27)) = V0 (Proc.devRef .tc main_arg27) :=
  (val4_keep V0 main_arg27 (by decide)).trans (val3_main_arg27 V0)
theorem val4_main_v46 (V0 : Valuation τ sig (Elt F)) : val4 V0 (no_index (Proc.devRef .tc main_v46)) = res_main_v46 V0 :=
  (val4_keep V0 main_v46 (by decide)).trans (val3_main_v46 V0)
set_option maxRecDepth 8192 in
set_option maxHeartbeats 2000000 in
theorem val4_main_v60 (V0 : Valuation τ sig (Elt F)) : val4 V0 (no_index (Proc.devRef .tc main_v60)) = res_main_v60 V0 := by
  unfold val4
  simp only [opsB0]
  after_results_simp
  simp only [val3_main_arg17, val3_main_arg16, val3_main_v54, val3_main_v52] <;> rfl
set_option maxRecDepth 8192 in
set_option maxHeartbeats 2000000 in
theorem val4_main_v67 (V0 : Valuation τ sig (Elt F)) : val4 V0 (no_index (Proc.devRef .tc main_v67)) = res_main_v67 V0 := by
  unfold val4
  simp only [opsB0]
  after_results_simp
  simp only [val3_main_arg19, val3_main_arg18, val3_main_v54, val3_main_v52] <;> rfl

/-- The fifth list's first operation: concat(belief, obs). -/
abbrev opsB1z : List (HloOp τ sig (Elt F)) :=
  [ StableHlo.binary main_v46 main_arg3 main_v68 ((fun a b => concatenate S4096x4096 1 [⟨S4096x2048, a⟩, ⟨S4096x2048, b⟩] concatenates_S4096x2048_S4096x2048_S4096x4096_d1) : (⟨S4096x2048, .f32⟩ : BufTy).Contents (Elt F) → (⟨S4096x2048, .f32⟩ : BufTy).Contents (Elt F) → (⟨S4096x4096, .f32⟩ : BufTy).Contents (Elt F)) ]
abbrev opsB1z_W : List (Ref sig .tc) := [main_v68]
set_option maxRecDepth 8192 in
theorem opsB1z_writes : (opsB1z : List (HloOp τ sig (Elt F))).Forall fun op => op.writes ⊆ (opsB1z_W.map (Proc.devRef (τ := τ) .tc)).toFinset := by
  simp only [List.Forall]; exact (by simp only [nullary_writes, unary_writes, binary_writes, ternary_writes, nary_writes, Finset.singleton_subset_iff, List.mem_toFinset]; exact List.mem_map_of_mem (by decide))
/-- The buffers' contents after the operations up to `main_v68`. -/
def val5z (V0 : Valuation τ sig (Elt F)) : Valuation τ sig (Elt F) := after opsB1z (val4 V0)
/-- A buffer that list does not write keeps its contents through it. -/
theorem val5z_keep (V0 : Valuation τ sig (Elt F)) (r : Ref sig .tc) (h : r ∉ opsB1z_W) :
    val5z V0 (Proc.devRef .tc r) = val4 V0 (Proc.devRef .tc r) :=
  after_of_writes_sub opsB1z _ opsB1z_writes h
theorem val5z_main_arg20 (V0 : Valuation τ sig (Elt F)) : val5z V0 (no_index (Proc.devRef .tc main_arg20)) = V0 (Proc.devRef .tc main_arg20) :=
  (val5z_keep V0 main_arg20 (by decide)).trans (val4_main_arg20 V0)
theorem val5z_main_arg21 (V0 : Valuation τ sig (Elt F)) : val5z V0 (no_index (Proc.devRef .tc main_arg21)) = V0 (Proc.devRef .tc main_arg21) :=
  (val5z_keep V0 main_arg21 (by decide)).trans (val4_main_arg21 V0)
theorem val5z_main_arg22 (V0 : Valuation τ sig (Elt F)) : val5z V0 (no_index (Proc.devRef .tc main_arg22)) = V0 (Proc.devRef .tc main_arg22) :=
  (val5z_keep V0 main_arg22 (by decide)).trans (val4_main_arg22 V0)
theorem val5z_main_arg23 (V0 : Valuation τ sig (Elt F)) : val5z V0 (no_index (Proc.devRef .tc main_arg23)) = V0 (Proc.devRef .tc main_arg23) :=
  (val5z_keep V0 main_arg23 (by decide)).trans (val4_main_arg23 V0)
theorem val5z_main_arg24 (V0 : Valuation τ sig (Elt F)) : val5z V0 (no_index (Proc.devRef .tc main_arg24)) = V0 (Proc.devRef .tc main_arg24) :=
  (val5z_keep V0 main_arg24 (by decide)).trans (val4_main_arg24 V0)
theorem val5z_main_arg25 (V0 : Valuation τ sig (Elt F)) : val5z V0 (no_index (Proc.devRef .tc main_arg25)) = V0 (Proc.devRef .tc main_arg25) :=
  (val5z_keep V0 main_arg25 (by decide)).trans (val4_main_arg25 V0)
theorem val5z_main_arg26 (V0 : Valuation τ sig (Elt F)) : val5z V0 (no_index (Proc.devRef .tc main_arg26)) = V0 (Proc.devRef .tc main_arg26) :=
  (val5z_keep V0 main_arg26 (by decide)).trans (val4_main_arg26 V0)
theorem val5z_main_arg27 (V0 : Valuation τ sig (Elt F)) : val5z V0 (no_index (Proc.devRef .tc main_arg27)) = V0 (Proc.devRef .tc main_arg27) :=
  (val5z_keep V0 main_arg27 (by decide)).trans (val4_main_arg27 V0)
theorem val5z_main_v46 (V0 : Valuation τ sig (Elt F)) : val5z V0 (no_index (Proc.devRef .tc main_v46)) = res_main_v46 V0 :=
  (val5z_keep V0 main_v46 (by decide)).trans (val4_main_v46 V0)
theorem val5z_main_v60 (V0 : Valuation τ sig (Elt F)) : val5z V0 (no_index (Proc.devRef .tc main_v60)) = res_main_v60 V0 :=
  (val5z_keep V0 main_v60 (by decide)).trans (val4_main_v60 V0)
theorem val5z_main_v67 (V0 : Valuation τ sig (Elt F)) : val5z V0 (no_index (Proc.devRef .tc main_v67)) = res_main_v67 V0 :=
  (val5z_keep V0 main_v67 (by decide)).trans (val4_main_v67 V0)
/-- The concatenation's two operands are plain arguments of `cat2`, where they can be rewritten. -/
theorem val5z_main_v68 (V0 : Valuation τ sig (Elt F)) : val5z V0 (no_index (Proc.devRef .tc main_v68)) = res_main_v68 V0 := by
  unfold val5z
  simp only [opsB1z, after_cons, after_nil]
  rw [binary_result]
  show cat2 (val4 V0 (Proc.devRef .tc main_v46)) (val4 V0 (Proc.devRef .tc main_arg3)) = _
  simp only [val4_main_v46, val4_main_arg3]
  rfl

/-- The fifth list's first layer after the concatenation: its affine map and ELU. -/
abbrev opsB1a : List (HloOp τ sig (Elt F)) :=
  [ StableHlo.binary main_v68 main_arg20 main_v69 ((fun l r => Host.dotGeneral dot_S4096x4096_S4096x2048_S4096x2048_1_0_0_1_n_n none l r) : (⟨S4096x4096, .f32⟩ : BufTy).Contents (Elt F) → (⟨S4096x2048, .f32⟩ : BufTy).Contents (Elt F) → (⟨S4096x2048, .f32⟩ : BufTy).Contents (Elt F)),
    StableHlo.unary main_arg21 main_v70 (broadcastInDim S1x2048 ![1] bcast_S2048_S1x2048_1 : (⟨S2048, .f32⟩ : BufTy).Contents (Elt F) → (⟨S1x2048, .f32⟩ : BufTy).Contents (Elt F)),
    StableHlo.unary main_v70 main_v71 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v69 main_v71 main_v72 (addf : (⟨S4096x2048, .f32⟩ : BufTy).Contents (Elt F) → (⟨S4096x2048, .f32⟩ : BufTy).Contents (Elt F) → (⟨S4096x2048, .f32⟩ : BufTy).Contents (Elt F)),
    StableHlo.TRef.nullary main_call5.cst (constant S_ .f32 0x00000000#32),
    StableHlo.TRef.unary main_call5.cst main_call5.v0 (broadcastInDim S4096x2048 ![] bcast_S_S4096x2048),
    StableHlo.TRef.binary (.of main_v72 : StableHlo.TRef sig ⟨S4096x2048, .f32⟩) main_call5.v0 main_call5.v1 (cmpf .ogt),
    StableHlo.TRef.nullary main_call5.cst_0 (constant S_ .f32 0x00000000#32),
    StableHlo.TRef.unary main_call5.cst_0 main_call5.v2 (broadcastInDim S4096x2048 ![] bcast_S_S4096x2048),
    StableHlo.TRef.binary (.of main_v72 : StableHlo.TRef sig ⟨S4096x2048, .f32⟩) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S4096x2048 ![] bcast_S_S4096x2048),
    StableHlo.TRef.ternary main_call5.v3 main_call5.call0.v1 (.of main_v72 : StableHlo.TRef sig ⟨S4096x2048, .f32⟩) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S4096x2048 ![] bcast_S_S4096x2048),
    StableHlo.TRef.binary main_call5.v6 main_call5.v5 main_call5.v7 mulf,
    StableHlo.TRef.ternary main_call5.v1 (.of main_v72 : StableHlo.TRef sig ⟨S4096x2048, .f32⟩) main_call5.v7 main_call5.call1.v0 select ]
abbrev opsB1a_W : List (Ref sig .tc) := [main_v69, main_v70, main_v71, main_v72, main_call5_cst, main_call5_v0, main_call5_v1, main_call5_cst_0, main_call5_v2, main_call5_v3, main_call5_cst_1, main_call5_call0_v0, main_call5_call0_v1, main_call5_v4, main_call5_v5, main_call5_cst_2, main_call5_v6, main_call5_v7, main_v73]
set_option maxRecDepth 8192 in
theorem opsB1a_writes : (opsB1a : List (HloOp τ sig (Elt F))).Forall fun op => op.writes ⊆ (opsB1a_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
/-- The buffers' contents after the operations up to `main_v73`. -/
def val5a (V0 : Valuation τ sig (Elt F)) : Valuation τ sig (Elt F) := after opsB1a (val5z V0)
/-- A buffer that list does not write keeps its contents through it. -/
theorem val5a_keep (V0 : Valuation τ sig (Elt F)) (r : Ref sig .tc) (h : r ∉ opsB1a_W) :
    val5a V0 (Proc.devRef .tc r) = val5z V0 (Proc.devRef .tc r) :=
  after_of_writes_sub opsB1a _ opsB1a_writes h
theorem val5a_main_arg22 (V0 : Valuation τ sig (Elt F)) : val5a V0 (no_index (Proc.devRef .tc main_arg22)) = V0 (Proc.devRef .tc main_arg22) :=
  (val5a_keep V0 main_arg22 (by decide)).trans (val5z_main_arg22 V0)
theorem val5a_main_arg23 (V0 : Valuation τ sig (Elt F)) : val5a V0 (no_index (Proc.devRef .tc main_arg23)) = V0 (Proc.devRef .tc main_arg23) :=
  (val5a_keep V0 main_arg23 (by decide)).trans (val5z_main_arg23 V0)
theorem val5a_main_arg24 (V0 : Valuation τ sig (Elt F)) : val5a V0 (no_index (Proc.devRef .tc main_arg24)) = V0 (Proc.devRef .tc main_arg24) :=
  (val5a_keep V0 main_arg24 (by decide)).trans (val5z_main_arg24 V0)
theorem val5a_main_arg25 (V0 : Valuation τ sig (Elt F)) : val5a V0 (no_index (Proc.devRef .tc main_arg25)) = V0 (Proc.devRef .tc main_arg25) :=
  (val5a_keep V0 main_arg25 (by decide)).trans (val5z_main_arg25 V0)
theorem val5a_main_arg26 (V0 : Valuation τ sig (Elt F)) : val5a V0 (no_index (Proc.devRef .tc main_arg26)) = V0 (Proc.devRef .tc main_arg26) :=
  (val5a_keep V0 main_arg26 (by decide)).trans (val5z_main_arg26 V0)
theorem val5a_main_arg27 (V0 : Valuation τ sig (Elt F)) : val5a V0 (no_index (Proc.devRef .tc main_arg27)) = V0 (Proc.devRef .tc main_arg27) :=
  (val5a_keep V0 main_arg27 (by decide)).trans (val5z_main_arg27 V0)
theorem val5a_main_v46 (V0 : Valuation τ sig (Elt F)) : val5a V0 (no_index (Proc.devRef .tc main_v46)) = res_main_v46 V0 :=
  (val5a_keep V0 main_v46 (by decide)).trans (val5z_main_v46 V0)
theorem val5a_main_v60 (V0 : Valuation τ sig (Elt F)) : val5a V0 (no_index (Proc.devRef .tc main_v60)) = res_main_v60 V0 :=
  (val5a_keep V0 main_v60 (by decide)).trans (val5z_main_v60 V0)
theorem val5a_main_v67 (V0 : Valuation τ sig (Elt F)) : val5a V0 (no_index (Proc.devRef .tc main_v67)) = res_main_v67 V0 :=
  (val5a_keep V0 main_v67 (by decide)).trans (val5z_main_v67 V0)
set_option maxRecDepth 8192 in
set_option maxHeartbeats 2000000 in
theorem val5a_main_v73 (V0 : Valuation τ sig (Elt F)) : val5a V0 (no_index (Proc.devRef .tc main_v73)) = res_main_v73 V0 := by
  unfold val5a
  simp only [opsB1a]
  after_results_simp
  simp only [val5z_main_arg21, val5z_main_arg20, val5z_main_v68] <;> rfl

/-- The fifth list's second layer. -/
abbrev opsB1b : List (HloOp τ sig (Elt F)) :=
  [ StableHlo.binary main_v73 main_arg22 main_v74 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    StableHlo.unary main_arg23 main_v75 (broadcastInDim S1x2048 ![1] bcast_S2048_S1x2048_1 : (⟨S2048, .f32⟩ : BufTy).Contents (Elt F) → (⟨S1x2048, .f32⟩ : BufTy).Contents (Elt F)),
    StableHlo.unary main_v75 main_v76 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v74 main_v76 main_v77 (addf : (⟨S4096x2048, .f32⟩ : BufTy).Contents (Elt F) → (⟨S4096x2048, .f32⟩ : BufTy).Contents (Elt F) → (⟨S4096x2048, .f32⟩ : BufTy).Contents (Elt F)),
    StableHlo.TRef.nullary main_call6.cst (constant S_ .f32 0x00000000#32),
    StableHlo.TRef.unary main_call6.cst main_call6.v0 (broadcastInDim S4096x2048 ![] bcast_S_S4096x2048),
    StableHlo.TRef.binary (.of main_v77 : StableHlo.TRef sig ⟨S4096x2048, .f32⟩) main_call6.v0 main_call6.v1 (cmpf .ogt),
    StableHlo.TRef.nullary main_call6.cst_0 (constant S_ .f32 0x00000000#32),
    StableHlo.TRef.unary main_call6.cst_0 main_call6.v2 (broadcastInDim S4096x2048 ![] bcast_S_S4096x2048),
    StableHlo.TRef.binary (.of main_v77 : StableHlo.TRef sig ⟨S4096x2048, .f32⟩) main_call6.v2 main_call6.v3 (cmpf .ogt),
    StableHlo.TRef.nullary main_call6.cst_1 (constant S_ .f32 0x00000000#32),
    StableHlo.TRef.unary main_call6.cst_1 main_call6.call0.v0 id,
    StableHlo.TRef.unary main_call6.call0.v0 main_call6.call0.v1 (broadcastInDim S4096x2048 ![] bcast_S_S4096x2048),
    StableHlo.TRef.ternary main_call6.v3 main_call6.call0.v1 (.of main_v77 : StableHlo.TRef sig ⟨S4096x2048, .f32⟩) main_call6.call0.v2 select,
    StableHlo.TRef.unary main_call6.call0.v2 main_call6.v5 Host.expm1,
    StableHlo.TRef.nullary main_call6.cst_2 (constant S_ .f32 0x3F800000#32),
    StableHlo.TRef.unary main_call6.cst_2 main_call6.v6 (broadcastInDim S4096x2048 ![] bcast_S_S4096x2048),
    StableHlo.TRef.binary main_call6.v6 main_call6.v5 main_call6.v7 mulf,
    StableHlo.TRef.ternary main_call6.v1 (.of main_v77 : StableHlo.TRef sig ⟨S4096x2048, .f32⟩) main_call6.v7 main_call6.call1.v0 select ]
abbrev opsB1b_W : List (Ref sig .tc) := [main_v74, main_v75, main_v76, main_v77, main_call6_cst, main_call6_v0, main_call6_v1, main_call6_cst_0, main_call6_v2, main_call6_v3, main_call6_cst_1, main_call6_call0_v0, main_call6_call0_v1, main_call6_v4, main_call6_v5, main_call6_cst_2, main_call6_v6, main_call6_v7, main_v78]
set_option maxRecDepth 8192 in
theorem opsB1b_writes : (opsB1b : List (HloOp τ sig (Elt F))).Forall fun op => op.writes ⊆ (opsB1b_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
set_option maxRecDepth 8192 in
theorem opsB1_split : (opsB1 : List (HloOp τ sig (Elt F))) = opsB1z ++ (opsB1a ++ opsB1b) := rfl
/-- The buffers' contents after the operations up to `main_v78`. -/
def val5 (V0 : Valuation τ sig (Elt F)) : Valuation τ sig (Elt F) := after opsB1b (val5a V0)
/-- A buffer that list does not write keeps its contents through it. -/
theorem val5_keep (V0 : Valuation τ sig (Elt F)) (r : Ref sig .tc) (h : r ∉ opsB1b_W) :
    val5 V0 (Proc.devRef .tc r) = val5a V0 (Proc.devRef .tc r) :=
  after_of_writes_sub opsB1b _ opsB1b_writes h
theorem val5_main_arg24 (V0 : Valuation τ sig (Elt F)) : val5 V0 (no_index (Proc.devRef .tc main_arg24)) = V0 (Proc.devRef .tc main_arg24) :=
  (val5_keep V0 main_arg24 (by decide)).trans (val5a_main_arg24 V0)
theorem val5_main_arg25 (V0 : Valuation τ sig (Elt F)) : val5 V0 (no_index (Proc.devRef .tc main_arg25)) = V0 (Proc.devRef .tc main_arg25) :=
  (val5_keep V0 main_arg25 (by decide)).trans (val5a_main_arg25 V0)
theorem val5_main_arg26 (V0 : Valuation τ sig (Elt F)) : val5 V0 (no_index (Proc.devRef .tc main_arg26)) = V0 (Proc.devRef .tc main_arg26) :=
  (val5_keep V0 main_arg26 (by decide)).trans (val5a_main_arg26 V0)
theorem val5_main_arg27 (V0 : Valuation τ sig (Elt F)) : val5 V0 (no_index (Proc.devRef .tc main_arg27)) = V0 (Proc.devRef .tc main_arg27) :=
  (val5_keep V0 main_arg27 (by decide)).trans (val5a_main_arg27 V0)
theorem val5_main_v46 (V0 : Valuation τ sig (Elt F)) : val5 V0 (no_index (Proc.devRef .tc main_v46)) = res_main_v46 V0 :=
  (val5_keep V0 main_v46 (by decide)).trans (val5a_main_v46 V0)
theorem val5_main_v60 (V0 : Valuation τ sig (Elt F)) : val5 V0 (no_index (Proc.devRef .tc main_v60)) = res_main_v60 V0 :=
  (val5_keep V0 main_v60 (by decide)).trans (val5a_main_v60 V0)
theorem val5_main_v67 (V0 : Valuation τ sig (Elt F)) : val5 V0 (no_index (Proc.devRef .tc main_v67)) = res_main_v67 V0 :=
  (val5_keep V0 main_v67 (by decide)).trans (val5a_main_v67 V0)
set_option maxRecDepth 8192 in
set_option maxHeartbeats 2000000 in
theorem val5_main_v78 (V0 : Valuation τ sig (Elt F)) : val5 V0 (no_index (Proc.devRef .tc main_v78)) = res_main_v78 V0 := by
  unfold val5
  simp only [opsB1b]
  after_results_simp
  simp only [val5a_main_arg23, val5a_main_arg22, val5a_main_v73] <;> rfl

/-- The last list without its final operation, the concatenation. -/
abbrev opsB2i : List (HloOp τ sig (Elt F)) :=
  [ StableHlo.binary main_v78 main_arg24 main_v79 ((fun l r => Host.dotGeneral dot_S4096x2048_S2048x1024_S4096x1024_1_0_0_1_n_n none l r) : (⟨S4096x2048, .f32⟩ : BufTy).Contents (Elt F) → (⟨S2048x1024, .f32⟩ : BufTy).Contents (Elt F) → (⟨S4096x1024, .f32⟩ : BufTy).Contents (Elt F)),
    StableHlo.unary main_arg25 main_v80 (broadcastInDim S1x1024 ![1] bcast_S1024_S1x1024_1 : (⟨S1024, .f32⟩ : BufTy).Contents (Elt F) → (⟨S1x1024, .f32⟩ : BufTy).Contents (Elt F)),
    StableHlo.unary main_v80 main_v81 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v79 main_v81 main_v82 (addf : (⟨S4096x1024, .f32⟩ : BufTy).Contents (Elt F) → (⟨S4096x1024, .f32⟩ : BufTy).Contents (Elt F) → (⟨S4096x1024, .f32⟩ : BufTy).Contents (Elt F)),
    StableHlo.binary main_v78 main_arg26 main_v83 ((fun l r => Host.dotGeneral dot_S4096x2048_S2048x1024_S4096x1024_1_0_0_1_n_n none l r) : (⟨S4096x2048, .f32⟩ : BufTy).Contents (Elt F) → (⟨S2048x1024, .f32⟩ : BufTy).Contents (Elt F) → (⟨S4096x1024, .f32⟩ : BufTy).Contents (Elt F)),
    StableHlo.unary main_arg27 main_v84 (broadcastInDim S1x1024 ![1] bcast_S1024_S1x1024_1 : (⟨S1024, .f32⟩ : BufTy).Contents (Elt F) → (⟨S1x1024, .f32⟩ : BufTy).Contents (Elt F)),
    StableHlo.unary main_v84 main_v85 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v83 main_v85 main_v86 (addf : (⟨S4096x1024, .f32⟩ : BufTy).Contents (Elt F) → (⟨S4096x1024, .f32⟩ : BufTy).Contents (Elt F) → (⟨S4096x1024, .f32⟩ : BufTy).Contents (Elt F)),
    StableHlo.TRef.nullary main_call7.cst (constant S_ .f32 0x00000000#32),
    StableHlo.TRef.unary main_call7.cst main_call7.v0 (broadcastInDim S4096x1024 ![] bcast_S_S4096x1024),
    StableHlo.TRef.binary (.of main_v86 : StableHlo.TRef sig ⟨S4096x1024, .f32⟩) main_call7.v0 main_call7.v1 maximumf,
    StableHlo.TRef.unary main_call7.cst main_call7.v2 (broadcastInDim S4096x1024 ![] bcast_S_S4096x1024),
    StableHlo.TRef.binary (.of main_v86 : StableHlo.TRef sig ⟨S4096x1024, .f32⟩) main_call7.v2 main_call7.v3 subf,
    StableHlo.TRef.binary main_call7.v3 main_call7.v3 main_call7.v4 (cmpf .une),
    StableHlo.TRef.unary main_call7.cst main_call7.v5 (broadcastInDim S4096x1024 ![] bcast_S_S4096x1024),
    StableHlo.TRef.binary (.of main_v86 : StableHlo.TRef sig ⟨S4096x1024, .f32⟩) main_call7.v5 main_call7.v6 addf,
    StableHlo.TRef.unary main_call7.v3 main_call7.v7 Host.absf,
    StableHlo.TRef.unary main_call7.v7 main_call7.v8 Host.negf,
    StableHlo.TRef.unary main_call7.v8 main_call7.v9 Host.exp,
    StableHlo.TRef.unary main_call7.v9 main_call7.v10 Host.log1p,
    StableHlo.TRef.binary main_call7.v1 main_call7.v10 main_call7.v11 addf,
    StableHlo.TRef.ternary main_call7.v4 main_call7.v6 main_call7.v11 main_call7.v12 select,
    StableHlo.nullary main_cst_5 (constant S_ .f32 0x3DCCCCCD#32),
    StableHlo.unary main_cst_5 main_v88 (broadcastInDim S4096x1024 ![] bcast_S_S4096x1024 : (⟨S_, .f32⟩ : BufTy).Contents (Elt F) → (⟨S4096x1024, .f32⟩ : BufTy).Contents (Elt F)),
    StableHlo.binary main_v87 main_v88 main_v89 (addf : (⟨S4096x1024, .f32⟩ : BufTy).Contents (Elt F) → (⟨S4096x1024, .f32⟩ : BufTy).Contents (Elt F) → (⟨S4096x1024, .f32⟩ : BufTy).Contents (Elt F)) ]
abbrev opsB2i_W : List (Ref sig .tc) := [main_v79, main_v80, main_v81, main_v82, main_v83, main_v84, main_v85, main_v86, main_call7_cst, main_call7_v0, main_call7_v1, main_call7_v2, main_call7_v3, main_call7_v4, main_call7_v5, main_call7_v6, main_call7_v7, main_call7_v8, main_call7_v9, main_call7_v10, main_call7_v11, main_v87, main_cst_5, main_v88, main_v89]
set_option maxRecDepth 8192 in
theorem opsB2i_writes : (opsB2i : List (HloOp τ sig (Elt F))).Forall fun op => op.writes ⊆ (opsB2i_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
/-- The concatenation of the five arrays into the result. -/
abbrev catOp : HloOp τ sig (Elt F) :=
  StableHlo.nary ![main_v60, main_v67, main_v82, main_v89, main_v46] main_v90 (fun u => concatenate S4096x6144 1 [⟨S4096x1024, u 0⟩, ⟨S4096x1024, u 1⟩, ⟨S4096x1024, u 2⟩, ⟨S4096x1024, u 3⟩, ⟨S4096x2048, u 4⟩] concatenates_S4096x1024_S4096x1024_S4096x1024_S4096x1024_S4096x2048_S4096x6144_d1)
set_option maxRecDepth 8192 in
theorem opsB2_split : (opsB2 : List (HloOp τ sig (Elt F))) = opsB2i ++ [catOp] := rfl
/-- The buffers' contents after the operations up to `main_v89`. -/
def val6i (V0 : Valuation τ sig (Elt F)) : Valuation τ sig (Elt F) := after opsB2i (val5 V0)
/-- A buffer that list does not write keeps its contents through it. -/
theorem val6i_keep (V0 : Valuation τ sig (Elt F)) (r : Ref sig .tc) (h : r ∉ opsB2i_W) :
    val6i V0 (Proc.devRef .tc r) = val5 V0 (Proc.devRef .tc r) :=
  after_of_writes_sub opsB2i _ opsB2i_writes h
theorem val6i_main_v46 (V0 : Valuation τ sig (Elt F)) : val6i V0 (no_index (Proc.devRef .tc main_v46)) = res_main_v46 V0 :=
  (val6i_keep V0 main_v46 (by decide)).trans (val5_main_v46 V0)
theorem val6i_main_v60 (V0 : Valuation τ sig (Elt F)) : val6i V0 (no_index (Proc.devRef .tc main_v60)) = res_main_v60 V0 :=
  (val6i_keep V0 main_v60 (by decide)).trans (val5_main_v60 V0)
theorem val6i_main_v67 (V0 : Valuation τ sig (Elt F)) : val6i V0 (no_index (Proc.devRef .tc main_v67)) = res_main_v67 V0 :=
  (val6i_keep V0 main_v67 (by decide)).trans (val5_main_v67 V0)
set_option maxRecDepth 8192 in
set_option maxHeartbeats 2000000 in
theorem val6i_main_v82 (V0 : Valuation τ sig (Elt F)) : val6i V0 (no_index (Proc.devRef .tc main_v82)) = res_main_v82 V0 := by
  unfold val6i
  simp only [opsB2i]
  after_results_simp
  simp only [val5_main_arg25, val5_main_arg24, val5_main_v78] <;> rfl
set_option maxRecDepth 8192 in
set_option maxHeartbeats 2000000 in
theorem val6i_main_v89 (V0 : Valuation τ sig (Elt F)) : val6i V0 (no_index (Proc.devRef .tc main_v89)) = res_main_v89 V0 := by
  unfold val6i
  simp only [opsB2i]
  after_results_simp
  simp only [val5_main_arg27, val5_main_arg26, val5_main_v78] <;> rfl

/-- The buffers' contents after @main. -/
def val6 (V0 : Valuation τ sig (Elt F)) : Valuation τ sig (Elt F) := after opsB2 (val5 V0)
theorem val6_eq (V0 : Valuation τ sig (Elt F)) : val6 V0 = catOp.result (val6i V0) := by
  unfold val6 val6i
  rw [opsB2_split, after_append]
  rfl
/-- The result buffer after @main holds the concatenation of the five named arrays. -/
theorem val6_main_v90 (V0 : Valuation τ sig (Elt F)) : val6 V0 (Proc.devRef .tc main_v90) = res_main_v90 V0 := by
  rw [val6_eq]
  unfold catOp
  rw [nary_result]
  show cat5 (val6i V0 (Proc.devRef .tc main_v60)) (val6i V0 (Proc.devRef .tc main_v67)) (val6i V0 (Proc.devRef .tc main_v82)) (val6i V0 (Proc.devRef .tc main_v89)) (val6i V0 (Proc.devRef .tc main_v46)) = _
  simp only [val6i_main_v60, val6i_main_v67, val6i_main_v82, val6i_main_v89, val6i_main_v46]
  rfl
theorem after_ops (V0 : Valuation τ sig (Elt F)) : after ops V0 = val6 V0 := by
  simp only [ops, opsA, opsB, after_append]
  rw [opsB1_split, after_append, after_append]
  rfl

/-- The result array is the named term of the launch contents. -/
theorem res_term (m : (ℓ : Loc nD τ sig) → Buf (Elt Ideal) ℓ) (c : Dev nD) :
    res m c = res_main_v90 (F := Ideal) (launchContents m c) := by
  unfold res
  exact (congrFun (after_ops (launchContents m c)) _).trans (val6_main_v90 _)

end Cert.ReferenceIdeal.Hand

end
-- ==== Proof.RefRead.lean ====
/- The reference's result read at an index, in the vocabulary of matrices over the extended reals.

   `Gref` is the reference's function stage by stage as it computes it: every Linear layer the affine map of each row,
   `x·W + b`; ELU, the logistic function and softplus entry by entry in the forms the reference prints them (`eluR`,
   `sigmR`, `splusR`); the GRU cell's gates from column thirds of its two affine maps; the result the five arrays side
   by side. `res_eq` reads the run's result array at an index as `Gref` of the argument arrays. -/
import proofs.«109395_j20375324852595_2_alg».proof.Proof.RefVal
import proofs.«109395_j20375324852595_2_alg».proof.Proof.Spec
import Idealize.ShloMosaic.Lib.ValueIdx
import Idealize.ShloMosaic.Lib.IdealHost
import Idealize.ShloMosaic.Lib.KernelVsHost
import Idealize.ShloMosaic.Lib.Pipeline.Value
import Idealize.ShloMosaic.PureOps.Ideal.Laws

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Spec

/-- ELU as the reference prints it: `y` where `y > 0`, elsewhere `1 · (e^t − 1)` with `t` the entry made `0` where
    `y > 0` (so that `t = y` wherever this branch is taken). -/
def eluR (y : EReal) : EReal :=
  Scalar.select (Ideal.cmp .ogt y zero32) y
    (one32 * (Ideal.exp (Scalar.select (Ideal.cmp .ogt y zero32) zero32 y) - 1))
/-- The logistic function as the reference prints it: `1 / (1 + e^(−y))`. -/
def sigmR (y : EReal) : EReal := Ideal.div one32 (one32 + Ideal.exp (-y))
/-- Softplus as the reference prints it, `max(y, 0) + log1p(e^(−|y − 0|))` behind the guard for a difference not equal
    to itself, plus the minimal standard deviation. -/
def splusR (y : EReal) : EReal :=
  Scalar.select (Ideal.cmp .une (y - zero32) (y - zero32)) (y + zero32)
    (max y zero32 + Ideal.log1p (Ideal.exp (-(max (y - zero32) (-(y - zero32)))))) + tenth32

/-- Two Linear+ELU layers. -/
def mlp2 {a k j l : ℕ} (x : Mat a k) (W0 : Mat k j) (b0 : Row j) (W1 : Mat j l) (b1 : Row l) : Mat a l :=
  map eluR (aff (map eluR (aff x W0 b0)) W1 b1)
/-- The GRU cell on input `h` and state `st`: with `gi = h·Wih + bih` and `gh = st·Whh + bhh` (6144 columns each),
    `r` and `z` the logistic function of the sums of the first and of the second thirds, `n = tanh(giₙ + r · ghₙ)` on the
    last thirds, and the new state `(1 − z) · n + z · st`. -/
def gru (h st : Mat 4096 2048) (Wih Whh : Mat 2048 6144) (bih bhh : Row 6144) : Mat 4096 2048 :=
  fun n q =>
    let gi := aff h Wih bih
    let gh := aff st Whh bhh
    let r := sigmR (cols 0 2048 (by omega) gi n q + cols 0 2048 (by omega) gh n q)
    let z := sigmR (cols 2048 2048 (by omega) gi n q + cols 2048 2048 (by omega) gh n q)
    let nn := Ideal.tanh (cols 4096 2048 (by omega) gi n q + r * cols 4096 2048 (by omega) gh n q)
    (one32 - z) * nn + z * st n q
/-- Five matrices side by side: 1024 + 1024 + 1024 + 1024 + 2048 columns. -/
def cat5M (m1 s1 m2 s2 : Mat 4096 1024) (bel : Mat 4096 2048) : Mat 4096 6144 :=
  fun n q =>
    if h1 : q.val < 1024 then m1 n ⟨q.val, h1⟩
    else if h2 : q.val < 2048 then s1 n ⟨q.val - 1024, by omega⟩
    else if h3 : q.val < 3072 then m2 n ⟨q.val - 2048, by omega⟩
    else if h4 : q.val < 4096 then s2 n ⟨q.val - 3072, by omega⟩
    else bel n ⟨q.val - 4096, by have := q.isLt; omega⟩

/-- The reference's function of its twenty-eight arguments. -/
def Gref (ps : Mat 4096 1024) (pa : Mat 4096 512) (st ob : Mat 4096 2048) (t0W : Mat 1536 2048) (t0b : Row 2048) (t1W : Mat 2048 2048) (t1b : Row 2048) (Wih Whh : Mat 2048 6144) (bih bhh : Row 6144) (p0W : Mat 2048 2048) (p0b : Row 2048) (p1W : Mat 2048 2048) (p1b : Row 2048) (pmW : Mat 2048 1024) (pmb : Row 1024) (psW : Mat 2048 1024) (psb : Row 1024) (q0W : Mat 4096 2048) (q0b : Row 2048) (q1W : Mat 2048 2048) (q1b : Row 2048) (qmW : Mat 2048 1024) (qmb : Row 1024) (qsW : Mat 2048 1024) (qsb : Row 1024) : Mat 4096 6144 :=
  let bel := gru (mlp2 (hcat ps pa) t0W t0b t1W t1b) st Wih Whh bih bhh
  let hp := mlp2 bel p0W p0b p1W p1b
  let hq := mlp2 (hcat bel ob) q0W q0b q1W q1b
  cat5M (aff hp pmW pmb) (map splusR (aff hp psW psb)) (aff hq qmW qmb) (map splusR (aff hq qsW qsb)) bel

/-! ## The layout operations and the product read at an entry -/

section Generic
variable {α : Type}

/-- A product of two matrices with one contracted axis (the left's columns against the right's rows), read at an
    entry: the sum over the contracted coordinate. The four coordinate facts say which coordinate of which operand
    index is the row, the column and the contracted one. -/
theorem dot_apply {a k j : ℕ} (D : DotDims ⟨2, ![a, k]⟩ ⟨2, ![k, j]⟩ ⟨2, ![a, j]⟩)
    (hr : D.contr.rank = 1) (hs : D.contr.size ⟨0, by omega⟩ = k)
    (hl0 : ∀ jj kk, ((D.lhsIdx jj kk) 0).val = (jj 0).val)
    (hl1 : ∀ jj kk, ((D.lhsIdx jj kk) 1).val = (kk ⟨0, by omega⟩).val)
    (hr0 : ∀ jj kk, ((D.rhsIdx jj kk) 0).val = (kk ⟨0, by omega⟩).val)
    (hr1 : ∀ jj kk, ((D.rhsIdx jj kk) 1).val = (jj 1).val)
    (x : FVec Ideal ⟨2, ![a, k]⟩ .f32) (W : FVec Ideal ⟨2, ![k, j]⟩ .f32) (n : Fin a) (q : Fin j) :
    Host.dotGeneral D none x W (ix2 n q) = ∑ i : Fin k, x (ix2 n i) * W (ix2 i q) := by
  simp only [Host.dotGeneral]
  rw [Ideal.dotGeneral_apply, ← Equiv.sum_comp (contrEquiv1 D k hr hs).symm]
  refine Finset.sum_congr rfl fun i _ => ?_
  have hi := contrEquiv1_symm_val D k hr hs i
  congr 1
  · refine congrArg x (funext fun b => Fin.ext ?_)
    match b with
    | ⟨0, _⟩ => exact hl0 _ _
    | ⟨1, _⟩ => exact (hl1 _ _).trans hi
  · refine congrArg W (funext fun b => Fin.ext ?_)
    match b with
    | ⟨0, _⟩ => exact (hr0 _ _).trans hi
    | ⟨1, _⟩ => exact hr1 _ _

/-- A row of `j` entries made a one-row matrix and broadcast down `a` rows, read at (n, q), is the row at `q`. -/
theorem bias_apply {a j : ℕ} (h1 : (⟨1, ![j]⟩ : Shape).BroadcastsInDim ⟨2, ![1, j]⟩ ![1])
    (h2 : (⟨2, ![1, j]⟩ : Shape).BroadcastsInDim ⟨2, ![a, j]⟩ ![0, 1]) (b : (⟨1, ![j]⟩ : Shape).Idx → α) (n : Fin a) (q : Fin j) :
    broadcastInDim ⟨2, ![a, j]⟩ ![0, 1] h2 (broadcastInDim ⟨2, ![1, j]⟩ ![1] h1 b) (ix2 n q) = b (ix1 q) := by
  rw [broadcastInDim_oneRow_apply]
  refine broadcastInDim_apply ![1] h1 b (ix2 (0 : Fin 1) q) (ix1 q) ?_
  intro d
  match d with
  | ⟨0, _⟩ =>
    show q.val = if j = 1 then 0 else q.val
    split_ifs with hj
    · have := q.isLt; omega
    · rfl

/-- Columns `off … off + j' − 1` of a matrix, read at (n, q). -/
theorem slice_apply {a j j' : ℕ} (off : ℕ) (hj : off + j' ≤ j) (h : (⟨2, ![a, j]⟩ : Shape).Slices ![0, off] ⟨2, ![a, j']⟩)
    (x : (⟨2, ![a, j]⟩ : Shape).Idx → α) (n : Fin a) (q : Fin j') :
    extractStridedSlice ⟨2, ![a, j']⟩ ![0, off] x h (ix2 n q) = x (ix2 n ⟨off + q.val, by have := q.isLt; omega⟩) := by
  refine extractStridedSlice_apply ![0, off] x h (ix2 n q) _ ?_
  intro d
  match d with
  | ⟨0, _⟩ => show n.val = 0 + n.val; omega
  | ⟨1, _⟩ => rfl

/-- Two matrices side by side, read at (n, i): the left one where `i < k₁`, the right one at `i − k₁` elsewhere. -/
theorem pair_apply {a k₁ k₂ k : ℕ} (hk : k₁ + k₂ = k) (h : Shape.Concatenates [(⟨2, ![a, k₁]⟩ : Shape), ⟨2, ![a, k₂]⟩] ⟨2, ![a, k]⟩ 1)
    (x₁ : (⟨2, ![a, k₁]⟩ : Shape).Idx → α) (x₂ : (⟨2, ![a, k₂]⟩ : Shape).Idx → α) (n : Fin a) (i : Fin k) :
    concatenate ⟨2, ![a, k]⟩ 1 [⟨⟨2, ![a, k₁]⟩, x₁⟩, ⟨⟨2, ![a, k₂]⟩, x₂⟩] h (ix2 n i)
      = if hi : i.val < k₁ then x₁ (ix2 n ⟨i.val, hi⟩) else x₂ (ix2 n ⟨i.val - k₁, by have := i.isLt; omega⟩) := by
  split_ifs with hi
  · refine concatenate_pair_apply_left 1 x₁ x₂ h (ix2 n i) rfl (ix2 n ⟨i.val, hi⟩) ?_
    intro d
    match d with
    | ⟨0, _⟩ => rfl
    | ⟨1, _⟩ => rfl
  · refine concatenate_pair_apply_right 1 x₁ x₂ h (ix2 n i) rfl rfl (ix2 n ⟨i.val - k₁, by have := i.isLt; omega⟩) ?_ ?_
    · intro d hd
      match d with
      | ⟨0, _⟩ => rfl
      | ⟨1, _⟩ => exact absurd rfl hd
    · show (i.val - k₁) + k₁ = i.val
      omega

end Generic

/-- The 4096×1536 by 1536×2048 product read at an entry. -/
theorem D1_apply (x : FVec Ideal S4096x1536 .f32) (W : FVec Ideal S1536x2048 .f32) (n : Fin 4096) (q : Fin 2048) :
    Host.dotGeneral dot_S4096x1536_S1536x2048_S4096x2048_1_0_0_1_n_n none x W (ix2 n q) = ∑ i : Fin 1536, x (ix2 n i) * W (ix2 i q) :=
  dot_apply dot_S4096x1536_S1536x2048_S4096x2048_1_0_0_1_n_n rfl rfl
    (fun jj kk => by simp [DotDims.lhsIdx, dot_S4096x1536_S1536x2048_S4096x2048_1_0_0_1_n_n]; rfl)
    (fun jj kk => DotDims.lhsIdx_val_of_single _ rfl jj kk)
    (fun jj kk => DotDims.rhsIdx_val_of_single _ rfl jj kk)
    (fun jj kk => by simp [DotDims.rhsIdx, dot_S4096x1536_S1536x2048_S4096x2048_1_0_0_1_n_n]; rfl) x W n q
/-- The 4096×2048 by 2048×2048 product read at an entry. -/
theorem D2_apply (x : FVec Ideal S4096x2048 .f32) (W : FVec Ideal S2048x2048 .f32) (n : Fin 4096) (q : Fin 2048) :
    Host.dotGeneral dot_S4096x2048_S2048x2048_S4096x2048_1_0_0_1_n_n none x W (ix2 n q) = ∑ i : Fin 2048, x (ix2 n i) * W (ix2 i q) :=
  dot_apply dot_S4096x2048_S2048x2048_S4096x2048_1_0_0_1_n_n rfl rfl
    (fun jj kk => by simp [DotDims.lhsIdx, dot_S4096x2048_S2048x2048_S4096x2048_1_0_0_1_n_n]; rfl)
    (fun jj kk => DotDims.lhsIdx_val_of_single _ rfl jj kk)
    (fun jj kk => DotDims.rhsIdx_val_of_single _ rfl jj kk)
    (fun jj kk => by simp [DotDims.rhsIdx, dot_S4096x2048_S2048x2048_S4096x2048_1_0_0_1_n_n]; rfl) x W n q
/-- The 4096×2048 by 2048×6144 product read at an entry. -/
theorem D3_apply (x : FVec Ideal S4096x2048 .f32) (W : FVec Ideal S2048x6144 .f32) (n : Fin 4096) (q : Fin 6144) :
    Host.dotGeneral dot_S4096x2048_S2048x6144_S4096x6144_1_0_0_1_n_n none x W (ix2 n q) = ∑ i : Fin 2048, x (ix2 n i) * W (ix2 i q) :=
  dot_apply dot_S4096x2048_S2048x6144_S4096x6144_1_0_0_1_n_n rfl rfl
    (fun jj kk => by simp [DotDims.lhsIdx, dot_S4096x2048_S2048x6144_S4096x6144_1_0_0_1_n_n]; rfl)
    (fun jj kk => DotDims.lhsIdx_val_of_single _ rfl jj kk)
    (fun jj kk => DotDims.rhsIdx_val_of_single _ rfl jj kk)
    (fun jj kk => by simp [DotDims.rhsIdx, dot_S4096x2048_S2048x6144_S4096x6144_1_0_0_1_n_n]; rfl) x W n q
/-- The 4096×2048 by 2048×1024 product read at an entry. -/
theorem D4_apply (x : FVec Ideal S4096x2048 .f32) (W : FVec Ideal S2048x1024 .f32) (n : Fin 4096) (q : Fin 1024) :
    Host.dotGeneral dot_S4096x2048_S2048x1024_S4096x1024_1_0_0_1_n_n none x W (ix2 n q) = ∑ i : Fin 2048, x (ix2 n i) * W (ix2 i q) :=
  dot_apply dot_S4096x2048_S2048x1024_S4096x1024_1_0_0_1_n_n rfl rfl
    (fun jj kk => by simp [DotDims.lhsIdx, dot_S4096x2048_S2048x1024_S4096x1024_1_0_0_1_n_n]; rfl)
    (fun jj kk => DotDims.lhsIdx_val_of_single _ rfl jj kk)
    (fun jj kk => DotDims.rhsIdx_val_of_single _ rfl jj kk)
    (fun jj kk => by simp [DotDims.rhsIdx, dot_S4096x2048_S2048x1024_S4096x1024_1_0_0_1_n_n]; rfl) x W n q
/-- The 4096×4096 by 4096×2048 product read at an entry. -/
theorem D5_apply (x : FVec Ideal S4096x4096 .f32) (W : FVec Ideal S4096x2048 .f32) (n : Fin 4096) (q : Fin 2048) :
    Host.dotGeneral dot_S4096x4096_S4096x2048_S4096x2048_1_0_0_1_n_n none x W (ix2 n q) = ∑ i : Fin 4096, x (ix2 n i) * W (ix2 i q) :=
  dot_apply dot_S4096x4096_S4096x2048_S4096x2048_1_0_0_1_n_n rfl rfl
    (fun jj kk => by simp [DotDims.lhsIdx, dot_S4096x4096_S4096x2048_S4096x2048_1_0_0_1_n_n]; rfl)
    (fun jj kk => DotDims.lhsIdx_val_of_single _ rfl jj kk)
    (fun jj kk => DotDims.rhsIdx_val_of_single _ rfl jj kk)
    (fun jj kk => by simp [DotDims.rhsIdx, dot_S4096x4096_S4096x2048_S4096x2048_1_0_0_1_n_n]; rfl) x W n q

/-! ## The functions applied entry by entry, read at an entry -/

theorem elu_apply (x : Arr Ideal S4096x2048) (i : S4096x2048.Idx) : elu x i = eluR (x i) := rfl
theorem softplus_apply (x : Arr Ideal S4096x1024) (i : S4096x1024.Idx) :
    (addf (softplus x) (broadcastInDim S4096x1024 ![] bcast_S_S4096x1024 (constant (F := Ideal) S_ .f32 0x3DCCCCCD#32)) : Arr Ideal S4096x1024) i = splusR (x i) := rfl

/-- Two arrays side by side, read as matrices. -/
theorem hcat_mat {a k₁ k₂ : ℕ} (h : Shape.Concatenates [(⟨2, ![a, k₁]⟩ : Shape), ⟨2, ![a, k₂]⟩] ⟨2, ![a, k₁ + k₂]⟩ 1)
    (x₁ : (⟨2, ![a, k₁]⟩ : Shape).Idx → EReal) (x₂ : (⟨2, ![a, k₂]⟩ : Shape).Idx → EReal) :
    mat (concatenate ⟨2, ![a, k₁ + k₂]⟩ 1 [⟨⟨2, ![a, k₁]⟩, x₁⟩, ⟨⟨2, ![a, k₂]⟩, x₂⟩] h) = hcat (mat x₁) (mat x₂) :=
  funext fun n => funext fun i => pair_apply rfl h x₁ x₂ n i

/-- A gate of the GRU cell: the logistic function of the sum of the two affine maps' column thirds at `off`. -/
theorem gate_apply (off : ℕ) (hoff : off + 2048 ≤ 6144) (h : S4096x6144.Slices ![0, off] S4096x2048) (A B : FVec Ideal S4096x6144 .f32)
    (n : Fin 4096) (q : Fin 2048) :
    (Host.divf (broadcastInDim S4096x2048 ![] bcast_S_S4096x2048 (constant (F := Ideal) S_ .f32 0x3F800000#32)) (addf (broadcastInDim S4096x2048 ![] bcast_S_S4096x2048 (constant (F := Ideal) S_ .f32 0x3F800000#32)) (Host.exp (Host.negf (addf (extractStridedSlice S4096x2048 ![0, off] A h) (extractStridedSlice S4096x2048 ![0, off] B h))))) : FVec Ideal S4096x2048 .f32) (ix2 n q)
      = sigmR (A (ix2 n ⟨off + q.val, by have := q.isLt; omega⟩) + B (ix2 n ⟨off + q.val, by have := q.isLt; omega⟩)) := by
  show Ideal.div one32 (one32 + Ideal.exp (-(extractStridedSlice S4096x2048 ![0, off] A h (ix2 n q) + extractStridedSlice S4096x2048 ![0, off] B h (ix2 n q)))) = _
  rw [slice_apply off hoff, slice_apply off hoff]
  rfl

/-- The candidate state: tanh of the input's last third plus `r` times the state's last third. -/
theorem cand_apply (h : S4096x6144.Slices ![0, 4096] S4096x2048) (A B : FVec Ideal S4096x6144 .f32) (r : FVec Ideal S4096x2048 .f32)
    (n : Fin 4096) (q : Fin 2048) :
    (Host.tanh (F := Ideal) (addf (extractStridedSlice S4096x2048 ![0, 4096] A h) (mulf r (extractStridedSlice S4096x2048 ![0, 4096] B h))) : FVec Ideal S4096x2048 .f32) (ix2 n q)
      = Ideal.tanh (A (ix2 n ⟨4096 + q.val, by have := q.isLt; omega⟩) + r (ix2 n q) * B (ix2 n ⟨4096 + q.val, by have := q.isLt; omega⟩)) := by
  show Ideal.tanh (extractStridedSlice S4096x2048 ![0, 4096] A h (ix2 n q) + r (ix2 n q) * extractStridedSlice S4096x2048 ![0, 4096] B h (ix2 n q)) = _
  rw [slice_apply 4096 (by omega), slice_apply 4096 (by omega)]

/-- The new state: `(1 − z) · n + z · state`, entry by entry. -/
theorem bel_apply (z nn st : FVec Ideal S4096x2048 .f32) (i : S4096x2048.Idx) :
    (addf (mulf (subf (broadcastInDim S4096x2048 ![] bcast_S_S4096x2048 (constant (F := Ideal) S_ .f32 0x3F800000#32)) z) nn) (mulf z st) : FVec Ideal S4096x2048 .f32) i = (one32 - z i) * nn i + z i * st i := rfl

/-- The five arrays side by side, read at (n, q): the piece whose columns hold `q`, at `q` less the columns before it. -/
theorem cat5_apply (a b c d : Arr Ideal S4096x1024) (e : Arr Ideal S4096x2048) (n : Fin 4096) (q : Fin 6144) :
    cat5 a b c d e (ix2 n q) = cat5M (mat a) (mat b) (mat c) (mat d) (mat e) n q := by
  have hq := q.isLt
  unfold cat5 cat5M
  split_ifs with h1 h2 h3 h4
  · exact concatenate_apply_piece 1 _ _ (ix2 n q) 0 (by simp) S4096x1024 a rfl rfl 0 rfl (ix2 n ⟨q.val, h1⟩)
      (fun b hb => match b, hb with | ⟨0, _⟩, _ => rfl | ⟨1, _⟩, hb => absurd rfl hb) (by show 0 + q.val = q.val; omega)
  · exact concatenate_apply_piece 1 _ _ (ix2 n q) 1 (by simp) S4096x1024 b rfl rfl 1024 rfl (ix2 n ⟨q.val - 1024, by omega⟩)
      (fun b hb => match b, hb with | ⟨0, _⟩, _ => rfl | ⟨1, _⟩, hb => absurd rfl hb) (by show 1024 + (q.val - 1024) = q.val; omega)
  · exact concatenate_apply_piece 1 _ _ (ix2 n q) 2 (by simp) S4096x1024 c rfl rfl 2048 rfl (ix2 n ⟨q.val - 2048, by omega⟩)
      (fun b hb => match b, hb with | ⟨0, _⟩, _ => rfl | ⟨1, _⟩, hb => absurd rfl hb) (by show 2048 + (q.val - 2048) = q.val; omega)
  · exact concatenate_apply_piece 1 _ _ (ix2 n q) 3 (by simp) S4096x1024 d rfl rfl 3072 rfl (ix2 n ⟨q.val - 3072, by omega⟩)
      (fun b hb => match b, hb with | ⟨0, _⟩, _ => rfl | ⟨1, _⟩, hb => absurd rfl hb) (by show 3072 + (q.val - 3072) = q.val; omega)
  · exact concatenate_apply_piece 1 _ _ (ix2 n q) 4 (by simp) S4096x2048 e rfl rfl 4096 rfl (ix2 n ⟨q.val - 4096, by omega⟩)
      (fun b hb => match b, hb with | ⟨0, _⟩, _ => rfl | ⟨1, _⟩, hb => absurd rfl hb) (by show 4096 + (q.val - 4096) = q.val; omega)

/-! ## The entrywise functions against the kernels' forms -/

theorem zero32_eq : zero32 = 0 := Ideal.ofBits_zero_f32
theorem one32_eq : one32 = 1 := by
  unfold one32
  simp [Ideal.ofBits, Ideal.ieee]
  first
  | (norm_num; done)
  | (norm_cast; norm_num; done)
  | (rw [← EReal.coe_one]; norm_cast; norm_num; done)
/-- The reference's printed ELU is the kernels': where `y > 0` both are `y`; elsewhere the inner entry is `y` itself and
    `1 · (e^y − 1) = e^y − 1`. -/
theorem eluR_eq : eluR = Cert.Spec.elu := by
  funext y
  unfold eluR Cert.Spec.elu
  rw [one32_eq]
  by_cases h : zero32 < y
  · have hc : Ideal.cmp .ogt y zero32 = 1#1 := by simp [Ideal.cmp, h]
    rw [hc, select_one, select_one]
  · have hc : Ideal.cmp .ogt y zero32 = 0#1 := by simp [Ideal.cmp, h]
    rw [hc]
    simp only [select_zero]
    rw [one_mul]
/-- The reference's printed logistic function is the kernels': the word of `1` is `1`. -/
theorem sigmR_eq : sigmR = Cert.Spec.sigm := by
  funext y
  unfold sigmR Cert.Spec.sigm Ideal.logistic
  rw [one32_eq]
/-- The reference's printed softplus is the kernels': `0 − t = −t`, and on the extended reals "not equal" is the same
    comparison ordered or unordered. -/
theorem splusR_eq : splusR = Cert.Spec.splus := by
  funext y
  have h2 : ∀ M : EReal, zero32 - M = -M := fun M => by rw [zero32_eq, sub_eq_add_neg, zero_add]
  unfold splusR Cert.Spec.splus
  rw [h2]
  rfl

/-! ## The stages, read as matrices -/

set_option maxHeartbeats 1000000 in
theorem mat_v4 (V : Valuation τ sig (Elt Ideal)) : (mat (res_main_v4 V : S4096x2048.Idx → EReal)) = aff (hcat (mat (V (Proc.devRef .tc main_arg0) : S4096x1024.Idx → EReal)) (mat (V (Proc.devRef .tc main_arg1) : S4096x512.Idx → EReal))) (mat (V (Proc.devRef .tc main_arg4) : S1536x2048.Idx → EReal)) (row (V (Proc.devRef .tc main_arg5) : S2048.Idx → EReal)) := by
  rw [← hcat_mat concatenates_S4096x1024_S4096x512_S4096x1536_d1 (V (Proc.devRef .tc main_arg0)) (V (Proc.devRef .tc main_arg1))]
  funext n q
  show Host.dotGeneral (F := Ideal) (φ₁ := .f32) (φ₂ := .f32) dot_S4096x1536_S1536x2048_S4096x2048_1_0_0_1_n_n none (concatenate S4096x1536 1 [⟨S4096x1024, (V (Proc.devRef .tc main_arg0) : FVec Ideal S4096x1024 .f32)⟩, ⟨S4096x512, (V (Proc.devRef .tc main_arg1) : FVec Ideal S4096x512 .f32)⟩] concatenates_S4096x1024_S4096x512_S4096x1536_d1) (V (Proc.devRef .tc main_arg4) : FVec Ideal S1536x2048 .f32) (ix2 n q) + broadcastInDim S4096x2048 ![0, 1] bcast_S1x2048_S4096x2048_0_1 (broadcastInDim S1x2048 ![1] bcast_S2048_S1x2048_1 (V (Proc.devRef .tc main_arg5) : FVec Ideal S2048 .f32)) (ix2 n q) = _
  rw [D1_apply, bias_apply]
  rfl
theorem mat_v5 (V : Valuation τ sig (Elt Ideal)) : (mat (res_main_v5 V : S4096x2048.Idx → EReal)) = map eluR (mat (res_main_v4 V : S4096x2048.Idx → EReal)) :=
  funext fun n => funext fun q => elu_apply (res_main_v4 V) (ix2 n q)
theorem mat_v9 (V : Valuation τ sig (Elt Ideal)) : (mat (res_main_v9 V : S4096x2048.Idx → EReal)) = aff (mat (res_main_v5 V : S4096x2048.Idx → EReal)) (mat (V (Proc.devRef .tc main_arg6) : S2048x2048.Idx → EReal)) (row (V (Proc.devRef .tc main_arg7) : S2048.Idx → EReal)) := by
  funext n q
  show Host.dotGeneral (F := Ideal) (φ₁ := .f32) (φ₂ := .f32) dot_S4096x2048_S2048x2048_S4096x2048_1_0_0_1_n_n none (res_main_v5 V) (V (Proc.devRef .tc main_arg6) : FVec Ideal S2048x2048 .f32) (ix2 n q) + broadcastInDim S4096x2048 ![0, 1] bcast_S1x2048_S4096x2048_0_1 (broadcastInDim S1x2048 ![1] bcast_S2048_S1x2048_1 (V (Proc.devRef .tc main_arg7) : FVec Ideal S2048 .f32)) (ix2 n q) = _
  rw [D2_apply, bias_apply]
  rfl
theorem mat_v10 (V : Valuation τ sig (Elt Ideal)) : (mat (res_main_v10 V : S4096x2048.Idx → EReal)) = map eluR (mat (res_main_v9 V : S4096x2048.Idx → EReal)) :=
  funext fun n => funext fun q => elu_apply (res_main_v9 V) (ix2 n q)
theorem mat_v14 (V : Valuation τ sig (Elt Ideal)) : (mat (res_main_v14 V : S4096x6144.Idx → EReal)) = aff (mat (res_main_v10 V : S4096x2048.Idx → EReal)) (mat (V (Proc.devRef .tc main_arg8) : S2048x6144.Idx → EReal)) (row (V (Proc.devRef .tc main_arg10) : S6144.Idx → EReal)) := by
  funext n q
  show Host.dotGeneral (F := Ideal) (φ₁ := .f32) (φ₂ := .f32) dot_S4096x2048_S2048x6144_S4096x6144_1_0_0_1_n_n none (res_main_v10 V) (V (Proc.devRef .tc main_arg8) : FVec Ideal S2048x6144 .f32) (ix2 n q) + broadcastInDim S4096x6144 ![0, 1] bcast_S1x6144_S4096x6144_0_1 (broadcastInDim S1x6144 ![1] bcast_S6144_S1x6144_1 (V (Proc.devRef .tc main_arg10) : FVec Ideal S6144 .f32)) (ix2 n q) = _
  rw [D3_apply, bias_apply]
  rfl
theorem mat_v18 (V : Valuation τ sig (Elt Ideal)) : (mat (res_main_v18 V : S4096x6144.Idx → EReal)) = aff (mat (V (Proc.devRef .tc main_arg2) : S4096x2048.Idx → EReal)) (mat (V (Proc.devRef .tc main_arg9) : S2048x6144.Idx → EReal)) (row (V (Proc.devRef .tc main_arg11) : S6144.Idx → EReal)) := by
  funext n q
  show Host.dotGeneral (F := Ideal) (φ₁ := .f32) (φ₂ := .f32) dot_S4096x2048_S2048x6144_S4096x6144_1_0_0_1_n_n none (V (Proc.devRef .tc main_arg2) : FVec Ideal S4096x2048 .f32) (V (Proc.devRef .tc main_arg9) : FVec Ideal S2048x6144 .f32) (ix2 n q) + broadcastInDim S4096x6144 ![0, 1] bcast_S1x6144_S4096x6144_0_1 (broadcastInDim S1x6144 ![1] bcast_S6144_S1x6144_1 (V (Proc.devRef .tc main_arg11) : FVec Ideal S6144 .f32)) (ix2 n q) = _
  rw [D3_apply, bias_apply]
  rfl
/-- The gate r. -/
theorem v31_apply (V : Valuation τ sig (Elt Ideal)) (n : Fin 4096) (q : Fin 2048) :
    res_main_v31 V (ix2 n q) = sigmR (res_main_v14 V (ix2 n ⟨0 + q.val, by have := q.isLt; omega⟩) + res_main_v18 V (ix2 n ⟨0 + q.val, by have := q.isLt; omega⟩)) :=
  gate_apply 0 (by omega) slices_S4096x6144_S4096x2048_0_0 (res_main_v14 V) (res_main_v18 V) n q
/-- The gate z. -/
theorem v38_apply (V : Valuation τ sig (Elt Ideal)) (n : Fin 4096) (q : Fin 2048) :
    res_main_v38 V (ix2 n q) = sigmR (res_main_v14 V (ix2 n ⟨2048 + q.val, by have := q.isLt; omega⟩) + res_main_v18 V (ix2 n ⟨2048 + q.val, by have := q.isLt; omega⟩)) :=
  gate_apply 2048 (by omega) slices_S4096x6144_S4096x2048_0_2048 (res_main_v14 V) (res_main_v18 V) n q
/-- The candidate n. -/
theorem v41_apply (V : Valuation τ sig (Elt Ideal)) (n : Fin 4096) (q : Fin 2048) :
    res_main_v41 V (ix2 n q) = Ideal.tanh (res_main_v14 V (ix2 n ⟨4096 + q.val, by have := q.isLt; omega⟩) + res_main_v31 V (ix2 n q) * res_main_v18 V (ix2 n ⟨4096 + q.val, by have := q.isLt; omega⟩)) :=
  cand_apply slices_S4096x6144_S4096x2048_0_4096 (res_main_v14 V) (res_main_v18 V) (res_main_v31 V) n q
/-- The belief is the GRU cell of the second layer and the state. -/
theorem mat_v46 (V : Valuation τ sig (Elt Ideal)) : (mat (res_main_v46 V : S4096x2048.Idx → EReal)) = gru (mat (res_main_v10 V : S4096x2048.Idx → EReal)) (mat (V (Proc.devRef .tc main_arg2) : S4096x2048.Idx → EReal)) (mat (V (Proc.devRef .tc main_arg8) : S2048x6144.Idx → EReal)) (mat (V (Proc.devRef .tc main_arg9) : S2048x6144.Idx → EReal)) (row (V (Proc.devRef .tc main_arg10) : S6144.Idx → EReal)) (row (V (Proc.devRef .tc main_arg11) : S6144.Idx → EReal)) := by
  funext n q
  have e := bel_apply (res_main_v38 V) (res_main_v41 V) (V (Proc.devRef .tc main_arg2)) (ix2 n q)
  unfold gru
  rw [← mat_v14 V, ← mat_v18 V]
  show res_main_v46 V (ix2 n q) = _
  refine e.trans ?_
  rw [v41_apply, v31_apply, v38_apply]
  rfl
theorem mat_v50 (V : Valuation τ sig (Elt Ideal)) : (mat (res_main_v50 V : S4096x2048.Idx → EReal)) = aff (mat (res_main_v46 V : S4096x2048.Idx → EReal)) (mat (V (Proc.devRef .tc main_arg12) : S2048x2048.Idx → EReal)) (row (V (Proc.devRef .tc main_arg13) : S2048.Idx → EReal)) := by
  funext n q
  show Host.dotGeneral (F := Ideal) (φ₁ := .f32) (φ₂ := .f32) dot_S4096x2048_S2048x2048_S4096x2048_1_0_0_1_n_n none (res_main_v46 V) (V (Proc.devRef .tc main_arg12) : FVec Ideal S2048x2048 .f32) (ix2 n q) + broadcastInDim S4096x2048 ![0, 1] bcast_S1x2048_S4096x2048_0_1 (broadcastInDim S1x2048 ![1] bcast_S2048_S1x2048_1 (V (Proc.devRef .tc main_arg13) : FVec Ideal S2048 .f32)) (ix2 n q) = _
  rw [D2_apply, bias_apply]
  rfl
theorem mat_v51 (V : Valuation τ sig (Elt Ideal)) : (mat (res_main_v51 V : S4096x2048.Idx → EReal)) = map eluR (mat (res_main_v50 V : S4096x2048.Idx → EReal)) :=
  funext fun n => funext fun q => elu_apply (res_main_v50 V) (ix2 n q)
theorem mat_v55 (V : Valuation τ sig (Elt Ideal)) : (mat (res_main_v55 V : S4096x2048.Idx → EReal)) = aff (mat (res_main_v51 V : S4096x2048.Idx → EReal)) (mat (V (Proc.devRef .tc main_arg14) : S2048x2048.Idx → EReal)) (row (V (Proc.devRef .tc main_arg15) : S2048.Idx → EReal)) := by
  funext n q
  show Host.dotGeneral (F := Ideal) (φ₁ := .f32) (φ₂ := .f32) dot_S4096x2048_S2048x2048_S4096x2048_1_0_0_1_n_n none (res_main_v51 V) (V (Proc.devRef .tc main_arg14) : FVec Ideal S2048x2048 .f32) (ix2 n q) + broadcastInDim S4096x2048 ![0, 1] bcast_S1x2048_S4096x2048_0_1 (broadcastInDim S1x2048 ![1] bcast_S2048_S1x2048_1 (V (Proc.devRef .tc main_arg15) : FVec Ideal S2048 .f32)) (ix2 n q) = _
  rw [D2_apply, bias_apply]
  rfl
theorem mat_v56 (V : Valuation τ sig (Elt Ideal)) : (mat (res_main_v56 V : S4096x2048.Idx → EReal)) = map eluR (mat (res_main_v55 V : S4096x2048.Idx → EReal)) :=
  funext fun n => funext fun q => elu_apply (res_main_v55 V) (ix2 n q)
theorem mat_v60 (V : Valuation τ sig (Elt Ideal)) : (mat (res_main_v60 V : S4096x1024.Idx → EReal)) = aff (mat (res_main_v56 V : S4096x2048.Idx → EReal)) (mat (V (Proc.devRef .tc main_arg16) : S2048x1024.Idx → EReal)) (row (V (Proc.devRef .tc main_arg17) : S1024.Idx → EReal)) := by
  funext n q
  show Host.dotGeneral (F := Ideal) (φ₁ := .f32) (φ₂ := .f32) dot_S4096x2048_S2048x1024_S4096x1024_1_0_0_1_n_n none (res_main_v56 V) (V (Proc.devRef .tc main_arg16) : FVec Ideal S2048x1024 .f32) (ix2 n q) + broadcastInDim S4096x1024 ![0, 1] bcast_S1x1024_S4096x1024_0_1 (broadcastInDim S1x1024 ![1] bcast_S1024_S1x1024_1 (V (Proc.devRef .tc main_arg17) : FVec Ideal S1024 .f32)) (ix2 n q) = _
  rw [D4_apply, bias_apply]
  rfl
theorem mat_v64 (V : Valuation τ sig (Elt Ideal)) : (mat (res_main_v64 V : S4096x1024.Idx → EReal)) = aff (mat (res_main_v56 V : S4096x2048.Idx → EReal)) (mat (V (Proc.devRef .tc main_arg18) : S2048x1024.Idx → EReal)) (row (V (Proc.devRef .tc main_arg19) : S1024.Idx → EReal)) := by
  funext n q
  show Host.dotGeneral (F := Ideal) (φ₁ := .f32) (φ₂ := .f32) dot_S4096x2048_S2048x1024_S4096x1024_1_0_0_1_n_n none (res_main_v56 V) (V (Proc.devRef .tc main_arg18) : FVec Ideal S2048x1024 .f32) (ix2 n q) + broadcastInDim S4096x1024 ![0, 1] bcast_S1x1024_S4096x1024_0_1 (broadcastInDim S1x1024 ![1] bcast_S1024_S1x1024_1 (V (Proc.devRef .tc main_arg19) : FVec Ideal S1024 .f32)) (ix2 n q) = _
  rw [D4_apply, bias_apply]
  rfl
theorem mat_v67 (V : Valuation τ sig (Elt Ideal)) : (mat (res_main_v67 V : S4096x1024.Idx → EReal)) = map splusR (mat (res_main_v64 V : S4096x1024.Idx → EReal)) :=
  funext fun n => funext fun q => softplus_apply (res_main_v64 V) (ix2 n q)
theorem mat_v68 (V : Valuation τ sig (Elt Ideal)) : (mat (res_main_v68 V : S4096x4096.Idx → EReal)) = hcat (mat (res_main_v46 V : S4096x2048.Idx → EReal)) (mat (V (Proc.devRef .tc main_arg3) : S4096x2048.Idx → EReal)) :=
  hcat_mat concatenates_S4096x2048_S4096x2048_S4096x4096_d1 (res_main_v46 V) (V (Proc.devRef .tc main_arg3))
theorem mat_v72 (V : Valuation τ sig (Elt Ideal)) : (mat (res_main_v72 V : S4096x2048.Idx → EReal)) = aff (mat (res_main_v68 V : S4096x4096.Idx → EReal)) (mat (V (Proc.devRef .tc main_arg20) : S4096x2048.Idx → EReal)) (row (V (Proc.devRef .tc main_arg21) : S2048.Idx → EReal)) := by
  funext n q
  show Host.dotGeneral (F := Ideal) (φ₁ := .f32) (φ₂ := .f32) dot_S4096x4096_S4096x2048_S4096x2048_1_0_0_1_n_n none (res_main_v68 V) (V (Proc.devRef .tc main_arg20) : FVec Ideal S4096x2048 .f32) (ix2 n q) + broadcastInDim S4096x2048 ![0, 1] bcast_S1x2048_S4096x2048_0_1 (broadcastInDim S1x2048 ![1] bcast_S2048_S1x2048_1 (V (Proc.devRef .tc main_arg21) : FVec Ideal S2048 .f32)) (ix2 n q) = _
  rw [D5_apply, bias_apply]
  rfl
theorem mat_v73 (V : Valuation τ sig (Elt Ideal)) : (mat (res_main_v73 V : S4096x2048.Idx → EReal)) = map eluR (mat (res_main_v72 V : S4096x2048.Idx → EReal)) :=
  funext fun n => funext fun q => elu_apply (res_main_v72 V) (ix2 n q)
theorem mat_v77 (V : Valuation τ sig (Elt Ideal)) : (mat (res_main_v77 V : S4096x2048.Idx → EReal)) = aff (mat (res_main_v73 V : S4096x2048.Idx → EReal)) (mat (V (Proc.devRef .tc main_arg22) : S2048x2048.Idx → EReal)) (row (V (Proc.devRef .tc main_arg23) : S2048.Idx → EReal)) := by
  funext n q
  show Host.dotGeneral (F := Ideal) (φ₁ := .f32) (φ₂ := .f32) dot_S4096x2048_S2048x2048_S4096x2048_1_0_0_1_n_n none (res_main_v73 V) (V (Proc.devRef .tc main_arg22) : FVec Ideal S2048x2048 .f32) (ix2 n q) + broadcastInDim S4096x2048 ![0, 1] bcast_S1x2048_S4096x2048_0_1 (broadcastInDim S1x2048 ![1] bcast_S2048_S1x2048_1 (V (Proc.devRef .tc main_arg23) : FVec Ideal S2048 .f32)) (ix2 n q) = _
  rw [D2_apply, bias_apply]
  rfl
theorem mat_v78 (V : Valuation τ sig (Elt Ideal)) : (mat (res_main_v78 V : S4096x2048.Idx → EReal)) = map eluR (mat (res_main_v77 V : S4096x2048.Idx → EReal)) :=
  funext fun n => funext fun q => elu_apply (res_main_v77 V) (ix2 n q)
theorem mat_v82 (V : Valuation τ sig (Elt Ideal)) : (mat (res_main_v82 V : S4096x1024.Idx → EReal)) = aff (mat (res_main_v78 V : S4096x2048.Idx → EReal)) (mat (V (Proc.devRef .tc main_arg24) : S2048x1024.Idx → EReal)) (row (V (Proc.devRef .tc main_arg25) : S1024.Idx → EReal)) := by
  funext n q
  show Host.dotGeneral (F := Ideal) (φ₁ := .f32) (φ₂ := .f32) dot_S4096x2048_S2048x1024_S4096x1024_1_0_0_1_n_n none (res_main_v78 V) (V (Proc.devRef .tc main_arg24) : FVec Ideal S2048x1024 .f32) (ix2 n q) + broadcastInDim S4096x1024 ![0, 1] bcast_S1x1024_S4096x1024_0_1 (broadcastInDim S1x1024 ![1] bcast_S1024_S1x1024_1 (V (Proc.devRef .tc main_arg25) : FVec Ideal S1024 .f32)) (ix2 n q) = _
  rw [D4_apply, bias_apply]
  rfl
theorem mat_v86 (V : Valuation τ sig (Elt Ideal)) : (mat (res_main_v86 V : S4096x1024.Idx → EReal)) = aff (mat (res_main_v78 V : S4096x2048.Idx → EReal)) (mat (V (Proc.devRef .tc main_arg26) : S2048x1024.Idx → EReal)) (row (V (Proc.devRef .tc main_arg27) : S1024.Idx → EReal)) := by
  funext n q
  show Host.dotGeneral (F := Ideal) (φ₁ := .f32) (φ₂ := .f32) dot_S4096x2048_S2048x1024_S4096x1024_1_0_0_1_n_n none (res_main_v78 V) (V (Proc.devRef .tc main_arg26) : FVec Ideal S2048x1024 .f32) (ix2 n q) + broadcastInDim S4096x1024 ![0, 1] bcast_S1x1024_S4096x1024_0_1 (broadcastInDim S1x1024 ![1] bcast_S1024_S1x1024_1 (V (Proc.devRef .tc main_arg27) : FVec Ideal S1024 .f32)) (ix2 n q) = _
  rw [D4_apply, bias_apply]
  rfl
theorem mat_v89 (V : Valuation τ sig (Elt Ideal)) : (mat (res_main_v89 V : S4096x1024.Idx → EReal)) = map splusR (mat (res_main_v86 V : S4096x1024.Idx → EReal)) :=
  funext fun n => funext fun q => softplus_apply (res_main_v86 V) (ix2 n q)

/-- The reference's result, read as a matrix, is `Gref` of its arguments. -/
theorem mat_v90 (V : Valuation τ sig (Elt Ideal)) (n : Fin 4096) (q : Fin 6144) :
    res_main_v90 V (ix2 n q) = Gref (mat (V (Proc.devRef .tc main_arg0) : S4096x1024.Idx → EReal))
      (mat (V (Proc.devRef .tc main_arg1) : S4096x512.Idx → EReal))
      (mat (V (Proc.devRef .tc main_arg2) : S4096x2048.Idx → EReal))
      (mat (V (Proc.devRef .tc main_arg3) : S4096x2048.Idx → EReal))
      (mat (V (Proc.devRef .tc main_arg4) : S1536x2048.Idx → EReal))
      (row (V (Proc.devRef .tc main_arg5) : S2048.Idx → EReal))
      (mat (V (Proc.devRef .tc main_arg6) : S2048x2048.Idx → EReal))
      (row (V (Proc.devRef .tc main_arg7) : S2048.Idx → EReal))
      (mat (V (Proc.devRef .tc main_arg8) : S2048x6144.Idx → EReal))
      (mat (V (Proc.devRef .tc main_arg9) : S2048x6144.Idx → EReal))
      (row (V (Proc.devRef .tc main_arg10) : S6144.Idx → EReal))
      (row (V (Proc.devRef .tc main_arg11) : S6144.Idx → EReal))
      (mat (V (Proc.devRef .tc main_arg12) : S2048x2048.Idx → EReal))
      (row (V (Proc.devRef .tc main_arg13) : S2048.Idx → EReal))
      (mat (V (Proc.devRef .tc main_arg14) : S2048x2048.Idx → EReal))
      (row (V (Proc.devRef .tc main_arg15) : S2048.Idx → EReal))
      (mat (V (Proc.devRef .tc main_arg16) : S2048x1024.Idx → EReal))
      (row (V (Proc.devRef .tc main_arg17) : S1024.Idx → EReal))
      (mat (V (Proc.devRef .tc main_arg18) : S2048x1024.Idx → EReal))
      (row (V (Proc.devRef .tc main_arg19) : S1024.Idx → EReal))
      (mat (V (Proc.devRef .tc main_arg20) : S4096x2048.Idx → EReal))
      (row (V (Proc.devRef .tc main_arg21) : S2048.Idx → EReal))
      (mat (V (Proc.devRef .tc main_arg22) : S2048x2048.Idx → EReal))
      (row (V (Proc.devRef .tc main_arg23) : S2048.Idx → EReal))
      (mat (V (Proc.devRef .tc main_arg24) : S2048x1024.Idx → EReal))
      (row (V (Proc.devRef .tc main_arg25) : S1024.Idx → EReal))
      (mat (V (Proc.devRef .tc main_arg26) : S2048x1024.Idx → EReal))
      (row (V (Proc.devRef .tc main_arg27) : S1024.Idx → EReal)) n q := by
  show cat5 (res_main_v60 V) (res_main_v67 V) (res_main_v82 V) (res_main_v89 V) (res_main_v46 V) (ix2 n q) = _
  rw [cat5_apply]
  have hA : (mat (res_main_v10 V : S4096x2048.Idx → EReal)) = mlp2 (hcat (mat (V (Proc.devRef .tc main_arg0) : S4096x1024.Idx → EReal)) (mat (V (Proc.devRef .tc main_arg1) : S4096x512.Idx → EReal))) (mat (V (Proc.devRef .tc main_arg4) : S1536x2048.Idx → EReal)) (row (V (Proc.devRef .tc main_arg5) : S2048.Idx → EReal)) (mat (V (Proc.devRef .tc main_arg6) : S2048x2048.Idx → EReal)) (row (V (Proc.devRef .tc main_arg7) : S2048.Idx → EReal)) := by
    rw [mat_v10, mat_v9, mat_v5, mat_v4]; rfl
  have hP : (mat (res_main_v56 V : S4096x2048.Idx → EReal)) = mlp2 (mat (res_main_v46 V : S4096x2048.Idx → EReal)) (mat (V (Proc.devRef .tc main_arg12) : S2048x2048.Idx → EReal)) (row (V (Proc.devRef .tc main_arg13) : S2048.Idx → EReal)) (mat (V (Proc.devRef .tc main_arg14) : S2048x2048.Idx → EReal)) (row (V (Proc.devRef .tc main_arg15) : S2048.Idx → EReal)) := by
    rw [mat_v56, mat_v55, mat_v51, mat_v50]; rfl
  have hQ : (mat (res_main_v78 V : S4096x2048.Idx → EReal)) = mlp2 (hcat (mat (res_main_v46 V : S4096x2048.Idx → EReal)) (mat (V (Proc.devRef .tc main_arg3) : S4096x2048.Idx → EReal))) (mat (V (Proc.devRef .tc main_arg20) : S4096x2048.Idx → EReal)) (row (V (Proc.devRef .tc main_arg21) : S2048.Idx → EReal)) (mat (V (Proc.devRef .tc main_arg22) : S2048x2048.Idx → EReal)) (row (V (Proc.devRef .tc main_arg23) : S2048.Idx → EReal)) := by
    rw [mat_v78, mat_v77, mat_v73, mat_v72, mat_v68]; rfl
  rw [mat_v60, mat_v67, mat_v64, mat_v82, mat_v89, mat_v86, hP, hQ, mat_v46, hA]
  rfl

/-- The run's result array at row `n`, column `q` is `Gref` of the argument arrays there. -/
theorem res_eq (m : (ℓ : Loc nD τ sig) → Buf (Elt Ideal) ℓ) (c : Dev nD) (n : Fin 4096) (q : Fin 6144) :
    res m c (ValueIdx.ix2 n q) = Gref (mat (m ((c.tc : Thread nD τ).loc main_arg0) : S4096x1024.Idx → EReal))
      (mat (m ((c.tc : Thread nD τ).loc main_arg1) : S4096x512.Idx → EReal))
      (mat (m ((c.tc : Thread nD τ).loc main_arg2) : S4096x2048.Idx → EReal))
      (mat (m ((c.tc : Thread nD τ).loc main_arg3) : S4096x2048.Idx → EReal))
      (mat (m ((c.tc : Thread nD τ).loc main_arg4) : S1536x2048.Idx → EReal))
      (row (m ((c.tc : Thread nD τ).loc main_arg5) : S2048.Idx → EReal))
      (mat (m ((c.tc : Thread nD τ).loc main_arg6) : S2048x2048.Idx → EReal))
      (row (m ((c.tc : Thread nD τ).loc main_arg7) : S2048.Idx → EReal))
      (mat (m ((c.tc : Thread nD τ).loc main_arg8) : S2048x6144.Idx → EReal))
      (mat (m ((c.tc : Thread nD τ).loc main_arg9) : S2048x6144.Idx → EReal))
      (row (m ((c.tc : Thread nD τ).loc main_arg10) : S6144.Idx → EReal))
      (row (m ((c.tc : Thread nD τ).loc main_arg11) : S6144.Idx → EReal))
      (mat (m ((c.tc : Thread nD τ).loc main_arg12) : S2048x2048.Idx → EReal))
      (row (m ((c.tc : Thread nD τ).loc main_arg13) : S2048.Idx → EReal))
      (mat (m ((c.tc : Thread nD τ).loc main_arg14) : S2048x2048.Idx → EReal))
      (row (m ((c.tc : Thread nD τ).loc main_arg15) : S2048.Idx → EReal))
      (mat (m ((c.tc : Thread nD τ).loc main_arg16) : S2048x1024.Idx → EReal))
      (row (m ((c.tc : Thread nD τ).loc main_arg17) : S1024.Idx → EReal))
      (mat (m ((c.tc : Thread nD τ).loc main_arg18) : S2048x1024.Idx → EReal))
      (row (m ((c.tc : Thread nD τ).loc main_arg19) : S1024.Idx → EReal))
      (mat (m ((c.tc : Thread nD τ).loc main_arg20) : S4096x2048.Idx → EReal))
      (row (m ((c.tc : Thread nD τ).loc main_arg21) : S2048.Idx → EReal))
      (mat (m ((c.tc : Thread nD τ).loc main_arg22) : S2048x2048.Idx → EReal))
      (row (m ((c.tc : Thread nD τ).loc main_arg23) : S2048.Idx → EReal))
      (mat (m ((c.tc : Thread nD τ).loc main_arg24) : S2048x1024.Idx → EReal))
      (row (m ((c.tc : Thread nD τ).loc main_arg25) : S1024.Idx → EReal))
      (mat (m ((c.tc : Thread nD τ).loc main_arg26) : S2048x1024.Idx → EReal))
      (row (m ((c.tc : Thread nD τ).loc main_arg27) : S1024.Idx → EReal)) n q := by
  rw [res_term]
  exact mat_v90 (launchContents m c) n q

end Cert.ReferenceIdeal.Hand

end
-- ==== Proof.Algebraic.lean ====
/-
  The value claim. Over the extended reals the kernel program's result array is, entry by entry, one function of the
  launch arrays (the seven regions composed through the run's fold), and so is the reference's (its host operations
  composed). The two functions are the same network written two ways. The reference contracts the concatenation
  [prev_sample, prev_action] (and [belief, obs]) against a whole weight, the kernels contract the two pieces against
  the weight's upper and lower rows and add: a sum over k₁ + k₂ terms split in two. The reference computes all 6144
  gate columns and slices thirds, the kernels compute each third from the weights' column slices: a column slice of
  an affine map is the affine map of the slices. ELU is written `1·(e^t − 1)` with a guarded `t` on one side and
  `e^y − 1` on the other, the logistic function as a quotient on one side, softplus's inner negation as `−t` and as
  `0 − t`: equal functions of an extended real. No finiteness of the inputs is used.
-/
import proofs.«109395_j20375324852595_2_alg».proof.Defs
import proofs.«109395_j20375324852595_2_alg».proof.Proof.RunI
import proofs.«109395_j20375324852595_2_alg».proof.Proof.ValRun
import proofs.«109395_j20375324852595_2_alg».proof.Proof.RefRun
import proofs.«109395_j20375324852595_2_alg».proof.Proof.RefRead
import proofs.«109395_j20375324852595_2_alg».proof.Proof.Spec

noncomputable section

namespace Cert.Proof.Alg

open Cert.Spec Cert.KernelIdeal.Val Cert.ReferenceIdeal.Hand
open Idealize.ShloMosaic Idealize.SL.Sem

/-! ## The reference's function is the kernels' -/

/-- The first two layers: contracting the concatenation whole is contracting it in two pieces. -/
theorem mlp2_first (ps : Mat 4096 1024) (pa : Mat 4096 512) (t0W : Mat 1536 2048) (t0b : Row 2048) (t1W : Mat 2048 2048) (t1b : Row 2048) :
    mlp2 (hcat ps pa) t0W t0b t1W t1b = G0_6 ps pa t0W t0b t1W t1b := by
  unfold mlp2 G0_6; rw [eluR_eq, aff_hcat]

/-- The recurrent cell: each gate's third of the 6144 columns is the affine map of the weights' column slices. -/
theorem gru_eq (h1 st : Mat 4096 2048) (Wih Whh : Mat 2048 6144) (bih bhh : Row 6144) :
    gru h1 st Wih Whh bih bhh =
      G3_8 h1 st (G1_6 h1 st (cols (2048 * 0) 2048 (by decide) Wih) (cols (2048 * 0) 2048 (by decide) Whh) (colsR (2048 * 0) 2048 (by decide) bih) (colsR (2048 * 0) 2048 (by decide) bhh))
        (G2_6 h1 st (cols (2048 * 1) 2048 (by decide) Wih) (cols (2048 * 1) 2048 (by decide) Whh) (colsR (2048 * 1) 2048 (by decide) bih) (colsR (2048 * 1) 2048 (by decide) bhh))
        (cols (2048 * 2) 2048 (by decide) Wih) (cols (2048 * 2) 2048 (by decide) Whh) (colsR (2048 * 2) 2048 (by decide) bih) (colsR (2048 * 2) 2048 (by decide) bhh) := by
  funext n q
  unfold gru G3_8 G1_6 G2_6
  simp only [sigmR_eq]
  rfl

/-- The two layers after the cell. -/
theorem mlp2_prior (bel : Mat 4096 2048) (p0W : Mat 2048 2048) (p0b : Row 2048) (p1W : Mat 2048 2048) (p1b : Row 2048) :
    mlp2 bel p0W p0b p1W p1b = hid4 bel p0W p0b p1W p1b := by
  unfold mlp2 hid4; rw [eluR_eq]

/-- The posterior's two layers, the first again a concatenation contracted in two pieces. -/
theorem mlp2_post (bel ob : Mat 4096 2048) (q0W : Mat 4096 2048) (q0b : Row 2048) (q1W : Mat 2048 2048) (q1b : Row 2048) :
    mlp2 (hcat bel ob) q0W q0b q1W q1b = map elu (aff (G5_4 bel ob q0W q0b) q1W q1b) := by
  unfold mlp2 G5_4; rw [eluR_eq, aff_hcat]

theorem Gref_eq_Gker (ps : Mat 4096 1024) (pa : Mat 4096 512) (st ob : Mat 4096 2048) (t0W : Mat 1536 2048) (t0b : Row 2048) (t1W : Mat 2048 2048) (t1b : Row 2048) (Wih Whh : Mat 2048 6144) (bih bhh : Row 6144) (p0W : Mat 2048 2048) (p0b : Row 2048) (p1W : Mat 2048 2048) (p1b : Row 2048) (pmW : Mat 2048 1024) (pmb : Row 1024) (psW : Mat 2048 1024) (psb : Row 1024) (q0W : Mat 4096 2048) (q0b : Row 2048) (q1W : Mat 2048 2048) (q1b : Row 2048) (qmW : Mat 2048 1024) (qmb : Row 1024) (qsW : Mat 2048 1024) (qsb : Row 1024) :
    Gref ps pa st ob t0W t0b t1W t1b Wih Whh bih bhh p0W p0b p1W p1b pmW pmb psW psb q0W q0b q1W q1b qmW qmb qsW qsb
      = Gker ps pa st ob t0W t0b t1W t1b Wih Whh bih bhh p0W p0b p1W p1b pmW pmb psW psb q0W q0b q1W q1b qmW qmb qsW qsb := by
  unfold Gref Gker
  dsimp only
  rw [mlp2_first, gru_eq, mlp2_prior, mlp2_post, splusR_eq]
  rfl

/-! ## The claim -/

/-- From memories that agree on the twenty-eight arguments the two result arrays are equal, entry by entry: each is its
    program's function of the arguments, and the two functions are one. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (e19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (e20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (e21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (e22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (e23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (e24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (e25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (e26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (e27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) :
    res m' c = Cert.KernelIdeal.Fr.B15 (F := Ideal) m c (Proc.devRef .tc Cert.KernelIdeal.main_v35) := by
  funext i
  rw [ValueIdx.eq_ix2 i]
  refine (res_eq m' c _ _).trans ?_
  refine Eq.trans ?_ (ker_result m c _ _).symm
  rw [Gref_eq_Gker]
  simp only [e0, e1, e2, e3, e4, e5, e6, e7, e8, e9, e10, e11, e12, e13, e14, e15, e16, e17, e18, e19, e20, e21, e22, e23, e24, e25, e26, e27]

theorem algebraic : Cert.algebraic_KernelIdeal_ReferenceIdeal := by
  intro m ρ m' ρ' _ hagree
  refine ⟨fun c => Cert.KernelIdeal.Fr.B15 (F := Ideal) m c (Proc.devRef .tc Cert.KernelIdeal.main_v35), Cert.KernelIdeal.Fr.run_result m ρ, ?_⟩
  refine (θ_run Cert.ReferenceIdeal.defs _ _).mono (fun _ h c => ⟨(h c).1.trans ?_, (h c).2⟩)
    (Cert.ReferenceIdeal.Hand.run m' ρ')
  obtain ⟨e0, e1, e2, e3, e4, e5, e6, e7, e8, e9, e10, e11, e12, e13, e14, e15, e16, e17, e18, e19, e20, e21, e22, e23, e24, e25, e26, e27⟩ := hagree c
  exact result_eq m m' c e0 e1 e2 e3 e4 e5 e6 e7 e8 e9 e10 e11 e12 e13 e14 e15 e16 e17 e18 e19 e20 e21 e22 e23 e24 e25 e26 e27

end Cert.Proof.Alg

end
-- ==== Proof.lean ====
/-
  The certificate's five claims, assembled. The kernel program is seven kernel regions among stretches of host
  operations; at either float instance it runs to the end, faults nowhere and leaves its argument arrays as launched,
  because each region only overwrites its own output arrays and the host stretches only write fresh intermediates
  (the run of the whole program, with every buffer's contents named at each item boundary). The reference is a
  straight line of host operations, whose run is the operations' own rules applied in order. No operation of the
  kernel was rewritten by the idealization, so the idealized kernel is the kernel's own text read over the extended
  reals. The value claim: over the extended reals both programs compute, row by row, the same network — two
  affine-plus-ELU layers on the concatenated inputs, a gated recurrent cell, and two pairs of mean and softplus heads.
-/
import proofs.«109395_j20375324852595_2_alg».proof.Defs
import proofs.«109395_j20375324852595_2_alg».proof.Proof.Gen.Kernel
import proofs.«109395_j20375324852595_2_alg».proof.Proof.Gen.KernelIdeal
import proofs.«109395_j20375324852595_2_alg».proof.Proof.Gen.ReferenceIdeal
import proofs.«109395_j20375324852595_2_alg».proof.Proof.Gen.Pre_finite_inputs
import proofs.«109395_j20375324852595_2_alg».proof.Proof.RunB
import proofs.«109395_j20375324852595_2_alg».proof.Proof.RunI
import proofs.«109395_j20375324852595_2_alg».proof.Proof.RefRun
import proofs.«109395_j20375324852595_2_alg».proof.Proof.Algebraic

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := Cert.ReferenceIdeal.Hand.frame_ri

/-- The idealization rewrote no operation. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, Cert.Proof.Alg.algebraic⟩

end Cert.Proof

end
